-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v86)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v86) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v175) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x3200000 : Shape := ⟨2, ![2, 3200000]⟩
abbrev S32x128 : Shape := ⟨2, ![32, 128]⟩
abbrev S32 : Shape := ⟨1, ![32]⟩
abbrev S32x32 : Shape := ⟨2, ![32, 32]⟩
abbrev S64x128 : Shape := ⟨2, ![64, 128]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S32x128 : S_.BroadcastsInDim S32x128 (![] : Fin 0 → Fin S32x128.rank)
  reducesTo_S32x128_S_d0_1 : S32x128.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn_part3 {F : FTy → Type} [FloatOps F] (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  main_v53

def fn_part2 {F : FTy → Type} [FloatOps F] (main_arg8 : FVec F S32x32 .f32) (main_arg9 : FVec F S32 .f32) (main_arg10 : FVec F S64x128 .f32) (main_arg11 : FVec F S64 .f32) (main_v33 : IVec S_ 1) : IVec S_ 1 :=
  let main_v34 : FVec F S32x32 .f32 := Host.absf main_arg8
  let main_cst_12 : FVec F S_ .f32 := constant S_ .f32 0x7F800000#32
  let main_v35 : FVec F S32x32 .f32 := broadcastInDim S32x32 ![] bcast_S_S32x32 main_cst_12
  let main_v36 : IVec S32x32 1 := cmpf .olt main_v34 main_v35
  let main_c_13 : IVec S_ 1 := constantI S_ 1 1#1
  let main_v37 : IVec S_ 1 := (fun x v => Host.reduce IntOp.andi x v reducesTo_S32x32_S_d0_1 h_S_) main_v36 main_c_13
  let main_v38 : IVec S_ 1 := andi main_v33 main_v37
  let main_v39 : FVec F S32 .f32 := Host.absf main_arg9
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  let main_v44 : FVec F S64x128 .f32 := Host.absf main_arg10
  let main_cst_16 : FVec F S_ .f32 := constant S_ .f32 0x7F800000#32
  let main_v45 : FVec F S64x128 .f32 := broadcastInDim S64x128 ![] bcast_S_S64x128 main_cst_16
  let main_v46 : IVec S64x128 1 := cmpf .olt main_v44 main_v45
  let main_c_17 : IVec S_ 1 := constantI S_ 1 1#1
  let main_v47 : IVec S_ 1 := (fun x v => Host.reduce IntOp.andi x v reducesTo_S64x128_S_d0_1 h_S_) main_v46 main_c_17
  let main_v48 : IVec S_ 1 := andi main_v43 main_v47
  let main_v49 : FVec F S64 .f32 := Host.absf main_arg11
  let main_cst_18 : FVec F S_ .f32 := constant S_ .f32 0x7F800000#32
  let main_v50 : FVec F S64 .f32 := broadcastInDim S64 ![] bcast_S_S64 main_cst_18
  fn_part3 (F := F) main_v48 main_v49 main_v50

def fn_part1 {F : FTy → Type} [FloatOps F] (main_arg5 : FVec F S32 .f32) (main_arg6 : FVec F S32x32 .f32) (main_arg7 : FVec F S32 .f32) (main_arg8 : FVec F S32x32 .f32) (main_arg9 : FVec F S32 .f32) (main_arg10 : FVec F S64x128 .f32) (main_arg11 : FVec F S64 .f32) (main_v13 : IVec S_ 1) (main_v16 : IVec S32x32 1) : IVec S_ 1 :=
  let main_c_5 : IVec S_ 1 := constantI S_ 1 1#1
  let main_v17 : IVec S_ 1 := (fun x v => Host.reduce IntOp.andi x v reducesTo_S32x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x32 .f32 := Host.absf main_arg6
  let main_cst_8 : FVec F S_ .f32 := constant S_ .f32 0x7F800000#32
  let main_v25 : FVec F S32x32 .f32 := broadcastInDim S32x32 ![] bcast_S_S32x32 main_cst_8
  let main_v26 : IVec S32x32 1 := cmpf .olt main_v24 main_v25
  let main_c_9 : IVec S_ 1 := constantI S_ 1 1#1
  let main_v27 : IVec S_ 1 := (fun x v => Host.reduce IntOp.andi x v reducesTo_S32x32_S_d0_1 h_S_) main_v26 main_c_9
  let main_v28 : IVec S_ 1 := andi main_v23 main_v27
  let main_v29 : FVec F S32 .f32 := Host.absf main_arg7
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S100000x128 .f32) (main_arg1 : IVec S2x3200000 32) (main_arg2 : FVec F S32x128 .f32) (main_arg3 : FVec F S32 .f32) (main_arg4 : FVec F S32x32 .f32) (main_arg5 : FVec F S32 .f32) (main_arg6 : FVec F S32x32 .f32) (main_arg7 : FVec F S32 .f32) (main_arg8 : FVec F S32x32 .f32) (main_arg9 : FVec F S32 .f32) (main_arg10 : FVec F S64x128 .f32) (main_arg11 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S32x128 .f32 := Host.absf main_arg2
  let main_cst_0 : FVec F S_ .f32 := constant S_ .f32 0x7F800000#32
  let main_v5 : FVec F S32x128 .f32 := broadcastInDim S32x128 ![] bcast_S_S32x128 main_cst_0
  let main_v6 : IVec S32x128 1 := cmpf .olt main_v4 main_v5
  let main_c_1 : IVec S_ 1 := constantI S_ 1 1#1
  let main_v7 : IVec S_ 1 := (fun x v => Host.reduce IntOp.andi x v reducesTo_S32x128_S_d0_1 h_S_) main_v6 main_c_1
  let main_v8 : IVec S_ 1 := andi main_v3 main_v7
  let main_v9 : FVec F S32 .f32 := Host.absf main_arg3
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x32 .f32 := Host.absf main_arg4
  let main_cst_4 : FVec F S_ .f32 := constant S_ .f32 0x7F800000#32
  let main_v15 : FVec F S32x32 .f32 := broadcastInDim S32x32 ![] bcast_S_S32x32 main_cst_4
  let main_v16 : IVec S32x32 1 := cmpf .olt main_v14 main_v15
  fn_part1 (F := F) main_arg5 main_arg6 main_arg7 main_arg8 main_arg9 main_arg10 main_arg11 main_v13 main_v16
-- ==== Kernel.lean ====
abbrev S100000x128 : Shape := ⟨2, ![100000, 128]⟩
abbrev S2x3200000 : Shape := ⟨2, ![2, 3200000]⟩
abbrev S32x128 : Shape := ⟨2, ![32, 128]⟩
abbrev S32 : Shape := ⟨1, ![32]⟩
abbrev S32x32 : Shape := ⟨2, ![32, 32]⟩
abbrev S64x128 : Shape := ⟨2, ![64, 128]⟩
abbrev S64 : Shape := ⟨1, ![64]⟩
abbrev S1x3200000 : Shape := ⟨2, ![1, 3200000]⟩
abbrev S3200000 : Shape := ⟨1, ![3200000]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S128x32 : Shape := ⟨2, ![128, 32]⟩
abbrev S128x64 : Shape := ⟨2, ![128, 64]⟩
abbrev S100000x32 : Shape := ⟨2, ![100000, 32]⟩
abbrev S5000x128 : Shape := ⟨2, ![5000, 128]⟩
abbrev S5000x32 : Shape := ⟨2, ![5000, 32]⟩
abbrev S1x32 : Shape := ⟨2, ![1, 32]⟩
abbrev S5000 : Shape := ⟨1, ![5000]⟩
abbrev S5000x1 : Shape := ⟨2, ![5000, 1]⟩
abbrev S3300000x32 : Shape := ⟨2, ![3300000, 32]⟩
abbrev S100000x64 : Shape := ⟨2, ![100000, 64]⟩
abbrev S2000x32 : Shape := ⟨2, ![2000, 32]⟩
abbrev S2000x64 : Shape := ⟨2, ![2000, 64]⟩
abbrev S2000 : Shape := ⟨1, ![2000]⟩
abbrev S2000x1 : Shape := ⟨2, ![2000, 1]⟩
abbrev S2000x128 : Shape := ⟨2, ![2000, 128]⟩
abbrev S1x64 : Shape := ⟨2, ![1, 64]⟩

abbrev nBuf : Space → Nat
  | .hbm => 119
  | .vmem => 36
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S32x128, .f32⟩
  | .hbm, ⟨3, _⟩ => ⟨S32, .f32⟩
  | .hbm, ⟨4, _⟩ => ⟨S32x32, .f32⟩
  | .hbm, ⟨5, _⟩ => ⟨S32, .f32⟩
  | .hbm, ⟨6, _⟩ => ⟨S32x32, .f32⟩
  | .hbm, ⟨7, _⟩ => ⟨S32, .f32⟩
  | .hbm, ⟨8, _⟩ => ⟨S32x32, .f32⟩
  | .hbm, ⟨9, _⟩ => ⟨S32, .f32⟩
  | .hbm, ⟨10, _⟩ => ⟨S64x128, .f32⟩
  | .hbm, ⟨11, _⟩ => ⟨S64, .f32⟩
  | .hbm, ⟨12, _⟩ => ⟨S1x3200000, .i32⟩
  | .hbm, ⟨13, _⟩ => ⟨S3200000, .i32⟩
  | .hbm, ⟨14, _⟩ => ⟨S100000, .i32⟩
  | .hbm, ⟨15, _⟩ => ⟨S3300000, .i32⟩
  | .hbm, ⟨16, _⟩ => ⟨S1x3200000, .i32⟩
  | .hbm, ⟨17, _⟩ => ⟨S3200000, .i32⟩
  | .hbm, ⟨18, _⟩ => ⟨S100000, .i32⟩
  | .hbm, ⟨19, _⟩ => ⟨S3300000, .i32⟩
  | .hbm, ⟨20, _⟩ => ⟨S_, .f32⟩
  | .hbm, ⟨21, _⟩ => ⟨S3300000, .f32⟩
  | .hbm, ⟨22, _⟩ => ⟨S_, .f32⟩
  | .hbm, ⟨23, _⟩ => ⟨S100000, .f32⟩
  | .hbm, ⟨24, _⟩ => ⟨S3300000x1, .i32⟩
  | .hbm, ⟨25, _⟩ => ⟨S100000, .f32⟩
  | .hbm, ⟨26, _⟩ => ⟨S_, .f32⟩
  | .hbm, ⟨27, _⟩ => ⟨S100000, .f32⟩
  | .hbm, ⟨28, _⟩ => ⟨S100000, .i1⟩
  | .hbm, ⟨29, _⟩ => ⟨S100000, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S_, .f32⟩
  | .hbm, ⟨34, _⟩ => ⟨S_, .f32⟩
  | .hbm, ⟨35, _⟩ => ⟨S100000, .f32⟩
  | .hbm, ⟨36, _⟩ => ⟨S100000, .f32⟩
  | .hbm, ⟨37, _⟩ => ⟨S_, .i32⟩
  | .hbm, ⟨38, _⟩ => ⟨S3300000, .i32⟩
  | .hbm, ⟨39, _⟩ => ⟨S3300000, .i1⟩
  | .hbm, ⟨40, _⟩ => ⟨S_, .i32⟩
  | .hbm, ⟨41, _⟩ => ⟨S3300000, .i32⟩
  | .hbm, ⟨42, _⟩ => ⟨S3300000, .i32⟩
  | .hbm, ⟨43, _⟩ => ⟨S3300000, .i32⟩
  | .hbm, ⟨44, _⟩ => ⟨S3300000x1, .i32⟩
  | .hbm, ⟨45, _⟩ => ⟨S3300000, .f32⟩
  | .hbm, ⟨46, _⟩ => ⟨S_, .i32⟩
  | .hbm, ⟨47, _⟩ => ⟨S3300000, .i32⟩
  | .hbm, ⟨48, _⟩ => ⟨S3300000, .i1⟩
  | .hbm, ⟨49, _⟩ => ⟨S_, .i32⟩
  | .hbm, ⟨50, _⟩ => ⟨S3300000, .i32⟩
  | .hbm, ⟨51, _⟩ => ⟨S3300000, .i32⟩
  | .hbm, ⟨52, _⟩ => ⟨S3300000, .i32⟩
  | .hbm, ⟨53, _⟩ => ⟨S3300000x1, .i32⟩
  | .hbm, ⟨54, _⟩ => ⟨S3300000, .f32⟩
  | .hbm, ⟨55, _⟩ => ⟨S3300000, .f32⟩
  | .hbm, ⟨56, _⟩ => ⟨S128x32, .f32⟩
  | .hbm, ⟨57, _⟩ => ⟨S128x32, .bf16⟩
  | .hbm, ⟨58, _⟩ => ⟨S32x32, .f32⟩
  | .hbm, ⟨59, _⟩ => ⟨S32x32, .bf16⟩
  | .hbm, ⟨60, _⟩ => ⟨S32x32, .f32⟩
  | .hbm, ⟨61, _⟩ => ⟨S32x32, .bf16⟩
  | .hbm, ⟨62, _⟩ => ⟨S32x32, .f32⟩
  | .hbm, ⟨63, _⟩ => ⟨S32x32, .bf16⟩
  | .hbm, ⟨64, _⟩ => ⟨S128x64, .f32⟩
  | .hbm, ⟨65, _⟩ => ⟨S128x64, .bf16⟩
  | .hbm, ⟨66, _⟩ => ⟨S100000x32, .f32⟩
  | .hbm, ⟨67, _⟩ => ⟨S_, .i32⟩
  | .hbm, ⟨68, _⟩ => ⟨S3300000, .i32⟩
  | .hbm, ⟨69, _⟩ => ⟨S3300000, .i1⟩
  | .hbm, ⟨70, _⟩ => ⟨S_, .i32⟩
  | .hbm, ⟨71, _⟩ => ⟨S3300000, .i32⟩
  | .hbm, ⟨72, _⟩ => ⟨S3300000, .i32⟩
  | .hbm, ⟨73, _⟩ => ⟨S3300000, .i32⟩
  | .hbm, ⟨74, _⟩ => ⟨S3300000x1, .i32⟩
  | .hbm, ⟨75, _⟩ => ⟨S3300000x32, .f32⟩
  | .hbm, ⟨76, _⟩ => ⟨S3300000x1, .f32⟩
  | .hbm, ⟨77, _⟩ => ⟨S3300000x32, .f32⟩
  | .hbm, ⟨78, _⟩ => ⟨S3300000x32, .f32⟩
  | .hbm, ⟨79, _⟩ => ⟨S_, .f32⟩
  | .hbm, ⟨80, _⟩ => ⟨S100000x32, .f32⟩
  | .hbm, ⟨81, _⟩ => ⟨S3300000x1, .i32⟩
  | .hbm, ⟨82, _⟩ => ⟨S100000x32, .f32⟩
  | .hbm, ⟨83, _⟩ => ⟨S100000x32, .f32⟩
  | .hbm, ⟨84, _⟩ => ⟨S_, .i32⟩
  | .hbm, ⟨85, _⟩ => ⟨S3300000, .i32⟩
  | .hbm, ⟨86, _⟩ => ⟨S3300000, .i1⟩
  | .hbm, ⟨87, _⟩ => ⟨S_, .i32⟩
  | .hbm, ⟨88, _⟩ => ⟨S3300000, .i32⟩
  | .hbm, ⟨89, _⟩ => ⟨S3300000, .i32⟩
  | .hbm, ⟨90, _⟩ => ⟨S3300000, .i32⟩
  | .hbm, ⟨91, _⟩ => ⟨S3300000x1, .i32⟩
  | .hbm, ⟨92, _⟩ => ⟨S3300000x32, .f32⟩
  | .hbm, ⟨93, _⟩ => ⟨S3300000x1, .f32⟩
  | .hbm, ⟨94, _⟩ => ⟨S3300000x32, .f32⟩
  | .hbm, ⟨95, _⟩ => ⟨S3300000x32, .f32⟩
  | .hbm, ⟨96, _⟩ => ⟨S_, .f32⟩
  | .hbm, ⟨97, _⟩ => ⟨S100000x32, .f32⟩
  | .hbm, ⟨98, _⟩ => ⟨S3300000x1, .i32⟩
  | .hbm, ⟨99, _⟩ => ⟨S100000x32, .f32⟩
  | .hbm, ⟨100, _⟩ => ⟨S100000x32, .f32⟩
  | .hbm, ⟨101, _⟩ => ⟨S_, .i32⟩
  | .hbm, ⟨102, _⟩ => ⟨S3300000, .i32⟩
  | .hbm, ⟨103, _⟩ => ⟨S3300000, .i1⟩
  | .hbm, ⟨104, _⟩ => ⟨S_, .i32⟩
  | .hbm, ⟨105, _⟩ => ⟨S3300000, .i32⟩
  | .hbm, ⟨106, _⟩ => ⟨S3300000, .i32⟩
  | .hbm, ⟨107, _⟩ => ⟨S3300000, .i32⟩
  | .hbm, ⟨108, _⟩ => ⟨S3300000x1, .i32⟩
  | .hbm, ⟨109, _⟩ => ⟨S3300000x32, .f32⟩
  | .hbm, ⟨110, _⟩ => ⟨S3300000x1, .f32⟩
  | .hbm, ⟨111, _⟩ => ⟨S3300000x32, .f32⟩
  | .hbm, ⟨112, _⟩ => ⟨S3300000x32, .f32⟩
  | .hbm, ⟨113, _⟩ => ⟨S_, .f32⟩
  | .hbm, ⟨114, _⟩ => ⟨S100000x32, .f32⟩
  | .hbm, ⟨115, _⟩ => ⟨S3300000x1, .i32⟩
  | .hbm, ⟨116, _⟩ => ⟨S100000x32, .f32⟩
  | .hbm, ⟨117, _⟩ => ⟨S100000x32, .f32⟩
  | .hbm, ⟨118, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S128x32, .bf16⟩
  | .local _ .vmem, ⟨3, _⟩ => ⟨S32, .f32⟩
  | .local _ .vmem, ⟨4, _⟩ => ⟨S5000x32, .f32⟩
  | .local _ .vmem, ⟨5, _⟩ => ⟨S5000x32, .f32⟩
  | .local _ .vmem, ⟨6, _⟩ => ⟨S5000x32, .f32⟩
  | .local _ .vmem, ⟨7, _⟩ => ⟨S5000x32, .f32⟩
  | .local _ .vmem, ⟨8, _⟩ => ⟨S32x32, .bf16⟩
  | .local _ .vmem, ⟨9, _⟩ => ⟨S32, .f32⟩
  | .local _ .vmem, ⟨10, _⟩ => ⟨S5000x32, .f32⟩
  | .local _ .vmem, ⟨11, _⟩ => ⟨S5000x32, .f32⟩
  | .local _ .vmem, ⟨12, _⟩ => ⟨S5000x32, .f32⟩
  | .local _ .vmem, ⟨13, _⟩ => ⟨S5000x32, .f32⟩
  | .local _ .vmem, ⟨14, _⟩ => ⟨S32x32, .bf16⟩
  | .local _ .vmem, ⟨15, _⟩ => ⟨S32, .f32⟩
  | .local _ .vmem, ⟨16, _⟩ => ⟨S5000x32, .f32⟩
  | .local _ .vmem, ⟨17, _⟩ => ⟨S5000x32, .f32⟩
  | .local _ .vmem, ⟨18, _⟩ => ⟨S5000x32, .f32⟩
  | .local _ .vmem, ⟨19, _⟩ => ⟨S5000x32, .f32⟩
  | .local _ .vmem, ⟨20, _⟩ => ⟨S32x32, .bf16⟩
  | .local _ .vmem, ⟨21, _⟩ => ⟨S32, .f32⟩
  | .local _ .vmem, ⟨22, _⟩ => ⟨S5000x32, .f32⟩
  | .local _ .vmem, ⟨23, _⟩ => ⟨S5000x32, .f32⟩
  | .local _ .vmem, ⟨24, _⟩ => ⟨S2000x32, .f32⟩
  | .local _ .vmem, ⟨25, _⟩ => ⟨S2000x32, .f32⟩
  | .local _ .vmem, ⟨26, _⟩ => ⟨S2000x32, .f32⟩
  | .local _ .vmem, ⟨27, _⟩ => ⟨S2000x32, .f32⟩
  | .local _ .vmem, ⟨28, _⟩ => ⟨S2000x32, .f32⟩
  | .local _ .vmem, ⟨29, _⟩ => ⟨S2000x32, .f32⟩
  | .local _ .vmem, ⟨30, _⟩ => ⟨S2000x32, .f32⟩
  | .local _ .vmem, ⟨31, _⟩ => ⟨S2000x32, .f32⟩
  | .local _ .vmem, ⟨32, _⟩ => ⟨S128x64, .bf16⟩
  | .local _ .vmem, ⟨33, _⟩ => ⟨S64, .f32⟩
  | .local _ .vmem, ⟨34, _⟩ => ⟨S2000x64, .f32⟩
  | .local _ .vmem, ⟨35, _⟩ => ⟨S2000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst : Ref sig .tc := ⟨.hbm, 20, rfl⟩
abbrev main_v8 : Ref sig .tc := ⟨.hbm, 21, rfl⟩
abbrev main_cst_0 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_1 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_cst_3 : Ref sig .tc := ⟨.hbm, 33, rfl⟩
abbrev main_call0_v0 : Ref sig .tc := ⟨.hbm, 34, rfl⟩
abbrev main_call0_v1 : Ref sig .tc := ⟨.hbm, 35, rfl⟩
abbrev main_v17 : Ref sig .tc := ⟨.hbm, 36, rfl⟩
abbrev main_c : Ref sig .tc := ⟨.hbm, 37, rfl⟩
abbrev main_v18 : Ref sig .tc := ⟨.hbm, 38, rfl⟩
abbrev main_v19 : Ref sig .tc := ⟨.hbm, 39, rfl⟩
abbrev main_c_4 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_c_5 : Ref sig .tc := ⟨.hbm, 46, rfl⟩
abbrev main_v25 : Ref sig .tc := ⟨.hbm, 47, rfl⟩
abbrev main_v26 : Ref sig .tc := ⟨.hbm, 48, rfl⟩
abbrev main_c_6 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_c_7 : Ref sig .tc := ⟨.hbm, 67, rfl⟩
abbrev main_v44 : Ref sig .tc := ⟨.hbm, 68, rfl⟩
abbrev main_v45 : Ref sig .tc := ⟨.hbm, 69, rfl⟩
abbrev main_c_8 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_cst_9 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_c_10 : Ref sig .tc := ⟨.hbm, 84, rfl⟩
abbrev main_v58 : Ref sig .tc := ⟨.hbm, 85, rfl⟩
abbrev main_v59 : Ref sig .tc := ⟨.hbm, 86, rfl⟩
abbrev main_c_11 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_cst_12 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_c_13 : Ref sig .tc := ⟨.hbm, 101, rfl⟩
abbrev main_v72 : Ref sig .tc := ⟨.hbm, 102, rfl⟩
abbrev main_v73 : Ref sig .tc := ⟨.hbm, 103, rfl⟩
abbrev main_c_14 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_cst_15 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg1_1 : Ref sig .tc := ⟨.vmem, 27, rfl⟩
abbrev cc4_stg2_0 : Ref sig .tc := ⟨.vmem, 28, rfl⟩
abbrev cc4_stg2_1 : Ref sig .tc := ⟨.vmem, 29, rfl⟩
abbrev cc4_stg3_0 : Ref sig .tc := ⟨.vmem, 30, rfl⟩
abbrev cc4_stg3_1 : Ref sig .tc := ⟨.vmem, 31, rfl⟩
abbrev cc4_stg4_0 : Ref sig .tc := ⟨.vmem, 32, rfl⟩
abbrev cc4_stg5_0 : Ref sig .tc := ⟨.vmem, 33, rfl⟩
abbrev cc4_stg6_0 : Ref sig .tc := ⟨.vmem, 34, rfl⟩
abbrev cc4_stg6_1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem3_1 : DmaSem sig := 23
abbrev cc4_sem0_0 : DmaSem sig := 24
abbrev cc4_sem0_1 : DmaSem sig := 25
abbrev cc4_sem1_0 : DmaSem sig := 26
abbrev cc4_sem1_1 : DmaSem sig := 27
abbrev cc4_sem2_0 : DmaSem sig := 28
abbrev cc4_sem2_1 : DmaSem sig := 29
abbrev cc4_sem3_0 : DmaSem sig := 30
abbrev cc4_sem3_1 : DmaSem sig := 31
abbrev cc4_sem4_0 : DmaSem sig := 32
abbrev cc4_sem5_0 : DmaSem sig := 33
abbrev cc4_sem6_0 : DmaSem sig := 34
abbrev cc4_sem6_1 : DmaSem sig := 35

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x32 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S32x32 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x32 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S32x32 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S32 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x32 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S32x32 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S32 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x32 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x32 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x32 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S2000x32 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S2000x32 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 1 → Memref sig .tc .vmem S128x64 .bf16 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S64 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S2000x64 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  transposes_S32x128_S128x32_1_0 : S32x128.Transposes [1, 0] S128x32
  bitsLt_bf16_f32 : FTy.bits .bf16 < FTy.bits .f32
  transposes_S32x32_S32x32_1_0 : S32x32.Transposes [1, 0] S32x32
  transposes_S64x128_S128x64_1_0 : S64x128.Transposes [1, 0] S128x64
  inb_S5000x128_S5000x128_0_0 : ∀ a, (![0, 0] : Fin 2 → Nat) a + S5000x128.size a ≤ S5000x128.size a
  h_S5000x128 : 0 < S5000x128.numel
  inb_S128x32_S128x32_0_0 : ∀ a, (![0, 0] : Fin 2 → Nat) a + S128x32.size a ≤ S128x32.size a
  h_S128x32 : 0 < S128x32.numel
  shapeCasts_S128x32_S128x32 : S128x32.ShapeCasts S128x32
  inb_S32_S32_0 : ∀ a, (![0] : Fin 1 → Nat) a + S32.size a ≤ S32.size a
  h_S32 : 0 < S32.numel
  shapeCasts_S32_S1x32 : S32.ShapeCasts S1x32
  broadcasts_S1x32_S5000x32 : S1x32.Broadcasts S5000x32
  reduces_S5000x32_S5000 : S5000x32.Reduces [1] S5000
  shapeCasts_S5000_S5000x1 : S5000.ShapeCasts S5000x1
  broadcasts_S5000x1_S5000x32 : S5000x1.Broadcasts S5000x32
  inb_S5000x32_S5000x32_0_0 : ∀ a, (![0, 0] : Fin 2 → Nat) a + S5000x32.size a ≤ S5000x32.size a
  h_S5000x32 : 0 < S5000x32.numel
  bcast_S3300000x1_S3300000x32_0_1 : S3300000x1.BroadcastsInDim S3300000x32 (![0, 1] : Fin 2 → Fin S3300000x32.rank)
  bcast_S_S100000x32 : S_.BroadcastsInDim S100000x32 (![] : Fin 0 → Fin S100000x32.rank)
  shapeCasts_S5000x32_S5000x32 : S5000x32.ShapeCasts S5000x32
  inb_S32x32_S32x32_0_0 : ∀ a, (![0, 0] : Fin 2 → Nat) a + S32x32.size a ≤ S32x32.size a
  h_S32x32 : 0 < S32x32.numel
  shapeCasts_S32x32_S32x32 : S32x32.ShapeCasts S32x32
  inb_S2000x32_S2000x32_0_0 : ∀ a, (![0, 0] : Fin 2 → Nat) a + S2000x32.size a ≤ S2000x32.size a
  h_S2000x32 : 0 < S2000x32.numel
  shapeCasts_S2000x32_S2000x32 : S2000x32.ShapeCasts S2000x32
  reduces_S2000x32_S2000 : S2000x32.Reduces [1] S2000
  shapeCasts_S2000_S2000x1 : S2000.ShapeCasts S2000x1
  broadcasts_S2000x1_S2000x32 : S2000x1.Broadcasts S2000x32
  concatenates_S2000x32_S2000x32_S2000x32_S2000x32_S2000x128_d1 : Shape.Concatenates [S2000x32, S2000x32, S2000x32, S2000x32] S2000x128 1
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S64_S64_0 : ∀ a, (![0] : Fin 1 → Nat) a + S64.size a ≤ S64.size a
  h_S64 : 0 < S64.numel
  shapeCasts_S64_S1x64 : S64.ShapeCasts S1x64
  broadcasts_S1x64_S2000x64 : S1x64.Broadcasts S2000x64
  inb_S2000x64_S2000x64_0_0 : ∀ a, (![0, 0] : Fin 2 → Nat) a + S2000x64.size a ≤ S2000x64.size a
  h_S2000x64 : 0 < S2000x64.numel
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S5000x128_S128x32_S5000x32_1_0_0_1_n_n_wf : DotDims.WF S5000x128 S128x32 S5000x32 [1] [0] [0] [1] [] []
  gather_S100000x32_S3300000x1_S3300000x32_1_0_n_n_0_1_132_wf : GatherDims.WF S100000x32 S3300000x1 S3300000x32 [1] [0] [] [0] [] 1 ![1, 32]
  scatter_S100000x32_S3300000x1_S3300000x32_1_0_0_1_wf : ScatterDims.WF S100000x32 S3300000x1 S3300000x32 [1] [0] [0] 1
  dot_S5000x32_S32x32_S5000x32_1_0_0_1_n_n_wf : DotDims.WF S5000x32 S32x32 S5000x32 [1] [0] [0] [1] [] []
  dot_S2000x128_S128x64_S2000x64_1_0_0_1_n_n_wf : DotDims.WF S2000x128 S128x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x32.size a ≤ S128x32.size a
  hwx0_1 : ∀ i : grid0.Coords, EltTy.bits .bf16 = 32 ∨ (Rect.block (s := S128x32) S128x32.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32.size a ≤ S32.size a
  hwx0_2 : ∀ i : grid0.Coords, EltTy.bits .f32 = 32 ∨ (Rect.block (s := S32) S32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x32.size a ≤ S100000x32.size a
  hwx0_3 : ∀ i : grid0.Coords, EltTy.bits .f32 = 32 ∨ (Rect.block (s := S100000x32) S5000x32.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x32.size a ≤ S100000x32.size a
  hwx1_0 : ∀ i : grid1.Coords, EltTy.bits .f32 = 32 ∨ (Rect.block (s := S100000x32) S5000x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S32x32.size a ≤ S32x32.size a
  hwx1_1 : ∀ i : grid1.Coords, EltTy.bits .bf16 = 32 ∨ (Rect.block (s := S32x32) S32x32.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S32.size a ≤ S32.size a
  hwx1_2 : ∀ i : grid1.Coords, EltTy.bits .f32 = 32 ∨ (Rect.block (s := S32) S32.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x32.size a ≤ S100000x32.size a
  hwx1_3 : ∀ i : grid1.Coords, EltTy.bits .f32 = 32 ∨ (Rect.block (s := S100000x32) S5000x32.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x32.size a ≤ S100000x32.size a
  hwx2_0 : ∀ i : grid2.Coords, EltTy.bits .f32 = 32 ∨ (Rect.block (s := S100000x32) S5000x32.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S32x32.size a ≤ S32x32.size a
  hwx2_1 : ∀ i : grid2.Coords, EltTy.bits .bf16 = 32 ∨ (Rect.block (s := S32x32) S32x32.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S32.size a ≤ S32.size a
  hwx2_2 : ∀ i : grid2.Coords, EltTy.bits .f32 = 32 ∨ (Rect.block (s := S32) S32.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x32.size a ≤ S100000x32.size a
  hwx2_3 : ∀ i : grid2.Coords, EltTy.bits .f32 = 32 ∨ (Rect.block (s := S100000x32) S5000x32.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x32.size a ≤ S100000x32.size a
  hwx3_0 : ∀ i : grid3.Coords, EltTy.bits .f32 = 32 ∨ (Rect.block (s := S100000x32) S5000x32.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S32x32.size a ≤ S32x32.size a
  hwx3_1 : ∀ i : grid3.Coords, EltTy.bits .bf16 = 32 ∨ (Rect.block (s := S32x32) S32x32.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S32.size a ≤ S32.size a
  hwx3_2 : ∀ i : grid3.Coords, EltTy.bits .f32 = 32 ∨ (Rect.block (s := S32) S32.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x32.size a ≤ S100000x32.size a
  hwx3_3 : ∀ i : grid3.Coords, EltTy.bits .f32 = 32 ∨ (Rect.block (s := S100000x32) S5000x32.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x32.size a ≤ S100000x32.size a
  hwx4_0 : ∀ i : grid4.Coords, EltTy.bits .f32 = 32 ∨ (Rect.block (s := S100000x32) S2000x32.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x32.size a ≤ S100000x32.size a
  hwx4_1 : ∀ i : grid4.Coords, EltTy.bits .f32 = 32 ∨ (Rect.block (s := S100000x32) S2000x32.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x32.size a ≤ S100000x32.size a
  hwx4_2 : ∀ i : grid4.Coords, EltTy.bits .f32 = 32 ∨ (Rect.block (s := S100000x32) S2000x32.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S2000x32.size a ≤ S100000x32.size a
  hwx4_3 : ∀ i : grid4.Coords, EltTy.bits .f32 = 32 ∨ (Rect.block (s := S100000x32) S2000x32.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S128x64.size a ≤ S128x64.size a
  hwx4_4 : ∀ i : grid4.Coords, EltTy.bits .bf16 = 32 ∨ (Rect.block (s := S128x64) S128x64.size (cc4_transform_4 i) (hinb4_4 i)).WholeWords (EltTy.packing .bf16)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S64.size a ≤ S64.size a
  hwx4_5 : ∀ i : grid4.Coords, EltTy.bits .f32 = 32 ∨ (Rect.block (s := S64) S64.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S2000x64.size a ≤ S100000x64.size a
  hwx4_6 : ∀ i : grid4.Coords, EltTy.bits .f32 = 32 ∨ (Rect.block (s := S100000x64) S2000x64.size (cc4_transform_6 i) (hinb4_6 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S5000x128_S128x32_S5000x32_1_0_0_1_n_n : DotDims S5000x128 S128x32 S5000x32 where
  lhsContracting := [1]
  rhsContracting := [0]
  lhsNonContracting := [0]
  rhsNonContracting := [1]
  lhsBatch := []
  rhsBatch := []
  wf := dot_S5000x128_S128x32_S5000x32_1_0_0_1_n_n_wf
def gather_S100000x32_S3300000x1_S3300000x32_1_0_n_n_0_1_132 : GatherDims S100000x32 S3300000x1 S3300000x32 where
  offsetDims := [1]
  collapsedSliceDims := [0]
  operandBatchingDims := []
  startIndicesBatchingDims := []
  startIndexMap := [0]
  indexVectorDim := 1
  sliceSizes := ![1, 32]
  wf := gather_S100000x32_S3300000x1_S3300000x32_1_0_n_n_0_1_132_wf
def scatter_S100000x32_S3300000x1_S3300000x32_1_0_0_1 : ScatterDims S100000x32 S3300000x1 S3300000x32 where
  updateWindowDims := [1]
  insertedWindowDims := [0]
  scatterDimsToOperandDims := [0]
  indexVectorDim := 1
  wf := scatter_S100000x32_S3300000x1_S3300000x32_1_0_0_1_wf
def dot_S5000x32_S32x32_S5000x32_1_0_0_1_n_n : DotDims S5000x32 S32x32 S5000x32 where
  lhsContracting := [1]
  rhsContracting := [0]
  lhsNonContracting := [0]
  rhsNonContracting := [1]
  lhsBatch := []
  rhsBatch := []
  wf := dot_S5000x32_S32x32_S5000x32_1_0_0_1_n_n_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v34) S128x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v43) S5000x32.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v56) S5000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v36) S32x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v57) S5000x32.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v70) S5000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v38) S32x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S32.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v71) S5000x32.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v84) S5000x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v40) S32x32.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg9) S32.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v85) S5000x32.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v43) S2000x32.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v57) S2000x32.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v71) S2000x32.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v85) S2000x32.size cc4_transform_3 reads4_3 false false 2 stage4_3 sem4_3
    hrank4 hreads4_3 hinb4_3 nbuf4_3 (Memref.isWhole_whole _) hwx4_3 hstage4_3

abbrev win4_4 : Pipeline.Window sig grid4 :=
  Pipeline.Window.ofSpec (Memref.whole main_v42) S128x64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_arg11) S64.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v86) S2000x64.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

class Facts : Prop extends Facts₀ where

variable [Facts]
-- ==== ReferenceIdeal.lean ====
abbrev S100000x128 : Shape := ⟨2, ![100000, 128]⟩
abbrev S2x3200000 : Shape := ⟨2, ![2, 3200000]⟩
abbrev S32x128 : Shape := ⟨2, ![32, 128]⟩
abbrev S32 : Shape := ⟨1, ![32]⟩
abbrev S32x32 : Shape := ⟨2, ![32, 32]⟩
abbrev S64x128 : Shape := ⟨2, ![64, 128]⟩
abbrev S64 : Shape := ⟨1, ![64]⟩
abbrev S1x3200000 : Shape := ⟨2, ![1, 3200000]⟩
abbrev S3200000 : Shape := ⟨1, ![3200000]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S128x32 : Shape := ⟨2, ![128, 32]⟩
abbrev S100000x32 : Shape := ⟨2, ![100000, 32]⟩
abbrev S1x32 : Shape := ⟨2, ![1, 32]⟩
abbrev S100000x1 : Shape := ⟨2, ![100000, 1]⟩
abbrev S3300000x32 : Shape := ⟨2, ![3300000, 32]⟩
abbrev S128x64 : Shape := ⟨2, ![128, 64]⟩
abbrev S100000x64 : Shape := ⟨2, ![100000, 64]⟩
abbrev S1x64 : Shape := ⟨2, ![1, 64]⟩

abbrev nBuf : Space → Nat
  | .hbm => 235
  | .vmem => 0
  | .smem => 0
  | _ => 0

abbrev hbmTy0_0 (i : Nat) : BufTy := match i % 128 with
  | 0 => ⟨S100000x128, .f32⟩
  | 1 => ⟨S2x3200000, .i32⟩
  | 2 => ⟨S32x128, .f32⟩
  | 3 => ⟨S32, .f32⟩
  | 4 => ⟨S32x32, .f32⟩
  | 5 => ⟨S32, .f32⟩
  | 6 => ⟨S32x32, .f32⟩
  | 7 => ⟨S32, .f32⟩
  | 8 => ⟨S32x32, .f32⟩
  | 9 => ⟨S32, .f32⟩
  | 10 => ⟨S64x128, .f32⟩
  | 11 => ⟨S64, .f32⟩
  | 12 => ⟨S1x3200000, .i32⟩
  | 13 => ⟨S3200000, .i32⟩
  | 14 => ⟨S100000, .i32⟩
  | 15 => ⟨S3300000, .i32⟩
  | 16 => ⟨S1x3200000, .i32⟩
  | 17 => ⟨S3200000, .i32⟩
  | 18 => ⟨S100000, .i32⟩
  | 19 => ⟨S3300000, .i32⟩
  | 20 => ⟨S_, .f32⟩
  | 21 => ⟨S3300000, .f32⟩
  | 22 => ⟨S_, .f32⟩
  | 23 => ⟨S100000, .f32⟩
  | 24 => ⟨S3300000x1, .i32⟩
  | 25 => ⟨S100000, .f32⟩
  | 26 => ⟨S_, .f32⟩
  | 27 => ⟨S100000, .f32⟩
  | 28 => ⟨S100000, .i1⟩
  | 29 => ⟨S100000, .f32⟩
  | 30 => ⟨S_, .f32⟩
  | 31 => ⟨S100000, .f32⟩
  | 32 => ⟨S100000, .f32⟩
  | 33 => ⟨S_, .f32⟩
  | 34 => ⟨S_, .f32⟩
  | 35 => ⟨S100000, .f32⟩
  | 36 => ⟨S100000, .f32⟩
  | 37 => ⟨S_, .i32⟩
  | 38 => ⟨S3300000, .i32⟩
  | 39 => ⟨S3300000, .i1⟩
  | 40 => ⟨S_, .i32⟩
  | 41 => ⟨S3300000, .i32⟩
  | 42 => ⟨S3300000, .i32⟩
  | 43 => ⟨S3300000, .i32⟩
  | 44 => ⟨S3300000x1, .i32⟩
  | 45 => ⟨S3300000, .f32⟩
  | 46 => ⟨S_, .i32⟩
  | 47 => ⟨S3300000, .i32⟩
  | 48 => ⟨S3300000, .i1⟩
  | 49 => ⟨S_, .i32⟩
  | 50 => ⟨S3300000, .i32⟩
  | 51 => ⟨S3300000, .i32⟩
  | 52 => ⟨S3300000, .i32⟩
  | 53 => ⟨S3300000x1, .i32⟩
  | 54 => ⟨S3300000, .f32⟩
  | 55 => ⟨S3300000, .f32⟩
  | 56 => ⟨S128x32, .f32⟩
  | 57 => ⟨S100000x32, .f32⟩
  | 58 => ⟨S1x32, .f32⟩
  | 59 => ⟨S100000x32, .f32⟩
  | 60 => ⟨S100000x32, .f32⟩
  | 61 => ⟨S_, .f32⟩
  | 62 => ⟨S100000x32, .f32⟩
  | 63 => ⟨S100000x32, .f32⟩
  | 64 => ⟨S_, .f32⟩
  | 65 => ⟨S100000, .f32⟩
  | 66 => ⟨S100000x1, .f32⟩
  | 67 => ⟨S_, .f32⟩
  | 68 => ⟨S100000, .f32⟩
  | 69 => ⟨S100000x1, .f32⟩
  | 70 => ⟨S100000x32, .f32⟩
  | 71 => ⟨S100000x32, .f32⟩
  | 72 => ⟨S_, .f32⟩
  | 73 => ⟨S100000x32, .f32⟩
  | 74 => ⟨S100000x32, .f32⟩
  | 75 => ⟨S100000x1, .f32⟩
  | 76 => ⟨S_, .f32⟩
  | 77 => ⟨S100000x1, .f32⟩
  | 78 => ⟨S100000x1, .f32⟩
  | 79 => ⟨S100000x32, .f32⟩
  | 80 => ⟨S100000x32, .f32⟩
  | 81 => ⟨S_, .f32⟩
  | 82 => ⟨S100000x32, .f32⟩
  | 83 => ⟨S100000x32, .f32⟩
  | 84 => ⟨S_, .i32⟩
  | 85 => ⟨S3300000, .i32⟩
  | 86 => ⟨S3300000, .i1⟩
  | 87 => ⟨S_, .i32⟩
  | 88 => ⟨S3300000, .i32⟩
  | 89 => ⟨S3300000, .i32⟩
  | 90 => ⟨S3300000, .i32⟩
  | 91 => ⟨S3300000x1, .i32⟩
  | 92 => ⟨S3300000x32, .f32⟩
  | 93 => ⟨S3300000x1, .f32⟩
  | 94 => ⟨S3300000x32, .f32⟩
  | 95 => ⟨S3300000x32, .f32⟩
  | 96 => ⟨S_, .f32⟩
  | 97 => ⟨S100000x32, .f32⟩
  | 98 => ⟨S3300000x1, .i32⟩
  | 99 => ⟨S100000x32, .f32⟩
  | 100 => ⟨S32x32, .f32⟩
  | 101 => ⟨S100000x32, .f32⟩
  | 102 => ⟨S1x32, .f32⟩
  | 103 => ⟨S100000x32, .f32⟩
  | 104 => ⟨S100000x32, .f32⟩
  | 105 => ⟨S_, .i32⟩
  | 106 => ⟨S3300000, .i32⟩
  | 107 => ⟨S3300000, .i1⟩
  | 108 => ⟨S_, .i32⟩
  | 109 => ⟨S3300000, .i32⟩
  | 110 => ⟨S3300000, .i32⟩
  | 111 => ⟨S3300000, .i32⟩
  | 112 => ⟨S3300000x1, .i32⟩
  | 113 => ⟨S3300000x32, .f32⟩
  | 114 => ⟨S3300000x1, .f32⟩
  | 115 => ⟨S3300000x32, .f32⟩
  | 116 => ⟨S3300000x32, .f32⟩
  | 117 => ⟨S_, .f32⟩
  | 118 => ⟨S100000x32, .f32⟩
  | 119 => ⟨S3300000x1, .i32⟩
  | 120 => ⟨S100000x32, .f32⟩
  | 121 => ⟨S32x32, .f32⟩
  | 122 => ⟨S100000x32, .f32⟩
  | 123 => ⟨S1x32, .f32⟩
  | 124 => ⟨S100000x32, .f32⟩
  | 125 => ⟨S100000x32, .f32⟩
  | 126 => ⟨S_, .f32⟩
  | 127 => ⟨S100000, .f32⟩
  | _ => ⟨S100000x128, .f32⟩

abbrev hbmTy0_1 (i : Nat) : BufTy := match i % 128 with
  | 0 => ⟨S100000x1, .f32⟩
  | 1 => ⟨S_, .f32⟩
  | 2 => ⟨S100000, .f32⟩
  | 3 => ⟨S100000x1, .f32⟩
  | 4 => ⟨S100000x32, .f32⟩
  | 5 => ⟨S100000x32, .f32⟩
  | 6 => ⟨S_, .f32⟩
  | 7 => ⟨S100000x32, .f32⟩
  | 8 => ⟨S100000x32, .f32⟩
  | 9 => ⟨S100000x1, .f32⟩
  | 10 => ⟨S_, .f32⟩
  | 11 => ⟨S100000x1, .f32⟩
  | 12 => ⟨S100000x1, .f32⟩
  | 13 => ⟨S100000x32, .f32⟩
  | 14 => ⟨S100000x32, .f32⟩
  | 15 => ⟨S_, .f32⟩
  | 16 => ⟨S100000x32, .f32⟩
  | 17 => ⟨S100000x32, .f32⟩
  | 18 => ⟨S_, .f32⟩
  | 19 => ⟨S100000, .f32⟩
  | 20 => ⟨S100000x1, .f32⟩
  | 21 => ⟨S_, .f32⟩
  | 22 => ⟨S100000, .f32⟩
  | 23 => ⟨S100000x1, .f32⟩
  | 24 => ⟨S100000x32, .f32⟩
  | 25 => ⟨S100000x32, .f32⟩
  | 26 => ⟨S_, .f32⟩
  | 27 => ⟨S100000x32, .f32⟩
  | 28 => ⟨S100000x32, .f32⟩
  | 29 => ⟨S100000x1, .f32⟩
  | 30 => ⟨S_, .f32⟩
  | 31 => ⟨S100000x1, .f32⟩
  | 32 => ⟨S100000x1, .f32⟩
  | 33 => ⟨S100000x32, .f32⟩
  | 34 => ⟨S100000x32, .f32⟩
  | 35 => ⟨S_, .f32⟩
  | 36 => ⟨S100000x32, .f32⟩
  | 37 => ⟨S100000x32, .f32⟩
  | 38 => ⟨S100000x32, .f32⟩
  | 39 => ⟨S_, .i32⟩
  | 40 => ⟨S3300000, .i32⟩
  | 41 => ⟨S3300000, .i1⟩
  | 42 => ⟨S_, .i32⟩
  | 43 => ⟨S3300000, .i32⟩
  | 44 => ⟨S3300000, .i32⟩
  | 45 => ⟨S3300000, .i32⟩
  | 46 => ⟨S3300000x1, .i32⟩
  | 47 => ⟨S3300000x32, .f32⟩
  | 48 => ⟨S3300000x1, .f32⟩
  | 49 => ⟨S3300000x32, .f32⟩
  | 50 => ⟨S3300000x32, .f32⟩
  | 51 => ⟨S_, .f32⟩
  | 52 => ⟨S100000x32, .f32⟩
  | 53 => ⟨S3300000x1, .i32⟩
  | 54 => ⟨S100000x32, .f32⟩
  | 55 => ⟨S32x32, .f32⟩
  | 56 => ⟨S100000x32, .f32⟩
  | 57 => ⟨S1x32, .f32⟩
  | 58 => ⟨S100000x32, .f32⟩
  | 59 => ⟨S100000x32, .f32⟩
  | 60 => ⟨S_, .f32⟩
  | 61 => ⟨S100000, .f32⟩
  | 62 => ⟨S100000x1, .f32⟩
  | 63 => ⟨S_, .f32⟩
  | 64 => ⟨S100000, .f32⟩
  | 65 => ⟨S100000x1, .f32⟩
  | 66 => ⟨S100000x32, .f32⟩
  | 67 => ⟨S100000x32, .f32⟩
  | 68 => ⟨S_, .f32⟩
  | 69 => ⟨S100000x32, .f32⟩
  | 70 => ⟨S100000x32, .f32⟩
  | 71 => ⟨S100000x1, .f32⟩
  | 72 => ⟨S_, .f32⟩
  | 73 => ⟨S100000x1, .f32⟩
  | 74 => ⟨S100000x1, .f32⟩
  | 75 => ⟨S100000x32, .f32⟩
  | 76 => ⟨S100000x32, .f32⟩
  | 77 => ⟨S_, .f32⟩
  | 78 => ⟨S100000x32, .f32⟩
  | 79 => ⟨S100000x32, .f32⟩
  | 80 => ⟨S_, .f32⟩
  | 81 => ⟨S100000, .f32⟩
  | 82 => ⟨S100000x1, .f32⟩
  | 83 => ⟨S_, .f32⟩
  | 84 => ⟨S100000, .f32⟩
  | 85 => ⟨S100000x1, .f32⟩
  | 86 => ⟨S100000x32, .f32⟩
  | 87 => ⟨S100000x32, .f32⟩
  | 88 => ⟨S_, .f32⟩
  | 89 => ⟨S100000x32, .f32⟩
  | 90 => ⟨S100000x32, .f32⟩
  | 91 => ⟨S100000x1, .f32⟩
  | 92 => ⟨S_, .f32⟩
  | 93 => ⟨S100000x1, .f32⟩
  | 94 => ⟨S100000x1, .f32⟩
  | 95 => ⟨S100000x32, .f32⟩
  | 96 => ⟨S100000x32, .f32⟩
  | 97 => ⟨S_, .f32⟩
  | 98 => ⟨S100000x32, .f32⟩
  | 99 => ⟨S100000x32, .f32⟩
  | 100 => ⟨S100000x32, .f32⟩
  | 101 => ⟨S100000x128, .f32⟩
  | 102 => ⟨S128x64, .f32⟩
  | 103 => ⟨S100000x64, .f32⟩
  | 104 => ⟨S1x64, .f32⟩
  | 105 => ⟨S100000x64, .f32⟩
  | 106 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst : Ref sig .tc := ⟨.hbm, 20, rfl⟩
abbrev main_v8 : Ref sig .tc := ⟨.hbm, 21, rfl⟩
abbrev main_cst_0 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_1 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_cst_3 : Ref sig .tc := ⟨.hbm, 33, rfl⟩
abbrev main_call0_v0 : Ref sig .tc := ⟨.hbm, 34, rfl⟩
abbrev main_call0_v1 : Ref sig .tc := ⟨.hbm, 35, rfl⟩
abbrev main_v17 : Ref sig .tc := ⟨.hbm, 36, rfl⟩
abbrev main_c : Ref sig .tc := ⟨.hbm, 37, rfl⟩
abbrev main_v18 : Ref sig .tc := ⟨.hbm, 38, rfl⟩
abbrev main_v19 : Ref sig .tc := ⟨.hbm, 39, rfl⟩
abbrev main_c_4 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_c_5 : Ref sig .tc := ⟨.hbm, 46, rfl⟩
abbrev main_v25 : Ref sig .tc := ⟨.hbm, 47, rfl⟩
abbrev main_v26 : Ref sig .tc := ⟨.hbm, 48, rfl⟩
abbrev main_c_6 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_call1_cst : Ref sig .tc := ⟨.hbm, 61, rfl⟩
abbrev main_call1_v0 : Ref sig .tc := ⟨.hbm, 62, rfl⟩
abbrev main_v38 : Ref sig .tc := ⟨.hbm, 63, rfl⟩
abbrev main_cst_7 : Ref sig .tc := ⟨.hbm, 64, rfl⟩
abbrev main_v39 : Ref sig .tc := ⟨.hbm, 65, rfl⟩
abbrev main_v40 : Ref sig .tc := ⟨.hbm, 66, rfl⟩
abbrev main_cst_8 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_cst_9 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_cst_10 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_cst_11 : Ref sig .tc := ⟨.hbm, 81, rfl⟩
abbrev main_v52 : Ref sig .tc := ⟨.hbm, 82, rfl⟩
abbrev main_v53 : Ref sig .tc := ⟨.hbm, 83, rfl⟩
abbrev main_c_12 : Ref sig .tc := ⟨.hbm, 84, rfl⟩
abbrev main_v54 : Ref sig .tc := ⟨.hbm, 85, rfl⟩
abbrev main_v55 : Ref sig .tc := ⟨.hbm, 86, rfl⟩
abbrev main_c_13 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_cst_14 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_c_15 : Ref sig .tc := ⟨.hbm, 105, rfl⟩
abbrev main_v72 : Ref sig .tc := ⟨.hbm, 106, rfl⟩
abbrev main_v73 : Ref sig .tc := ⟨.hbm, 107, rfl⟩
abbrev main_c_16 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_cst_17 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_cst_18 : Ref sig .tc := ⟨.hbm, 126, rfl⟩
abbrev main_v90 : Ref sig .tc := ⟨.hbm, 127, rfl⟩
abbrev main_v91 : Ref sig .tc := ⟨.hbm, 128, rfl⟩
abbrev main_cst_19 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_cst_20 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_cst_21 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_cst_22 : Ref sig .tc := ⟨.hbm, 143, rfl⟩
abbrev main_v103 : Ref sig .tc := ⟨.hbm, 144, rfl⟩
abbrev main_v104 : Ref sig .tc := ⟨.hbm, 145, rfl⟩
abbrev main_cst_23 : Ref sig .tc := ⟨.hbm, 146, rfl⟩
abbrev main_v105 : Ref sig .tc := ⟨.hbm, 147, rfl⟩
abbrev main_v106 : Ref sig .tc := ⟨.hbm, 148, rfl⟩
abbrev main_cst_24 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_cst_25 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_cst_26 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_v117 : Ref sig .tc := ⟨.hbm, 162, rfl⟩
abbrev main_cst_27 : Ref sig .tc := ⟨.hbm, 163, rfl⟩
abbrev main_v118 : Ref sig .tc := ⟨.hbm, 164, rfl⟩
abbrev main_v119 : Ref sig .tc := ⟨.hbm, 165, rfl⟩
abbrev main_v120 : Ref sig .tc := ⟨.hbm, 166, rfl⟩
abbrev main_c_28 : Ref sig .tc := ⟨.hbm, 167, rfl⟩
abbrev main_v121 : Ref sig .tc := ⟨.hbm, 168, rfl⟩
abbrev main_v122 : Ref sig .tc := ⟨.hbm, 169, rfl⟩
abbrev main_c_29 : Ref sig .tc := ⟨.hbm, 170, rfl⟩
abbrev main_v123 : Ref sig .tc := ⟨.hbm, 171, rfl⟩
abbrev main_v124 : Ref sig .tc := ⟨.hbm, 172, rfl⟩
abbrev main_v125 : Ref sig .tc := ⟨.hbm, 173, rfl⟩
abbrev main_v126 : Ref sig .tc := ⟨.hbm, 174, rfl⟩
abbrev main_v127 : Ref sig .tc := ⟨.hbm, 175, rfl⟩
abbrev main_v128 : Ref sig .tc := ⟨.hbm, 176, rfl⟩
abbrev main_v129 : Ref sig .tc := ⟨.hbm, 177, rfl⟩
abbrev main_v130 : Ref sig .tc := ⟨.hbm, 178, rfl⟩
abbrev main_cst_30 : Ref sig .tc := ⟨.hbm, 179, rfl⟩
abbrev main_v131 : Ref sig .tc := ⟨.hbm, 180, rfl⟩
abbrev main_v132 : Ref sig .tc := ⟨.hbm, 181, rfl⟩
abbrev main_v133 : Ref sig .tc := ⟨.hbm, 182, rfl⟩
abbrev main_v134 : Ref sig .tc := ⟨.hbm, 183, rfl⟩
abbrev main_v135 : Ref sig .tc := ⟨.hbm, 184, rfl⟩
abbrev main_v136 : Ref sig .tc := ⟨.hbm, 185, rfl⟩
abbrev main_v137 : Ref sig .tc := ⟨.hbm, 186, rfl⟩
abbrev main_v138 : Ref sig .tc := ⟨.hbm, 187, rfl⟩
abbrev main_cst_31 : Ref sig .tc := ⟨.hbm, 188, rfl⟩
abbrev main_v139 : Ref sig .tc := ⟨.hbm, 189, rfl⟩
abbrev main_v140 : Ref sig .tc := ⟨.hbm, 190, rfl⟩
abbrev main_cst_32 : Ref sig .tc := ⟨.hbm, 191, rfl⟩
abbrev main_v141 : Ref sig .tc := ⟨.hbm, 192, rfl⟩
abbrev main_v142 : Ref sig .tc := ⟨.hbm, 193, rfl⟩
abbrev main_v143 : Ref sig .tc := ⟨.hbm, 194, rfl⟩
abbrev main_v144 : Ref sig .tc := ⟨.hbm, 195, rfl⟩
abbrev main_cst_33 : Ref sig .tc := ⟨.hbm, 196, rfl⟩
abbrev main_v145 : Ref sig .tc := ⟨.hbm, 197, rfl⟩
abbrev main_v146 : Ref sig .tc := ⟨.hbm, 198, rfl⟩
abbrev main_v147 : Ref sig .tc := ⟨.hbm, 199, rfl⟩
abbrev main_cst_34 : Ref sig .tc := ⟨.hbm, 200, rfl⟩
abbrev main_v148 : Ref sig .tc := ⟨.hbm, 201, rfl⟩
abbrev main_v149 : Ref sig .tc := ⟨.hbm, 202, rfl⟩
abbrev main_v150 : Ref sig .tc := ⟨.hbm, 203, rfl⟩
abbrev main_v151 : Ref sig .tc := ⟨.hbm, 204, rfl⟩
abbrev main_cst_35 : Ref sig .tc := ⟨.hbm, 205, rfl⟩
abbrev main_v152 : Ref sig .tc := ⟨.hbm, 206, rfl⟩
abbrev main_v153 : Ref sig .tc := ⟨.hbm, 207, rfl⟩
abbrev main_cst_36 : Ref sig .tc := ⟨.hbm, 208, rfl⟩
abbrev main_v154 : Ref sig .tc := ⟨.hbm, 209, rfl⟩
abbrev main_v155 : Ref sig .tc := ⟨.hbm, 210, rfl⟩
abbrev main_cst_37 : Ref sig .tc := ⟨.hbm, 211, rfl⟩
abbrev main_v156 : Ref sig .tc := ⟨.hbm, 212, rfl⟩
abbrev main_v157 : Ref sig .tc := ⟨.hbm, 213, rfl⟩
abbrev main_v158 : Ref sig .tc := ⟨.hbm, 214, rfl⟩
abbrev main_v159 : Ref sig .tc := ⟨.hbm, 215, rfl⟩
abbrev main_cst_38 : Ref sig .tc := ⟨.hbm, 216, rfl⟩
abbrev main_v160 : Ref sig .tc := ⟨.hbm, 217, rfl⟩
abbrev main_v161 : Ref sig .tc := ⟨.hbm, 218, rfl⟩
abbrev main_v162 : Ref sig .tc := ⟨.hbm, 219, rfl⟩
abbrev main_cst_39 : Ref sig .tc := ⟨.hbm, 220, rfl⟩
abbrev main_v163 : Ref sig .tc := ⟨.hbm, 221, rfl⟩
abbrev main_v164 : Ref sig .tc := ⟨.hbm, 222, rfl⟩
abbrev main_v165 : Ref sig .tc := ⟨.hbm, 223, rfl⟩
abbrev main_v166 : Ref sig .tc := ⟨.hbm, 224, rfl⟩
abbrev main_cst_40 : Ref sig .tc := ⟨.hbm, 225, rfl⟩
abbrev main_v167 : Ref sig .tc := ⟨.hbm, 226, rfl⟩
abbrev main_v168 : Ref sig .tc := ⟨.hbm, 227, rfl⟩
abbrev main_v169 : Ref sig .tc := ⟨.hbm, 228, rfl⟩
abbrev main_v170 : Ref sig .tc := ⟨.hbm, 229, rfl⟩
abbrev main_v171 : Ref sig .tc := ⟨.hbm, 230, rfl⟩
abbrev main_v172 : Ref sig .tc := ⟨.hbm, 231, rfl⟩
abbrev main_v173 : Ref sig .tc := ⟨.hbm, 232, rfl⟩
abbrev main_v174 : Ref sig .tc := ⟨.hbm, 233, rfl⟩
abbrev main_v175 : Ref sig .tc := ⟨.hbm, 234, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  transposes_S32x128_S128x32_1_0 : S32x128.Transposes [1, 0] S128x32
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S100000x32 : S_.BroadcastsInDim S100000x32 (![] : Fin 0 → Fin S100000x32.rank)
  reducesTo_S100000x32_S100000_d1 : S100000x32.ReducesTo [1] S100000
  h_S_ : 0 < S_.numel
  bcast_S100000_S100000x1_0 : S100000.BroadcastsInDim S100000x1 (![0] : Fin 1 → Fin S100000x1.rank)
  bcast_S100000x1_S100000x32_0_1 : S100000x1.BroadcastsInDim S100000x32 (![0, 1] : Fin 2 → Fin S100000x32.rank)
  bcast_S_S100000x1 : S_.BroadcastsInDim S100000x1 (![] : Fin 0 → Fin S100000x1.rank)
  bcast_S3300000x1_S3300000x32_0_1 : S3300000x1.BroadcastsInDim S3300000x32 (![0, 1] : Fin 2 → Fin S3300000x32.rank)
  transposes_S32x32_S32x32_1_0 : S32x32.Transposes [1, 0] S32x32
  concatenates_S100000x32_S100000x32_S100000x32_S100000x32_S100000x128_d1 : Shape.Concatenates [S100000x32, S100000x32, S100000x32, S100000x32] S100000x128 1
  transposes_S64x128_S128x64_1_0 : S64x128.Transposes [1, 0] S128x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x128_S128x32_S100000x32_1_0_0_1_n_n_wf : DotDims.WF S100000x128 S128x32 S100000x32 [1] [0] [0] [1] [] []
  gather_S100000x32_S3300000x1_S3300000x32_1_0_n_n_0_1_132_wf : GatherDims.WF S100000x32 S3300000x1 S3300000x32 [1] [0] [] [0] [] 1 ![1, 32]
  scatter_S100000x32_S3300000x1_S3300000x32_1_0_0_1_wf : ScatterDims.WF S100000x32 S3300000x1 S3300000x32 [1] [0] [0] 1
  dot_S100000x32_S32x32_S100000x32_1_0_0_1_n_n_wf : DotDims.WF S100000x32 S32x32 S100000x32 [1] [0] [0] [1] [] []
  dot_S100000x128_S128x64_S100000x64_1_0_0_1_n_n_wf : DotDims.WF S100000x128 S128x64 S100000x64 [1] [0] [0] [1] [] []

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x128_S128x32_S100000x32_1_0_0_1_n_n : DotDims S100000x128 S128x32 S100000x32 where
  lhsContracting := [1]
  rhsContracting := [0]
  lhsNonContracting := [0]
  rhsNonContracting := [1]
  lhsBatch := []
  rhsBatch := []
  wf := dot_S100000x128_S128x32_S100000x32_1_0_0_1_n_n_wf
def gather_S100000x32_S3300000x1_S3300000x32_1_0_n_n_0_1_132 : GatherDims S100000x32 S3300000x1 S3300000x32 where
  offsetDims := [1]
  collapsedSliceDims := [0]
  operandBatchingDims := []
  startIndicesBatchingDims := []
  startIndexMap := [0]
  indexVectorDim := 1
  sliceSizes := ![1, 32]
  wf := gather_S100000x32_S3300000x1_S3300000x32_1_0_n_n_0_1_132_wf
def scatter_S100000x32_S3300000x1_S3300000x32_1_0_0_1 : ScatterDims S100000x32 S3300000x1 S3300000x32 where
  updateWindowDims := [1]
  insertedWindowDims := [0]
  scatterDimsToOperandDims := [0]
  indexVectorDim := 1
  wf := scatter_S100000x32_S3300000x1_S3300000x32_1_0_0_1_wf
def dot_S100000x32_S32x32_S100000x32_1_0_0_1_n_n : DotDims S100000x32 S32x32 S100000x32 where
  lhsContracting := [1]
  rhsContracting := [0]
  lhsNonContracting := [0]
  rhsNonContracting := [1]
  lhsBatch := []
  rhsBatch := []
  wf := dot_S100000x32_S32x32_S100000x32_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.KRun.lean ====
/-
  The idealized kernel's run with every buffer named.

  @main is eleven segments: stretches of host operations and five kernel regions.  The contents of every buffer
  that outlives a region are known at each boundary between segments: a stretch leaves its operations' values, a region
  leaves its output array at what its grid points wrote back and every other array as it found it.  Every weakly fair
  execution terminates without a fault, and in its final memory every such buffer holds the contents of the last
  boundary.  The arguments and the result are among those buffers.
-/
import proofs.«164241_j3496103379545_2_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, and in the final memory every TensorCore buffer
    that outlives a region holds the contents of the last boundary between segments. -/
theorem run_all : θ_run defs (onTc (τ := τ) (main (F := F))) ⟨m, fun _ => 0, ρ⟩ (fun r => ∀ c : Dev nD,
      ∀ b : Ref sig .tc, ¬ (Proc.devRef .tc b : DevRef τ sig).isScoped →
        r.2.mem ((c.tc : Thread nD τ).loc b) = W11 m ρ c (Proc.devRef .tc b)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c b hb => h c _ (mem_uc b hb))

end Cert.KernelIdeal.Whole

end
-- ==== Proof.LibTypedRef.lean ====
/-
  Typed references: a value carried to a buffer's own type and back is the value.

  A host operation of a called function is stated over typed references: a reference together with the equation that
  its buffer's type is the value's type. The operation's function is conjugated by the transport along that equation
  (`toBuf` into the buffer's type, `ofBuf` out of it). Reading a chain of such operations back therefore leaves
  pairs `ofBuf (toBuf v)` around every intermediate value; each pair is the identity.
-/
import Idealize.ShloMosaic.Lib.StableHlo

namespace Cert.TypedRef

open Idealize.ShloMosaic Idealize.ShloMosaic.StableHlo

/-- Carrying a value to the buffer's type and back gives the value. -/
theorem ofBuf_toBuf {sig : RefSig} {T : BufTy} {Val : EltTy → Type} (x : TRef sig T) (v : T.Contents Val) :
    x.ofBuf (x.toBuf v) = v := by
  obtain ⟨r, h, a, b⟩ := x
  subst h
  rfl

/-- Carrying a buffer's contents to the value's type and back gives the contents. -/
theorem toBuf_ofBuf {sig : RefSig} {T : BufTy} {Val : EltTy → Type} (x : TRef sig T) (v : x.ref.ty.Contents Val) :
    x.toBuf (x.ofBuf v) = v := by
  obtain ⟨r, h, a, b⟩ := x
  subst h
  rfl

end Cert.TypedRef
-- ==== Proof.TypedCast.lean ====
/-
  A value moved to a typed reference's buffer type, or back, is the same value.

  A typed reference pairs a buffer with the equation that the buffer's type is the value's type; `toBuf` and `ofBuf`
  move a value along that equation.  Whatever the equation's proof, the moved value is heterogeneously equal to the
  value; so where the two types are the same type, as they are for a literal reference, moving is the identity.
-/
import Idealize.ShloMosaic.Lib.StableHlo

namespace Cert.TypedCast

open Idealize.ShloMosaic Idealize.ShloMosaic.StableHlo

theorem toBuf_heq {sig : RefSig} {T : BufTy} {Val : EltTy → Type} (x : TRef sig T) (v : T.Contents Val) :
    HEq (x.toBuf v) v := by
  obtain ⟨r, h, a, b⟩ := x
  subst h
  exact HEq.rfl

theorem ofBuf_heq {sig : RefSig} {T : BufTy} {Val : EltTy → Type} (x : TRef sig T) (v : x.ref.ty.Contents Val) :
    HEq (x.ofBuf v) v := by
  obtain ⟨r, h, a, b⟩ := x
  subst h
  exact HEq.rfl

end Cert.TypedCast
-- ==== Proof.RefRunS.lean ====
/-
  The reference program's run, read one stretch of host operations at a time.

  The program is 223 host operations, each writing a buffer no other operation writes.  Cut into eighteen consecutive
  stretches, each stretch computes a few values — the edge tables, a node table, an aggregate, the pieces of a rescaled
  table — from values earlier stretches left, and every buffer a stretch does not write keeps its contents across it.
  So, stretch after stretch, the buffer of each such value holds that value's stage (`Cert.ReferenceIdeal.Stage`) of
  the argument arrays, the last of them the program's result; and the argument arrays, which no operation writes, end as
  they started.  No value is ever written out in full: each stretch is read over arbitrary contents, and a stage is
  compared with the operations that compute it one stretch deep.
-/
import proofs.«164241_j3496103379545_2_alg».proof.Proof.RefDefs
import proofs.«164241_j3496103379545_2_alg».proof.Proof.RefOps
import Idealize.ShloMosaic.PureOps.Ideal
import proofs.«164241_j3496103379545_2_alg».proof.Proof.LibTypedRef
import proofs.«164241_j3496103379545_2_alg».proof.Proof.TypedCast

set_option maxRecDepth 16384

noncomputable section

namespace Cert.ReferenceIdeal.RunS

open Cert.ReferenceIdeal Cert.ReferenceIdeal.Gen Cert.ReferenceIdeal.Ops Cert.ReferenceIdeal.Stage
open Idealize.ShloMosaic Idealize.ShloMosaic.TcCoe Idealize.SL.Sem Idealize.ShloMosaic.StableHlo

/-- A buffer that no operation of the stretch writes holds after it what it held before. -/
macro "keeps " ops:ident : tactic => `(tactic| (
  refine StableHlo.after_of_forall_not_mem _ _ (List.forall_iff_forall_mem.mp ?_)
  simp only [$ops:ident, List.Forall, StableHlo.nullary_writes, StableHlo.unary_writes, StableHlo.binary_writes,
    StableHlo.ternary_writes, StableHlo.quaternary_writes, StableHlo.reshape_writes, StableHlo.binaryIndexed_writes,
    StableHlo.nary_writes, StableHlo.unaryIndexed_writes, Finset.mem_singleton]
  repeat' apply And.intro
  all_goals exact StableHlo.devRef_ne_of_ne (by decide)))

/-! ## A value moved to a called function's buffer, or back, is the value -/

theorem toBuf_cst_3 (v : (⟨S_, .f32⟩ : BufTy).Contents (Elt Ideal)) : (TRef.of (T := ⟨S_, .f32⟩) main_cst_3).toBuf v = v :=
  eq_of_heq (Cert.TypedCast.toBuf_heq _ _)
theorem ofBuf_cst_3 (v : (⟨S_, .f32⟩ : BufTy).Contents (Elt Ideal)) : (TRef.of (T := ⟨S_, .f32⟩) main_cst_3).ofBuf v = v :=
  eq_of_heq (Cert.TypedCast.ofBuf_heq _ _)
theorem toBuf_call0_v0 (v : (⟨S_, .f32⟩ : BufTy).Contents (Elt Ideal)) : (TRef.of (T := ⟨S_, .f32⟩) main_call0_v0).toBuf v = v :=
  eq_of_heq (Cert.TypedCast.toBuf_heq _ _)
theorem ofBuf_call0_v0 (v : (⟨S_, .f32⟩ : BufTy).Contents (Elt Ideal)) : (TRef.of (T := ⟨S_, .f32⟩) main_call0_v0).ofBuf v = v :=
  eq_of_heq (Cert.TypedCast.ofBuf_heq _ _)
theorem toBuf_call0_v1 (v : (⟨S100000, .f32⟩ : BufTy).Contents (Elt Ideal)) : (TRef.of (T := ⟨S100000, .f32⟩) main_call0_v1).toBuf v = v :=
  eq_of_heq (Cert.TypedCast.toBuf_heq _ _)
theorem ofBuf_call0_v1 (v : (⟨S100000, .f32⟩ : BufTy).Contents (Elt Ideal)) : (TRef.of (T := ⟨S100000, .f32⟩) main_call0_v1).ofBuf v = v :=
  eq_of_heq (Cert.TypedCast.ofBuf_heq _ _)
theorem toBuf_v13 (v : (⟨S100000, .i1⟩ : BufTy).Contents (Elt Ideal)) : (TRef.of (T := ⟨S100000, .i1⟩) main_v13).toBuf v = v :=
  eq_of_heq (Cert.TypedCast.toBuf_heq _ _)
theorem ofBuf_v13 (v : (⟨S100000, .i1⟩ : BufTy).Contents (Elt Ideal)) : (TRef.of (T := ⟨S100000, .i1⟩) main_v13).ofBuf v = v :=
  eq_of_heq (Cert.TypedCast.ofBuf_heq _ _)
theorem toBuf_v16 (v : (⟨S100000, .f32⟩ : BufTy).Contents (Elt Ideal)) : (TRef.of (T := ⟨S100000, .f32⟩) main_v16).toBuf v = v :=
  eq_of_heq (Cert.TypedCast.toBuf_heq _ _)
theorem ofBuf_v16 (v : (⟨S100000, .f32⟩ : BufTy).Contents (Elt Ideal)) : (TRef.of (T := ⟨S100000, .f32⟩) main_v16).ofBuf v = v :=
  eq_of_heq (Cert.TypedCast.ofBuf_heq _ _)
theorem toBuf_v17 (v : (⟨S100000, .f32⟩ : BufTy).Contents (Elt Ideal)) : (TRef.of (T := ⟨S100000, .f32⟩) main_v17).toBuf v = v :=
  eq_of_heq (Cert.TypedCast.toBuf_heq _ _)
theorem ofBuf_v17 (v : (⟨S100000, .f32⟩ : BufTy).Contents (Elt Ideal)) : (TRef.of (T := ⟨S100000, .f32⟩) main_v17).ofBuf v = v :=
  eq_of_heq (Cert.TypedCast.ofBuf_heq _ _)
theorem toBuf_call1_cst (v : (⟨S_, .f32⟩ : BufTy).Contents (Elt Ideal)) : (TRef.of (T := ⟨S_, .f32⟩) main_call1_cst).toBuf v = v :=
  eq_of_heq (Cert.TypedCast.toBuf_heq _ _)
theorem ofBuf_call1_cst (v : (⟨S_, .f32⟩ : BufTy).Contents (Elt Ideal)) : (TRef.of (T := ⟨S_, .f32⟩) main_call1_cst).ofBuf v = v :=
  eq_of_heq (Cert.TypedCast.ofBuf_heq _ _)
theorem toBuf_call1_v0 (v : (⟨S100000x32, .f32⟩ : BufTy).Contents (Elt Ideal)) : (TRef.of (T := ⟨S100000x32, .f32⟩) main_call1_v0).toBuf v = v :=
  eq_of_heq (Cert.TypedCast.toBuf_heq _ _)
theorem ofBuf_call1_v0 (v : (⟨S100000x32, .f32⟩ : BufTy).Contents (Elt Ideal)) : (TRef.of (T := ⟨S100000x32, .f32⟩) main_call1_v0).ofBuf v = v :=
  eq_of_heq (Cert.TypedCast.ofBuf_heq _ _)
theorem toBuf_v37 (v : (⟨S100000x32, .f32⟩ : BufTy).Contents (Elt Ideal)) : (TRef.of (T := ⟨S100000x32, .f32⟩) main_v37).toBuf v = v :=
  eq_of_heq (Cert.TypedCast.toBuf_heq _ _)
theorem ofBuf_v37 (v : (⟨S100000x32, .f32⟩ : BufTy).Contents (Elt Ideal)) : (TRef.of (T := ⟨S100000x32, .f32⟩) main_v37).ofBuf v = v :=
  eq_of_heq (Cert.TypedCast.ofBuf_heq _ _)
theorem toBuf_v38 (v : (⟨S100000x32, .f32⟩ : BufTy).Contents (Elt Ideal)) : (TRef.of (T := ⟨S100000x32, .f32⟩) main_v38).toBuf v = v :=
  eq_of_heq (Cert.TypedCast.toBuf_heq _ _)
theorem ofBuf_v38 (v : (⟨S100000x32, .f32⟩ : BufTy).Contents (Elt Ideal)) : (TRef.of (T := ⟨S100000x32, .f32⟩) main_v38).ofBuf v = v :=
  eq_of_heq (Cert.TypedCast.ofBuf_heq _ _)

/-! ## The contents after each stretch -/

abbrev S00 (V : Valuation τ sig (Elt Ideal)) : Valuation τ sig (Elt Ideal) := after s00 V
abbrev S01 (V : Valuation τ sig (Elt Ideal)) : Valuation τ sig (Elt Ideal) := after s01 (S00 V)
abbrev S02 (V : Valuation τ sig (Elt Ideal)) : Valuation τ sig (Elt Ideal) := after s02 (S01 V)
abbrev S03 (V : Valuation τ sig (Elt Ideal)) : Valuation τ sig (Elt Ideal) := after s03 (S02 V)
abbrev S04 (V : Valuation τ sig (Elt Ideal)) : Valuation τ sig (Elt Ideal) := after s04 (S03 V)
abbrev S05 (V : Valuation τ sig (Elt Ideal)) : Valuation τ sig (Elt Ideal) := after s05 (S04 V)
abbrev S06 (V : Valuation τ sig (Elt Ideal)) : Valuation τ sig (Elt Ideal) := after s06 (S05 V)
abbrev S07 (V : Valuation τ sig (Elt Ideal)) : Valuation τ sig (Elt Ideal) := after s07 (S06 V)
abbrev S08 (V : Valuation τ sig (Elt Ideal)) : Valuation τ sig (Elt Ideal) := after s08 (S07 V)
abbrev S09 (V : Valuation τ sig (Elt Ideal)) : Valuation τ sig (Elt Ideal) := after s09 (S08 V)
abbrev S10 (V : Valuation τ sig (Elt Ideal)) : Valuation τ sig (Elt Ideal) := after s10 (S09 V)
abbrev S11 (V : Valuation τ sig (Elt Ideal)) : Valuation τ sig (Elt Ideal) := after s11 (S10 V)
abbrev S12 (V : Valuation τ sig (Elt Ideal)) : Valuation τ sig (Elt Ideal) := after s12 (S11 V)
abbrev S13 (V : Valuation τ sig (Elt Ideal)) : Valuation τ sig (Elt Ideal) := after s13 (S12 V)
abbrev S14 (V : Valuation τ sig (Elt Ideal)) : Valuation τ sig (Elt Ideal) := after s14 (S13 V)
abbrev S15 (V : Valuation τ sig (Elt Ideal)) : Valuation τ sig (Elt Ideal) := after s15 (S14 V)
abbrev S16 (V : Valuation τ sig (Elt Ideal)) : Valuation τ sig (Elt Ideal) := after s16 (S15 V)
abbrev S17 (V : Valuation τ sig (Elt Ideal)) : Valuation τ sig (Elt Ideal) := after s17 (S16 V)

/-! ## Each stretch, from any contents -/

set_option maxHeartbeats 4000000 in
theorem r00_cst_3 (V : Valuation τ sig (Elt Ideal)) :
    after s00 V (Proc.devRef .tc main_cst_3) = val_main_cst_3 (F := Ideal) := by
  after_results_simp
  all_goals (try simp only [Cert.TypedRef.ofBuf_toBuf, Cert.TypedRef.toBuf_ofBuf, toBuf_cst_3, ofBuf_cst_3, toBuf_call0_v0, ofBuf_call0_v0, toBuf_call0_v1, ofBuf_call0_v1, toBuf_v13, ofBuf_v13, toBuf_v16, ofBuf_v16, toBuf_v17, ofBuf_v17, toBuf_call1_cst, ofBuf_call1_cst, toBuf_call1_v0, ofBuf_call1_v0, toBuf_v37, ofBuf_v37, toBuf_v38, ofBuf_v38])
  all_goals rfl

set_option maxHeartbeats 4000000 in
theorem r00_v13 (V : Valuation τ sig (Elt Ideal)) (x1 : (⟨S2x3200000, .i32⟩ : BufTy).Contents (Elt Ideal))
    (h_arg1 : V (Proc.devRef .tc main_arg1) = x1) :
    after s00 V (Proc.devRef .tc main_v13) = val_main_v13 (F := Ideal) x1 := by
  subst h_arg1
  after_results_simp
  all_goals (try simp only [Cert.TypedRef.ofBuf_toBuf, Cert.TypedRef.toBuf_ofBuf, toBuf_cst_3, ofBuf_cst_3, toBuf_call0_v0, ofBuf_call0_v0, toBuf_call0_v1, ofBuf_call0_v1, toBuf_v13, ofBuf_v13, toBuf_v16, ofBuf_v16, toBuf_v17, ofBuf_v17, toBuf_call1_cst, ofBuf_call1_cst, toBuf_call1_v0, ofBuf_call1_v0, toBuf_v37, ofBuf_v37, toBuf_v38, ofBuf_v38])
  all_goals rfl

set_option maxHeartbeats 4000000 in
theorem r00_v16 (V : Valuation τ sig (Elt Ideal)) (x1 : (⟨S2x3200000, .i32⟩ : BufTy).Contents (Elt Ideal))
    (h_arg1 : V (Proc.devRef .tc main_arg1) = x1) :
    after s00 V (Proc.devRef .tc main_v16) = val_main_v16 (F := Ideal) x1 := by
  subst h_arg1
  after_results_simp
  all_goals (try simp only [Cert.TypedRef.ofBuf_toBuf, Cert.TypedRef.toBuf_ofBuf, toBuf_cst_3, ofBuf_cst_3, toBuf_call0_v0, ofBuf_call0_v0, toBuf_call0_v1, ofBuf_call0_v1, toBuf_v13, ofBuf_v13, toBuf_v16, ofBuf_v16, toBuf_v17, ofBuf_v17, toBuf_call1_cst, ofBuf_call1_cst, toBuf_call1_v0, ofBuf_call1_v0, toBuf_v37, ofBuf_v37, toBuf_v38, ofBuf_v38])
  all_goals rfl

set_option maxHeartbeats 4000000 in
theorem r00_v3 (V : Valuation τ sig (Elt Ideal)) (x1 : (⟨S2x3200000, .i32⟩ : BufTy).Contents (Elt Ideal))
    (h_arg1 : V (Proc.devRef .tc main_arg1) = x1) :
    after s00 V (Proc.devRef .tc main_v3) = val_main_v3 (F := Ideal) x1 := by
  subst h_arg1
  after_results_simp
  all_goals (try simp only [Cert.TypedRef.ofBuf_toBuf, Cert.TypedRef.toBuf_ofBuf, toBuf_cst_3, ofBuf_cst_3, toBuf_call0_v0, ofBuf_call0_v0, toBuf_call0_v1, ofBuf_call0_v1, toBuf_v13, ofBuf_v13, toBuf_v16, ofBuf_v16, toBuf_v17, ofBuf_v17, toBuf_call1_cst, ofBuf_call1_cst, toBuf_call1_v0, ofBuf_call1_v0, toBuf_v37, ofBuf_v37, toBuf_v38, ofBuf_v38])
  all_goals rfl

set_option maxHeartbeats 4000000 in
theorem r00_v7 (V : Valuation τ sig (Elt Ideal)) (x1 : (⟨S2x3200000, .i32⟩ : BufTy).Contents (Elt Ideal))
    (h_arg1 : V (Proc.devRef .tc main_arg1) = x1) :
    after s00 V (Proc.devRef .tc main_v7) = val_main_v7 (F := Ideal) x1 := by
  subst h_arg1
  after_results_simp
  all_goals (try simp only [Cert.TypedRef.ofBuf_toBuf, Cert.TypedRef.toBuf_ofBuf, toBuf_cst_3, ofBuf_cst_3, toBuf_call0_v0, ofBuf_call0_v0, toBuf_call0_v1, ofBuf_call0_v1, toBuf_v13, ofBuf_v13, toBuf_v16, ofBuf_v16, toBuf_v17, ofBuf_v17, toBuf_call1_cst, ofBuf_call1_cst, toBuf_call1_v0, ofBuf_call1_v0, toBuf_v37, ofBuf_v37, toBuf_v38, ofBuf_v38])
  all_goals rfl

set_option maxHeartbeats 4000000 in
theorem r01_v17 (V : Valuation τ sig (Elt Ideal)) (x1 : (⟨S2x3200000, .i32⟩ : BufTy).Contents (Elt Ideal))
    (h_cst_3 : V (Proc.devRef .tc main_cst_3) = val_main_cst_3 (F := Ideal))
    (h_v13 : V (Proc.devRef .tc main_v13) = val_main_v13 (F := Ideal) x1)
    (h_v16 : V (Proc.devRef .tc main_v16) = val_main_v16 (F := Ideal) x1) :
    after s01 V (Proc.devRef .tc main_v17) = val_main_v17 (F := Ideal) x1 := by
  after_results_simp
  all_goals (try simp only [Cert.TypedRef.ofBuf_toBuf, Cert.TypedRef.toBuf_ofBuf, toBuf_cst_3, ofBuf_cst_3, toBuf_call0_v0, ofBuf_call0_v0, toBuf_call0_v1, ofBuf_call0_v1, toBuf_v13, ofBuf_v13, toBuf_v16, ofBuf_v16, toBuf_v17, ofBuf_v17, toBuf_call1_cst, ofBuf_call1_cst, toBuf_call1_v0, ofBuf_call1_v0, toBuf_v37, ofBuf_v37, toBuf_v38, ofBuf_v38, h_cst_3, h_v13, h_v16])
  all_goals (repeat (first | rw [h_cst_3] | rw [h_v13] | rw [h_v16]))
  all_goals rfl

set_option maxHeartbeats 4000000 in
theorem r02_v32 (V : Valuation τ sig (Elt Ideal)) (x1 : (⟨S2x3200000, .i32⟩ : BufTy).Contents (Elt Ideal))
    (h_v17 : V (Proc.devRef .tc main_v17) = val_main_v17 (F := Ideal) x1)
    (h_v3 : V (Proc.devRef .tc main_v3) = val_main_v3 (F := Ideal) x1)
    (h_v7 : V (Proc.devRef .tc main_v7) = val_main_v7 (F := Ideal) x1) :
    after s02 V (Proc.devRef .tc main_v32) = val_main_v32 (F := Ideal) x1 := by
  after_results_simp
  all_goals (try simp only [Cert.TypedRef.ofBuf_toBuf, Cert.TypedRef.toBuf_ofBuf, toBuf_cst_3, ofBuf_cst_3, toBuf_call0_v0, ofBuf_call0_v0, toBuf_call0_v1, ofBuf_call0_v1, toBuf_v13, ofBuf_v13, toBuf_v16, ofBuf_v16, toBuf_v17, ofBuf_v17, toBuf_call1_cst, ofBuf_call1_cst, toBuf_call1_v0, ofBuf_call1_v0, toBuf_v37, ofBuf_v37, toBuf_v38, ofBuf_v38, h_v17, h_v3, h_v7])
  all_goals (repeat (first | rw [h_v17] | rw [h_v3] | rw [h_v7]))
  all_goals rfl

set_option maxHeartbeats 4000000 in
theorem r03_v46 (V : Valuation τ sig (Elt Ideal)) (x0 : (⟨S100000x128, .f32⟩ : BufTy).Contents (Elt Ideal)) (x2 : (⟨S32x128, .f32⟩ : BufTy).Contents (Elt Ideal)) (x3 : (⟨S32, .f32⟩ : BufTy).Contents (Elt Ideal))
    (h_arg0 : V (Proc.devRef .tc main_arg0) = x0)
    (h_arg2 : V (Proc.devRef .tc main_arg2) = x2)
    (h_arg3 : V (Proc.devRef .tc main_arg3) = x3) :
    after s03 V (Proc.devRef .tc main_v46) = val_main_v46 (F := Ideal) x0 x2 x3 := by
  subst h_arg0 h_arg2 h_arg3
  after_results_simp
  all_goals (try simp only [Cert.TypedRef.ofBuf_toBuf, Cert.TypedRef.toBuf_ofBuf, toBuf_cst_3, ofBuf_cst_3, toBuf_call0_v0, ofBuf_call0_v0, toBuf_call0_v1, ofBuf_call0_v1, toBuf_v13, ofBuf_v13, toBuf_v16, ofBuf_v16, toBuf_v17, ofBuf_v17, toBuf_call1_cst, ofBuf_call1_cst, toBuf_call1_v0, ofBuf_call1_v0, toBuf_v37, ofBuf_v37, toBuf_v38, ofBuf_v38])
  all_goals rfl

set_option maxHeartbeats 4000000 in
theorem r03_v47 (V : Valuation τ sig (Elt Ideal)) (x0 : (⟨S100000x128, .f32⟩ : BufTy).Contents (Elt Ideal)) (x2 : (⟨S32x128, .f32⟩ : BufTy).Contents (Elt Ideal)) (x3 : (⟨S32, .f32⟩ : BufTy).Contents (Elt Ideal))
    (h_arg0 : V (Proc.devRef .tc main_arg0) = x0)
    (h_arg2 : V (Proc.devRef .tc main_arg2) = x2)
    (h_arg3 : V (Proc.devRef .tc main_arg3) = x3) :
    after s03 V (Proc.devRef .tc main_v47) = val_main_v47 (F := Ideal) x0 x2 x3 := by
  subst h_arg0 h_arg2 h_arg3
  after_results_simp
  all_goals (try simp only [Cert.TypedRef.ofBuf_toBuf, Cert.TypedRef.toBuf_ofBuf, toBuf_cst_3, ofBuf_cst_3, toBuf_call0_v0, ofBuf_call0_v0, toBuf_call0_v1, ofBuf_call0_v1, toBuf_v13, ofBuf_v13, toBuf_v16, ofBuf_v16, toBuf_v17, ofBuf_v17, toBuf_call1_cst, ofBuf_call1_cst, toBuf_call1_v0, ofBuf_call1_v0, toBuf_v37, ofBuf_v37, toBuf_v38, ofBuf_v38])
  all_goals rfl

set_option maxHeartbeats 4000000 in
theorem r04_v53 (V : Valuation τ sig (Elt Ideal)) (x0 : (⟨S100000x128, .f32⟩ : BufTy).Contents (Elt Ideal)) (x2 : (⟨S32x128, .f32⟩ : BufTy).Contents (Elt Ideal)) (x3 : (⟨S32, .f32⟩ : BufTy).Contents (Elt Ideal))
    (h_v46 : V (Proc.devRef .tc main_v46) = val_main_v46 (F := Ideal) x0 x2 x3)
    (h_v47 : V (Proc.devRef .tc main_v47) = val_main_v47 (F := Ideal) x0 x2 x3) :
    after s04 V (Proc.devRef .tc main_v53) = val_main_v53 (F := Ideal) x0 x2 x3 := by
  after_results_simp
  all_goals (try simp only [Cert.TypedRef.ofBuf_toBuf, Cert.TypedRef.toBuf_ofBuf, toBuf_cst_3, ofBuf_cst_3, toBuf_call0_v0, ofBuf_call0_v0, toBuf_call0_v1, ofBuf_call0_v1, toBuf_v13, ofBuf_v13, toBuf_v16, ofBuf_v16, toBuf_v17, ofBuf_v17, toBuf_call1_cst, ofBuf_call1_cst, toBuf_call1_v0, ofBuf_call1_v0, toBuf_v37, ofBuf_v37, toBuf_v38, ofBuf_v38, h_v46, h_v47])
  all_goals (repeat (first | rw [h_v46] | rw [h_v47]))
  all_goals rfl

set_option maxHeartbeats 4000000 in
theorem r05_v66 (V : Valuation τ sig (Elt Ideal)) (x0 : (⟨S100000x128, .f32⟩ : BufTy).Contents (Elt Ideal)) (x1 : (⟨S2x3200000, .i32⟩ : BufTy).Contents (Elt Ideal)) (x2 : (⟨S32x128, .f32⟩ : BufTy).Contents (Elt Ideal)) (x3 : (⟨S32, .f32⟩ : BufTy).Contents (Elt Ideal))
    (h_v3 : V (Proc.devRef .tc main_v3) = val_main_v3 (F := Ideal) x1)
    (h_v32 : V (Proc.devRef .tc main_v32) = val_main_v32 (F := Ideal) x1)
    (h_v53 : V (Proc.devRef .tc main_v53) = val_main_v53 (F := Ideal) x0 x2 x3)
    (h_v7 : V (Proc.devRef .tc main_v7) = val_main_v7 (F := Ideal) x1) :
    after s05 V (Proc.devRef .tc main_v66) = val_main_v66 (F := Ideal) x0 x1 x2 x3 := by
  after_results_simp
  all_goals (try simp only [Cert.TypedRef.ofBuf_toBuf, Cert.TypedRef.toBuf_ofBuf, toBuf_cst_3, ofBuf_cst_3, toBuf_call0_v0, ofBuf_call0_v0, toBuf_call0_v1, ofBuf_call0_v1, toBuf_v13, ofBuf_v13, toBuf_v16, ofBuf_v16, toBuf_v17, ofBuf_v17, toBuf_call1_cst, ofBuf_call1_cst, toBuf_call1_v0, ofBuf_call1_v0, toBuf_v37, ofBuf_v37, toBuf_v38, ofBuf_v38, h_v3, h_v32, h_v53, h_v7])
  all_goals (repeat (first | rw [h_v3] | rw [h_v32] | rw [h_v53] | rw [h_v7]))
  all_goals rfl

set_option maxHeartbeats 4000000 in
theorem r06_v71 (V : Valuation τ sig (Elt Ideal)) (x0 : (⟨S100000x128, .f32⟩ : BufTy).Contents (Elt Ideal)) (x1 : (⟨S2x3200000, .i32⟩ : BufTy).Contents (Elt Ideal)) (x2 : (⟨S32x128, .f32⟩ : BufTy).Contents (Elt Ideal)) (x3 : (⟨S32, .f32⟩ : BufTy).Contents (Elt Ideal)) (x4 : (⟨S32x32, .f32⟩ : BufTy).Contents (Elt Ideal)) (x5 : (⟨S32, .f32⟩ : BufTy).Contents (Elt Ideal))
    (h_arg4 : V (Proc.devRef .tc main_arg4) = x4)
    (h_arg5 : V (Proc.devRef .tc main_arg5) = x5)
    (h_v66 : V (Proc.devRef .tc main_v66) = val_main_v66 (F := Ideal) x0 x1 x2 x3) :
    after s06 V (Proc.devRef .tc main_v71) = val_main_v71 (F := Ideal) x0 x1 x2 x3 x4 x5 := by
  subst h_arg4 h_arg5
  after_results_simp
  all_goals (try simp only [Cert.TypedRef.ofBuf_toBuf, Cert.TypedRef.toBuf_ofBuf, toBuf_cst_3, ofBuf_cst_3, toBuf_call0_v0, ofBuf_call0_v0, toBuf_call0_v1, ofBuf_call0_v1, toBuf_v13, ofBuf_v13, toBuf_v16, ofBuf_v16, toBuf_v17, ofBuf_v17, toBuf_call1_cst, ofBuf_call1_cst, toBuf_call1_v0, ofBuf_call1_v0, toBuf_v37, ofBuf_v37, toBuf_v38, ofBuf_v38, h_v66])
  all_goals (repeat (first | rw [h_v66]))
  all_goals rfl

set_option maxHeartbeats 4000000 in
theorem r07_v84 (V : Valuation τ sig (Elt Ideal)) (x0 : (⟨S100000x128, .f32⟩ : BufTy).Contents (Elt Ideal)) (x1 : (⟨S2x3200000, .i32⟩ : BufTy).Contents (Elt Ideal)) (x2 : (⟨S32x128, .f32⟩ : BufTy).Contents (Elt Ideal)) (x3 : (⟨S32, .f32⟩ : BufTy).Contents (Elt Ideal)) (x4 : (⟨S32x32, .f32⟩ : BufTy).Contents (Elt Ideal)) (x5 : (⟨S32, .f32⟩ : BufTy).Contents (Elt Ideal))
    (h_v3 : V (Proc.devRef .tc main_v3) = val_main_v3 (F := Ideal) x1)
    (h_v32 : V (Proc.devRef .tc main_v32) = val_main_v32 (F := Ideal) x1)
    (h_v7 : V (Proc.devRef .tc main_v7) = val_main_v7 (F := Ideal) x1)
    (h_v71 : V (Proc.devRef .tc main_v71) = val_main_v71 (F := Ideal) x0 x1 x2 x3 x4 x5) :
    after s07 V (Proc.devRef .tc main_v84) = val_main_v84 (F := Ideal) x0 x1 x2 x3 x4 x5 := by
  after_results_simp
  all_goals (try simp only [Cert.TypedRef.ofBuf_toBuf, Cert.TypedRef.toBuf_ofBuf, toBuf_cst_3, ofBuf_cst_3, toBuf_call0_v0, ofBuf_call0_v0, toBuf_call0_v1, ofBuf_call0_v1, toBuf_v13, ofBuf_v13, toBuf_v16, ofBuf_v16, toBuf_v17, ofBuf_v17, toBuf_call1_cst, ofBuf_call1_cst, toBuf_call1_v0, ofBuf_call1_v0, toBuf_v37, ofBuf_v37, toBuf_v38, ofBuf_v38, h_v3, h_v32, h_v7, h_v71])
  all_goals (repeat (first | rw [h_v3] | rw [h_v32] | rw [h_v7] | rw [h_v71]))
  all_goals rfl

set_option maxHeartbeats 4000000 in
theorem r08_v89 (V : Valuation τ sig (Elt Ideal)) (x0 : (⟨S100000x128, .f32⟩ : BufTy).Contents (Elt Ideal)) (x1 : (⟨S2x3200000, .i32⟩ : BufTy).Contents (Elt Ideal)) (x2 : (⟨S32x128, .f32⟩ : BufTy).Contents (Elt Ideal)) (x3 : (⟨S32, .f32⟩ : BufTy).Contents (Elt Ideal)) (x4 : (⟨S32x32, .f32⟩ : BufTy).Contents (Elt Ideal)) (x5 : (⟨S32, .f32⟩ : BufTy).Contents (Elt Ideal)) (x6 : (⟨S32x32, .f32⟩ : BufTy).Contents (Elt Ideal)) (x7 : (⟨S32, .f32⟩ : BufTy).Contents (Elt Ideal))
    (h_arg6 : V (Proc.devRef .tc main_arg6) = x6)
    (h_arg7 : V (Proc.devRef .tc main_arg7) = x7)
    (h_v84 : V (Proc.devRef .tc main_v84) = val_main_v84 (F := Ideal) x0 x1 x2 x3 x4 x5) :
    after s08 V (Proc.devRef .tc main_v89) = val_main_v89 (F := Ideal) x0 x1 x2 x3 x4 x5 x6 x7 := by
  subst h_arg6 h_arg7
  after_results_simp
  all_goals (try simp only [Cert.TypedRef.ofBuf_toBuf, Cert.TypedRef.toBuf_ofBuf, toBuf_cst_3, ofBuf_cst_3, toBuf_call0_v0, ofBuf_call0_v0, toBuf_call0_v1, ofBuf_call0_v1, toBuf_v13, ofBuf_v13, toBuf_v16, ofBuf_v16, toBuf_v17, ofBuf_v17, toBuf_call1_cst, ofBuf_call1_cst, toBuf_call1_v0, ofBuf_call1_v0, toBuf_v37, ofBuf_v37, toBuf_v38, ofBuf_v38, h_v84])
  all_goals (repeat (first | rw [h_v84]))
  all_goals rfl

set_option maxHeartbeats 4000000 in
theorem r09_v91 (V : Valuation τ sig (Elt Ideal)) (x0 : (⟨S100000x128, .f32⟩ : BufTy).Contents (Elt Ideal)) (x1 : (⟨S2x3200000, .i32⟩ : BufTy).Contents (Elt Ideal)) (x2 : (⟨S32x128, .f32⟩ : BufTy).Contents (Elt Ideal)) (x3 : (⟨S32, .f32⟩ : BufTy).Contents (Elt Ideal)) (x4 : (⟨S32x32, .f32⟩ : BufTy).Contents (Elt Ideal)) (x5 : (⟨S32, .f32⟩ : BufTy).Contents (Elt Ideal)) (x6 : (⟨S32x32, .f32⟩ : BufTy).Contents (Elt Ideal)) (x7 : (⟨S32, .f32⟩ : BufTy).Contents (Elt Ideal))
    (h_v89 : V (Proc.devRef .tc main_v89) = val_main_v89 (F := Ideal) x0 x1 x2 x3 x4 x5 x6 x7) :
    after s09 V (Proc.devRef .tc main_v91) = val_main_v91 (F := Ideal) x0 x1 x2 x3 x4 x5 x6 x7 := by
  after_results_simp
  all_goals (try simp only [Cert.TypedRef.ofBuf_toBuf, Cert.TypedRef.toBuf_ofBuf, toBuf_cst_3, ofBuf_cst_3, toBuf_call0_v0, ofBuf_call0_v0, toBuf_call0_v1, ofBuf_call0_v1, toBuf_v13, ofBuf_v13, toBuf_v16, ofBuf_v16, toBuf_v17, ofBuf_v17, toBuf_call1_cst, ofBuf_call1_cst, toBuf_call1_v0, ofBuf_call1_v0, toBuf_v37, ofBuf_v37, toBuf_v38, ofBuf_v38, h_v89])
  all_goals (repeat (first | rw [h_v89]))
  all_goals rfl

set_option maxHeartbeats 4000000 in
theorem r09_v93 (V : Valuation τ sig (Elt Ideal)) (x0 : (⟨S100000x128, .f32⟩ : BufTy).Contents (Elt Ideal)) (x1 : (⟨S2x3200000, .i32⟩ : BufTy).Contents (Elt Ideal)) (x2 : (⟨S32x128, .f32⟩ : BufTy).Contents (Elt Ideal)) (x3 : (⟨S32, .f32⟩ : BufTy).Contents (Elt Ideal)) (x4 : (⟨S32x32, .f32⟩ : BufTy).Contents (Elt Ideal)) (x5 : (⟨S32, .f32⟩ : BufTy).Contents (Elt Ideal)) (x6 : (⟨S32x32, .f32⟩ : BufTy).Contents (Elt Ideal)) (x7 : (⟨S32, .f32⟩ : BufTy).Contents (Elt Ideal))
    (h_v89 : V (Proc.devRef .tc main_v89) = val_main_v89 (F := Ideal) x0 x1 x2 x3 x4 x5 x6 x7) :
    after s09 V (Proc.devRef .tc main_v93) = val_main_v93 (F := Ideal) x0 x1 x2 x3 x4 x5 x6 x7 := by
  after_results_simp
  all_goals (try simp only [Cert.TypedRef.ofBuf_toBuf, Cert.TypedRef.toBuf_ofBuf, toBuf_cst_3, ofBuf_cst_3, toBuf_call0_v0, ofBuf_call0_v0, toBuf_call0_v1, ofBuf_call0_v1, toBuf_v13, ofBuf_v13, toBuf_v16, ofBuf_v16, toBuf_v17, ofBuf_v17, toBuf_call1_cst, ofBuf_call1_cst, toBuf_call1_v0, ofBuf_call1_v0, toBuf_v37, ofBuf_v37, toBuf_v38, ofBuf_v38, h_v89])
  all_goals (repeat (first | rw [h_v89]))
  all_goals rfl

set_option maxHeartbeats 4000000 in
theorem r09_v95 (V : Valuation τ sig (Elt Ideal)) (x0 : (⟨S100000x128, .f32⟩ : BufTy).Contents (Elt Ideal)) (x1 : (⟨S2x3200000, .i32⟩ : BufTy).Contents (Elt Ideal)) (x2 : (⟨S32x128, .f32⟩ : BufTy).Contents (Elt Ideal)) (x3 : (⟨S32, .f32⟩ : BufTy).Contents (Elt Ideal)) (x4 : (⟨S32x32, .f32⟩ : BufTy).Contents (Elt Ideal)) (x5 : (⟨S32, .f32⟩ : BufTy).Contents (Elt Ideal)) (x6 : (⟨S32x32, .f32⟩ : BufTy).Contents (Elt Ideal)) (x7 : (⟨S32, .f32⟩ : BufTy).Contents (Elt Ideal))
    (h_v89 : V (Proc.devRef .tc main_v89) = val_main_v89 (F := Ideal) x0 x1 x2 x3 x4 x5 x6 x7) :
    after s09 V (Proc.devRef .tc main_v95) = val_main_v95 (F := Ideal) x0 x1 x2 x3 x4 x5 x6 x7 := by
  after_results_simp
  all_goals (try simp only [Cert.TypedRef.ofBuf_toBuf, Cert.TypedRef.toBuf_ofBuf, toBuf_cst_3, ofBuf_cst_3, toBuf_call0_v0, ofBuf_call0_v0, toBuf_call0_v1, ofBuf_call0_v1, toBuf_v13, ofBuf_v13, toBuf_v16, ofBuf_v16, toBuf_v17, ofBuf_v17, toBuf_call1_cst, ofBuf_call1_cst, toBuf_call1_v0, ofBuf_call1_v0, toBuf_v37, ofBuf_v37, toBuf_v38, ofBuf_v38, h_v89])
  all_goals (repeat (first | rw [h_v89]))
  all_goals rfl

set_option maxHeartbeats 4000000 in
theorem r09_v96 (V : Valuation τ sig (Elt Ideal)) :
    after s09 V (Proc.devRef .tc main_v96) = val_main_v96 (F := Ideal) := by
  after_results_simp
  all_goals (try simp only [Cert.TypedRef.ofBuf_toBuf, Cert.TypedRef.toBuf_ofBuf, toBuf_cst_3, ofBuf_cst_3, toBuf_call0_v0, ofBuf_call0_v0, toBuf_call0_v1, ofBuf_call0_v1, toBuf_v13, ofBuf_v13, toBuf_v16, ofBuf_v16, toBuf_v17, ofBuf_v17, toBuf_call1_cst, ofBuf_call1_cst, toBuf_call1_v0, ofBuf_call1_v0, toBuf_v37, ofBuf_v37, toBuf_v38, ofBuf_v38])
  all_goals rfl

set_option maxHeartbeats 4000000 in
theorem r10_v104 (V : Valuation τ sig (Elt Ideal)) (x0 : (⟨S100000x128, .f32⟩ : BufTy).Contents (Elt Ideal)) (x1 : (⟨S2x3200000, .i32⟩ : BufTy).Contents (Elt Ideal)) (x2 : (⟨S32x128, .f32⟩ : BufTy).Contents (Elt Ideal)) (x3 : (⟨S32, .f32⟩ : BufTy).Contents (Elt Ideal)) (x4 : (⟨S32x32, .f32⟩ : BufTy).Contents (Elt Ideal)) (x5 : (⟨S32, .f32⟩ : BufTy).Contents (Elt Ideal)) (x6 : (⟨S32x32, .f32⟩ : BufTy).Contents (Elt Ideal)) (x7 : (⟨S32, .f32⟩ : BufTy).Contents (Elt Ideal))
    (h_v91 : V (Proc.devRef .tc main_v91) = val_main_v91 (F := Ideal) x0 x1 x2 x3 x4 x5 x6 x7)
    (h_v93 : V (Proc.devRef .tc main_v93) = val_main_v93 (F := Ideal) x0 x1 x2 x3 x4 x5 x6 x7)
    (h_v95 : V (Proc.devRef .tc main_v95) = val_main_v95 (F := Ideal) x0 x1 x2 x3 x4 x5 x6 x7)
    (h_v96 : V (Proc.devRef .tc main_v96) = val_main_v96 (F := Ideal)) :
    after s10 V (Proc.devRef .tc main_v104) = val_main_v104 (F := Ideal) x0 x1 x2 x3 x4 x5 x6 x7 := by
  after_results_simp
  all_goals (try simp only [Cert.TypedRef.ofBuf_toBuf, Cert.TypedRef.toBuf_ofBuf, toBuf_cst_3, ofBuf_cst_3, toBuf_call0_v0, ofBuf_call0_v0, toBuf_call0_v1, ofBuf_call0_v1, toBuf_v13, ofBuf_v13, toBuf_v16, ofBuf_v16, toBuf_v17, ofBuf_v17, toBuf_call1_cst, ofBuf_call1_cst, toBuf_call1_v0, ofBuf_call1_v0, toBuf_v37, ofBuf_v37, toBuf_v38, ofBuf_v38, h_v91, h_v93, h_v95, h_v96])
  all_goals (repeat (first | rw [h_v91] | rw [h_v93] | rw [h_v95] | rw [h_v96]))
  all_goals rfl

set_option maxHeartbeats 4000000 in
theorem r11_v120 (V : Valuation τ sig (Elt Ideal)) (x0 : (⟨S100000x128, .f32⟩ : BufTy).Contents (Elt Ideal)) (x1 : (⟨S2x3200000, .i32⟩ : BufTy).Contents (Elt Ideal)) (x2 : (⟨S32x128, .f32⟩ : BufTy).Contents (Elt Ideal)) (x3 : (⟨S32, .f32⟩ : BufTy).Contents (Elt Ideal)) (x4 : (⟨S32x32, .f32⟩ : BufTy).Contents (Elt Ideal)) (x5 : (⟨S32, .f32⟩ : BufTy).Contents (Elt Ideal)) (x6 : (⟨S32x32, .f32⟩ : BufTy).Contents (Elt Ideal)) (x7 : (⟨S32, .f32⟩ : BufTy).Contents (Elt Ideal))
    (h_v104 : V (Proc.devRef .tc main_v104) = val_main_v104 (F := Ideal) x0 x1 x2 x3 x4 x5 x6 x7)
    (h_v53 : V (Proc.devRef .tc main_v53) = val_main_v53 (F := Ideal) x0 x2 x3) :
    after s11 V (Proc.devRef .tc main_v120) = val_main_v120 (F := Ideal) x0 x1 x2 x3 x4 x5 x6 x7 := by
  after_results_simp
  all_goals (try simp only [Cert.TypedRef.ofBuf_toBuf, Cert.TypedRef.toBuf_ofBuf, toBuf_cst_3, ofBuf_cst_3, toBuf_call0_v0, ofBuf_call0_v0, toBuf_call0_v1, ofBuf_call0_v1, toBuf_v13, ofBuf_v13, toBuf_v16, ofBuf_v16, toBuf_v17, ofBuf_v17, toBuf_call1_cst, ofBuf_call1_cst, toBuf_call1_v0, ofBuf_call1_v0, toBuf_v37, ofBuf_v37, toBuf_v38, ofBuf_v38, h_v104, h_v53])
  all_goals (repeat (first | rw [h_v104] | rw [h_v53]))
  all_goals rfl

set_option maxHeartbeats 4000000 in
theorem r12_v133 (V : Valuation τ sig (Elt Ideal)) (x0 : (⟨S100000x128, .f32⟩ : BufTy).Contents (Elt Ideal)) (x1 : (⟨S2x3200000, .i32⟩ : BufTy).Contents (Elt Ideal)) (x2 : (⟨S32x128, .f32⟩ : BufTy).Contents (Elt Ideal)) (x3 : (⟨S32, .f32⟩ : BufTy).Contents (Elt Ideal)) (x4 : (⟨S32x32, .f32⟩ : BufTy).Contents (Elt Ideal)) (x5 : (⟨S32, .f32⟩ : BufTy).Contents (Elt Ideal)) (x6 : (⟨S32x32, .f32⟩ : BufTy).Contents (Elt Ideal)) (x7 : (⟨S32, .f32⟩ : BufTy).Contents (Elt Ideal))
    (h_v3 : V (Proc.devRef .tc main_v3) = val_main_v3 (F := Ideal) x1)
    (h_v32 : V (Proc.devRef .tc main_v32) = val_main_v32 (F := Ideal) x1)
    (h_v7 : V (Proc.devRef .tc main_v7) = val_main_v7 (F := Ideal) x1)
    (h_v89 : V (Proc.devRef .tc main_v89) = val_main_v89 (F := Ideal) x0 x1 x2 x3 x4 x5 x6 x7) :
    after s12 V (Proc.devRef .tc main_v133) = val_main_v133 (F := Ideal) x0 x1 x2 x3 x4 x5 x6 x7 := by
  after_results_simp
  all_goals (try simp only [Cert.TypedRef.ofBuf_toBuf, Cert.TypedRef.toBuf_ofBuf, toBuf_cst_3, ofBuf_cst_3, toBuf_call0_v0, ofBuf_call0_v0, toBuf_call0_v1, ofBuf_call0_v1, toBuf_v13, ofBuf_v13, toBuf_v16, ofBuf_v16, toBuf_v17, ofBuf_v17, toBuf_call1_cst, ofBuf_call1_cst, toBuf_call1_v0, ofBuf_call1_v0, toBuf_v37, ofBuf_v37, toBuf_v38, ofBuf_v38, h_v3, h_v32, h_v7, h_v89])
  all_goals (repeat (first | rw [h_v3] | rw [h_v32] | rw [h_v7] | rw [h_v89]))
  all_goals rfl

set_option maxHeartbeats 4000000 in
theorem r13_v138 (V : Valuation τ sig (Elt Ideal)) (x0 : (⟨S100000x128, .f32⟩ : BufTy).Contents (Elt Ideal)) (x1 : (⟨S2x3200000, .i32⟩ : BufTy).Contents (Elt Ideal)) (x2 : (⟨S32x128, .f32⟩ : BufTy).Contents (Elt Ideal)) (x3 : (⟨S32, .f32⟩ : BufTy).Contents (Elt Ideal)) (x4 : (⟨S32x32, .f32⟩ : BufTy).Contents (Elt Ideal)) (x5 : (⟨S32, .f32⟩ : BufTy).Contents (Elt Ideal)) (x6 : (⟨S32x32, .f32⟩ : BufTy).Contents (Elt Ideal)) (x7 : (⟨S32, .f32⟩ : BufTy).Contents (Elt Ideal)) (x8 : (⟨S32x32, .f32⟩ : BufTy).Contents (Elt Ideal)) (x9 : (⟨S32, .f32⟩ : BufTy).Contents (Elt Ideal))
    (h_arg8 : V (Proc.devRef .tc main_arg8) = x8)
    (h_arg9 : V (Proc.devRef .tc main_arg9) = x9)
    (h_v133 : V (Proc.devRef .tc main_v133) = val_main_v133 (F := Ideal) x0 x1 x2 x3 x4 x5 x6 x7) :
    after s13 V (Proc.devRef .tc main_v138) = val_main_v138 (F := Ideal) x0 x1 x2 x3 x4 x5 x6 x7 x8 x9 := by
  subst h_arg8 h_arg9
  after_results_simp
  all_goals (try simp only [Cert.TypedRef.ofBuf_toBuf, Cert.TypedRef.toBuf_ofBuf, toBuf_cst_3, ofBuf_cst_3, toBuf_call0_v0, ofBuf_call0_v0, toBuf_call0_v1, ofBuf_call0_v1, toBuf_v13, ofBuf_v13, toBuf_v16, ofBuf_v16, toBuf_v17, ofBuf_v17, toBuf_call1_cst, ofBuf_call1_cst, toBuf_call1_v0, ofBuf_call1_v0, toBuf_v37, ofBuf_v37, toBuf_v38, ofBuf_v38, h_v133])
  all_goals (repeat (first | rw [h_v133]))
  all_goals rfl

set_option maxHeartbeats 4000000 in
theorem r14_v140 (V : Valuation τ sig (Elt Ideal)) (x0 : (⟨S100000x128, .f32⟩ : BufTy).Contents (Elt Ideal)) (x1 : (⟨S2x3200000, .i32⟩ : BufTy).Contents (Elt Ideal)) (x2 : (⟨S32x128, .f32⟩ : BufTy).Contents (Elt Ideal)) (x3 : (⟨S32, .f32⟩ : BufTy).Contents (Elt Ideal)) (x4 : (⟨S32x32, .f32⟩ : BufTy).Contents (Elt Ideal)) (x5 : (⟨S32, .f32⟩ : BufTy).Contents (Elt Ideal)) (x6 : (⟨S32x32, .f32⟩ : BufTy).Contents (Elt Ideal)) (x7 : (⟨S32, .f32⟩ : BufTy).Contents (Elt Ideal)) (x8 : (⟨S32x32, .f32⟩ : BufTy).Contents (Elt Ideal)) (x9 : (⟨S32, .f32⟩ : BufTy).Contents (Elt Ideal))
    (h_v138 : V (Proc.devRef .tc main_v138) = val_main_v138 (F := Ideal) x0 x1 x2 x3 x4 x5 x6 x7 x8 x9) :
    after s14 V (Proc.devRef .tc main_v140) = val_main_v140 (F := Ideal) x0 x1 x2 x3 x4 x5 x6 x7 x8 x9 := by
  after_results_simp
  all_goals (try simp only [Cert.TypedRef.ofBuf_toBuf, Cert.TypedRef.toBuf_ofBuf, toBuf_cst_3, ofBuf_cst_3, toBuf_call0_v0, ofBuf_call0_v0, toBuf_call0_v1, ofBuf_call0_v1, toBuf_v13, ofBuf_v13, toBuf_v16, ofBuf_v16, toBuf_v17, ofBuf_v17, toBuf_call1_cst, ofBuf_call1_cst, toBuf_call1_v0, ofBuf_call1_v0, toBuf_v37, ofBuf_v37, toBuf_v38, ofBuf_v38, h_v138])
  all_goals (repeat (first | rw [h_v138]))
  all_goals rfl

set_option maxHeartbeats 4000000 in
theorem r14_v142 (V : Valuation τ sig (Elt Ideal)) (x0 : (⟨S100000x128, .f32⟩ : BufTy).Contents (Elt Ideal)) (x1 : (⟨S2x3200000, .i32⟩ : BufTy).Contents (Elt Ideal)) (x2 : (⟨S32x128, .f32⟩ : BufTy).Contents (Elt Ideal)) (x3 : (⟨S32, .f32⟩ : BufTy).Contents (Elt Ideal)) (x4 : (⟨S32x32, .f32⟩ : BufTy).Contents (Elt Ideal)) (x5 : (⟨S32, .f32⟩ : BufTy).Contents (Elt Ideal)) (x6 : (⟨S32x32, .f32⟩ : BufTy).Contents (Elt Ideal)) (x7 : (⟨S32, .f32⟩ : BufTy).Contents (Elt Ideal)) (x8 : (⟨S32x32, .f32⟩ : BufTy).Contents (Elt Ideal)) (x9 : (⟨S32, .f32⟩ : BufTy).Contents (Elt Ideal))
    (h_v138 : V (Proc.devRef .tc main_v138) = val_main_v138 (F := Ideal) x0 x1 x2 x3 x4 x5 x6 x7 x8 x9) :
    after s14 V (Proc.devRef .tc main_v142) = val_main_v142 (F := Ideal) x0 x1 x2 x3 x4 x5 x6 x7 x8 x9 := by
  after_results_simp
  all_goals (try simp only [Cert.TypedRef.ofBuf_toBuf, Cert.TypedRef.toBuf_ofBuf, toBuf_cst_3, ofBuf_cst_3, toBuf_call0_v0, ofBuf_call0_v0, toBuf_call0_v1, ofBuf_call0_v1, toBuf_v13, ofBuf_v13, toBuf_v16, ofBuf_v16, toBuf_v17, ofBuf_v17, toBuf_call1_cst, ofBuf_call1_cst, toBuf_call1_v0, ofBuf_call1_v0, toBuf_v37, ofBuf_v37, toBuf_v38, ofBuf_v38, h_v138])
  all_goals (repeat (first | rw [h_v138]))
  all_goals rfl

set_option maxHeartbeats 4000000 in
theorem r14_v144 (V : Valuation τ sig (Elt Ideal)) (x0 : (⟨S100000x128, .f32⟩ : BufTy).Contents (Elt Ideal)) (x1 : (⟨S2x3200000, .i32⟩ : BufTy).Contents (Elt Ideal)) (x2 : (⟨S32x128, .f32⟩ : BufTy).Contents (Elt Ideal)) (x3 : (⟨S32, .f32⟩ : BufTy).Contents (Elt Ideal)) (x4 : (⟨S32x32, .f32⟩ : BufTy).Contents (Elt Ideal)) (x5 : (⟨S32, .f32⟩ : BufTy).Contents (Elt Ideal)) (x6 : (⟨S32x32, .f32⟩ : BufTy).Contents (Elt Ideal)) (x7 : (⟨S32, .f32⟩ : BufTy).Contents (Elt Ideal)) (x8 : (⟨S32x32, .f32⟩ : BufTy).Contents (Elt Ideal)) (x9 : (⟨S32, .f32⟩ : BufTy).Contents (Elt Ideal))
    (h_v138 : V (Proc.devRef .tc main_v138) = val_main_v138 (F := Ideal) x0 x1 x2 x3 x4 x5 x6 x7 x8 x9) :
    after s14 V (Proc.devRef .tc main_v144) = val_main_v144 (F := Ideal) x0 x1 x2 x3 x4 x5 x6 x7 x8 x9 := by
  after_results_simp
  all_goals (try simp only [Cert.TypedRef.ofBuf_toBuf, Cert.TypedRef.toBuf_ofBuf, toBuf_cst_3, ofBuf_cst_3, toBuf_call0_v0, ofBuf_call0_v0, toBuf_call0_v1, ofBuf_call0_v1, toBuf_v13, ofBuf_v13, toBuf_v16, ofBuf_v16, toBuf_v17, ofBuf_v17, toBuf_call1_cst, ofBuf_call1_cst, toBuf_call1_v0, ofBuf_call1_v0, toBuf_v37, ofBuf_v37, toBuf_v38, ofBuf_v38, h_v138])
  all_goals (repeat (first | rw [h_v138]))
  all_goals rfl

set_option maxHeartbeats 4000000 in
theorem r15_v153 (V : Valuation τ sig (Elt Ideal)) (x0 : (⟨S100000x128, .f32⟩ : BufTy).Contents (Elt Ideal)) (x1 : (⟨S2x3200000, .i32⟩ : BufTy).Contents (Elt Ideal)) (x2 : (⟨S32x128, .f32⟩ : BufTy).Contents (Elt Ideal)) (x3 : (⟨S32, .f32⟩ : BufTy).Contents (Elt Ideal)) (x4 : (⟨S32x32, .f32⟩ : BufTy).Contents (Elt Ideal)) (x5 : (⟨S32, .f32⟩ : BufTy).Contents (Elt Ideal)) (x6 : (⟨S32x32, .f32⟩ : BufTy).Contents (Elt Ideal)) (x7 : (⟨S32, .f32⟩ : BufTy).Contents (Elt Ideal)) (x8 : (⟨S32x32, .f32⟩ : BufTy).Contents (Elt Ideal)) (x9 : (⟨S32, .f32⟩ : BufTy).Contents (Elt Ideal))
    (h_v140 : V (Proc.devRef .tc main_v140) = val_main_v140 (F := Ideal) x0 x1 x2 x3 x4 x5 x6 x7 x8 x9)
    (h_v142 : V (Proc.devRef .tc main_v142) = val_main_v142 (F := Ideal) x0 x1 x2 x3 x4 x5 x6 x7 x8 x9)
    (h_v144 : V (Proc.devRef .tc main_v144) = val_main_v144 (F := Ideal) x0 x1 x2 x3 x4 x5 x6 x7 x8 x9) :
    after s15 V (Proc.devRef .tc main_v153) = val_main_v153 (F := Ideal) x0 x1 x2 x3 x4 x5 x6 x7 x8 x9 := by
  after_results_simp
  all_goals (try simp only [Cert.TypedRef.ofBuf_toBuf, Cert.TypedRef.toBuf_ofBuf, toBuf_cst_3, ofBuf_cst_3, toBuf_call0_v0, ofBuf_call0_v0, toBuf_call0_v1, ofBuf_call0_v1, toBuf_v13, ofBuf_v13, toBuf_v16, ofBuf_v16, toBuf_v17, ofBuf_v17, toBuf_call1_cst, ofBuf_call1_cst, toBuf_call1_v0, ofBuf_call1_v0, toBuf_v37, ofBuf_v37, toBuf_v38, ofBuf_v38, h_v140, h_v142, h_v144])
  all_goals (repeat (first | rw [h_v140] | rw [h_v142] | rw [h_v144]))
  all_goals rfl

set_option maxHeartbeats 4000000 in
theorem r16_v169 (V : Valuation τ sig (Elt Ideal)) (x0 : (⟨S100000x128, .f32⟩ : BufTy).Contents (Elt Ideal)) (x1 : (⟨S2x3200000, .i32⟩ : BufTy).Contents (Elt Ideal)) (x2 : (⟨S32x128, .f32⟩ : BufTy).Contents (Elt Ideal)) (x3 : (⟨S32, .f32⟩ : BufTy).Contents (Elt Ideal)) (x4 : (⟨S32x32, .f32⟩ : BufTy).Contents (Elt Ideal)) (x5 : (⟨S32, .f32⟩ : BufTy).Contents (Elt Ideal)) (x6 : (⟨S32x32, .f32⟩ : BufTy).Contents (Elt Ideal)) (x7 : (⟨S32, .f32⟩ : BufTy).Contents (Elt Ideal)) (x8 : (⟨S32x32, .f32⟩ : BufTy).Contents (Elt Ideal)) (x9 : (⟨S32, .f32⟩ : BufTy).Contents (Elt Ideal))
    (h_v153 : V (Proc.devRef .tc main_v153) = val_main_v153 (F := Ideal) x0 x1 x2 x3 x4 x5 x6 x7 x8 x9)
    (h_v71 : V (Proc.devRef .tc main_v71) = val_main_v71 (F := Ideal) x0 x1 x2 x3 x4 x5) :
    after s16 V (Proc.devRef .tc main_v169) = val_main_v169 (F := Ideal) x0 x1 x2 x3 x4 x5 x6 x7 x8 x9 := by
  after_results_simp
  all_goals (try simp only [Cert.TypedRef.ofBuf_toBuf, Cert.TypedRef.toBuf_ofBuf, toBuf_cst_3, ofBuf_cst_3, toBuf_call0_v0, ofBuf_call0_v0, toBuf_call0_v1, ofBuf_call0_v1, toBuf_v13, ofBuf_v13, toBuf_v16, ofBuf_v16, toBuf_v17, ofBuf_v17, toBuf_call1_cst, ofBuf_call1_cst, toBuf_call1_v0, ofBuf_call1_v0, toBuf_v37, ofBuf_v37, toBuf_v38, ofBuf_v38, h_v153, h_v71])
  all_goals (repeat (first | rw [h_v153] | rw [h_v71]))
  all_goals rfl

set_option maxHeartbeats 4000000 in
theorem r17_v175 (V : Valuation τ sig (Elt Ideal)) (x0 : (⟨S100000x128, .f32⟩ : BufTy).Contents (Elt Ideal)) (x1 : (⟨S2x3200000, .i32⟩ : BufTy).Contents (Elt Ideal)) (x2 : (⟨S32x128, .f32⟩ : BufTy).Contents (Elt Ideal)) (x3 : (⟨S32, .f32⟩ : BufTy).Contents (Elt Ideal)) (x4 : (⟨S32x32, .f32⟩ : BufTy).Contents (Elt Ideal)) (x5 : (⟨S32, .f32⟩ : BufTy).Contents (Elt Ideal)) (x6 : (⟨S32x32, .f32⟩ : BufTy).Contents (Elt Ideal)) (x7 : (⟨S32, .f32⟩ : BufTy).Contents (Elt Ideal)) (x8 : (⟨S32x32, .f32⟩ : BufTy).Contents (Elt Ideal)) (x9 : (⟨S32, .f32⟩ : BufTy).Contents (Elt Ideal)) (x10 : (⟨S64x128, .f32⟩ : BufTy).Contents (Elt Ideal)) (x11 : (⟨S64, .f32⟩ : BufTy).Contents (Elt Ideal))
    (h_arg10 : V (Proc.devRef .tc main_arg10) = x10)
    (h_arg11 : V (Proc.devRef .tc main_arg11) = x11)
    (h_v120 : V (Proc.devRef .tc main_v120) = val_main_v120 (F := Ideal) x0 x1 x2 x3 x4 x5 x6 x7)
    (h_v169 : V (Proc.devRef .tc main_v169) = val_main_v169 (F := Ideal) x0 x1 x2 x3 x4 x5 x6 x7 x8 x9)
    (h_v53 : V (Proc.devRef .tc main_v53) = val_main_v53 (F := Ideal) x0 x2 x3)
    (h_v71 : V (Proc.devRef .tc main_v71) = val_main_v71 (F := Ideal) x0 x1 x2 x3 x4 x5) :
    after s17 V (Proc.devRef .tc main_v175) = val_main_v175 (F := Ideal) x0 x1 x2 x3 x4 x5 x6 x7 x8 x9 x10 x11 := by
  subst h_arg10 h_arg11
  after_results_simp
  show addf (F := Ideal) (Host.dotGeneral (F := Ideal) dot_S100000x128_S128x64_S100000x64_1_0_0_1_n_n none
        (concatenate S100000x128 1
          [⟨S100000x32, V (Proc.devRef .tc main_v53)⟩, ⟨S100000x32, V (Proc.devRef .tc main_v71)⟩,
            ⟨S100000x32, V (Proc.devRef .tc main_v120)⟩, ⟨S100000x32, V (Proc.devRef .tc main_v169)⟩]
          concatenates_S100000x32_S100000x32_S100000x32_S100000x32_S100000x128_d1)
        (transpose S128x64 [1, 0] (V (Proc.devRef .tc main_arg10) : (⟨S64x128, .f32⟩ : BufTy).Contents (Elt Ideal))
          transposes_S64x128_S128x64_1_0))
      (broadcastInDim S100000x64 ![0, 1] bcast_S1x64_S100000x64_0_1
        (broadcastInDim S1x64 ![1] bcast_S64_S1x64_1
          (V (Proc.devRef .tc main_arg11) : (⟨S64, .f32⟩ : BufTy).Contents (Elt Ideal)))) = _
  rw [h_v53, h_v71, h_v120, h_v169]
  rfl

/-! ## Along the program -/

theorem A_arg0_00 (V : Valuation τ sig (Elt Ideal)) : S00 V (Proc.devRef .tc main_arg0) = V (Proc.devRef .tc main_arg0) :=
  (show after s00 V (Proc.devRef .tc main_arg0) = V (Proc.devRef .tc main_arg0) from by keeps s00)
theorem A_arg1_00 (V : Valuation τ sig (Elt Ideal)) : S00 V (Proc.devRef .tc main_arg1) = V (Proc.devRef .tc main_arg1) :=
  (show after s00 V (Proc.devRef .tc main_arg1) = V (Proc.devRef .tc main_arg1) from by keeps s00)
theorem A_arg2_00 (V : Valuation τ sig (Elt Ideal)) : S00 V (Proc.devRef .tc main_arg2) = V (Proc.devRef .tc main_arg2) :=
  (show after s00 V (Proc.devRef .tc main_arg2) = V (Proc.devRef .tc main_arg2) from by keeps s00)
theorem A_arg3_00 (V : Valuation τ sig (Elt Ideal)) : S00 V (Proc.devRef .tc main_arg3) = V (Proc.devRef .tc main_arg3) :=
  (show after s00 V (Proc.devRef .tc main_arg3) = V (Proc.devRef .tc main_arg3) from by keeps s00)
theorem A_arg4_00 (V : Valuation τ sig (Elt Ideal)) : S00 V (Proc.devRef .tc main_arg4) = V (Proc.devRef .tc main_arg4) :=
  (show after s00 V (Proc.devRef .tc main_arg4) = V (Proc.devRef .tc main_arg4) from by keeps s00)
theorem A_arg5_00 (V : Valuation τ sig (Elt Ideal)) : S00 V (Proc.devRef .tc main_arg5) = V (Proc.devRef .tc main_arg5) :=
  (show after s00 V (Proc.devRef .tc main_arg5) = V (Proc.devRef .tc main_arg5) from by keeps s00)
theorem A_arg6_00 (V : Valuation τ sig (Elt Ideal)) : S00 V (Proc.devRef .tc main_arg6) = V (Proc.devRef .tc main_arg6) :=
  (show after s00 V (Proc.devRef .tc main_arg6) = V (Proc.devRef .tc main_arg6) from by keeps s00)
theorem A_arg7_00 (V : Valuation τ sig (Elt Ideal)) : S00 V (Proc.devRef .tc main_arg7) = V (Proc.devRef .tc main_arg7) :=
  (show after s00 V (Proc.devRef .tc main_arg7) = V (Proc.devRef .tc main_arg7) from by keeps s00)
theorem A_arg8_00 (V : Valuation τ sig (Elt Ideal)) : S00 V (Proc.devRef .tc main_arg8) = V (Proc.devRef .tc main_arg8) :=
  (show after s00 V (Proc.devRef .tc main_arg8) = V (Proc.devRef .tc main_arg8) from by keeps s00)
theorem A_arg9_00 (V : Valuation τ sig (Elt Ideal)) : S00 V (Proc.devRef .tc main_arg9) = V (Proc.devRef .tc main_arg9) :=
  (show after s00 V (Proc.devRef .tc main_arg9) = V (Proc.devRef .tc main_arg9) from by keeps s00)
theorem A_arg10_00 (V : Valuation τ sig (Elt Ideal)) : S00 V (Proc.devRef .tc main_arg10) = V (Proc.devRef .tc main_arg10) :=
  (show after s00 V (Proc.devRef .tc main_arg10) = V (Proc.devRef .tc main_arg10) from by keeps s00)
theorem A_arg11_00 (V : Valuation τ sig (Elt Ideal)) : S00 V (Proc.devRef .tc main_arg11) = V (Proc.devRef .tc main_arg11) :=
  (show after s00 V (Proc.devRef .tc main_arg11) = V (Proc.devRef .tc main_arg11) from by keeps s00)
theorem F_cst_3_00 (V : Valuation τ sig (Elt Ideal)) : S00 V (Proc.devRef .tc main_cst_3) = val_main_cst_3 (F := Ideal) :=
  r00_cst_3 V
theorem F_v13_00 (V : Valuation τ sig (Elt Ideal)) : S00 V (Proc.devRef .tc main_v13) = val_main_v13 (F := Ideal) (V (Proc.devRef .tc main_arg1)) :=
  r00_v13 V (V (Proc.devRef .tc main_arg1)) rfl
theorem F_v16_00 (V : Valuation τ sig (Elt Ideal)) : S00 V (Proc.devRef .tc main_v16) = val_main_v16 (F := Ideal) (V (Proc.devRef .tc main_arg1)) :=
  r00_v16 V (V (Proc.devRef .tc main_arg1)) rfl
theorem F_v3_00 (V : Valuation τ sig (Elt Ideal)) : S00 V (Proc.devRef .tc main_v3) = val_main_v3 (F := Ideal) (V (Proc.devRef .tc main_arg1)) :=
  r00_v3 V (V (Proc.devRef .tc main_arg1)) rfl
theorem F_v7_00 (V : Valuation τ sig (Elt Ideal)) : S00 V (Proc.devRef .tc main_v7) = val_main_v7 (F := Ideal) (V (Proc.devRef .tc main_arg1)) :=
  r00_v7 V (V (Proc.devRef .tc main_arg1)) rfl

theorem A_arg0_01 (V : Valuation τ sig (Elt Ideal)) : S01 V (Proc.devRef .tc main_arg0) = V (Proc.devRef .tc main_arg0) :=
  (show after s01 (S00 V) (Proc.devRef .tc main_arg0) = (S00 V) (Proc.devRef .tc main_arg0) from by keeps s01).trans (A_arg0_00 V)
theorem A_arg1_01 (V : Valuation τ sig (Elt Ideal)) : S01 V (Proc.devRef .tc main_arg1) = V (Proc.devRef .tc main_arg1) :=
  (show after s01 (S00 V) (Proc.devRef .tc main_arg1) = (S00 V) (Proc.devRef .tc main_arg1) from by keeps s01).trans (A_arg1_00 V)
theorem A_arg2_01 (V : Valuation τ sig (Elt Ideal)) : S01 V (Proc.devRef .tc main_arg2) = V (Proc.devRef .tc main_arg2) :=
  (show after s01 (S00 V) (Proc.devRef .tc main_arg2) = (S00 V) (Proc.devRef .tc main_arg2) from by keeps s01).trans (A_arg2_00 V)
theorem A_arg3_01 (V : Valuation τ sig (Elt Ideal)) : S01 V (Proc.devRef .tc main_arg3) = V (Proc.devRef .tc main_arg3) :=
  (show after s01 (S00 V) (Proc.devRef .tc main_arg3) = (S00 V) (Proc.devRef .tc main_arg3) from by keeps s01).trans (A_arg3_00 V)
theorem A_arg4_01 (V : Valuation τ sig (Elt Ideal)) : S01 V (Proc.devRef .tc main_arg4) = V (Proc.devRef .tc main_arg4) :=
  (show after s01 (S00 V) (Proc.devRef .tc main_arg4) = (S00 V) (Proc.devRef .tc main_arg4) from by keeps s01).trans (A_arg4_00 V)
theorem A_arg5_01 (V : Valuation τ sig (Elt Ideal)) : S01 V (Proc.devRef .tc main_arg5) = V (Proc.devRef .tc main_arg5) :=
  (show after s01 (S00 V) (Proc.devRef .tc main_arg5) = (S00 V) (Proc.devRef .tc main_arg5) from by keeps s01).trans (A_arg5_00 V)
theorem A_arg6_01 (V : Valuation τ sig (Elt Ideal)) : S01 V (Proc.devRef .tc main_arg6) = V (Proc.devRef .tc main_arg6) :=
  (show after s01 (S00 V) (Proc.devRef .tc main_arg6) = (S00 V) (Proc.devRef .tc main_arg6) from by keeps s01).trans (A_arg6_00 V)
theorem A_arg7_01 (V : Valuation τ sig (Elt Ideal)) : S01 V (Proc.devRef .tc main_arg7) = V (Proc.devRef .tc main_arg7) :=
  (show after s01 (S00 V) (Proc.devRef .tc main_arg7) = (S00 V) (Proc.devRef .tc main_arg7) from by keeps s01).trans (A_arg7_00 V)
theorem A_arg8_01 (V : Valuation τ sig (Elt Ideal)) : S01 V (Proc.devRef .tc main_arg8) = V (Proc.devRef .tc main_arg8) :=
  (show after s01 (S00 V) (Proc.devRef .tc main_arg8) = (S00 V) (Proc.devRef .tc main_arg8) from by keeps s01).trans (A_arg8_00 V)
theorem A_arg9_01 (V : Valuation τ sig (Elt Ideal)) : S01 V (Proc.devRef .tc main_arg9) = V (Proc.devRef .tc main_arg9) :=
  (show after s01 (S00 V) (Proc.devRef .tc main_arg9) = (S00 V) (Proc.devRef .tc main_arg9) from by keeps s01).trans (A_arg9_00 V)
theorem A_arg10_01 (V : Valuation τ sig (Elt Ideal)) : S01 V (Proc.devRef .tc main_arg10) = V (Proc.devRef .tc main_arg10) :=
  (show after s01 (S00 V) (Proc.devRef .tc main_arg10) = (S00 V) (Proc.devRef .tc main_arg10) from by keeps s01).trans (A_arg10_00 V)
theorem A_arg11_01 (V : Valuation τ sig (Elt Ideal)) : S01 V (Proc.devRef .tc main_arg11) = V (Proc.devRef .tc main_arg11) :=
  (show after s01 (S00 V) (Proc.devRef .tc main_arg11) = (S00 V) (Proc.devRef .tc main_arg11) from by keeps s01).trans (A_arg11_00 V)
theorem F_v3_01 (V : Valuation τ sig (Elt Ideal)) : S01 V (Proc.devRef .tc main_v3) = val_main_v3 (F := Ideal) (V (Proc.devRef .tc main_arg1)) :=
  (show after s01 (S00 V) (Proc.devRef .tc main_v3) = (S00 V) (Proc.devRef .tc main_v3) from by keeps s01).trans (F_v3_00 V)
theorem F_v7_01 (V : Valuation τ sig (Elt Ideal)) : S01 V (Proc.devRef .tc main_v7) = val_main_v7 (F := Ideal) (V (Proc.devRef .tc main_arg1)) :=
  (show after s01 (S00 V) (Proc.devRef .tc main_v7) = (S00 V) (Proc.devRef .tc main_v7) from by keeps s01).trans (F_v7_00 V)
theorem F_v17_01 (V : Valuation τ sig (Elt Ideal)) : S01 V (Proc.devRef .tc main_v17) = val_main_v17 (F := Ideal) (V (Proc.devRef .tc main_arg1)) :=
  r01_v17 (S00 V) (V (Proc.devRef .tc main_arg1)) (F_cst_3_00 V) (F_v13_00 V) (F_v16_00 V)

theorem A_arg0_02 (V : Valuation τ sig (Elt Ideal)) : S02 V (Proc.devRef .tc main_arg0) = V (Proc.devRef .tc main_arg0) :=
  (show after s02 (S01 V) (Proc.devRef .tc main_arg0) = (S01 V) (Proc.devRef .tc main_arg0) from by keeps s02).trans (A_arg0_01 V)
theorem A_arg1_02 (V : Valuation τ sig (Elt Ideal)) : S02 V (Proc.devRef .tc main_arg1) = V (Proc.devRef .tc main_arg1) :=
  (show after s02 (S01 V) (Proc.devRef .tc main_arg1) = (S01 V) (Proc.devRef .tc main_arg1) from by keeps s02).trans (A_arg1_01 V)
theorem A_arg2_02 (V : Valuation τ sig (Elt Ideal)) : S02 V (Proc.devRef .tc main_arg2) = V (Proc.devRef .tc main_arg2) :=
  (show after s02 (S01 V) (Proc.devRef .tc main_arg2) = (S01 V) (Proc.devRef .tc main_arg2) from by keeps s02).trans (A_arg2_01 V)
theorem A_arg3_02 (V : Valuation τ sig (Elt Ideal)) : S02 V (Proc.devRef .tc main_arg3) = V (Proc.devRef .tc main_arg3) :=
  (show after s02 (S01 V) (Proc.devRef .tc main_arg3) = (S01 V) (Proc.devRef .tc main_arg3) from by keeps s02).trans (A_arg3_01 V)
theorem A_arg4_02 (V : Valuation τ sig (Elt Ideal)) : S02 V (Proc.devRef .tc main_arg4) = V (Proc.devRef .tc main_arg4) :=
  (show after s02 (S01 V) (Proc.devRef .tc main_arg4) = (S01 V) (Proc.devRef .tc main_arg4) from by keeps s02).trans (A_arg4_01 V)
theorem A_arg5_02 (V : Valuation τ sig (Elt Ideal)) : S02 V (Proc.devRef .tc main_arg5) = V (Proc.devRef .tc main_arg5) :=
  (show after s02 (S01 V) (Proc.devRef .tc main_arg5) = (S01 V) (Proc.devRef .tc main_arg5) from by keeps s02).trans (A_arg5_01 V)
theorem A_arg6_02 (V : Valuation τ sig (Elt Ideal)) : S02 V (Proc.devRef .tc main_arg6) = V (Proc.devRef .tc main_arg6) :=
  (show after s02 (S01 V) (Proc.devRef .tc main_arg6) = (S01 V) (Proc.devRef .tc main_arg6) from by keeps s02).trans (A_arg6_01 V)
theorem A_arg7_02 (V : Valuation τ sig (Elt Ideal)) : S02 V (Proc.devRef .tc main_arg7) = V (Proc.devRef .tc main_arg7) :=
  (show after s02 (S01 V) (Proc.devRef .tc main_arg7) = (S01 V) (Proc.devRef .tc main_arg7) from by keeps s02).trans (A_arg7_01 V)
theorem A_arg8_02 (V : Valuation τ sig (Elt Ideal)) : S02 V (Proc.devRef .tc main_arg8) = V (Proc.devRef .tc main_arg8) :=
  (show after s02 (S01 V) (Proc.devRef .tc main_arg8) = (S01 V) (Proc.devRef .tc main_arg8) from by keeps s02).trans (A_arg8_01 V)
theorem A_arg9_02 (V : Valuation τ sig (Elt Ideal)) : S02 V (Proc.devRef .tc main_arg9) = V (Proc.devRef .tc main_arg9) :=
  (show after s02 (S01 V) (Proc.devRef .tc main_arg9) = (S01 V) (Proc.devRef .tc main_arg9) from by keeps s02).trans (A_arg9_01 V)
theorem A_arg10_02 (V : Valuation τ sig (Elt Ideal)) : S02 V (Proc.devRef .tc main_arg10) = V (Proc.devRef .tc main_arg10) :=
  (show after s02 (S01 V) (Proc.devRef .tc main_arg10) = (S01 V) (Proc.devRef .tc main_arg10) from by keeps s02).trans (A_arg10_01 V)
theorem A_arg11_02 (V : Valuation τ sig (Elt Ideal)) : S02 V (Proc.devRef .tc main_arg11) = V (Proc.devRef .tc main_arg11) :=
  (show after s02 (S01 V) (Proc.devRef .tc main_arg11) = (S01 V) (Proc.devRef .tc main_arg11) from by keeps s02).trans (A_arg11_01 V)
theorem F_v3_02 (V : Valuation τ sig (Elt Ideal)) : S02 V (Proc.devRef .tc main_v3) = val_main_v3 (F := Ideal) (V (Proc.devRef .tc main_arg1)) :=
  (show after s02 (S01 V) (Proc.devRef .tc main_v3) = (S01 V) (Proc.devRef .tc main_v3) from by keeps s02).trans (F_v3_01 V)
theorem F_v7_02 (V : Valuation τ sig (Elt Ideal)) : S02 V (Proc.devRef .tc main_v7) = val_main_v7 (F := Ideal) (V (Proc.devRef .tc main_arg1)) :=
  (show after s02 (S01 V) (Proc.devRef .tc main_v7) = (S01 V) (Proc.devRef .tc main_v7) from by keeps s02).trans (F_v7_01 V)
theorem F_v32_02 (V : Valuation τ sig (Elt Ideal)) : S02 V (Proc.devRef .tc main_v32) = val_main_v32 (F := Ideal) (V (Proc.devRef .tc main_arg1)) :=
  r02_v32 (S01 V) (V (Proc.devRef .tc main_arg1)) (F_v17_01 V) (F_v3_01 V) (F_v7_01 V)

theorem A_arg0_03 (V : Valuation τ sig (Elt Ideal)) : S03 V (Proc.devRef .tc main_arg0) = V (Proc.devRef .tc main_arg0) :=
  (show after s03 (S02 V) (Proc.devRef .tc main_arg0) = (S02 V) (Proc.devRef .tc main_arg0) from by keeps s03).trans (A_arg0_02 V)
theorem A_arg1_03 (V : Valuation τ sig (Elt Ideal)) : S03 V (Proc.devRef .tc main_arg1) = V (Proc.devRef .tc main_arg1) :=
  (show after s03 (S02 V) (Proc.devRef .tc main_arg1) = (S02 V) (Proc.devRef .tc main_arg1) from by keeps s03).trans (A_arg1_02 V)
theorem A_arg2_03 (V : Valuation τ sig (Elt Ideal)) : S03 V (Proc.devRef .tc main_arg2) = V (Proc.devRef .tc main_arg2) :=
  (show after s03 (S02 V) (Proc.devRef .tc main_arg2) = (S02 V) (Proc.devRef .tc main_arg2) from by keeps s03).trans (A_arg2_02 V)
theorem A_arg3_03 (V : Valuation τ sig (Elt Ideal)) : S03 V (Proc.devRef .tc main_arg3) = V (Proc.devRef .tc main_arg3) :=
  (show after s03 (S02 V) (Proc.devRef .tc main_arg3) = (S02 V) (Proc.devRef .tc main_arg3) from by keeps s03).trans (A_arg3_02 V)
theorem A_arg4_03 (V : Valuation τ sig (Elt Ideal)) : S03 V (Proc.devRef .tc main_arg4) = V (Proc.devRef .tc main_arg4) :=
  (show after s03 (S02 V) (Proc.devRef .tc main_arg4) = (S02 V) (Proc.devRef .tc main_arg4) from by keeps s03).trans (A_arg4_02 V)
theorem A_arg5_03 (V : Valuation τ sig (Elt Ideal)) : S03 V (Proc.devRef .tc main_arg5) = V (Proc.devRef .tc main_arg5) :=
  (show after s03 (S02 V) (Proc.devRef .tc main_arg5) = (S02 V) (Proc.devRef .tc main_arg5) from by keeps s03).trans (A_arg5_02 V)
theorem A_arg6_03 (V : Valuation τ sig (Elt Ideal)) : S03 V (Proc.devRef .tc main_arg6) = V (Proc.devRef .tc main_arg6) :=
  (show after s03 (S02 V) (Proc.devRef .tc main_arg6) = (S02 V) (Proc.devRef .tc main_arg6) from by keeps s03).trans (A_arg6_02 V)
theorem A_arg7_03 (V : Valuation τ sig (Elt Ideal)) : S03 V (Proc.devRef .tc main_arg7) = V (Proc.devRef .tc main_arg7) :=
  (show after s03 (S02 V) (Proc.devRef .tc main_arg7) = (S02 V) (Proc.devRef .tc main_arg7) from by keeps s03).trans (A_arg7_02 V)
theorem A_arg8_03 (V : Valuation τ sig (Elt Ideal)) : S03 V (Proc.devRef .tc main_arg8) = V (Proc.devRef .tc main_arg8) :=
  (show after s03 (S02 V) (Proc.devRef .tc main_arg8) = (S02 V) (Proc.devRef .tc main_arg8) from by keeps s03).trans (A_arg8_02 V)
theorem A_arg9_03 (V : Valuation τ sig (Elt Ideal)) : S03 V (Proc.devRef .tc main_arg9) = V (Proc.devRef .tc main_arg9) :=
  (show after s03 (S02 V) (Proc.devRef .tc main_arg9) = (S02 V) (Proc.devRef .tc main_arg9) from by keeps s03).trans (A_arg9_02 V)
theorem A_arg10_03 (V : Valuation τ sig (Elt Ideal)) : S03 V (Proc.devRef .tc main_arg10) = V (Proc.devRef .tc main_arg10) :=
  (show after s03 (S02 V) (Proc.devRef .tc main_arg10) = (S02 V) (Proc.devRef .tc main_arg10) from by keeps s03).trans (A_arg10_02 V)
theorem A_arg11_03 (V : Valuation τ sig (Elt Ideal)) : S03 V (Proc.devRef .tc main_arg11) = V (Proc.devRef .tc main_arg11) :=
  (show after s03 (S02 V) (Proc.devRef .tc main_arg11) = (S02 V) (Proc.devRef .tc main_arg11) from by keeps s03).trans (A_arg11_02 V)
theorem F_v3_03 (V : Valuation τ sig (Elt Ideal)) : S03 V (Proc.devRef .tc main_v3) = val_main_v3 (F := Ideal) (V (Proc.devRef .tc main_arg1)) :=
  (show after s03 (S02 V) (Proc.devRef .tc main_v3) = (S02 V) (Proc.devRef .tc main_v3) from by keeps s03).trans (F_v3_02 V)
theorem F_v7_03 (V : Valuation τ sig (Elt Ideal)) : S03 V (Proc.devRef .tc main_v7) = val_main_v7 (F := Ideal) (V (Proc.devRef .tc main_arg1)) :=
  (show after s03 (S02 V) (Proc.devRef .tc main_v7) = (S02 V) (Proc.devRef .tc main_v7) from by keeps s03).trans (F_v7_02 V)
theorem F_v32_03 (V : Valuation τ sig (Elt Ideal)) : S03 V (Proc.devRef .tc main_v32) = val_main_v32 (F := Ideal) (V (Proc.devRef .tc main_arg1)) :=
  (show after s03 (S02 V) (Proc.devRef .tc main_v32) = (S02 V) (Proc.devRef .tc main_v32) from by keeps s03).trans (F_v32_02 V)
theorem F_v46_03 (V : Valuation τ sig (Elt Ideal)) : S03 V (Proc.devRef .tc main_v46) = val_main_v46 (F := Ideal) (V (Proc.devRef .tc main_arg0)) (V (Proc.devRef .tc main_arg2)) (V (Proc.devRef .tc main_arg3)) :=
  r03_v46 (S02 V) (V (Proc.devRef .tc main_arg0)) (V (Proc.devRef .tc main_arg2)) (V (Proc.devRef .tc main_arg3)) (A_arg0_02 V) (A_arg2_02 V) (A_arg3_02 V)
theorem F_v47_03 (V : Valuation τ sig (Elt Ideal)) : S03 V (Proc.devRef .tc main_v47) = val_main_v47 (F := Ideal) (V (Proc.devRef .tc main_arg0)) (V (Proc.devRef .tc main_arg2)) (V (Proc.devRef .tc main_arg3)) :=
  r03_v47 (S02 V) (V (Proc.devRef .tc main_arg0)) (V (Proc.devRef .tc main_arg2)) (V (Proc.devRef .tc main_arg3)) (A_arg0_02 V) (A_arg2_02 V) (A_arg3_02 V)

theorem A_arg0_04 (V : Valuation τ sig (Elt Ideal)) : S04 V (Proc.devRef .tc main_arg0) = V (Proc.devRef .tc main_arg0) :=
  (show after s04 (S03 V) (Proc.devRef .tc main_arg0) = (S03 V) (Proc.devRef .tc main_arg0) from by keeps s04).trans (A_arg0_03 V)
theorem A_arg1_04 (V : Valuation τ sig (Elt Ideal)) : S04 V (Proc.devRef .tc main_arg1) = V (Proc.devRef .tc main_arg1) :=
  (show after s04 (S03 V) (Proc.devRef .tc main_arg1) = (S03 V) (Proc.devRef .tc main_arg1) from by keeps s04).trans (A_arg1_03 V)
theorem A_arg2_04 (V : Valuation τ sig (Elt Ideal)) : S04 V (Proc.devRef .tc main_arg2) = V (Proc.devRef .tc main_arg2) :=
  (show after s04 (S03 V) (Proc.devRef .tc main_arg2) = (S03 V) (Proc.devRef .tc main_arg2) from by keeps s04).trans (A_arg2_03 V)
theorem A_arg3_04 (V : Valuation τ sig (Elt Ideal)) : S04 V (Proc.devRef .tc main_arg3) = V (Proc.devRef .tc main_arg3) :=
  (show after s04 (S03 V) (Proc.devRef .tc main_arg3) = (S03 V) (Proc.devRef .tc main_arg3) from by keeps s04).trans (A_arg3_03 V)
theorem A_arg4_04 (V : Valuation τ sig (Elt Ideal)) : S04 V (Proc.devRef .tc main_arg4) = V (Proc.devRef .tc main_arg4) :=
  (show after s04 (S03 V) (Proc.devRef .tc main_arg4) = (S03 V) (Proc.devRef .tc main_arg4) from by keeps s04).trans (A_arg4_03 V)
theorem A_arg5_04 (V : Valuation τ sig (Elt Ideal)) : S04 V (Proc.devRef .tc main_arg5) = V (Proc.devRef .tc main_arg5) :=
  (show after s04 (S03 V) (Proc.devRef .tc main_arg5) = (S03 V) (Proc.devRef .tc main_arg5) from by keeps s04).trans (A_arg5_03 V)
theorem A_arg6_04 (V : Valuation τ sig (Elt Ideal)) : S04 V (Proc.devRef .tc main_arg6) = V (Proc.devRef .tc main_arg6) :=
  (show after s04 (S03 V) (Proc.devRef .tc main_arg6) = (S03 V) (Proc.devRef .tc main_arg6) from by keeps s04).trans (A_arg6_03 V)
theorem A_arg7_04 (V : Valuation τ sig (Elt Ideal)) : S04 V (Proc.devRef .tc main_arg7) = V (Proc.devRef .tc main_arg7) :=
  (show after s04 (S03 V) (Proc.devRef .tc main_arg7) = (S03 V) (Proc.devRef .tc main_arg7) from by keeps s04).trans (A_arg7_03 V)
theorem A_arg8_04 (V : Valuation τ sig (Elt Ideal)) : S04 V (Proc.devRef .tc main_arg8) = V (Proc.devRef .tc main_arg8) :=
  (show after s04 (S03 V) (Proc.devRef .tc main_arg8) = (S03 V) (Proc.devRef .tc main_arg8) from by keeps s04).trans (A_arg8_03 V)
theorem A_arg9_04 (V : Valuation τ sig (Elt Ideal)) : S04 V (Proc.devRef .tc main_arg9) = V (Proc.devRef .tc main_arg9) :=
  (show after s04 (S03 V) (Proc.devRef .tc main_arg9) = (S03 V) (Proc.devRef .tc main_arg9) from by keeps s04).trans (A_arg9_03 V)
theorem A_arg10_04 (V : Valuation τ sig (Elt Ideal)) : S04 V (Proc.devRef .tc main_arg10) = V (Proc.devRef .tc main_arg10) :=
  (show after s04 (S03 V) (Proc.devRef .tc main_arg10) = (S03 V) (Proc.devRef .tc main_arg10) from by keeps s04).trans (A_arg10_03 V)
theorem A_arg11_04 (V : Valuation τ sig (Elt Ideal)) : S04 V (Proc.devRef .tc main_arg11) = V (Proc.devRef .tc main_arg11) :=
  (show after s04 (S03 V) (Proc.devRef .tc main_arg11) = (S03 V) (Proc.devRef .tc main_arg11) from by keeps s04).trans (A_arg11_03 V)
theorem F_v3_04 (V : Valuation τ sig (Elt Ideal)) : S04 V (Proc.devRef .tc main_v3) = val_main_v3 (F := Ideal) (V (Proc.devRef .tc main_arg1)) :=
  (show after s04 (S03 V) (Proc.devRef .tc main_v3) = (S03 V) (Proc.devRef .tc main_v3) from by keeps s04).trans (F_v3_03 V)
theorem F_v7_04 (V : Valuation τ sig (Elt Ideal)) : S04 V (Proc.devRef .tc main_v7) = val_main_v7 (F := Ideal) (V (Proc.devRef .tc main_arg1)) :=
  (show after s04 (S03 V) (Proc.devRef .tc main_v7) = (S03 V) (Proc.devRef .tc main_v7) from by keeps s04).trans (F_v7_03 V)
theorem F_v32_04 (V : Valuation τ sig (Elt Ideal)) : S04 V (Proc.devRef .tc main_v32) = val_main_v32 (F := Ideal) (V (Proc.devRef .tc main_arg1)) :=
  (show after s04 (S03 V) (Proc.devRef .tc main_v32) = (S03 V) (Proc.devRef .tc main_v32) from by keeps s04).trans (F_v32_03 V)
theorem F_v53_04 (V : Valuation τ sig (Elt Ideal)) : S04 V (Proc.devRef .tc main_v53) = val_main_v53 (F := Ideal) (V (Proc.devRef .tc main_arg0)) (V (Proc.devRef .tc main_arg2)) (V (Proc.devRef .tc main_arg3)) :=
  r04_v53 (S03 V) (V (Proc.devRef .tc main_arg0)) (V (Proc.devRef .tc main_arg2)) (V (Proc.devRef .tc main_arg3)) (F_v46_03 V) (F_v47_03 V)

theorem A_arg0_05 (V : Valuation τ sig (Elt Ideal)) : S05 V (Proc.devRef .tc main_arg0) = V (Proc.devRef .tc main_arg0) :=
  (show after s05 (S04 V) (Proc.devRef .tc main_arg0) = (S04 V) (Proc.devRef .tc main_arg0) from by keeps s05).trans (A_arg0_04 V)
theorem A_arg1_05 (V : Valuation τ sig (Elt Ideal)) : S05 V (Proc.devRef .tc main_arg1) = V (Proc.devRef .tc main_arg1) :=
  (show after s05 (S04 V) (Proc.devRef .tc main_arg1) = (S04 V) (Proc.devRef .tc main_arg1) from by keeps s05).trans (A_arg1_04 V)
theorem A_arg2_05 (V : Valuation τ sig (Elt Ideal)) : S05 V (Proc.devRef .tc main_arg2) = V (Proc.devRef .tc main_arg2) :=
  (show after s05 (S04 V) (Proc.devRef .tc main_arg2) = (S04 V) (Proc.devRef .tc main_arg2) from by keeps s05).trans (A_arg2_04 V)
theorem A_arg3_05 (V : Valuation τ sig (Elt Ideal)) : S05 V (Proc.devRef .tc main_arg3) = V (Proc.devRef .tc main_arg3) :=
  (show after s05 (S04 V) (Proc.devRef .tc main_arg3) = (S04 V) (Proc.devRef .tc main_arg3) from by keeps s05).trans (A_arg3_04 V)
theorem A_arg4_05 (V : Valuation τ sig (Elt Ideal)) : S05 V (Proc.devRef .tc main_arg4) = V (Proc.devRef .tc main_arg4) :=
  (show after s05 (S04 V) (Proc.devRef .tc main_arg4) = (S04 V) (Proc.devRef .tc main_arg4) from by keeps s05).trans (A_arg4_04 V)
theorem A_arg5_05 (V : Valuation τ sig (Elt Ideal)) : S05 V (Proc.devRef .tc main_arg5) = V (Proc.devRef .tc main_arg5) :=
  (show after s05 (S04 V) (Proc.devRef .tc main_arg5) = (S04 V) (Proc.devRef .tc main_arg5) from by keeps s05).trans (A_arg5_04 V)
theorem A_arg6_05 (V : Valuation τ sig (Elt Ideal)) : S05 V (Proc.devRef .tc main_arg6) = V (Proc.devRef .tc main_arg6) :=
  (show after s05 (S04 V) (Proc.devRef .tc main_arg6) = (S04 V) (Proc.devRef .tc main_arg6) from by keeps s05).trans (A_arg6_04 V)
theorem A_arg7_05 (V : Valuation τ sig (Elt Ideal)) : S05 V (Proc.devRef .tc main_arg7) = V (Proc.devRef .tc main_arg7) :=
  (show after s05 (S04 V) (Proc.devRef .tc main_arg7) = (S04 V) (Proc.devRef .tc main_arg7) from by keeps s05).trans (A_arg7_04 V)
theorem A_arg8_05 (V : Valuation τ sig (Elt Ideal)) : S05 V (Proc.devRef .tc main_arg8) = V (Proc.devRef .tc main_arg8) :=
  (show after s05 (S04 V) (Proc.devRef .tc main_arg8) = (S04 V) (Proc.devRef .tc main_arg8) from by keeps s05).trans (A_arg8_04 V)
theorem A_arg9_05 (V : Valuation τ sig (Elt Ideal)) : S05 V (Proc.devRef .tc main_arg9) = V (Proc.devRef .tc main_arg9) :=
  (show after s05 (S04 V) (Proc.devRef .tc main_arg9) = (S04 V) (Proc.devRef .tc main_arg9) from by keeps s05).trans (A_arg9_04 V)
theorem A_arg10_05 (V : Valuation τ sig (Elt Ideal)) : S05 V (Proc.devRef .tc main_arg10) = V (Proc.devRef .tc main_arg10) :=
  (show after s05 (S04 V) (Proc.devRef .tc main_arg10) = (S04 V) (Proc.devRef .tc main_arg10) from by keeps s05).trans (A_arg10_04 V)
theorem A_arg11_05 (V : Valuation τ sig (Elt Ideal)) : S05 V (Proc.devRef .tc main_arg11) = V (Proc.devRef .tc main_arg11) :=
  (show after s05 (S04 V) (Proc.devRef .tc main_arg11) = (S04 V) (Proc.devRef .tc main_arg11) from by keeps s05).trans (A_arg11_04 V)
theorem F_v3_05 (V : Valuation τ sig (Elt Ideal)) : S05 V (Proc.devRef .tc main_v3) = val_main_v3 (F := Ideal) (V (Proc.devRef .tc main_arg1)) :=
  (show after s05 (S04 V) (Proc.devRef .tc main_v3) = (S04 V) (Proc.devRef .tc main_v3) from by keeps s05).trans (F_v3_04 V)
theorem F_v7_05 (V : Valuation τ sig (Elt Ideal)) : S05 V (Proc.devRef .tc main_v7) = val_main_v7 (F := Ideal) (V (Proc.devRef .tc main_arg1)) :=
  (show after s05 (S04 V) (Proc.devRef .tc main_v7) = (S04 V) (Proc.devRef .tc main_v7) from by keeps s05).trans (F_v7_04 V)
theorem F_v32_05 (V : Valuation τ sig (Elt Ideal)) : S05 V (Proc.devRef .tc main_v32) = val_main_v32 (F := Ideal) (V (Proc.devRef .tc main_arg1)) :=
  (show after s05 (S04 V) (Proc.devRef .tc main_v32) = (S04 V) (Proc.devRef .tc main_v32) from by keeps s05).trans (F_v32_04 V)
theorem F_v53_05 (V : Valuation τ sig (Elt Ideal)) : S05 V (Proc.devRef .tc main_v53) = val_main_v53 (F := Ideal) (V (Proc.devRef .tc main_arg0)) (V (Proc.devRef .tc main_arg2)) (V (Proc.devRef .tc main_arg3)) :=
  (show after s05 (S04 V) (Proc.devRef .tc main_v53) = (S04 V) (Proc.devRef .tc main_v53) from by keeps s05).trans (F_v53_04 V)
theorem F_v66_05 (V : Valuation τ sig (Elt Ideal)) : S05 V (Proc.devRef .tc main_v66) = val_main_v66 (F := Ideal) (V (Proc.devRef .tc main_arg0)) (V (Proc.devRef .tc main_arg1)) (V (Proc.devRef .tc main_arg2)) (V (Proc.devRef .tc main_arg3)) :=
  r05_v66 (S04 V) (V (Proc.devRef .tc main_arg0)) (V (Proc.devRef .tc main_arg1)) (V (Proc.devRef .tc main_arg2)) (V (Proc.devRef .tc main_arg3)) (F_v3_04 V) (F_v32_04 V) (F_v53_04 V) (F_v7_04 V)

theorem A_arg0_06 (V : Valuation τ sig (Elt Ideal)) : S06 V (Proc.devRef .tc main_arg0) = V (Proc.devRef .tc main_arg0) :=
  (show after s06 (S05 V) (Proc.devRef .tc main_arg0) = (S05 V) (Proc.devRef .tc main_arg0) from by keeps s06).trans (A_arg0_05 V)
theorem A_arg1_06 (V : Valuation τ sig (Elt Ideal)) : S06 V (Proc.devRef .tc main_arg1) = V (Proc.devRef .tc main_arg1) :=
  (show after s06 (S05 V) (Proc.devRef .tc main_arg1) = (S05 V) (Proc.devRef .tc main_arg1) from by keeps s06).trans (A_arg1_05 V)
theorem A_arg2_06 (V : Valuation τ sig (Elt Ideal)) : S06 V (Proc.devRef .tc main_arg2) = V (Proc.devRef .tc main_arg2) :=
  (show after s06 (S05 V) (Proc.devRef .tc main_arg2) = (S05 V) (Proc.devRef .tc main_arg2) from by keeps s06).trans (A_arg2_05 V)
theorem A_arg3_06 (V : Valuation τ sig (Elt Ideal)) : S06 V (Proc.devRef .tc main_arg3) = V (Proc.devRef .tc main_arg3) :=
  (show after s06 (S05 V) (Proc.devRef .tc main_arg3) = (S05 V) (Proc.devRef .tc main_arg3) from by keeps s06).trans (A_arg3_05 V)
theorem A_arg4_06 (V : Valuation τ sig (Elt Ideal)) : S06 V (Proc.devRef .tc main_arg4) = V (Proc.devRef .tc main_arg4) :=
  (show after s06 (S05 V) (Proc.devRef .tc main_arg4) = (S05 V) (Proc.devRef .tc main_arg4) from by keeps s06).trans (A_arg4_05 V)
theorem A_arg5_06 (V : Valuation τ sig (Elt Ideal)) : S06 V (Proc.devRef .tc main_arg5) = V (Proc.devRef .tc main_arg5) :=
  (show after s06 (S05 V) (Proc.devRef .tc main_arg5) = (S05 V) (Proc.devRef .tc main_arg5) from by keeps s06).trans (A_arg5_05 V)
theorem A_arg6_06 (V : Valuation τ sig (Elt Ideal)) : S06 V (Proc.devRef .tc main_arg6) = V (Proc.devRef .tc main_arg6) :=
  (show after s06 (S05 V) (Proc.devRef .tc main_arg6) = (S05 V) (Proc.devRef .tc main_arg6) from by keeps s06).trans (A_arg6_05 V)
theorem A_arg7_06 (V : Valuation τ sig (Elt Ideal)) : S06 V (Proc.devRef .tc main_arg7) = V (Proc.devRef .tc main_arg7) :=
  (show after s06 (S05 V) (Proc.devRef .tc main_arg7) = (S05 V) (Proc.devRef .tc main_arg7) from by keeps s06).trans (A_arg7_05 V)
theorem A_arg8_06 (V : Valuation τ sig (Elt Ideal)) : S06 V (Proc.devRef .tc main_arg8) = V (Proc.devRef .tc main_arg8) :=
  (show after s06 (S05 V) (Proc.devRef .tc main_arg8) = (S05 V) (Proc.devRef .tc main_arg8) from by keeps s06).trans (A_arg8_05 V)
theorem A_arg9_06 (V : Valuation τ sig (Elt Ideal)) : S06 V (Proc.devRef .tc main_arg9) = V (Proc.devRef .tc main_arg9) :=
  (show after s06 (S05 V) (Proc.devRef .tc main_arg9) = (S05 V) (Proc.devRef .tc main_arg9) from by keeps s06).trans (A_arg9_05 V)
theorem A_arg10_06 (V : Valuation τ sig (Elt Ideal)) : S06 V (Proc.devRef .tc main_arg10) = V (Proc.devRef .tc main_arg10) :=
  (show after s06 (S05 V) (Proc.devRef .tc main_arg10) = (S05 V) (Proc.devRef .tc main_arg10) from by keeps s06).trans (A_arg10_05 V)
theorem A_arg11_06 (V : Valuation τ sig (Elt Ideal)) : S06 V (Proc.devRef .tc main_arg11) = V (Proc.devRef .tc main_arg11) :=
  (show after s06 (S05 V) (Proc.devRef .tc main_arg11) = (S05 V) (Proc.devRef .tc main_arg11) from by keeps s06).trans (A_arg11_05 V)
theorem F_v3_06 (V : Valuation τ sig (Elt Ideal)) : S06 V (Proc.devRef .tc main_v3) = val_main_v3 (F := Ideal) (V (Proc.devRef .tc main_arg1)) :=
  (show after s06 (S05 V) (Proc.devRef .tc main_v3) = (S05 V) (Proc.devRef .tc main_v3) from by keeps s06).trans (F_v3_05 V)
theorem F_v7_06 (V : Valuation τ sig (Elt Ideal)) : S06 V (Proc.devRef .tc main_v7) = val_main_v7 (F := Ideal) (V (Proc.devRef .tc main_arg1)) :=
  (show after s06 (S05 V) (Proc.devRef .tc main_v7) = (S05 V) (Proc.devRef .tc main_v7) from by keeps s06).trans (F_v7_05 V)
theorem F_v32_06 (V : Valuation τ sig (Elt Ideal)) : S06 V (Proc.devRef .tc main_v32) = val_main_v32 (F := Ideal) (V (Proc.devRef .tc main_arg1)) :=
  (show after s06 (S05 V) (Proc.devRef .tc main_v32) = (S05 V) (Proc.devRef .tc main_v32) from by keeps s06).trans (F_v32_05 V)
theorem F_v53_06 (V : Valuation τ sig (Elt Ideal)) : S06 V (Proc.devRef .tc main_v53) = val_main_v53 (F := Ideal) (V (Proc.devRef .tc main_arg0)) (V (Proc.devRef .tc main_arg2)) (V (Proc.devRef .tc main_arg3)) :=
  (show after s06 (S05 V) (Proc.devRef .tc main_v53) = (S05 V) (Proc.devRef .tc main_v53) from by keeps s06).trans (F_v53_05 V)
theorem F_v71_06 (V : Valuation τ sig (Elt Ideal)) : S06 V (Proc.devRef .tc main_v71) = val_main_v71 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) :=
  r06_v71 (S05 V) (V (Proc.devRef .tc main_arg0)) (V (Proc.devRef .tc main_arg1)) (V (Proc.devRef .tc main_arg2)) (V (Proc.devRef .tc main_arg3)) (V (Proc.devRef .tc main_arg4)) (V (Proc.devRef .tc main_arg5)) (A_arg4_05 V) (A_arg5_05 V) (F_v66_05 V)

theorem A_arg0_07 (V : Valuation τ sig (Elt Ideal)) : S07 V (Proc.devRef .tc main_arg0) = V (Proc.devRef .tc main_arg0) :=
  (show after s07 (S06 V) (Proc.devRef .tc main_arg0) = (S06 V) (Proc.devRef .tc main_arg0) from by keeps s07).trans (A_arg0_06 V)
theorem A_arg1_07 (V : Valuation τ sig (Elt Ideal)) : S07 V (Proc.devRef .tc main_arg1) = V (Proc.devRef .tc main_arg1) :=
  (show after s07 (S06 V) (Proc.devRef .tc main_arg1) = (S06 V) (Proc.devRef .tc main_arg1) from by keeps s07).trans (A_arg1_06 V)
theorem A_arg2_07 (V : Valuation τ sig (Elt Ideal)) : S07 V (Proc.devRef .tc main_arg2) = V (Proc.devRef .tc main_arg2) :=
  (show after s07 (S06 V) (Proc.devRef .tc main_arg2) = (S06 V) (Proc.devRef .tc main_arg2) from by keeps s07).trans (A_arg2_06 V)
theorem A_arg3_07 (V : Valuation τ sig (Elt Ideal)) : S07 V (Proc.devRef .tc main_arg3) = V (Proc.devRef .tc main_arg3) :=
  (show after s07 (S06 V) (Proc.devRef .tc main_arg3) = (S06 V) (Proc.devRef .tc main_arg3) from by keeps s07).trans (A_arg3_06 V)
theorem A_arg4_07 (V : Valuation τ sig (Elt Ideal)) : S07 V (Proc.devRef .tc main_arg4) = V (Proc.devRef .tc main_arg4) :=
  (show after s07 (S06 V) (Proc.devRef .tc main_arg4) = (S06 V) (Proc.devRef .tc main_arg4) from by keeps s07).trans (A_arg4_06 V)
theorem A_arg5_07 (V : Valuation τ sig (Elt Ideal)) : S07 V (Proc.devRef .tc main_arg5) = V (Proc.devRef .tc main_arg5) :=
  (show after s07 (S06 V) (Proc.devRef .tc main_arg5) = (S06 V) (Proc.devRef .tc main_arg5) from by keeps s07).trans (A_arg5_06 V)
theorem A_arg6_07 (V : Valuation τ sig (Elt Ideal)) : S07 V (Proc.devRef .tc main_arg6) = V (Proc.devRef .tc main_arg6) :=
  (show after s07 (S06 V) (Proc.devRef .tc main_arg6) = (S06 V) (Proc.devRef .tc main_arg6) from by keeps s07).trans (A_arg6_06 V)
theorem A_arg7_07 (V : Valuation τ sig (Elt Ideal)) : S07 V (Proc.devRef .tc main_arg7) = V (Proc.devRef .tc main_arg7) :=
  (show after s07 (S06 V) (Proc.devRef .tc main_arg7) = (S06 V) (Proc.devRef .tc main_arg7) from by keeps s07).trans (A_arg7_06 V)
theorem A_arg8_07 (V : Valuation τ sig (Elt Ideal)) : S07 V (Proc.devRef .tc main_arg8) = V (Proc.devRef .tc main_arg8) :=
  (show after s07 (S06 V) (Proc.devRef .tc main_arg8) = (S06 V) (Proc.devRef .tc main_arg8) from by keeps s07).trans (A_arg8_06 V)
theorem A_arg9_07 (V : Valuation τ sig (Elt Ideal)) : S07 V (Proc.devRef .tc main_arg9) = V (Proc.devRef .tc main_arg9) :=
  (show after s07 (S06 V) (Proc.devRef .tc main_arg9) = (S06 V) (Proc.devRef .tc main_arg9) from by keeps s07).trans (A_arg9_06 V)
theorem A_arg10_07 (V : Valuation τ sig (Elt Ideal)) : S07 V (Proc.devRef .tc main_arg10) = V (Proc.devRef .tc main_arg10) :=
  (show after s07 (S06 V) (Proc.devRef .tc main_arg10) = (S06 V) (Proc.devRef .tc main_arg10) from by keeps s07).trans (A_arg10_06 V)
theorem A_arg11_07 (V : Valuation τ sig (Elt Ideal)) : S07 V (Proc.devRef .tc main_arg11) = V (Proc.devRef .tc main_arg11) :=
  (show after s07 (S06 V) (Proc.devRef .tc main_arg11) = (S06 V) (Proc.devRef .tc main_arg11) from by keeps s07).trans (A_arg11_06 V)
theorem F_v3_07 (V : Valuation τ sig (Elt Ideal)) : S07 V (Proc.devRef .tc main_v3) = val_main_v3 (F := Ideal) (V (Proc.devRef .tc main_arg1)) :=
  (show after s07 (S06 V) (Proc.devRef .tc main_v3) = (S06 V) (Proc.devRef .tc main_v3) from by keeps s07).trans (F_v3_06 V)
theorem F_v7_07 (V : Valuation τ sig (Elt Ideal)) : S07 V (Proc.devRef .tc main_v7) = val_main_v7 (F := Ideal) (V (Proc.devRef .tc main_arg1)) :=
  (show after s07 (S06 V) (Proc.devRef .tc main_v7) = (S06 V) (Proc.devRef .tc main_v7) from by keeps s07).trans (F_v7_06 V)
theorem F_v32_07 (V : Valuation τ sig (Elt Ideal)) : S07 V (Proc.devRef .tc main_v32) = val_main_v32 (F := Ideal) (V (Proc.devRef .tc main_arg1)) :=
  (show after s07 (S06 V) (Proc.devRef .tc main_v32) = (S06 V) (Proc.devRef .tc main_v32) from by keeps s07).trans (F_v32_06 V)
theorem F_v53_07 (V : Valuation τ sig (Elt Ideal)) : S07 V (Proc.devRef .tc main_v53) = val_main_v53 (F := Ideal) (V (Proc.devRef .tc main_arg0)) (V (Proc.devRef .tc main_arg2)) (V (Proc.devRef .tc main_arg3)) :=
  (show after s07 (S06 V) (Proc.devRef .tc main_v53) = (S06 V) (Proc.devRef .tc main_v53) from by keeps s07).trans (F_v53_06 V)
theorem F_v71_07 (V : Valuation τ sig (Elt Ideal)) : S07 V (Proc.devRef .tc main_v71) = val_main_v71 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) :=
  (show after s07 (S06 V) (Proc.devRef .tc main_v71) = (S06 V) (Proc.devRef .tc main_v71) from by keeps s07).trans (F_v71_06 V)
theorem F_v84_07 (V : Valuation τ sig (Elt Ideal)) : S07 V (Proc.devRef .tc main_v84) = val_main_v84 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) :=
  r07_v84 (S06 V) (V (Proc.devRef .tc main_arg0)) (V (Proc.devRef .tc main_arg1)) (V (Proc.devRef .tc main_arg2)) (V (Proc.devRef .tc main_arg3)) (V (Proc.devRef .tc main_arg4)) (V (Proc.devRef .tc main_arg5)) (F_v3_06 V) (F_v32_06 V) (F_v7_06 V) (F_v71_06 V)

theorem A_arg0_08 (V : Valuation τ sig (Elt Ideal)) : S08 V (Proc.devRef .tc main_arg0) = V (Proc.devRef .tc main_arg0) :=
  (show after s08 (S07 V) (Proc.devRef .tc main_arg0) = (S07 V) (Proc.devRef .tc main_arg0) from by keeps s08).trans (A_arg0_07 V)
theorem A_arg1_08 (V : Valuation τ sig (Elt Ideal)) : S08 V (Proc.devRef .tc main_arg1) = V (Proc.devRef .tc main_arg1) :=
  (show after s08 (S07 V) (Proc.devRef .tc main_arg1) = (S07 V) (Proc.devRef .tc main_arg1) from by keeps s08).trans (A_arg1_07 V)
theorem A_arg2_08 (V : Valuation τ sig (Elt Ideal)) : S08 V (Proc.devRef .tc main_arg2) = V (Proc.devRef .tc main_arg2) :=
  (show after s08 (S07 V) (Proc.devRef .tc main_arg2) = (S07 V) (Proc.devRef .tc main_arg2) from by keeps s08).trans (A_arg2_07 V)
theorem A_arg3_08 (V : Valuation τ sig (Elt Ideal)) : S08 V (Proc.devRef .tc main_arg3) = V (Proc.devRef .tc main_arg3) :=
  (show after s08 (S07 V) (Proc.devRef .tc main_arg3) = (S07 V) (Proc.devRef .tc main_arg3) from by keeps s08).trans (A_arg3_07 V)
theorem A_arg4_08 (V : Valuation τ sig (Elt Ideal)) : S08 V (Proc.devRef .tc main_arg4) = V (Proc.devRef .tc main_arg4) :=
  (show after s08 (S07 V) (Proc.devRef .tc main_arg4) = (S07 V) (Proc.devRef .tc main_arg4) from by keeps s08).trans (A_arg4_07 V)
theorem A_arg5_08 (V : Valuation τ sig (Elt Ideal)) : S08 V (Proc.devRef .tc main_arg5) = V (Proc.devRef .tc main_arg5) :=
  (show after s08 (S07 V) (Proc.devRef .tc main_arg5) = (S07 V) (Proc.devRef .tc main_arg5) from by keeps s08).trans (A_arg5_07 V)
theorem A_arg6_08 (V : Valuation τ sig (Elt Ideal)) : S08 V (Proc.devRef .tc main_arg6) = V (Proc.devRef .tc main_arg6) :=
  (show after s08 (S07 V) (Proc.devRef .tc main_arg6) = (S07 V) (Proc.devRef .tc main_arg6) from by keeps s08).trans (A_arg6_07 V)
theorem A_arg7_08 (V : Valuation τ sig (Elt Ideal)) : S08 V (Proc.devRef .tc main_arg7) = V (Proc.devRef .tc main_arg7) :=
  (show after s08 (S07 V) (Proc.devRef .tc main_arg7) = (S07 V) (Proc.devRef .tc main_arg7) from by keeps s08).trans (A_arg7_07 V)
theorem A_arg8_08 (V : Valuation τ sig (Elt Ideal)) : S08 V (Proc.devRef .tc main_arg8) = V (Proc.devRef .tc main_arg8) :=
  (show after s08 (S07 V) (Proc.devRef .tc main_arg8) = (S07 V) (Proc.devRef .tc main_arg8) from by keeps s08).trans (A_arg8_07 V)
theorem A_arg9_08 (V : Valuation τ sig (Elt Ideal)) : S08 V (Proc.devRef .tc main_arg9) = V (Proc.devRef .tc main_arg9) :=
  (show after s08 (S07 V) (Proc.devRef .tc main_arg9) = (S07 V) (Proc.devRef .tc main_arg9) from by keeps s08).trans (A_arg9_07 V)
theorem A_arg10_08 (V : Valuation τ sig (Elt Ideal)) : S08 V (Proc.devRef .tc main_arg10) = V (Proc.devRef .tc main_arg10) :=
  (show after s08 (S07 V) (Proc.devRef .tc main_arg10) = (S07 V) (Proc.devRef .tc main_arg10) from by keeps s08).trans (A_arg10_07 V)
theorem A_arg11_08 (V : Valuation τ sig (Elt Ideal)) : S08 V (Proc.devRef .tc main_arg11) = V (Proc.devRef .tc main_arg11) :=
  (show after s08 (S07 V) (Proc.devRef .tc main_arg11) = (S07 V) (Proc.devRef .tc main_arg11) from by keeps s08).trans (A_arg11_07 V)
theorem F_v3_08 (V : Valuation τ sig (Elt Ideal)) : S08 V (Proc.devRef .tc main_v3) = val_main_v3 (F := Ideal) (V (Proc.devRef .tc main_arg1)) :=
  (show after s08 (S07 V) (Proc.devRef .tc main_v3) = (S07 V) (Proc.devRef .tc main_v3) from by keeps s08).trans (F_v3_07 V)
theorem F_v7_08 (V : Valuation τ sig (Elt Ideal)) : S08 V (Proc.devRef .tc main_v7) = val_main_v7 (F := Ideal) (V (Proc.devRef .tc main_arg1)) :=
  (show after s08 (S07 V) (Proc.devRef .tc main_v7) = (S07 V) (Proc.devRef .tc main_v7) from by keeps s08).trans (F_v7_07 V)
theorem F_v32_08 (V : Valuation τ sig (Elt Ideal)) : S08 V (Proc.devRef .tc main_v32) = val_main_v32 (F := Ideal) (V (Proc.devRef .tc main_arg1)) :=
  (show after s08 (S07 V) (Proc.devRef .tc main_v32) = (S07 V) (Proc.devRef .tc main_v32) from by keeps s08).trans (F_v32_07 V)
theorem F_v53_08 (V : Valuation τ sig (Elt Ideal)) : S08 V (Proc.devRef .tc main_v53) = val_main_v53 (F := Ideal) (V (Proc.devRef .tc main_arg0)) (V (Proc.devRef .tc main_arg2)) (V (Proc.devRef .tc main_arg3)) :=
  (show after s08 (S07 V) (Proc.devRef .tc main_v53) = (S07 V) (Proc.devRef .tc main_v53) from by keeps s08).trans (F_v53_07 V)
theorem F_v71_08 (V : Valuation τ sig (Elt Ideal)) : S08 V (Proc.devRef .tc main_v71) = val_main_v71 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) :=
  (show after s08 (S07 V) (Proc.devRef .tc main_v71) = (S07 V) (Proc.devRef .tc main_v71) from by keeps s08).trans (F_v71_07 V)
theorem F_v89_08 (V : Valuation τ sig (Elt Ideal)) : S08 V (Proc.devRef .tc main_v89) = val_main_v89 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) :=
  r08_v89 (S07 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (A_arg6_07 V) (A_arg7_07 V) (F_v84_07 V)

theorem A_arg0_09 (V : Valuation τ sig (Elt Ideal)) : S09 V (Proc.devRef .tc main_arg0) = V (Proc.devRef .tc main_arg0) :=
  (show after s09 (S08 V) (Proc.devRef .tc main_arg0) = (S08 V) (Proc.devRef .tc main_arg0) from by keeps s09).trans (A_arg0_08 V)
theorem A_arg1_09 (V : Valuation τ sig (Elt Ideal)) : S09 V (Proc.devRef .tc main_arg1) = V (Proc.devRef .tc main_arg1) :=
  (show after s09 (S08 V) (Proc.devRef .tc main_arg1) = (S08 V) (Proc.devRef .tc main_arg1) from by keeps s09).trans (A_arg1_08 V)
theorem A_arg2_09 (V : Valuation τ sig (Elt Ideal)) : S09 V (Proc.devRef .tc main_arg2) = V (Proc.devRef .tc main_arg2) :=
  (show after s09 (S08 V) (Proc.devRef .tc main_arg2) = (S08 V) (Proc.devRef .tc main_arg2) from by keeps s09).trans (A_arg2_08 V)
theorem A_arg3_09 (V : Valuation τ sig (Elt Ideal)) : S09 V (Proc.devRef .tc main_arg3) = V (Proc.devRef .tc main_arg3) :=
  (show after s09 (S08 V) (Proc.devRef .tc main_arg3) = (S08 V) (Proc.devRef .tc main_arg3) from by keeps s09).trans (A_arg3_08 V)
theorem A_arg4_09 (V : Valuation τ sig (Elt Ideal)) : S09 V (Proc.devRef .tc main_arg4) = V (Proc.devRef .tc main_arg4) :=
  (show after s09 (S08 V) (Proc.devRef .tc main_arg4) = (S08 V) (Proc.devRef .tc main_arg4) from by keeps s09).trans (A_arg4_08 V)
theorem A_arg5_09 (V : Valuation τ sig (Elt Ideal)) : S09 V (Proc.devRef .tc main_arg5) = V (Proc.devRef .tc main_arg5) :=
  (show after s09 (S08 V) (Proc.devRef .tc main_arg5) = (S08 V) (Proc.devRef .tc main_arg5) from by keeps s09).trans (A_arg5_08 V)
theorem A_arg6_09 (V : Valuation τ sig (Elt Ideal)) : S09 V (Proc.devRef .tc main_arg6) = V (Proc.devRef .tc main_arg6) :=
  (show after s09 (S08 V) (Proc.devRef .tc main_arg6) = (S08 V) (Proc.devRef .tc main_arg6) from by keeps s09).trans (A_arg6_08 V)
theorem A_arg7_09 (V : Valuation τ sig (Elt Ideal)) : S09 V (Proc.devRef .tc main_arg7) = V (Proc.devRef .tc main_arg7) :=
  (show after s09 (S08 V) (Proc.devRef .tc main_arg7) = (S08 V) (Proc.devRef .tc main_arg7) from by keeps s09).trans (A_arg7_08 V)
theorem A_arg8_09 (V : Valuation τ sig (Elt Ideal)) : S09 V (Proc.devRef .tc main_arg8) = V (Proc.devRef .tc main_arg8) :=
  (show after s09 (S08 V) (Proc.devRef .tc main_arg8) = (S08 V) (Proc.devRef .tc main_arg8) from by keeps s09).trans (A_arg8_08 V)
theorem A_arg9_09 (V : Valuation τ sig (Elt Ideal)) : S09 V (Proc.devRef .tc main_arg9) = V (Proc.devRef .tc main_arg9) :=
  (show after s09 (S08 V) (Proc.devRef .tc main_arg9) = (S08 V) (Proc.devRef .tc main_arg9) from by keeps s09).trans (A_arg9_08 V)
theorem A_arg10_09 (V : Valuation τ sig (Elt Ideal)) : S09 V (Proc.devRef .tc main_arg10) = V (Proc.devRef .tc main_arg10) :=
  (show after s09 (S08 V) (Proc.devRef .tc main_arg10) = (S08 V) (Proc.devRef .tc main_arg10) from by keeps s09).trans (A_arg10_08 V)
theorem A_arg11_09 (V : Valuation τ sig (Elt Ideal)) : S09 V (Proc.devRef .tc main_arg11) = V (Proc.devRef .tc main_arg11) :=
  (show after s09 (S08 V) (Proc.devRef .tc main_arg11) = (S08 V) (Proc.devRef .tc main_arg11) from by keeps s09).trans (A_arg11_08 V)
theorem F_v3_09 (V : Valuation τ sig (Elt Ideal)) : S09 V (Proc.devRef .tc main_v3) = val_main_v3 (F := Ideal) (V (Proc.devRef .tc main_arg1)) :=
  (show after s09 (S08 V) (Proc.devRef .tc main_v3) = (S08 V) (Proc.devRef .tc main_v3) from by keeps s09).trans (F_v3_08 V)
theorem F_v7_09 (V : Valuation τ sig (Elt Ideal)) : S09 V (Proc.devRef .tc main_v7) = val_main_v7 (F := Ideal) (V (Proc.devRef .tc main_arg1)) :=
  (show after s09 (S08 V) (Proc.devRef .tc main_v7) = (S08 V) (Proc.devRef .tc main_v7) from by keeps s09).trans (F_v7_08 V)
theorem F_v32_09 (V : Valuation τ sig (Elt Ideal)) : S09 V (Proc.devRef .tc main_v32) = val_main_v32 (F := Ideal) (V (Proc.devRef .tc main_arg1)) :=
  (show after s09 (S08 V) (Proc.devRef .tc main_v32) = (S08 V) (Proc.devRef .tc main_v32) from by keeps s09).trans (F_v32_08 V)
theorem F_v53_09 (V : Valuation τ sig (Elt Ideal)) : S09 V (Proc.devRef .tc main_v53) = val_main_v53 (F := Ideal) (V (Proc.devRef .tc main_arg0)) (V (Proc.devRef .tc main_arg2)) (V (Proc.devRef .tc main_arg3)) :=
  (show after s09 (S08 V) (Proc.devRef .tc main_v53) = (S08 V) (Proc.devRef .tc main_v53) from by keeps s09).trans (F_v53_08 V)
theorem F_v71_09 (V : Valuation τ sig (Elt Ideal)) : S09 V (Proc.devRef .tc main_v71) = val_main_v71 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) :=
  (show after s09 (S08 V) (Proc.devRef .tc main_v71) = (S08 V) (Proc.devRef .tc main_v71) from by keeps s09).trans (F_v71_08 V)
theorem F_v89_09 (V : Valuation τ sig (Elt Ideal)) : S09 V (Proc.devRef .tc main_v89) = val_main_v89 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) :=
  (show after s09 (S08 V) (Proc.devRef .tc main_v89) = (S08 V) (Proc.devRef .tc main_v89) from by keeps s09).trans (F_v89_08 V)
theorem F_v91_09 (V : Valuation τ sig (Elt Ideal)) : S09 V (Proc.devRef .tc main_v91) = val_main_v91 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) :=
  r09_v91 (S08 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (F_v89_08 V)
theorem F_v93_09 (V : Valuation τ sig (Elt Ideal)) : S09 V (Proc.devRef .tc main_v93) = val_main_v93 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) :=
  r09_v93 (S08 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (F_v89_08 V)
theorem F_v95_09 (V : Valuation τ sig (Elt Ideal)) : S09 V (Proc.devRef .tc main_v95) = val_main_v95 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) :=
  r09_v95 (S08 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (F_v89_08 V)
theorem F_v96_09 (V : Valuation τ sig (Elt Ideal)) : S09 V (Proc.devRef .tc main_v96) = val_main_v96 (F := Ideal) :=
  r09_v96 (S08 V)

theorem A_arg0_10 (V : Valuation τ sig (Elt Ideal)) : S10 V (Proc.devRef .tc main_arg0) = V (Proc.devRef .tc main_arg0) :=
  (show after s10 (S09 V) (Proc.devRef .tc main_arg0) = (S09 V) (Proc.devRef .tc main_arg0) from by keeps s10).trans (A_arg0_09 V)
theorem A_arg1_10 (V : Valuation τ sig (Elt Ideal)) : S10 V (Proc.devRef .tc main_arg1) = V (Proc.devRef .tc main_arg1) :=
  (show after s10 (S09 V) (Proc.devRef .tc main_arg1) = (S09 V) (Proc.devRef .tc main_arg1) from by keeps s10).trans (A_arg1_09 V)
theorem A_arg2_10 (V : Valuation τ sig (Elt Ideal)) : S10 V (Proc.devRef .tc main_arg2) = V (Proc.devRef .tc main_arg2) :=
  (show after s10 (S09 V) (Proc.devRef .tc main_arg2) = (S09 V) (Proc.devRef .tc main_arg2) from by keeps s10).trans (A_arg2_09 V)
theorem A_arg3_10 (V : Valuation τ sig (Elt Ideal)) : S10 V (Proc.devRef .tc main_arg3) = V (Proc.devRef .tc main_arg3) :=
  (show after s10 (S09 V) (Proc.devRef .tc main_arg3) = (S09 V) (Proc.devRef .tc main_arg3) from by keeps s10).trans (A_arg3_09 V)
theorem A_arg4_10 (V : Valuation τ sig (Elt Ideal)) : S10 V (Proc.devRef .tc main_arg4) = V (Proc.devRef .tc main_arg4) :=
  (show after s10 (S09 V) (Proc.devRef .tc main_arg4) = (S09 V) (Proc.devRef .tc main_arg4) from by keeps s10).trans (A_arg4_09 V)
theorem A_arg5_10 (V : Valuation τ sig (Elt Ideal)) : S10 V (Proc.devRef .tc main_arg5) = V (Proc.devRef .tc main_arg5) :=
  (show after s10 (S09 V) (Proc.devRef .tc main_arg5) = (S09 V) (Proc.devRef .tc main_arg5) from by keeps s10).trans (A_arg5_09 V)
theorem A_arg6_10 (V : Valuation τ sig (Elt Ideal)) : S10 V (Proc.devRef .tc main_arg6) = V (Proc.devRef .tc main_arg6) :=
  (show after s10 (S09 V) (Proc.devRef .tc main_arg6) = (S09 V) (Proc.devRef .tc main_arg6) from by keeps s10).trans (A_arg6_09 V)
theorem A_arg7_10 (V : Valuation τ sig (Elt Ideal)) : S10 V (Proc.devRef .tc main_arg7) = V (Proc.devRef .tc main_arg7) :=
  (show after s10 (S09 V) (Proc.devRef .tc main_arg7) = (S09 V) (Proc.devRef .tc main_arg7) from by keeps s10).trans (A_arg7_09 V)
theorem A_arg8_10 (V : Valuation τ sig (Elt Ideal)) : S10 V (Proc.devRef .tc main_arg8) = V (Proc.devRef .tc main_arg8) :=
  (show after s10 (S09 V) (Proc.devRef .tc main_arg8) = (S09 V) (Proc.devRef .tc main_arg8) from by keeps s10).trans (A_arg8_09 V)
theorem A_arg9_10 (V : Valuation τ sig (Elt Ideal)) : S10 V (Proc.devRef .tc main_arg9) = V (Proc.devRef .tc main_arg9) :=
  (show after s10 (S09 V) (Proc.devRef .tc main_arg9) = (S09 V) (Proc.devRef .tc main_arg9) from by keeps s10).trans (A_arg9_09 V)
theorem A_arg10_10 (V : Valuation τ sig (Elt Ideal)) : S10 V (Proc.devRef .tc main_arg10) = V (Proc.devRef .tc main_arg10) :=
  (show after s10 (S09 V) (Proc.devRef .tc main_arg10) = (S09 V) (Proc.devRef .tc main_arg10) from by keeps s10).trans (A_arg10_09 V)
theorem A_arg11_10 (V : Valuation τ sig (Elt Ideal)) : S10 V (Proc.devRef .tc main_arg11) = V (Proc.devRef .tc main_arg11) :=
  (show after s10 (S09 V) (Proc.devRef .tc main_arg11) = (S09 V) (Proc.devRef .tc main_arg11) from by keeps s10).trans (A_arg11_09 V)
theorem F_v3_10 (V : Valuation τ sig (Elt Ideal)) : S10 V (Proc.devRef .tc main_v3) = val_main_v3 (F := Ideal) (V (Proc.devRef .tc main_arg1)) :=
  (show after s10 (S09 V) (Proc.devRef .tc main_v3) = (S09 V) (Proc.devRef .tc main_v3) from by keeps s10).trans (F_v3_09 V)
theorem F_v7_10 (V : Valuation τ sig (Elt Ideal)) : S10 V (Proc.devRef .tc main_v7) = val_main_v7 (F := Ideal) (V (Proc.devRef .tc main_arg1)) :=
  (show after s10 (S09 V) (Proc.devRef .tc main_v7) = (S09 V) (Proc.devRef .tc main_v7) from by keeps s10).trans (F_v7_09 V)
theorem F_v32_10 (V : Valuation τ sig (Elt Ideal)) : S10 V (Proc.devRef .tc main_v32) = val_main_v32 (F := Ideal) (V (Proc.devRef .tc main_arg1)) :=
  (show after s10 (S09 V) (Proc.devRef .tc main_v32) = (S09 V) (Proc.devRef .tc main_v32) from by keeps s10).trans (F_v32_09 V)
theorem F_v53_10 (V : Valuation τ sig (Elt Ideal)) : S10 V (Proc.devRef .tc main_v53) = val_main_v53 (F := Ideal) (V (Proc.devRef .tc main_arg0)) (V (Proc.devRef .tc main_arg2)) (V (Proc.devRef .tc main_arg3)) :=
  (show after s10 (S09 V) (Proc.devRef .tc main_v53) = (S09 V) (Proc.devRef .tc main_v53) from by keeps s10).trans (F_v53_09 V)
theorem F_v71_10 (V : Valuation τ sig (Elt Ideal)) : S10 V (Proc.devRef .tc main_v71) = val_main_v71 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) :=
  (show after s10 (S09 V) (Proc.devRef .tc main_v71) = (S09 V) (Proc.devRef .tc main_v71) from by keeps s10).trans (F_v71_09 V)
theorem F_v89_10 (V : Valuation τ sig (Elt Ideal)) : S10 V (Proc.devRef .tc main_v89) = val_main_v89 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) :=
  (show after s10 (S09 V) (Proc.devRef .tc main_v89) = (S09 V) (Proc.devRef .tc main_v89) from by keeps s10).trans (F_v89_09 V)
theorem F_v104_10 (V : Valuation τ sig (Elt Ideal)) : S10 V (Proc.devRef .tc main_v104) = val_main_v104 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) :=
  r10_v104 (S09 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (F_v91_09 V) (F_v93_09 V) (F_v95_09 V) (F_v96_09 V)

theorem A_arg0_11 (V : Valuation τ sig (Elt Ideal)) : S11 V (Proc.devRef .tc main_arg0) = V (Proc.devRef .tc main_arg0) :=
  (show after s11 (S10 V) (Proc.devRef .tc main_arg0) = (S10 V) (Proc.devRef .tc main_arg0) from by keeps s11).trans (A_arg0_10 V)
theorem A_arg1_11 (V : Valuation τ sig (Elt Ideal)) : S11 V (Proc.devRef .tc main_arg1) = V (Proc.devRef .tc main_arg1) :=
  (show after s11 (S10 V) (Proc.devRef .tc main_arg1) = (S10 V) (Proc.devRef .tc main_arg1) from by keeps s11).trans (A_arg1_10 V)
theorem A_arg2_11 (V : Valuation τ sig (Elt Ideal)) : S11 V (Proc.devRef .tc main_arg2) = V (Proc.devRef .tc main_arg2) :=
  (show after s11 (S10 V) (Proc.devRef .tc main_arg2) = (S10 V) (Proc.devRef .tc main_arg2) from by keeps s11).trans (A_arg2_10 V)
theorem A_arg3_11 (V : Valuation τ sig (Elt Ideal)) : S11 V (Proc.devRef .tc main_arg3) = V (Proc.devRef .tc main_arg3) :=
  (show after s11 (S10 V) (Proc.devRef .tc main_arg3) = (S10 V) (Proc.devRef .tc main_arg3) from by keeps s11).trans (A_arg3_10 V)
theorem A_arg4_11 (V : Valuation τ sig (Elt Ideal)) : S11 V (Proc.devRef .tc main_arg4) = V (Proc.devRef .tc main_arg4) :=
  (show after s11 (S10 V) (Proc.devRef .tc main_arg4) = (S10 V) (Proc.devRef .tc main_arg4) from by keeps s11).trans (A_arg4_10 V)
theorem A_arg5_11 (V : Valuation τ sig (Elt Ideal)) : S11 V (Proc.devRef .tc main_arg5) = V (Proc.devRef .tc main_arg5) :=
  (show after s11 (S10 V) (Proc.devRef .tc main_arg5) = (S10 V) (Proc.devRef .tc main_arg5) from by keeps s11).trans (A_arg5_10 V)
theorem A_arg6_11 (V : Valuation τ sig (Elt Ideal)) : S11 V (Proc.devRef .tc main_arg6) = V (Proc.devRef .tc main_arg6) :=
  (show after s11 (S10 V) (Proc.devRef .tc main_arg6) = (S10 V) (Proc.devRef .tc main_arg6) from by keeps s11).trans (A_arg6_10 V)
theorem A_arg7_11 (V : Valuation τ sig (Elt Ideal)) : S11 V (Proc.devRef .tc main_arg7) = V (Proc.devRef .tc main_arg7) :=
  (show after s11 (S10 V) (Proc.devRef .tc main_arg7) = (S10 V) (Proc.devRef .tc main_arg7) from by keeps s11).trans (A_arg7_10 V)
theorem A_arg8_11 (V : Valuation τ sig (Elt Ideal)) : S11 V (Proc.devRef .tc main_arg8) = V (Proc.devRef .tc main_arg8) :=
  (show after s11 (S10 V) (Proc.devRef .tc main_arg8) = (S10 V) (Proc.devRef .tc main_arg8) from by keeps s11).trans (A_arg8_10 V)
theorem A_arg9_11 (V : Valuation τ sig (Elt Ideal)) : S11 V (Proc.devRef .tc main_arg9) = V (Proc.devRef .tc main_arg9) :=
  (show after s11 (S10 V) (Proc.devRef .tc main_arg9) = (S10 V) (Proc.devRef .tc main_arg9) from by keeps s11).trans (A_arg9_10 V)
theorem A_arg10_11 (V : Valuation τ sig (Elt Ideal)) : S11 V (Proc.devRef .tc main_arg10) = V (Proc.devRef .tc main_arg10) :=
  (show after s11 (S10 V) (Proc.devRef .tc main_arg10) = (S10 V) (Proc.devRef .tc main_arg10) from by keeps s11).trans (A_arg10_10 V)
theorem A_arg11_11 (V : Valuation τ sig (Elt Ideal)) : S11 V (Proc.devRef .tc main_arg11) = V (Proc.devRef .tc main_arg11) :=
  (show after s11 (S10 V) (Proc.devRef .tc main_arg11) = (S10 V) (Proc.devRef .tc main_arg11) from by keeps s11).trans (A_arg11_10 V)
theorem F_v3_11 (V : Valuation τ sig (Elt Ideal)) : S11 V (Proc.devRef .tc main_v3) = val_main_v3 (F := Ideal) (V (Proc.devRef .tc main_arg1)) :=
  (show after s11 (S10 V) (Proc.devRef .tc main_v3) = (S10 V) (Proc.devRef .tc main_v3) from by keeps s11).trans (F_v3_10 V)
theorem F_v7_11 (V : Valuation τ sig (Elt Ideal)) : S11 V (Proc.devRef .tc main_v7) = val_main_v7 (F := Ideal) (V (Proc.devRef .tc main_arg1)) :=
  (show after s11 (S10 V) (Proc.devRef .tc main_v7) = (S10 V) (Proc.devRef .tc main_v7) from by keeps s11).trans (F_v7_10 V)
theorem F_v32_11 (V : Valuation τ sig (Elt Ideal)) : S11 V (Proc.devRef .tc main_v32) = val_main_v32 (F := Ideal) (V (Proc.devRef .tc main_arg1)) :=
  (show after s11 (S10 V) (Proc.devRef .tc main_v32) = (S10 V) (Proc.devRef .tc main_v32) from by keeps s11).trans (F_v32_10 V)
theorem F_v53_11 (V : Valuation τ sig (Elt Ideal)) : S11 V (Proc.devRef .tc main_v53) = val_main_v53 (F := Ideal) (V (Proc.devRef .tc main_arg0)) (V (Proc.devRef .tc main_arg2)) (V (Proc.devRef .tc main_arg3)) :=
  (show after s11 (S10 V) (Proc.devRef .tc main_v53) = (S10 V) (Proc.devRef .tc main_v53) from by keeps s11).trans (F_v53_10 V)
theorem F_v71_11 (V : Valuation τ sig (Elt Ideal)) : S11 V (Proc.devRef .tc main_v71) = val_main_v71 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) :=
  (show after s11 (S10 V) (Proc.devRef .tc main_v71) = (S10 V) (Proc.devRef .tc main_v71) from by keeps s11).trans (F_v71_10 V)
theorem F_v89_11 (V : Valuation τ sig (Elt Ideal)) : S11 V (Proc.devRef .tc main_v89) = val_main_v89 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) :=
  (show after s11 (S10 V) (Proc.devRef .tc main_v89) = (S10 V) (Proc.devRef .tc main_v89) from by keeps s11).trans (F_v89_10 V)
theorem F_v120_11 (V : Valuation τ sig (Elt Ideal)) : S11 V (Proc.devRef .tc main_v120) = val_main_v120 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) :=
  r11_v120 (S10 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (F_v104_10 V) (F_v53_10 V)

theorem A_arg0_12 (V : Valuation τ sig (Elt Ideal)) : S12 V (Proc.devRef .tc main_arg0) = V (Proc.devRef .tc main_arg0) :=
  (show after s12 (S11 V) (Proc.devRef .tc main_arg0) = (S11 V) (Proc.devRef .tc main_arg0) from by keeps s12).trans (A_arg0_11 V)
theorem A_arg1_12 (V : Valuation τ sig (Elt Ideal)) : S12 V (Proc.devRef .tc main_arg1) = V (Proc.devRef .tc main_arg1) :=
  (show after s12 (S11 V) (Proc.devRef .tc main_arg1) = (S11 V) (Proc.devRef .tc main_arg1) from by keeps s12).trans (A_arg1_11 V)
theorem A_arg2_12 (V : Valuation τ sig (Elt Ideal)) : S12 V (Proc.devRef .tc main_arg2) = V (Proc.devRef .tc main_arg2) :=
  (show after s12 (S11 V) (Proc.devRef .tc main_arg2) = (S11 V) (Proc.devRef .tc main_arg2) from by keeps s12).trans (A_arg2_11 V)
theorem A_arg3_12 (V : Valuation τ sig (Elt Ideal)) : S12 V (Proc.devRef .tc main_arg3) = V (Proc.devRef .tc main_arg3) :=
  (show after s12 (S11 V) (Proc.devRef .tc main_arg3) = (S11 V) (Proc.devRef .tc main_arg3) from by keeps s12).trans (A_arg3_11 V)
theorem A_arg4_12 (V : Valuation τ sig (Elt Ideal)) : S12 V (Proc.devRef .tc main_arg4) = V (Proc.devRef .tc main_arg4) :=
  (show after s12 (S11 V) (Proc.devRef .tc main_arg4) = (S11 V) (Proc.devRef .tc main_arg4) from by keeps s12).trans (A_arg4_11 V)
theorem A_arg5_12 (V : Valuation τ sig (Elt Ideal)) : S12 V (Proc.devRef .tc main_arg5) = V (Proc.devRef .tc main_arg5) :=
  (show after s12 (S11 V) (Proc.devRef .tc main_arg5) = (S11 V) (Proc.devRef .tc main_arg5) from by keeps s12).trans (A_arg5_11 V)
theorem A_arg6_12 (V : Valuation τ sig (Elt Ideal)) : S12 V (Proc.devRef .tc main_arg6) = V (Proc.devRef .tc main_arg6) :=
  (show after s12 (S11 V) (Proc.devRef .tc main_arg6) = (S11 V) (Proc.devRef .tc main_arg6) from by keeps s12).trans (A_arg6_11 V)
theorem A_arg7_12 (V : Valuation τ sig (Elt Ideal)) : S12 V (Proc.devRef .tc main_arg7) = V (Proc.devRef .tc main_arg7) :=
  (show after s12 (S11 V) (Proc.devRef .tc main_arg7) = (S11 V) (Proc.devRef .tc main_arg7) from by keeps s12).trans (A_arg7_11 V)
theorem A_arg8_12 (V : Valuation τ sig (Elt Ideal)) : S12 V (Proc.devRef .tc main_arg8) = V (Proc.devRef .tc main_arg8) :=
  (show after s12 (S11 V) (Proc.devRef .tc main_arg8) = (S11 V) (Proc.devRef .tc main_arg8) from by keeps s12).trans (A_arg8_11 V)
theorem A_arg9_12 (V : Valuation τ sig (Elt Ideal)) : S12 V (Proc.devRef .tc main_arg9) = V (Proc.devRef .tc main_arg9) :=
  (show after s12 (S11 V) (Proc.devRef .tc main_arg9) = (S11 V) (Proc.devRef .tc main_arg9) from by keeps s12).trans (A_arg9_11 V)
theorem A_arg10_12 (V : Valuation τ sig (Elt Ideal)) : S12 V (Proc.devRef .tc main_arg10) = V (Proc.devRef .tc main_arg10) :=
  (show after s12 (S11 V) (Proc.devRef .tc main_arg10) = (S11 V) (Proc.devRef .tc main_arg10) from by keeps s12).trans (A_arg10_11 V)
theorem A_arg11_12 (V : Valuation τ sig (Elt Ideal)) : S12 V (Proc.devRef .tc main_arg11) = V (Proc.devRef .tc main_arg11) :=
  (show after s12 (S11 V) (Proc.devRef .tc main_arg11) = (S11 V) (Proc.devRef .tc main_arg11) from by keeps s12).trans (A_arg11_11 V)
theorem F_v53_12 (V : Valuation τ sig (Elt Ideal)) : S12 V (Proc.devRef .tc main_v53) = val_main_v53 (F := Ideal) (V (Proc.devRef .tc main_arg0)) (V (Proc.devRef .tc main_arg2)) (V (Proc.devRef .tc main_arg3)) :=
  (show after s12 (S11 V) (Proc.devRef .tc main_v53) = (S11 V) (Proc.devRef .tc main_v53) from by keeps s12).trans (F_v53_11 V)
theorem F_v71_12 (V : Valuation τ sig (Elt Ideal)) : S12 V (Proc.devRef .tc main_v71) = val_main_v71 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) :=
  (show after s12 (S11 V) (Proc.devRef .tc main_v71) = (S11 V) (Proc.devRef .tc main_v71) from by keeps s12).trans (F_v71_11 V)
theorem F_v120_12 (V : Valuation τ sig (Elt Ideal)) : S12 V (Proc.devRef .tc main_v120) = val_main_v120 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) :=
  (show after s12 (S11 V) (Proc.devRef .tc main_v120) = (S11 V) (Proc.devRef .tc main_v120) from by keeps s12).trans (F_v120_11 V)
theorem F_v133_12 (V : Valuation τ sig (Elt Ideal)) : S12 V (Proc.devRef .tc main_v133) = val_main_v133 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) :=
  r12_v133 (S11 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (F_v3_11 V) (F_v32_11 V) (F_v7_11 V) (F_v89_11 V)

theorem A_arg0_13 (V : Valuation τ sig (Elt Ideal)) : S13 V (Proc.devRef .tc main_arg0) = V (Proc.devRef .tc main_arg0) :=
  (show after s13 (S12 V) (Proc.devRef .tc main_arg0) = (S12 V) (Proc.devRef .tc main_arg0) from by keeps s13).trans (A_arg0_12 V)
theorem A_arg1_13 (V : Valuation τ sig (Elt Ideal)) : S13 V (Proc.devRef .tc main_arg1) = V (Proc.devRef .tc main_arg1) :=
  (show after s13 (S12 V) (Proc.devRef .tc main_arg1) = (S12 V) (Proc.devRef .tc main_arg1) from by keeps s13).trans (A_arg1_12 V)
theorem A_arg2_13 (V : Valuation τ sig (Elt Ideal)) : S13 V (Proc.devRef .tc main_arg2) = V (Proc.devRef .tc main_arg2) :=
  (show after s13 (S12 V) (Proc.devRef .tc main_arg2) = (S12 V) (Proc.devRef .tc main_arg2) from by keeps s13).trans (A_arg2_12 V)
theorem A_arg3_13 (V : Valuation τ sig (Elt Ideal)) : S13 V (Proc.devRef .tc main_arg3) = V (Proc.devRef .tc main_arg3) :=
  (show after s13 (S12 V) (Proc.devRef .tc main_arg3) = (S12 V) (Proc.devRef .tc main_arg3) from by keeps s13).trans (A_arg3_12 V)
theorem A_arg4_13 (V : Valuation τ sig (Elt Ideal)) : S13 V (Proc.devRef .tc main_arg4) = V (Proc.devRef .tc main_arg4) :=
  (show after s13 (S12 V) (Proc.devRef .tc main_arg4) = (S12 V) (Proc.devRef .tc main_arg4) from by keeps s13).trans (A_arg4_12 V)
theorem A_arg5_13 (V : Valuation τ sig (Elt Ideal)) : S13 V (Proc.devRef .tc main_arg5) = V (Proc.devRef .tc main_arg5) :=
  (show after s13 (S12 V) (Proc.devRef .tc main_arg5) = (S12 V) (Proc.devRef .tc main_arg5) from by keeps s13).trans (A_arg5_12 V)
theorem A_arg6_13 (V : Valuation τ sig (Elt Ideal)) : S13 V (Proc.devRef .tc main_arg6) = V (Proc.devRef .tc main_arg6) :=
  (show after s13 (S12 V) (Proc.devRef .tc main_arg6) = (S12 V) (Proc.devRef .tc main_arg6) from by keeps s13).trans (A_arg6_12 V)
theorem A_arg7_13 (V : Valuation τ sig (Elt Ideal)) : S13 V (Proc.devRef .tc main_arg7) = V (Proc.devRef .tc main_arg7) :=
  (show after s13 (S12 V) (Proc.devRef .tc main_arg7) = (S12 V) (Proc.devRef .tc main_arg7) from by keeps s13).trans (A_arg7_12 V)
theorem A_arg8_13 (V : Valuation τ sig (Elt Ideal)) : S13 V (Proc.devRef .tc main_arg8) = V (Proc.devRef .tc main_arg8) :=
  (show after s13 (S12 V) (Proc.devRef .tc main_arg8) = (S12 V) (Proc.devRef .tc main_arg8) from by keeps s13).trans (A_arg8_12 V)
theorem A_arg9_13 (V : Valuation τ sig (Elt Ideal)) : S13 V (Proc.devRef .tc main_arg9) = V (Proc.devRef .tc main_arg9) :=
  (show after s13 (S12 V) (Proc.devRef .tc main_arg9) = (S12 V) (Proc.devRef .tc main_arg9) from by keeps s13).trans (A_arg9_12 V)
theorem A_arg10_13 (V : Valuation τ sig (Elt Ideal)) : S13 V (Proc.devRef .tc main_arg10) = V (Proc.devRef .tc main_arg10) :=
  (show after s13 (S12 V) (Proc.devRef .tc main_arg10) = (S12 V) (Proc.devRef .tc main_arg10) from by keeps s13).trans (A_arg10_12 V)
theorem A_arg11_13 (V : Valuation τ sig (Elt Ideal)) : S13 V (Proc.devRef .tc main_arg11) = V (Proc.devRef .tc main_arg11) :=
  (show after s13 (S12 V) (Proc.devRef .tc main_arg11) = (S12 V) (Proc.devRef .tc main_arg11) from by keeps s13).trans (A_arg11_12 V)
theorem F_v53_13 (V : Valuation τ sig (Elt Ideal)) : S13 V (Proc.devRef .tc main_v53) = val_main_v53 (F := Ideal) (V (Proc.devRef .tc main_arg0)) (V (Proc.devRef .tc main_arg2)) (V (Proc.devRef .tc main_arg3)) :=
  (show after s13 (S12 V) (Proc.devRef .tc main_v53) = (S12 V) (Proc.devRef .tc main_v53) from by keeps s13).trans (F_v53_12 V)
theorem F_v71_13 (V : Valuation τ sig (Elt Ideal)) : S13 V (Proc.devRef .tc main_v71) = val_main_v71 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) :=
  (show after s13 (S12 V) (Proc.devRef .tc main_v71) = (S12 V) (Proc.devRef .tc main_v71) from by keeps s13).trans (F_v71_12 V)
theorem F_v120_13 (V : Valuation τ sig (Elt Ideal)) : S13 V (Proc.devRef .tc main_v120) = val_main_v120 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) :=
  (show after s13 (S12 V) (Proc.devRef .tc main_v120) = (S12 V) (Proc.devRef .tc main_v120) from by keeps s13).trans (F_v120_12 V)
theorem F_v138_13 (V : Valuation τ sig (Elt Ideal)) : S13 V (Proc.devRef .tc main_v138) = val_main_v138 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  r13_v138 (S12 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (A_arg8_12 V) (A_arg9_12 V) (F_v133_12 V)

theorem A_arg0_14 (V : Valuation τ sig (Elt Ideal)) : S14 V (Proc.devRef .tc main_arg0) = V (Proc.devRef .tc main_arg0) :=
  (show after s14 (S13 V) (Proc.devRef .tc main_arg0) = (S13 V) (Proc.devRef .tc main_arg0) from by keeps s14).trans (A_arg0_13 V)
theorem A_arg1_14 (V : Valuation τ sig (Elt Ideal)) : S14 V (Proc.devRef .tc main_arg1) = V (Proc.devRef .tc main_arg1) :=
  (show after s14 (S13 V) (Proc.devRef .tc main_arg1) = (S13 V) (Proc.devRef .tc main_arg1) from by keeps s14).trans (A_arg1_13 V)
theorem A_arg2_14 (V : Valuation τ sig (Elt Ideal)) : S14 V (Proc.devRef .tc main_arg2) = V (Proc.devRef .tc main_arg2) :=
  (show after s14 (S13 V) (Proc.devRef .tc main_arg2) = (S13 V) (Proc.devRef .tc main_arg2) from by keeps s14).trans (A_arg2_13 V)
theorem A_arg3_14 (V : Valuation τ sig (Elt Ideal)) : S14 V (Proc.devRef .tc main_arg3) = V (Proc.devRef .tc main_arg3) :=
  (show after s14 (S13 V) (Proc.devRef .tc main_arg3) = (S13 V) (Proc.devRef .tc main_arg3) from by keeps s14).trans (A_arg3_13 V)
theorem A_arg4_14 (V : Valuation τ sig (Elt Ideal)) : S14 V (Proc.devRef .tc main_arg4) = V (Proc.devRef .tc main_arg4) :=
  (show after s14 (S13 V) (Proc.devRef .tc main_arg4) = (S13 V) (Proc.devRef .tc main_arg4) from by keeps s14).trans (A_arg4_13 V)
theorem A_arg5_14 (V : Valuation τ sig (Elt Ideal)) : S14 V (Proc.devRef .tc main_arg5) = V (Proc.devRef .tc main_arg5) :=
  (show after s14 (S13 V) (Proc.devRef .tc main_arg5) = (S13 V) (Proc.devRef .tc main_arg5) from by keeps s14).trans (A_arg5_13 V)
theorem A_arg6_14 (V : Valuation τ sig (Elt Ideal)) : S14 V (Proc.devRef .tc main_arg6) = V (Proc.devRef .tc main_arg6) :=
  (show after s14 (S13 V) (Proc.devRef .tc main_arg6) = (S13 V) (Proc.devRef .tc main_arg6) from by keeps s14).trans (A_arg6_13 V)
theorem A_arg7_14 (V : Valuation τ sig (Elt Ideal)) : S14 V (Proc.devRef .tc main_arg7) = V (Proc.devRef .tc main_arg7) :=
  (show after s14 (S13 V) (Proc.devRef .tc main_arg7) = (S13 V) (Proc.devRef .tc main_arg7) from by keeps s14).trans (A_arg7_13 V)
theorem A_arg8_14 (V : Valuation τ sig (Elt Ideal)) : S14 V (Proc.devRef .tc main_arg8) = V (Proc.devRef .tc main_arg8) :=
  (show after s14 (S13 V) (Proc.devRef .tc main_arg8) = (S13 V) (Proc.devRef .tc main_arg8) from by keeps s14).trans (A_arg8_13 V)
theorem A_arg9_14 (V : Valuation τ sig (Elt Ideal)) : S14 V (Proc.devRef .tc main_arg9) = V (Proc.devRef .tc main_arg9) :=
  (show after s14 (S13 V) (Proc.devRef .tc main_arg9) = (S13 V) (Proc.devRef .tc main_arg9) from by keeps s14).trans (A_arg9_13 V)
theorem A_arg10_14 (V : Valuation τ sig (Elt Ideal)) : S14 V (Proc.devRef .tc main_arg10) = V (Proc.devRef .tc main_arg10) :=
  (show after s14 (S13 V) (Proc.devRef .tc main_arg10) = (S13 V) (Proc.devRef .tc main_arg10) from by keeps s14).trans (A_arg10_13 V)
theorem A_arg11_14 (V : Valuation τ sig (Elt Ideal)) : S14 V (Proc.devRef .tc main_arg11) = V (Proc.devRef .tc main_arg11) :=
  (show after s14 (S13 V) (Proc.devRef .tc main_arg11) = (S13 V) (Proc.devRef .tc main_arg11) from by keeps s14).trans (A_arg11_13 V)
theorem F_v53_14 (V : Valuation τ sig (Elt Ideal)) : S14 V (Proc.devRef .tc main_v53) = val_main_v53 (F := Ideal) (V (Proc.devRef .tc main_arg0)) (V (Proc.devRef .tc main_arg2)) (V (Proc.devRef .tc main_arg3)) :=
  (show after s14 (S13 V) (Proc.devRef .tc main_v53) = (S13 V) (Proc.devRef .tc main_v53) from by keeps s14).trans (F_v53_13 V)
theorem F_v71_14 (V : Valuation τ sig (Elt Ideal)) : S14 V (Proc.devRef .tc main_v71) = val_main_v71 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) :=
  (show after s14 (S13 V) (Proc.devRef .tc main_v71) = (S13 V) (Proc.devRef .tc main_v71) from by keeps s14).trans (F_v71_13 V)
theorem F_v120_14 (V : Valuation τ sig (Elt Ideal)) : S14 V (Proc.devRef .tc main_v120) = val_main_v120 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) :=
  (show after s14 (S13 V) (Proc.devRef .tc main_v120) = (S13 V) (Proc.devRef .tc main_v120) from by keeps s14).trans (F_v120_13 V)
theorem F_v140_14 (V : Valuation τ sig (Elt Ideal)) : S14 V (Proc.devRef .tc main_v140) = val_main_v140 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  r14_v140 (S13 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (F_v138_13 V)
theorem F_v142_14 (V : Valuation τ sig (Elt Ideal)) : S14 V (Proc.devRef .tc main_v142) = val_main_v142 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  r14_v142 (S13 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (F_v138_13 V)
theorem F_v144_14 (V : Valuation τ sig (Elt Ideal)) : S14 V (Proc.devRef .tc main_v144) = val_main_v144 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  r14_v144 (S13 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (F_v138_13 V)

theorem A_arg0_15 (V : Valuation τ sig (Elt Ideal)) : S15 V (Proc.devRef .tc main_arg0) = V (Proc.devRef .tc main_arg0) :=
  (show after s15 (S14 V) (Proc.devRef .tc main_arg0) = (S14 V) (Proc.devRef .tc main_arg0) from by keeps s15).trans (A_arg0_14 V)
theorem A_arg1_15 (V : Valuation τ sig (Elt Ideal)) : S15 V (Proc.devRef .tc main_arg1) = V (Proc.devRef .tc main_arg1) :=
  (show after s15 (S14 V) (Proc.devRef .tc main_arg1) = (S14 V) (Proc.devRef .tc main_arg1) from by keeps s15).trans (A_arg1_14 V)
theorem A_arg2_15 (V : Valuation τ sig (Elt Ideal)) : S15 V (Proc.devRef .tc main_arg2) = V (Proc.devRef .tc main_arg2) :=
  (show after s15 (S14 V) (Proc.devRef .tc main_arg2) = (S14 V) (Proc.devRef .tc main_arg2) from by keeps s15).trans (A_arg2_14 V)
theorem A_arg3_15 (V : Valuation τ sig (Elt Ideal)) : S15 V (Proc.devRef .tc main_arg3) = V (Proc.devRef .tc main_arg3) :=
  (show after s15 (S14 V) (Proc.devRef .tc main_arg3) = (S14 V) (Proc.devRef .tc main_arg3) from by keeps s15).trans (A_arg3_14 V)
theorem A_arg4_15 (V : Valuation τ sig (Elt Ideal)) : S15 V (Proc.devRef .tc main_arg4) = V (Proc.devRef .tc main_arg4) :=
  (show after s15 (S14 V) (Proc.devRef .tc main_arg4) = (S14 V) (Proc.devRef .tc main_arg4) from by keeps s15).trans (A_arg4_14 V)
theorem A_arg5_15 (V : Valuation τ sig (Elt Ideal)) : S15 V (Proc.devRef .tc main_arg5) = V (Proc.devRef .tc main_arg5) :=
  (show after s15 (S14 V) (Proc.devRef .tc main_arg5) = (S14 V) (Proc.devRef .tc main_arg5) from by keeps s15).trans (A_arg5_14 V)
theorem A_arg6_15 (V : Valuation τ sig (Elt Ideal)) : S15 V (Proc.devRef .tc main_arg6) = V (Proc.devRef .tc main_arg6) :=
  (show after s15 (S14 V) (Proc.devRef .tc main_arg6) = (S14 V) (Proc.devRef .tc main_arg6) from by keeps s15).trans (A_arg6_14 V)
theorem A_arg7_15 (V : Valuation τ sig (Elt Ideal)) : S15 V (Proc.devRef .tc main_arg7) = V (Proc.devRef .tc main_arg7) :=
  (show after s15 (S14 V) (Proc.devRef .tc main_arg7) = (S14 V) (Proc.devRef .tc main_arg7) from by keeps s15).trans (A_arg7_14 V)
theorem A_arg8_15 (V : Valuation τ sig (Elt Ideal)) : S15 V (Proc.devRef .tc main_arg8) = V (Proc.devRef .tc main_arg8) :=
  (show after s15 (S14 V) (Proc.devRef .tc main_arg8) = (S14 V) (Proc.devRef .tc main_arg8) from by keeps s15).trans (A_arg8_14 V)
theorem A_arg9_15 (V : Valuation τ sig (Elt Ideal)) : S15 V (Proc.devRef .tc main_arg9) = V (Proc.devRef .tc main_arg9) :=
  (show after s15 (S14 V) (Proc.devRef .tc main_arg9) = (S14 V) (Proc.devRef .tc main_arg9) from by keeps s15).trans (A_arg9_14 V)
theorem A_arg10_15 (V : Valuation τ sig (Elt Ideal)) : S15 V (Proc.devRef .tc main_arg10) = V (Proc.devRef .tc main_arg10) :=
  (show after s15 (S14 V) (Proc.devRef .tc main_arg10) = (S14 V) (Proc.devRef .tc main_arg10) from by keeps s15).trans (A_arg10_14 V)
theorem A_arg11_15 (V : Valuation τ sig (Elt Ideal)) : S15 V (Proc.devRef .tc main_arg11) = V (Proc.devRef .tc main_arg11) :=
  (show after s15 (S14 V) (Proc.devRef .tc main_arg11) = (S14 V) (Proc.devRef .tc main_arg11) from by keeps s15).trans (A_arg11_14 V)
theorem F_v53_15 (V : Valuation τ sig (Elt Ideal)) : S15 V (Proc.devRef .tc main_v53) = val_main_v53 (F := Ideal) (V (Proc.devRef .tc main_arg0)) (V (Proc.devRef .tc main_arg2)) (V (Proc.devRef .tc main_arg3)) :=
  (show after s15 (S14 V) (Proc.devRef .tc main_v53) = (S14 V) (Proc.devRef .tc main_v53) from by keeps s15).trans (F_v53_14 V)
theorem F_v71_15 (V : Valuation τ sig (Elt Ideal)) : S15 V (Proc.devRef .tc main_v71) = val_main_v71 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) :=
  (show after s15 (S14 V) (Proc.devRef .tc main_v71) = (S14 V) (Proc.devRef .tc main_v71) from by keeps s15).trans (F_v71_14 V)
theorem F_v120_15 (V : Valuation τ sig (Elt Ideal)) : S15 V (Proc.devRef .tc main_v120) = val_main_v120 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) :=
  (show after s15 (S14 V) (Proc.devRef .tc main_v120) = (S14 V) (Proc.devRef .tc main_v120) from by keeps s15).trans (F_v120_14 V)
theorem F_v153_15 (V : Valuation τ sig (Elt Ideal)) : S15 V (Proc.devRef .tc main_v153) = val_main_v153 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  r15_v153 (S14 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (F_v140_14 V) (F_v142_14 V) (F_v144_14 V)

theorem A_arg0_16 (V : Valuation τ sig (Elt Ideal)) : S16 V (Proc.devRef .tc main_arg0) = V (Proc.devRef .tc main_arg0) :=
  (show after s16 (S15 V) (Proc.devRef .tc main_arg0) = (S15 V) (Proc.devRef .tc main_arg0) from by keeps s16).trans (A_arg0_15 V)
theorem A_arg1_16 (V : Valuation τ sig (Elt Ideal)) : S16 V (Proc.devRef .tc main_arg1) = V (Proc.devRef .tc main_arg1) :=
  (show after s16 (S15 V) (Proc.devRef .tc main_arg1) = (S15 V) (Proc.devRef .tc main_arg1) from by keeps s16).trans (A_arg1_15 V)
theorem A_arg2_16 (V : Valuation τ sig (Elt Ideal)) : S16 V (Proc.devRef .tc main_arg2) = V (Proc.devRef .tc main_arg2) :=
  (show after s16 (S15 V) (Proc.devRef .tc main_arg2) = (S15 V) (Proc.devRef .tc main_arg2) from by keeps s16).trans (A_arg2_15 V)
theorem A_arg3_16 (V : Valuation τ sig (Elt Ideal)) : S16 V (Proc.devRef .tc main_arg3) = V (Proc.devRef .tc main_arg3) :=
  (show after s16 (S15 V) (Proc.devRef .tc main_arg3) = (S15 V) (Proc.devRef .tc main_arg3) from by keeps s16).trans (A_arg3_15 V)
theorem A_arg4_16 (V : Valuation τ sig (Elt Ideal)) : S16 V (Proc.devRef .tc main_arg4) = V (Proc.devRef .tc main_arg4) :=
  (show after s16 (S15 V) (Proc.devRef .tc main_arg4) = (S15 V) (Proc.devRef .tc main_arg4) from by keeps s16).trans (A_arg4_15 V)
theorem A_arg5_16 (V : Valuation τ sig (Elt Ideal)) : S16 V (Proc.devRef .tc main_arg5) = V (Proc.devRef .tc main_arg5) :=
  (show after s16 (S15 V) (Proc.devRef .tc main_arg5) = (S15 V) (Proc.devRef .tc main_arg5) from by keeps s16).trans (A_arg5_15 V)
theorem A_arg6_16 (V : Valuation τ sig (Elt Ideal)) : S16 V (Proc.devRef .tc main_arg6) = V (Proc.devRef .tc main_arg6) :=
  (show after s16 (S15 V) (Proc.devRef .tc main_arg6) = (S15 V) (Proc.devRef .tc main_arg6) from by keeps s16).trans (A_arg6_15 V)
theorem A_arg7_16 (V : Valuation τ sig (Elt Ideal)) : S16 V (Proc.devRef .tc main_arg7) = V (Proc.devRef .tc main_arg7) :=
  (show after s16 (S15 V) (Proc.devRef .tc main_arg7) = (S15 V) (Proc.devRef .tc main_arg7) from by keeps s16).trans (A_arg7_15 V)
theorem A_arg8_16 (V : Valuation τ sig (Elt Ideal)) : S16 V (Proc.devRef .tc main_arg8) = V (Proc.devRef .tc main_arg8) :=
  (show after s16 (S15 V) (Proc.devRef .tc main_arg8) = (S15 V) (Proc.devRef .tc main_arg8) from by keeps s16).trans (A_arg8_15 V)
theorem A_arg9_16 (V : Valuation τ sig (Elt Ideal)) : S16 V (Proc.devRef .tc main_arg9) = V (Proc.devRef .tc main_arg9) :=
  (show after s16 (S15 V) (Proc.devRef .tc main_arg9) = (S15 V) (Proc.devRef .tc main_arg9) from by keeps s16).trans (A_arg9_15 V)
theorem A_arg10_16 (V : Valuation τ sig (Elt Ideal)) : S16 V (Proc.devRef .tc main_arg10) = V (Proc.devRef .tc main_arg10) :=
  (show after s16 (S15 V) (Proc.devRef .tc main_arg10) = (S15 V) (Proc.devRef .tc main_arg10) from by keeps s16).trans (A_arg10_15 V)
theorem A_arg11_16 (V : Valuation τ sig (Elt Ideal)) : S16 V (Proc.devRef .tc main_arg11) = V (Proc.devRef .tc main_arg11) :=
  (show after s16 (S15 V) (Proc.devRef .tc main_arg11) = (S15 V) (Proc.devRef .tc main_arg11) from by keeps s16).trans (A_arg11_15 V)
theorem F_v53_16 (V : Valuation τ sig (Elt Ideal)) : S16 V (Proc.devRef .tc main_v53) = val_main_v53 (F := Ideal) (V (Proc.devRef .tc main_arg0)) (V (Proc.devRef .tc main_arg2)) (V (Proc.devRef .tc main_arg3)) :=
  (show after s16 (S15 V) (Proc.devRef .tc main_v53) = (S15 V) (Proc.devRef .tc main_v53) from by keeps s16).trans (F_v53_15 V)
theorem F_v71_16 (V : Valuation τ sig (Elt Ideal)) : S16 V (Proc.devRef .tc main_v71) = val_main_v71 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) :=
  (show after s16 (S15 V) (Proc.devRef .tc main_v71) = (S15 V) (Proc.devRef .tc main_v71) from by keeps s16).trans (F_v71_15 V)
theorem F_v120_16 (V : Valuation τ sig (Elt Ideal)) : S16 V (Proc.devRef .tc main_v120) = val_main_v120 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) :=
  (show after s16 (S15 V) (Proc.devRef .tc main_v120) = (S15 V) (Proc.devRef .tc main_v120) from by keeps s16).trans (F_v120_15 V)
theorem F_v169_16 (V : Valuation τ sig (Elt Ideal)) : S16 V (Proc.devRef .tc main_v169) = val_main_v169 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  r16_v169 (S15 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (F_v153_15 V) (F_v71_15 V)

theorem A_arg0_17 (V : Valuation τ sig (Elt Ideal)) : S17 V (Proc.devRef .tc main_arg0) = V (Proc.devRef .tc main_arg0) :=
  (show after s17 (S16 V) (Proc.devRef .tc main_arg0) = (S16 V) (Proc.devRef .tc main_arg0) from by keeps s17).trans (A_arg0_16 V)
theorem A_arg1_17 (V : Valuation τ sig (Elt Ideal)) : S17 V (Proc.devRef .tc main_arg1) = V (Proc.devRef .tc main_arg1) :=
  (show after s17 (S16 V) (Proc.devRef .tc main_arg1) = (S16 V) (Proc.devRef .tc main_arg1) from by keeps s17).trans (A_arg1_16 V)
theorem A_arg2_17 (V : Valuation τ sig (Elt Ideal)) : S17 V (Proc.devRef .tc main_arg2) = V (Proc.devRef .tc main_arg2) :=
  (show after s17 (S16 V) (Proc.devRef .tc main_arg2) = (S16 V) (Proc.devRef .tc main_arg2) from by keeps s17).trans (A_arg2_16 V)
theorem A_arg3_17 (V : Valuation τ sig (Elt Ideal)) : S17 V (Proc.devRef .tc main_arg3) = V (Proc.devRef .tc main_arg3) :=
  (show after s17 (S16 V) (Proc.devRef .tc main_arg3) = (S16 V) (Proc.devRef .tc main_arg3) from by keeps s17).trans (A_arg3_16 V)
theorem A_arg4_17 (V : Valuation τ sig (Elt Ideal)) : S17 V (Proc.devRef .tc main_arg4) = V (Proc.devRef .tc main_arg4) :=
  (show after s17 (S16 V) (Proc.devRef .tc main_arg4) = (S16 V) (Proc.devRef .tc main_arg4) from by keeps s17).trans (A_arg4_16 V)
theorem A_arg5_17 (V : Valuation τ sig (Elt Ideal)) : S17 V (Proc.devRef .tc main_arg5) = V (Proc.devRef .tc main_arg5) :=
  (show after s17 (S16 V) (Proc.devRef .tc main_arg5) = (S16 V) (Proc.devRef .tc main_arg5) from by keeps s17).trans (A_arg5_16 V)
theorem A_arg6_17 (V : Valuation τ sig (Elt Ideal)) : S17 V (Proc.devRef .tc main_arg6) = V (Proc.devRef .tc main_arg6) :=
  (show after s17 (S16 V) (Proc.devRef .tc main_arg6) = (S16 V) (Proc.devRef .tc main_arg6) from by keeps s17).trans (A_arg6_16 V)
theorem A_arg7_17 (V : Valuation τ sig (Elt Ideal)) : S17 V (Proc.devRef .tc main_arg7) = V (Proc.devRef .tc main_arg7) :=
  (show after s17 (S16 V) (Proc.devRef .tc main_arg7) = (S16 V) (Proc.devRef .tc main_arg7) from by keeps s17).trans (A_arg7_16 V)
theorem A_arg8_17 (V : Valuation τ sig (Elt Ideal)) : S17 V (Proc.devRef .tc main_arg8) = V (Proc.devRef .tc main_arg8) :=
  (show after s17 (S16 V) (Proc.devRef .tc main_arg8) = (S16 V) (Proc.devRef .tc main_arg8) from by keeps s17).trans (A_arg8_16 V)
theorem A_arg9_17 (V : Valuation τ sig (Elt Ideal)) : S17 V (Proc.devRef .tc main_arg9) = V (Proc.devRef .tc main_arg9) :=
  (show after s17 (S16 V) (Proc.devRef .tc main_arg9) = (S16 V) (Proc.devRef .tc main_arg9) from by keeps s17).trans (A_arg9_16 V)
theorem A_arg10_17 (V : Valuation τ sig (Elt Ideal)) : S17 V (Proc.devRef .tc main_arg10) = V (Proc.devRef .tc main_arg10) :=
  (show after s17 (S16 V) (Proc.devRef .tc main_arg10) = (S16 V) (Proc.devRef .tc main_arg10) from by keeps s17).trans (A_arg10_16 V)
theorem A_arg11_17 (V : Valuation τ sig (Elt Ideal)) : S17 V (Proc.devRef .tc main_arg11) = V (Proc.devRef .tc main_arg11) :=
  (show after s17 (S16 V) (Proc.devRef .tc main_arg11) = (S16 V) (Proc.devRef .tc main_arg11) from by keeps s17).trans (A_arg11_16 V)
theorem F_v175_17 (V : Valuation τ sig (Elt Ideal)) : S17 V (Proc.devRef .tc main_v175) = val_main_v175 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) :=
  r17_v175 (S16 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (A_arg10_16 V) (A_arg11_16 V) (F_v120_16 V) (F_v169_16 V) (F_v53_16 V) (F_v71_16 V)

/-! ## The whole program -/

/-- The contents after the whole list are the contents after the last stretch. -/
theorem after_ops (V : Valuation τ sig (Elt Ideal)) : after ops V = S17 V := by
  simp only [ops, part0, part1, part2, part3, after_append]

/-- The result buffer ends at the last stage of the arguments. -/
theorem after_ops_v175 (V : Valuation τ sig (Elt Ideal)) : after ops V (Proc.devRef .tc main_v175) = val_main_v175 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) := by
  rw [after_ops]; exact F_v175_17 V

theorem after_ops_arg0 (V : Valuation τ sig (Elt Ideal)) : after ops V (Proc.devRef .tc main_arg0) = V (Proc.devRef .tc main_arg0) := by
  rw [after_ops]; exact A_arg0_17 V
theorem after_ops_arg1 (V : Valuation τ sig (Elt Ideal)) : after ops V (Proc.devRef .tc main_arg1) = V (Proc.devRef .tc main_arg1) := by
  rw [after_ops]; exact A_arg1_17 V
theorem after_ops_arg2 (V : Valuation τ sig (Elt Ideal)) : after ops V (Proc.devRef .tc main_arg2) = V (Proc.devRef .tc main_arg2) := by
  rw [after_ops]; exact A_arg2_17 V
theorem after_ops_arg3 (V : Valuation τ sig (Elt Ideal)) : after ops V (Proc.devRef .tc main_arg3) = V (Proc.devRef .tc main_arg3) := by
  rw [after_ops]; exact A_arg3_17 V
theorem after_ops_arg4 (V : Valuation τ sig (Elt Ideal)) : after ops V (Proc.devRef .tc main_arg4) = V (Proc.devRef .tc main_arg4) := by
  rw [after_ops]; exact A_arg4_17 V
theorem after_ops_arg5 (V : Valuation τ sig (Elt Ideal)) : after ops V (Proc.devRef .tc main_arg5) = V (Proc.devRef .tc main_arg5) := by
  rw [after_ops]; exact A_arg5_17 V
theorem after_ops_arg6 (V : Valuation τ sig (Elt Ideal)) : after ops V (Proc.devRef .tc main_arg6) = V (Proc.devRef .tc main_arg6) := by
  rw [after_ops]; exact A_arg6_17 V
theorem after_ops_arg7 (V : Valuation τ sig (Elt Ideal)) : after ops V (Proc.devRef .tc main_arg7) = V (Proc.devRef .tc main_arg7) := by
  rw [after_ops]; exact A_arg7_17 V
theorem after_ops_arg8 (V : Valuation τ sig (Elt Ideal)) : after ops V (Proc.devRef .tc main_arg8) = V (Proc.devRef .tc main_arg8) := by
  rw [after_ops]; exact A_arg8_17 V
theorem after_ops_arg9 (V : Valuation τ sig (Elt Ideal)) : after ops V (Proc.devRef .tc main_arg9) = V (Proc.devRef .tc main_arg9) := by
  rw [after_ops]; exact A_arg9_17 V
theorem after_ops_arg10 (V : Valuation τ sig (Elt Ideal)) : after ops V (Proc.devRef .tc main_arg10) = V (Proc.devRef .tc main_arg10) := by
  rw [after_ops]; exact A_arg10_17 V
theorem after_ops_arg11 (V : Valuation τ sig (Elt Ideal)) : after ops V (Proc.devRef .tc main_arg11) = V (Proc.devRef .tc main_arg11) := by
  rw [after_ops]; exact A_arg11_17 V

end Cert.ReferenceIdeal.RunS

end
-- ==== Proof.RefRun.lean ====
/-
  The reference program's run.

  From any memory with zero counters every weakly fair execution of the reference terminates, nothing faulting; its
  result buffer then holds the last stage (`Cert.ReferenceIdeal.Stage.val_main_v175`) of the argument arrays' launch
  contents, and every argument array ends as it was launched.  The program is a straight line of host operations, none
  of which allocates a buffer, so every buffer ends at what the operations, folded in order over the launch contents,
  leave in it; that fold is read stretch by stretch.
-/
import proofs.«164241_j3496103379545_2_alg».proof.Proof.RefRunS

set_option maxRecDepth 16384

noncomputable section

namespace Cert.ReferenceIdeal.RunS

open Cert.ReferenceIdeal Cert.ReferenceIdeal.Gen Cert.ReferenceIdeal.Ops Cert.ReferenceIdeal.Stage
open Idealize.ShloMosaic Idealize.ShloMosaic.TcCoe Idealize.SL.Sem Idealize.ShloMosaic.StableHlo

/-! ## No operation allocates a buffer -/

theorem s00_fresh : (s00 : List (HloOp τ sig (Elt Ideal))).Forall fun op => op.fresh = ∅ := by
  simp only [s00, List.Forall]; repeat' constructor
theorem s01_fresh : (s01 : List (HloOp τ sig (Elt Ideal))).Forall fun op => op.fresh = ∅ := by
  simp only [s01, List.Forall]; repeat' constructor
theorem s02_fresh : (s02 : List (HloOp τ sig (Elt Ideal))).Forall fun op => op.fresh = ∅ := by
  simp only [s02, List.Forall]; repeat' constructor
theorem s03_fresh : (s03 : List (HloOp τ sig (Elt Ideal))).Forall fun op => op.fresh = ∅ := by
  simp only [s03, List.Forall]; repeat' constructor
theorem s04_fresh : (s04 : List (HloOp τ sig (Elt Ideal))).Forall fun op => op.fresh = ∅ := by
  simp only [s04, List.Forall]; repeat' constructor
theorem s05_fresh : (s05 : List (HloOp τ sig (Elt Ideal))).Forall fun op => op.fresh = ∅ := by
  simp only [s05, List.Forall]; repeat' constructor
theorem s06_fresh : (s06 : List (HloOp τ sig (Elt Ideal))).Forall fun op => op.fresh = ∅ := by
  simp only [s06, List.Forall]; repeat' constructor
theorem s07_fresh : (s07 : List (HloOp τ sig (Elt Ideal))).Forall fun op => op.fresh = ∅ := by
  simp only [s07, List.Forall]; repeat' constructor
theorem s08_fresh : (s08 : List (HloOp τ sig (Elt Ideal))).Forall fun op => op.fresh = ∅ := by
  simp only [s08, List.Forall]; repeat' constructor
theorem s09_fresh : (s09 : List (HloOp τ sig (Elt Ideal))).Forall fun op => op.fresh = ∅ := by
  simp only [s09, List.Forall]; repeat' constructor
theorem s10_fresh : (s10 : List (HloOp τ sig (Elt Ideal))).Forall fun op => op.fresh = ∅ := by
  simp only [s10, List.Forall]; repeat' constructor
theorem s11_fresh : (s11 : List (HloOp τ sig (Elt Ideal))).Forall fun op => op.fresh = ∅ := by
  simp only [s11, List.Forall]; repeat' constructor
theorem s12_fresh : (s12 : List (HloOp τ sig (Elt Ideal))).Forall fun op => op.fresh = ∅ := by
  simp only [s12, List.Forall]; repeat' constructor
theorem s13_fresh : (s13 : List (HloOp τ sig (Elt Ideal))).Forall fun op => op.fresh = ∅ := by
  simp only [s13, List.Forall]; repeat' constructor
theorem s14_fresh : (s14 : List (HloOp τ sig (Elt Ideal))).Forall fun op => op.fresh = ∅ := by
  simp only [s14, List.Forall]; repeat' constructor
theorem s15_fresh : (s15 : List (HloOp τ sig (Elt Ideal))).Forall fun op => op.fresh = ∅ := by
  simp only [s15, List.Forall]; repeat' constructor
theorem s16_fresh : (s16 : List (HloOp τ sig (Elt Ideal))).Forall fun op => op.fresh = ∅ := by
  simp only [s16, List.Forall]; repeat' constructor
theorem s17_fresh : (s17 : List (HloOp τ sig (Elt Ideal))).Forall fun op => op.fresh = ∅ := by
  simp only [s17, List.Forall]; repeat' constructor

theorem ops_fresh : (ops : List (HloOp τ sig (Elt Ideal))).Forall fun op => op.fresh = ∅ :=
  forall_append (forall_append s00_fresh (forall_append s01_fresh (forall_append s02_fresh (s03_fresh))))
    (forall_append (forall_append s04_fresh (forall_append s05_fresh (forall_append s06_fresh (forall_append s07_fresh (forall_append s08_fresh (s09_fresh))))))
      (forall_append (forall_append s10_fresh (forall_append s11_fresh (forall_append s12_fresh (forall_append s13_fresh (s14_fresh)))))
        (forall_append s15_fresh (forall_append s16_fresh (s17_fresh)))))

/-! ## The run -/

/-- Every weakly fair execution of the reference terminates with its result at the last stage of the arguments and
    the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v175)
        = val_main_v175 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c =>
    ⟨(h c main_v175).trans (after_ops_v175 _),
      (h c main_arg0).trans (after_ops_arg0 _),
      (h c main_arg1).trans (after_ops_arg1 _),
      (h c main_arg2).trans (after_ops_arg2 _),
      (h c main_arg3).trans (after_ops_arg3 _),
      (h c main_arg4).trans (after_ops_arg4 _),
      (h c main_arg5).trans (after_ops_arg5 _),
      (h c main_arg6).trans (after_ops_arg6 _),
      (h c main_arg7).trans (after_ops_arg7 _),
      (h c main_arg8).trans (after_ops_arg8 _),
      (h c main_arg9).trans (after_ops_arg9 _),
      (h c main_arg10).trans (after_ops_arg10 _),
      (h c main_arg11).trans (after_ops_arg11 _)⟩)
    (run_seq scopedRefs_eq scopedSems_eq defs main (fun _ => ops) main_eq (fun _ => ops_sub) m ρ
      (fun _ => List.forall_iff_forall_mem.mp ops_fresh))

end Cert.ReferenceIdeal.RunS

end
-- ==== Proof.LibDense.lean ====
/-
  Dense layers on the extended reals, over rank-2 arrays of any extents.

  `mm A B` is the matrix product, `(A B)(p, q) = ∑ k, A(p, k) · B(k, q)`; `act A S b` is the rectified affine layer
  `max (A S + b, 0)` with the bias `b` a one-row array added to every row; `row b` is a vector laid out as that one row.
  A dot product whose dimension numbers contract the left operand's columns with the right operand's rows, with no batch
  axis, read at an output index `(p, q)` sums over the contraction index; that index set is in bijection with the
  contracted extent, so the sum is `mm` at `(p, q)` — for the vector unit's matmul into a zero accumulator and for the
  host's dot product alike. The remaining lemmas read the layout operations that carry a bias (a vector cast or broadcast
  to one row, a row broadcast to all rows, a scalar zero broadcast everywhere) at an index.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.Dense

open Idealize.ShloMosaic Idealize.ShloMosaic.ValueIdx

/-- A rank-2 array of extended reals. -/
abbrev Mat (a b : ℕ) : Type := (⟨2, ![a, b]⟩ : Shape).Idx → EReal
/-- A rank-1 array of extended reals. -/
abbrev Row (a : ℕ) : Type := (⟨1, ![a]⟩ : Shape).Idx → EReal

/-- The first coordinate of a rank-2 index, typed by the extent itself. -/
abbrev c0 {a b : ℕ} (i : (⟨2, ![a, b]⟩ : Shape).Idx) : Fin a := ⟨(i 0).val, idx2_lt0 i⟩
/-- The second coordinate of a rank-2 index, typed by the extent itself. -/
abbrev c1 {a b : ℕ} (i : (⟨2, ![a, b]⟩ : Shape).Idx) : Fin b := ⟨(i 1).val, idx2_lt1 i⟩

/-- The matrix product on the extended reals. -/
def mm {M K N : ℕ} (A : Mat M K) (B : Mat K N) : Mat M N :=
  fun i => ∑ k : Fin K, A (ix2 (c0 i) k) * B (ix2 k (c1 i))

theorem mm_apply {M K N : ℕ} (A : Mat M K) (B : Mat K N) (p : Fin M) (q : Fin N) :
    mm A B (ix2 p q) = ∑ k : Fin K, A (ix2 p k) * B (ix2 k q) := rfl

/-- The rectified affine layer `max (A S + b, 0)`, the one-row bias `b` added to every row. -/
def act {M K N : ℕ} (A : Mat M K) (S : Mat K N) (b : Mat 1 N) : Mat M N :=
  fun i => max (mm A S i + b (ix2 (0 : Fin 1) (c1 i))) 0

theorem act_apply {M K N : ℕ} (A : Mat M K) (S : Mat K N) (b : Mat 1 N) (p : Fin M) (q : Fin N) :
    act A S b (ix2 p q) = max ((∑ k : Fin K, A (ix2 p k) * S (ix2 k q)) + b (ix2 (0 : Fin 1) q)) 0 := rfl

/-- A vector laid out as a one-row array. -/
def row {N : ℕ} (b : Row N) : Mat 1 N := fun i => b (ix1 (c1 i))

theorem row_apply {N : ℕ} (b : Row N) (u : Fin 1) (q : Fin N) : row b (ix2 u q) = b (ix1 q) := rfl

/-- A plain product's contraction sum at `(p, q)` is the sum over the contracted extent of `l(p, k) · r(k, q)`. -/
theorem plain_sum {M K N : ℕ} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (l : Mat M K) (r : Mat K N) (p : Fin M) (q : Fin N) :
    ∑ k : D.contr.Idx, l (D.lhsIdx (ix2 p q) k) * r (D.rhsIdx (ix2 p q) k) = ∑ k : Fin K, l (ix2 p k) * r (ix2 k q) := by
  obtain ⟨lc, rc, ln, rn, lb, rb, wf⟩ := D
  dsimp only at h1 h2 h3 h4 h5 h6
  subst h1 h2 h3 h4 h5 h6
  generalize hD : (⟨[1], [0], [0], [1], [], [], wf⟩ : DotDims ⟨2, ![M, K]⟩ ⟨2, ![K, N]⟩ ⟨2, ![M, N]⟩) = D
  have hr : D.contr.rank = 1 := by subst hD; rfl
  have hs : D.contr.size ⟨0, by omega⟩ = K := by subst hD; rfl
  rw [← Equiv.sum_comp (contrEquiv1 D K hr hs).symm]
  refine Finset.sum_congr rfl fun k _ => ?_
  have hk := contrEquiv1_symm_val D K hr hs k
  have hlc : D.lhsContracting = [1] := by subst hD; rfl
  have hrc : D.rhsContracting = [0] := by subst hD; rfl
  have el : D.lhsIdx (ix2 p q) ((contrEquiv1 D K hr hs).symm k) = ix2 p k := funext fun a => Fin.ext (by
    match a with
    | ⟨0, _⟩ =>
      subst hD
      rfl
    | ⟨1, _⟩ => exact (D.lhsIdx_val_of_single hlc _ _).trans hk)
  have er : D.rhsIdx (ix2 p q) ((contrEquiv1 D K hr hs).symm k) = ix2 k q := funext fun a => Fin.ext (by
    match a with
    | ⟨0, _⟩ => exact (D.rhsIdx_val_of_single hrc _ _).trans hk
    | ⟨1, _⟩ =>
      subst hD
      rfl)
  rw [el, er]

/-- The host's plain dot product is the matrix product. -/
theorem hostDot_eq_mm {M K N : ℕ} {φ₁ φ₂ : FTy} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (prec : Option ContractPrecision) (l : FVec Ideal ⟨2, ![M, K]⟩ φ₁) (r : FVec Ideal ⟨2, ![K, N]⟩ φ₂) :
    Host.dotGeneral (F := Ideal) D prec l r = mm l r := by
  funext i
  obtain ⟨p, q, rfl⟩ : ∃ (p : Fin M) (q : Fin N), i = ix2 p q := ⟨i 0, i 1, eq_ix2 i⟩
  exact (Ideal.dotGeneral_apply D prec .single l r (ix2 p q)).trans (plain_sum D h1 h2 h3 h4 h5 h6 l r p q)

/-- The vector unit's plain matmul into a zero accumulator is the matrix product. -/
theorem matmul_zero_eq_mm {M K N : ℕ} {φ₁ φ₂ : FTy} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (prec : Option ContractPrecision) (l : FVec Ideal ⟨2, ![M, K]⟩ φ₁) (r : FVec Ideal ⟨2, ![K, N]⟩ φ₂) :
    matmul (F := Ideal) D prec l r (constant ⟨2, ![M, N]⟩ .f32 0x00000000#32) = mm l r := by
  funext i
  obtain ⟨p, q, rfl⟩ : ∃ (p : Fin M) (q : Fin N), i = ix2 p q := ⟨i 0, i 1, eq_ix2 i⟩
  exact (Ideal.matmul_constant_zero_apply D prec l r (ix2 p q)).trans (plain_sum D h1 h2 h3 h4 h5 h6 l r p q)

/-- A one-row bias added to every row, then rectified. -/
def reluBias {M N : ℕ} (X : Mat M N) (b : Mat 1 N) : Mat M N := fun i => max (X i + b (ix2 (0 : Fin 1) (c1 i))) 0

theorem act_eq {M K N : ℕ} (A : Mat M K) (S : Mat K N) (b : Mat 1 N) : act A S b = reluBias (mm A S) b := rfl

/-- The vector unit's form: the row broadcast to every row, added, and the maximum with a zero splat. -/
theorem vecReluBias {M N : ℕ} (X : FVec Ideal ⟨2, ![M, N]⟩ .f32) (b : FVec Ideal ⟨2, ![1, N]⟩ .f32)
    (h : (⟨2, ![1, N]⟩ : Shape).Broadcasts ⟨2, ![M, N]⟩) :
    maximumf (addf X (broadcastTo ⟨2, ![M, N]⟩ b h)) (broadcast ⟨2, ![M, N]⟩ (Scalar.ofBits (F := Ideal) .f32 0x00000000#32))
      = reluBias X b := by
  funext i
  obtain ⟨p, q, rfl⟩ : ∃ (p : Fin M) (q : Fin N), i = ix2 p q := ⟨i 0, i 1, eq_ix2 i⟩
  show max (X (ix2 p q) + broadcastTo ⟨2, ![M, N]⟩ b h (ix2 p q)) (Ideal.ofBits .f32 0x00000000#32) = _
  rw [broadcastTo_1b_ab_apply, Ideal.ofBits_zero_f32]
  rfl

/-- The host's form: the vector broadcast to one row, that row to every row, added, and the maximum with a broadcast
    scalar zero. -/
theorem hostReluBias {M N : ℕ} (X : FVec Ideal ⟨2, ![M, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![]) :
    maximumf (addf X (broadcastInDim ⟨2, ![M, N]⟩ ![0, 1] h2 (broadcastInDim ⟨2, ![1, N]⟩ ![1] h1 b)))
        (broadcastInDim ⟨2, ![M, N]⟩ ![] h0 (constant (F := Ideal) ⟨0, ![]⟩ .f32 0x00000000#32))
      = reluBias X (row b) := by
  funext i
  obtain ⟨p, q, rfl⟩ : ∃ (p : Fin M) (q : Fin N), i = ix2 p q := ⟨i 0, i 1, eq_ix2 i⟩
  show max (X (ix2 p q) + broadcastInDim ⟨2, ![M, N]⟩ ![0, 1] h2 (broadcastInDim ⟨2, ![1, N]⟩ ![1] h1 b) (ix2 p q))
      (broadcastInDim ⟨2, ![M, N]⟩ ![] h0 (constant (F := Ideal) ⟨0, ![]⟩ .f32 0x00000000#32) (ix2 p q)) = _
  rw [broadcastInDim_apply ![0, 1] h2 _ (ix2 p q) (ix2 (0 : Fin 1) q) (fun a => by
        match a with
        | ⟨0, _⟩ => rfl
        | ⟨1, _⟩ =>
          show q.val = if N = 1 then 0 else q.val
          split
          · have := q.isLt; omega
          · rfl),
    broadcastInDim_apply ![1] h1 b (ix2 (0 : Fin 1) q) (ix1 q) (fun a => by
        match a with
        | ⟨0, _⟩ =>
          show q.val = if N = 1 then 0 else q.val
          split
          · have := q.isLt; omega
          · rfl),
    broadcastInDim_apply ![] h0 _ (ix2 p q) ix0 (fun a => a.elim0)]
  show max (X (ix2 p q) + b (ix1 q)) (Ideal.ofBits .f32 0x00000000#32) = _
  rw [Ideal.ofBits_zero_f32]
  rfl

/-- A vector cast to one row is that row. -/
theorem shapeCast_row {N : ℕ} (b : Row N) (h : (⟨1, ![N]⟩ : Shape).ShapeCasts ⟨2, ![1, N]⟩) :
    shapeCast ⟨2, ![1, N]⟩ b h = row b := by
  funext i
  obtain ⟨u, q, rfl⟩ : ∃ (u : Fin 1) (q : Fin N), i = ix2 u q := ⟨i 0, i 1, eq_ix2 i⟩
  exact shapeCast_a_1a_apply b h u q

/-- Rows of the layer's output depend on the same rows of the left operand only. -/
theorem mm_act_rows {M M' K N P : ℕ} (A : Mat M K) (A' : Mat M' K) (S : Mat K N) (b : Mat 1 N) (W : Mat N P)
    (p : Fin M) (p' : Fin M') (hA : ∀ k, A' (ix2 p' k) = A (ix2 p k)) (q : Fin P) :
    mm (act A' S b) W (ix2 p' q) = mm (act A S b) W (ix2 p q) := by
  simp only [mm_apply, act_apply, hA]

theorem act_rows {M M' K N : ℕ} (A : Mat M K) (A' : Mat M' K) (S : Mat K N) (b : Mat 1 N)
    (p : Fin M) (p' : Fin M') (hA : ∀ k, A' (ix2 p' k) = A (ix2 p k)) (q : Fin N) :
    act A' S b (ix2 p' q) = act A S b (ix2 p q) := by
  simp only [act_apply, hA]

theorem mm_rows {M M' K N : ℕ} (A : Mat M K) (A' : Mat M' K) (B : Mat K N)
    (p : Fin M) (p' : Fin M') (hA : ∀ k, A' (ix2 p' k) = A (ix2 p k)) (q : Fin N) :
    mm A' B (ix2 p' q) = mm A B (ix2 p q) := by
  simp only [mm_apply, hA]

end Cert.Dense

end
-- ==== Proof.LibBiasRow.lean ====
/-
  A one-row bias added to every row of a rank-2 array, on the extended reals, at any extents.

  `addRow X b` is `X(p, q) + b(0, q)`.  The vector unit spells it as the row broadcast along the rows and added; the
  host as the vector broadcast to one row, that row broadcast to every row, and added.  Both are `addRow`, the host's
  over the vector laid out as a row (`Cert.Dense.row`).  The entry at `(p, q)` depends on the entry of `X` there and
  on entry `q` of the bias only (`addRow_at`; `reluBias_at` for the rectified layer, `mm_at` for the matrix product, whose
  entry depends on one row of the left operand), which is what reading a block of rows against the whole array needs.
-/
import proofs.«164241_j3496103379545_2_alg».proof.Proof.LibDense

noncomputable section

namespace Cert.BiasRow

open Idealize.ShloMosaic Idealize.ShloMosaic.ValueIdx Cert.Dense

/-- A one-row array added to every row. -/
def addRow {M N : ℕ} (X : Mat M N) (b : Mat 1 N) : Mat M N := fun i => X i + b (ix2 (0 : Fin 1) (c1 i))

theorem addRow_apply {M N : ℕ} (X : Mat M N) (b : Mat 1 N) (p : Fin M) (q : Fin N) :
    addRow X b (ix2 p q) = X (ix2 p q) + b (ix2 (0 : Fin 1) q) := rfl

/-- The vector unit's form: the row broadcast to every row, added. -/
theorem vecAddRow {M N : ℕ} (X : FVec Ideal ⟨2, ![M, N]⟩ .f32) (b : FVec Ideal ⟨2, ![1, N]⟩ .f32)
    (h : (⟨2, ![1, N]⟩ : Shape).Broadcasts ⟨2, ![M, N]⟩) :
    addf X (broadcastTo ⟨2, ![M, N]⟩ b h) = addRow X b := by
  funext i
  obtain ⟨p, q, rfl⟩ : ∃ (p : Fin M) (q : Fin N), i = ix2 p q := ⟨i 0, i 1, eq_ix2 i⟩
  show X (ix2 p q) + broadcastTo ⟨2, ![M, N]⟩ b h (ix2 p q) = _
  rw [broadcastTo_1b_ab_apply]
  rfl

/-- The host's form: the vector broadcast to one row, that row to every row, added. -/
theorem hostAddRow {M N : ℕ} (X : FVec Ideal ⟨2, ![M, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) :
    addf X (broadcastInDim ⟨2, ![M, N]⟩ ![0, 1] h2 (broadcastInDim ⟨2, ![1, N]⟩ ![1] h1 b)) = addRow X (row b) := by
  funext i
  obtain ⟨p, q, rfl⟩ : ∃ (p : Fin M) (q : Fin N), i = ix2 p q := ⟨i 0, i 1, eq_ix2 i⟩
  show X (ix2 p q) + broadcastInDim ⟨2, ![M, N]⟩ ![0, 1] h2 (broadcastInDim ⟨2, ![1, N]⟩ ![1] h1 b) (ix2 p q) = _
  rw [broadcastInDim_apply ![0, 1] h2 _ (ix2 p q) (ix2 (0 : Fin 1) q) (fun a => by
        match a with
        | ⟨0, _⟩ => rfl
        | ⟨1, _⟩ =>
          show q.val = if N = 1 then 0 else q.val
          split
          · have := q.isLt; omega
          · rfl),
    broadcastInDim_apply ![1] h1 b (ix2 (0 : Fin 1) q) (ix1 q) (fun a => by
        match a with
        | ⟨0, _⟩ =>
          show q.val = if N = 1 then 0 else q.val
          split
          · have := q.isLt; omega
          · rfl)]
  rfl

/-- The biased array at an index depends on the entry there and on the bias of its column. -/
theorem addRow_at {M M' N N' : ℕ} (X : Mat M N) (b : Mat 1 N) (X' : Mat M' N') (b' : Mat 1 N')
    (j : (⟨2, ![M', N']⟩ : Shape).Idx) (i : (⟨2, ![M, N]⟩ : Shape).Idx)
    (hX : X' j = X i) (hb : b' (ix2 (0 : Fin 1) (c1 j)) = b (ix2 (0 : Fin 1) (c1 i))) :
    addRow X' b' j = addRow X b i := by
  unfold addRow; rw [hX, hb]

/-- The rectified bias layer at an index depends on the entry there and on the bias of its column. -/
theorem reluBias_at {M M' N N' : ℕ} (X : Mat M N) (b : Mat 1 N) (X' : Mat M' N') (b' : Mat 1 N')
    (j : (⟨2, ![M', N']⟩ : Shape).Idx) (i : (⟨2, ![M, N]⟩ : Shape).Idx)
    (hX : X' j = X i) (hb : b' (ix2 (0 : Fin 1) (c1 j)) = b (ix2 (0 : Fin 1) (c1 i))) :
    reluBias X' b' j = reluBias X b i := by
  unfold reluBias; rw [hX, hb]

/-- The matrix product at an index depends on one row of the left operand and one column of the right one. -/
theorem mm_at {M M' K N N' : ℕ} (A : Mat M K) (B : Mat K N) (A' : Mat M' K) (B' : Mat K N')
    (j : (⟨2, ![M', N']⟩ : Shape).Idx) (i : (⟨2, ![M, N]⟩ : Shape).Idx)
    (hA : ∀ k : Fin K, A' (ix2 (c0 j) k) = A (ix2 (c0 i) k))
    (hB : ∀ k : Fin K, B' (ix2 k (c1 j)) = B (ix2 k (c1 i))) : mm A' B' j = mm A B i :=
  Finset.sum_congr rfl fun k _ => by rw [hA k, hB k]

end Cert.BiasRow

end
-- ==== Proof.LibFoldSum.lean ====
/-
  Two facts about sums on a commutative monoid, used to read an output that is accumulated over consecutive grid points.

  A fold that starts at its first point from zero plus that point's share, and at each later point adds the point's share to
  what the point before left, holds after point j zero plus the sum of the shares of points 0 … j. And a sum over the A·B rows
  of an array is the sum over its A blocks of B consecutive rows of each block's sum. Both use only that addition is
  commutative and associative, so they hold on the extended reals with no finiteness.
-/
import Idealize.ShloMosaic.Lib.Pipeline.Value
import Idealize.ShloMosaic.Lib.ValueIdx

noncomputable section

namespace Cert.FoldSum

open Idealize.ShloMosaic Idealize.ShloMosaic.ValueIdx

/-- The fold over the points 0 … j, read at entry d, is zero plus the sum of the points' shares at d. -/
theorem accAt_sum {M : Type*} [AddCommMonoid M] {N c : ℕ}
    (a : (n : ℕ) → n < N → ((⟨1, ![c]⟩ : Shape).Idx → M))
    (g : (n : ℕ) → n < N → ((⟨1, ![c]⟩ : Shape).Idx → M) → ((⟨1, ![c]⟩ : Shape).Idx → M))
    (P : (n : ℕ) → n < N → Fin c → M)
    (ha : ∀ n h d, a n h (ix1 d) = 0 + P n h d)
    (hg : ∀ n h acc d, g n h acc (ix1 d) = acc (ix1 d) + P n h d)
    (j : ℕ) (h : 0 + j < N) (d : Fin c) :
    Pipeline.accAt a g 0 j h (ix1 d) = 0 + ∑ n : Fin (j + 1), P n.val (by have := n.isLt; omega) d := by
  have hP : ∀ (n n' : ℕ) (hn : n < N) (hn' : n' < N), n = n' → P n hn d = P n' hn' d := by
    intro n n' hn hn' e; subst e; rfl
  induction j with
  | zero =>
    rw [Pipeline.accAt_zero, ha, Fin.sum_univ_one]
    exact congrArg (0 + ·) (hP _ _ _ _ rfl)
  | succ j ih =>
    rw [Pipeline.accAt_succ, hg, ih (by omega), add_assoc]
    conv_rhs => rw [Fin.sum_univ_castSucc]
    refine congrArg (0 + ·) (congrArg₂ (· + ·) (Finset.sum_congr rfl fun n _ => hP _ _ _ _ rfl) (hP _ _ _ _ ?_))
    simp

/-- A sum over C = A·B rows is the sum over the A blocks of B consecutive rows of each block's sum. -/
theorem sum_blocks {M : Type*} [AddCommMonoid M] {A B C : ℕ} (hC : C = A * B) (f : Fin C → M) :
    ∑ i : Fin C, f i = ∑ n : Fin A, ∑ r : Fin B, f ⟨B * n.val + r.val, by
      subst hC
      have h1 := n.isLt
      have h2 := r.isLt
      calc B * n.val + r.val < B * n.val + B := by omega
        _ = B * (n.val + 1) := by ring
        _ ≤ B * A := Nat.mul_le_mul_left _ h1
        _ = A * B := Nat.mul_comm _ _⟩ := by
  subst hC
  rw [← Equiv.sum_comp finProdFinEquiv f, Fintype.sum_prod_type]
  refine Finset.sum_congr rfl fun n _ => Finset.sum_congr rfl fun r _ => congrArg f (Fin.ext ?_)
  simp only [finProdFinEquiv_apply_val]
  omega

end Cert.FoldSum

end
-- ==== Proof.LibStackDot.lean ====
/-
  Products with a stack of matrices, on the extended reals, for any piece count `G`, piece width `B`, row count `N` and
  column count `C`.  `stack` lays `G` arrays of `B` columns side by side: column `k` of the result is column `k % B` of piece
  `k / B`.  `flat` lays the `G` slabs of a `G × B × C` array one under the other: row `k` of the result is row `k % B` of slab
  `k / B`; `slab` is one of them.  The law `mm_stack`: the product of the side-by-side array with the stacked slabs is the
  sum over the pieces of each piece's product with its slab, a sum over `G · B` terms taken as `G` runs of `B`, which uses
  only that addition is associative and commutative and so needs nothing finite.  The wide extent is a free variable `K`
  with `K = G · B`, so that an extent written as one numeral fits.  Three layout operations are read as these
  arrays, each for any evidence of its shape relation: a reshape of the `G × B × C` array to `K × C` is `flat` (both keep the
  row-major position `(B a + j) C + q`); the slice at offset `a` on the first axis with its unit axis dropped is `slab`; and
  the concatenation of four `N × B` arrays along the column axis is `stack` of the four.
-/
import Idealize.ShloMosaic.Lib.Pipeline.Value
import Idealize.ShloMosaic.Lib.ValueIdx
import Idealize.ShloMosaic.Lib.ValueLayout
import proofs.«164241_j3496103379545_2_alg».proof.Proof.LibDense
import proofs.«164241_j3496103379545_2_alg».proof.Proof.LibFoldSum

noncomputable section

open scoped BigOperators

namespace Cert.StackDot

open Idealize.ShloMosaic Idealize.ShloMosaic.ValueIdx Cert.Dense

/-- A rank-3 array of extended reals. -/
abbrev T3 (a b c : ℕ) : Type := (⟨3, ![a, b, c]⟩ : Shape).Idx → EReal

/-! ## Splitting an index below `G · B` -/

theorem div_lt {G B k : ℕ} (h : k < G * B) : k / B < G :=
  Nat.div_lt_of_lt_mul (by rwa [Nat.mul_comm] at h)

theorem mod_lt {G B k : ℕ} (h : k < G * B) : k % B < B :=
  Nat.mod_lt _ (Nat.pos_of_ne_zero (by rintro rfl; simp at h))

theorem div_of_eq {B a j k : ℕ} (hj : j < B) (hk : k = B * a + j) : k / B = a := by
  have hB : 0 < B := by omega
  rw [hk, Nat.mul_add_div hB, Nat.div_eq_of_lt hj, Nat.add_zero]

theorem mod_of_eq {B a j k : ℕ} (hj : j < B) (hk : k = B * a + j) : k % B = j := by
  rw [hk, Nat.mul_add_mod, Nat.mod_eq_of_lt hj]

/-! ## The arrays -/

/-- `G` arrays of `B` columns laid side by side. -/
def stack {G B N K : ℕ} (hK : K = G * B) (X : Fin G → Mat N B) : Mat N K := fun i =>
  X ⟨(c1 i).val / B, div_lt ((c1 i).isLt.trans_eq hK)⟩ (ix2 (c0 i) ⟨(c1 i).val % B, mod_lt ((c1 i).isLt.trans_eq hK)⟩)

theorem stack_apply {G B N K : ℕ} (hK : K = G * B) (X : Fin G → Mat N B) (p : Fin N) (a : Fin G) (j : Fin B) (k : Fin K)
    (hk : k.val = B * a.val + j.val) : stack hK X (ix2 p k) = X a (ix2 p j) := by
  have e : ∀ (a' : Fin G) (j' : Fin B), a'.val = a.val → j'.val = j.val → X a' (ix2 p j') = X a (ix2 p j) := by
    intro a' j' h1 h2; rw [Fin.ext h1, Fin.ext h2]
  exact e _ _ (div_of_eq j.isLt hk) (mod_of_eq j.isLt hk)

/-- The `G` slabs of a `G × B × C` array laid one under the other. -/
def flat {G B C K : ℕ} (hK : K = G * B) (W : T3 G B C) : Mat K C := fun i =>
  W (ix3 ⟨(c0 i).val / B, div_lt ((c0 i).isLt.trans_eq hK)⟩ ⟨(c0 i).val % B, mod_lt ((c0 i).isLt.trans_eq hK)⟩ (c1 i))

theorem flat_apply {G B C K : ℕ} (hK : K = G * B) (W : T3 G B C) (a : Fin G) (j : Fin B) (k : Fin K) (q : Fin C)
    (hk : k.val = B * a.val + j.val) : flat hK W (ix2 k q) = W (ix3 a j q) := by
  have e : ∀ (a' : Fin G) (j' : Fin B), a'.val = a.val → j'.val = j.val → W (ix3 a' j' q) = W (ix3 a j q) := by
    intro a' j' h1 h2; rw [Fin.ext h1, Fin.ext h2]
  exact e _ _ (div_of_eq j.isLt hk) (mod_of_eq j.isLt hk)

/-- Slab `a` of a `G × B × C` array. -/
def slab {G B C : ℕ} (W : T3 G B C) (a : Fin G) : Mat B C := fun i => W (ix3 a (c0 i) (c1 i))

theorem slab_apply {G B C : ℕ} (W : T3 G B C) (a : Fin G) (j : Fin B) (q : Fin C) :
    slab W a (ix2 j q) = W (ix3 a j q) := rfl

/-! ## The law -/

/-- The side-by-side array times the stacked slabs is the sum over the pieces of each piece's product with its slab. -/
theorem mm_stack {G B N C K : ℕ} (hK : K = G * B) (X : Fin G → Mat N B) (W : T3 G B C) :
    mm (stack hK X) (flat hK W) = fun i => ∑ a : Fin G, mm (X a) (slab W a) i := by
  funext i
  obtain ⟨p, q, rfl⟩ : ∃ (p : Fin N) (q : Fin C), i = ix2 p q := ⟨c0 i, c1 i, eq_ix2 i⟩
  show mm (stack hK X) (flat hK W) (ix2 p q) = ∑ a : Fin G, mm (X a) (slab W a) (ix2 p q)
  rw [mm_apply, Cert.FoldSum.sum_blocks (A := G) (B := B) hK]
  refine Finset.sum_congr rfl fun a _ => ?_
  rw [mm_apply]
  refine Finset.sum_congr rfl fun j _ => ?_
  rw [stack_apply hK X p a j _ rfl, flat_apply hK W a j _ q rfl, slab_apply]

/-! ## Layout operations read as these arrays -/

/-- A reshape of the `G × B × C` array to `K × C` lays its slabs one under the other. -/
theorem reshape_eq_flat {G B C K : ℕ} (hK : K = G * B) (W : T3 G B C)
    (h : (⟨3, ![G, B, C]⟩ : Shape).ShapeCasts ⟨2, ![K, C]⟩) :
    shapeCast ⟨2, ![K, C]⟩ W h = flat hK W := by
  funext i
  obtain ⟨k, q, rfl⟩ : ∃ (k : Fin K) (q : Fin C), i = ix2 k q := ⟨i 0, i 1, eq_ix2 i⟩
  have hk : k.val < G * B := k.isLt.trans_eq hK
  rw [flat_apply hK W ⟨k.val / B, div_lt hk⟩ ⟨k.val % B, mod_lt hk⟩ k q (Nat.div_add_mod k.val B).symm]
  refine shapeCast_apply W h (ix2 k q) (ix3 ⟨k.val / B, div_lt hk⟩ ⟨k.val % B, mod_lt hk⟩ q) ?_
  rw [Shape.rowMajor_val_three, Shape.rowMajor_val_two]
  show (k.val / B * B + k.val % B) * C + q.val = k.val * C + q.val
  rw [Nat.div_add_mod']

/-- The slice at offset `a` on the first axis, its unit axis dropped, is slab `a`. -/
theorem slab_eq {G B C : ℕ} (W : T3 G B C) (a : Fin G) (off : Fin 3 → ℕ) (hoff : off = ![a.val, 0, 0])
    (hs : (⟨3, ![G, B, C]⟩ : Shape).Slices off ⟨3, ![1, B, C]⟩)
    (hc : (⟨3, ![1, B, C]⟩ : Shape).ShapeCasts ⟨2, ![B, C]⟩) :
    shapeCast ⟨2, ![B, C]⟩ (extractStridedSlice ⟨3, ![1, B, C]⟩ off W hs) hc = slab W a := by
  subst hoff
  funext i
  obtain ⟨j, q, rfl⟩ : ∃ (j : Fin B) (q : Fin C), i = ix2 j q := ⟨i 0, i 1, eq_ix2 i⟩
  rw [slab_apply, shapeCast_1ab_ab_apply]
  refine extractStridedSlice_apply _ W hs (ix3 (0 : Fin 1) j q) (ix3 a j q) fun b => ?_
  match b with
  | ⟨0, _⟩ => show a.val = a.val + 0; omega
  | ⟨1, _⟩ => show j.val = 0 + j.val; omega
  | ⟨2, _⟩ => show q.val = 0 + q.val; omega

/-- Four `N × B` arrays concatenated along the column axis are the four laid side by side. -/
theorem cat4_eq_stack {N B K : ℕ} (hK : K = 4 * B) (a b c d : Mat N B)
    (h : Shape.Concatenates [(⟨2, ![N, B]⟩ : Shape), ⟨2, ![N, B]⟩, ⟨2, ![N, B]⟩, ⟨2, ![N, B]⟩] ⟨2, ![N, K]⟩ 1) :
    concatenate ⟨2, ![N, K]⟩ 1
        ([⟨⟨2, ![N, B]⟩, a⟩, ⟨⟨2, ![N, B]⟩, b⟩, ⟨⟨2, ![N, B]⟩, c⟩, ⟨⟨2, ![N, B]⟩, d⟩] : List ((s : Shape) × (s.Idx → EReal))) h
      = stack hK ![a, b, c, d] := by
  funext i
  obtain ⟨p, k, rfl⟩ : ∃ (p : Fin N) (k : Fin K), i = ix2 p k := ⟨i 0, i 1, eq_ix2 i⟩
  have hk4 : k.val < 4 * B := k.isLt.trans_eq hK
  obtain ⟨n, j, hk⟩ : ∃ (n : Fin 4) (j : Fin B), k.val = B * n.val + j.val :=
    ⟨⟨k.val / B, div_lt hk4⟩, ⟨k.val % B, mod_lt hk4⟩, (Nat.div_add_mod k.val B).symm⟩
  rw [stack_apply hK _ p n j k hk]
  have hr : (⟨2, ![N, B]⟩ : Shape).rank = (⟨2, ![N, K]⟩ : Shape).rank := rfl
  have hi : ∀ b' : Fin (⟨2, ![N, B]⟩ : Shape).rank, b'.cast hr ≠ (1 : Fin (⟨2, ![N, K]⟩ : Shape).rank) →
      ((ix2 p j : (⟨2, ![N, B]⟩ : Shape).Idx) b').val = ((ix2 p k : (⟨2, ![N, K]⟩ : Shape).Idx) (b'.cast hr)).val :=
    fun b' hb => by
      match b' with
      | ⟨0, _⟩ => rfl
      | ⟨1, _⟩ => exact absurd rfl hb
  match n, hk with
  | ⟨0, _⟩, hk =>
    have hk' : k.val = B * 0 + j.val := hk
    exact concatenate_apply_piece (1 : Fin (⟨2, ![N, K]⟩ : Shape).rank) ([⟨⟨2, ![N, B]⟩, a⟩, ⟨⟨2, ![N, B]⟩, b⟩, ⟨⟨2, ![N, B]⟩, c⟩, ⟨⟨2, ![N, B]⟩, d⟩] : List ((s : Shape) × (s.Idx → EReal))) h (ix2 p k) 0 (by show 0 < 4; omega) ⟨2, ![N, B]⟩ a rfl hr
      _ rfl (ix2 p j) hi (by show 0 + j.val = k.val; omega)
  | ⟨1, _⟩, hk =>
    have hk' : k.val = B * 1 + j.val := hk
    exact concatenate_apply_piece (1 : Fin (⟨2, ![N, K]⟩ : Shape).rank) ([⟨⟨2, ![N, B]⟩, a⟩, ⟨⟨2, ![N, B]⟩, b⟩, ⟨⟨2, ![N, B]⟩, c⟩, ⟨⟨2, ![N, B]⟩, d⟩] : List ((s : Shape) × (s.Idx → EReal))) h (ix2 p k) 1 (by show 1 < 4; omega) ⟨2, ![N, B]⟩ b rfl hr
      _ rfl (ix2 p j) hi (by show B + 0 + j.val = k.val; omega)
  | ⟨2, _⟩, hk =>
    have hk' : k.val = B * 2 + j.val := hk
    exact concatenate_apply_piece (1 : Fin (⟨2, ![N, K]⟩ : Shape).rank) ([⟨⟨2, ![N, B]⟩, a⟩, ⟨⟨2, ![N, B]⟩, b⟩, ⟨⟨2, ![N, B]⟩, c⟩, ⟨⟨2, ![N, B]⟩, d⟩] : List ((s : Shape) × (s.Idx → EReal))) h (ix2 p k) 2 (by show 2 < 4; omega) ⟨2, ![N, B]⟩ c rfl hr
      _ rfl (ix2 p j) hi (by show B + (B + 0) + j.val = k.val; omega)
  | ⟨3, _⟩, hk =>
    have hk' : k.val = B * 3 + j.val := hk
    exact concatenate_apply_piece (1 : Fin (⟨2, ![N, K]⟩ : Shape).rank) ([⟨⟨2, ![N, B]⟩, a⟩, ⟨⟨2, ![N, B]⟩, b⟩, ⟨⟨2, ![N, B]⟩, c⟩, ⟨⟨2, ![N, B]⟩, d⟩] : List ((s : Shape) × (s.Idx → EReal))) h (ix2 p k) 3 (by show 3 < 4; omega) ⟨2, ![N, B]⟩ d rfl hr
      _ rfl (ix2 p j) hi (by show B + (B + (B + 0)) + j.val = k.val; omega)

end Cert.StackDot

end
-- ==== Proof.Spec.lean ====
/-
  The network both programs compute, as whole-array functions on the extended reals, at any extents.

  `mynorm X` rescales each row of `X` by that row's least and greatest entries,
  `2 (x - mn) / ((mx - mn) + eps) - 1`, the least entry taken from +inf and the greatest from -inf.  `layer0` is
  a rectified dense layer followed by that rescaling, `layer1` a dense layer `A W + b`, and `layer4` a dense layer
  applied to four 32-column tables laid side by side, the last two replaced by differences of rescaled tables.
  `net` chains them: the first table from the features, three further tables each a dense layer of an aggregate
  `agg` of the previous one, and the last layer over the four tables.  The aggregation is a parameter: nothing here
  depends on what it does.  Every layer's entry at `(p, q)` depends on row `p` of its row-indexed operands only,
  which is what reading a block of rows against the whole array needs (`layer0_at`, `layer1_at`, `layer4_at`).
-/
import proofs.«164241_j3496103379545_2_alg».proof.Proof.LibDense
import proofs.«164241_j3496103379545_2_alg».proof.Proof.LibBiasRow
import proofs.«164241_j3496103379545_2_alg».proof.Proof.LibStackDot

noncomputable section

namespace Cert.Net

open Idealize.ShloMosaic Idealize.ShloMosaic.ValueIdx Cert.Dense Cert.BiasRow Cert.StackDot

/-- The least of +inf and the entries of row `p`. -/
def rowMin {M N : ℕ} (X : Mat M N) (p : Fin M) : EReal :=
  (Finset.univ : Finset (Fin N)).fold min (Ideal.ofBits .f32 0x7F800000#32) (fun k => X (ix2 p k))

/-- The greatest of -inf and the entries of row `p`. -/
def rowMax {M N : ℕ} (X : Mat M N) (p : Fin M) : EReal :=
  (Finset.univ : Finset (Fin N)).fold max (Ideal.ofBits .f32 0xFF800000#32) (fun k => X (ix2 p k))

/-- One entry `x` of a row with least entry `mn` and greatest entry `mx`, rescaled. -/
def scale (x mn mx : EReal) : EReal :=
  Ideal.div (Ideal.ofBits .f32 0x40000000#32 * (x - mn)) ((mx - mn) + Ideal.ofBits .f32 0x322BCC77#32)
    - Ideal.ofBits .f32 0x3F800000#32

/-- Every row rescaled by its own least and greatest entries. -/
def mynorm {M N : ℕ} (X : Mat M N) : Mat M N := fun i => scale (X i) (rowMin X (c0 i)) (rowMax X (c0 i))

theorem mynorm_apply {M N : ℕ} (X : Mat M N) (p : Fin M) (q : Fin N) :
    mynorm X (ix2 p q) = scale (X (ix2 p q)) (rowMin X p) (rowMax X p) := rfl

theorem rowMin_congr {M M' N : ℕ} (X : Mat M N) (X' : Mat M' N) (p : Fin M) (p' : Fin M')
    (h : ∀ k, X' (ix2 p' k) = X (ix2 p k)) : rowMin X' p' = rowMin X p := by
  unfold rowMin; rw [funext h]

theorem rowMax_congr {M M' N : ℕ} (X : Mat M N) (X' : Mat M' N) (p : Fin M) (p' : Fin M')
    (h : ∀ k, X' (ix2 p' k) = X (ix2 p k)) : rowMax X' p' = rowMax X p := by
  unfold rowMax; rw [funext h]

/-- A rescaled entry depends on its own row only. -/
theorem mynorm_at {M M' N : ℕ} (X : Mat M N) (X' : Mat M' N) (p : Fin M) (p' : Fin M')
    (h : ∀ k, X' (ix2 p' k) = X (ix2 p k)) (q : Fin N) : mynorm X' (ix2 p' q) = mynorm X (ix2 p q) := by
  rw [mynorm_apply, mynorm_apply, rowMin_congr X X' p p' h, rowMax_congr X X' p p' h, h q]

/-- The first layer: `mynorm (max (X W + b, 0))`. -/
def layer0 {M K N : ℕ} (X : Mat M K) (W : Mat K N) (b : Mat 1 N) : Mat M N := mynorm (reluBias (mm X W) b)

/-- A dense layer: `A W + b`. -/
def layer1 {M K N : ℕ} (A : Mat M K) (W : Mat K N) (b : Mat 1 N) : Mat M N := addRow (mm A W) b

/-- The four tables of the last layer side by side: the first two as they are, then the rescaled third less the
    rescaled first, and the rescaled fourth less the rescaled second. -/
def mix {M B K : ℕ} (hK : K = 4 * B) (x0 x1 x2 x3 : Mat M B) : Mat M K :=
  stack hK ![x0, x1, fun i => mynorm x2 i - mynorm x0 i, fun i => mynorm x3 i - mynorm x1 i]

/-- The last layer: a dense layer over the four tables side by side. -/
def layer4 {M B K N : ℕ} (hK : K = 4 * B) (x0 x1 x2 x3 : Mat M B) (W : Mat K N) (b : Mat 1 N) : Mat M N :=
  addRow (mm (mix hK x0 x1 x2 x3) W) b

theorem reluBias_apply {M N : ℕ} (X : Mat M N) (b : Mat 1 N) (p : Fin M) (q : Fin N) :
    reluBias X b (ix2 p q) = max (X (ix2 p q) + b (ix2 (0 : Fin 1) q)) 0 := rfl

/-- An entry of the first layer depends on the same row of the features only. -/
theorem layer0_at {M M' K N : ℕ} (X : Mat M K) (X' : Mat M' K) (W : Mat K N) (b : Mat 1 N) (p : Fin M) (p' : Fin M')
    (h : ∀ k, X' (ix2 p' k) = X (ix2 p k)) (q : Fin N) : layer0 X' W b (ix2 p' q) = layer0 X W b (ix2 p q) := by
  unfold layer0
  refine mynorm_at _ _ p p' (fun k => ?_) q
  rw [reluBias_apply, reluBias_apply, mm_rows X X' W p p' h k]

/-- An entry of a dense layer depends on the same row of its left operand only. -/
theorem layer1_at {M M' K N : ℕ} (A : Mat M K) (A' : Mat M' K) (W : Mat K N) (b : Mat 1 N) (p : Fin M) (p' : Fin M')
    (h : ∀ k, A' (ix2 p' k) = A (ix2 p k)) (q : Fin N) : layer1 A' W b (ix2 p' q) = layer1 A W b (ix2 p q) := by
  unfold layer1
  rw [addRow_apply, addRow_apply, mm_rows A A' W p p' h q]

/-- A row of the four tables side by side depends on the same row of each table only. -/
theorem mix_at {M M' B K : ℕ} (hK : K = 4 * B) (x0 x1 x2 x3 : Mat M B) (y0 y1 y2 y3 : Mat M' B) (p : Fin M) (p' : Fin M')
    (h0 : ∀ k, y0 (ix2 p' k) = x0 (ix2 p k)) (h1 : ∀ k, y1 (ix2 p' k) = x1 (ix2 p k))
    (h2 : ∀ k, y2 (ix2 p' k) = x2 (ix2 p k)) (h3 : ∀ k, y3 (ix2 p' k) = x3 (ix2 p k)) (k : Fin K) :
    mix hK y0 y1 y2 y3 (ix2 p' k) = mix hK x0 x1 x2 x3 (ix2 p k) := by
  have hk4 : k.val < 4 * B := k.isLt.trans_eq hK
  obtain ⟨n, j, hk⟩ : ∃ (n : Fin 4) (j : Fin B), k.val = B * n.val + j.val :=
    ⟨⟨k.val / B, div_lt hk4⟩, ⟨k.val % B, mod_lt hk4⟩, (Nat.div_add_mod k.val B).symm⟩
  unfold mix
  rw [stack_apply hK _ p' n j k hk, stack_apply hK _ p n j k hk]
  match n with
  | ⟨0, _⟩ => exact h0 j
  | ⟨1, _⟩ => exact h1 j
  | ⟨2, _⟩ =>
    show mynorm y2 (ix2 p' j) - mynorm y0 (ix2 p' j) = mynorm x2 (ix2 p j) - mynorm x0 (ix2 p j)
    rw [mynorm_at x2 y2 p p' h2 j, mynorm_at x0 y0 p p' h0 j]
  | ⟨3, _⟩ =>
    show mynorm y3 (ix2 p' j) - mynorm y1 (ix2 p' j) = mynorm x3 (ix2 p j) - mynorm x1 (ix2 p j)
    rw [mynorm_at x3 y3 p p' h3 j, mynorm_at x1 y1 p p' h1 j]

/-- An entry of the last layer depends on the same row of each of its four tables only. -/
theorem layer4_at {M M' B K N : ℕ} (hK : K = 4 * B) (x0 x1 x2 x3 : Mat M B) (y0 y1 y2 y3 : Mat M' B) (W : Mat K N)
    (b : Mat 1 N) (p : Fin M) (p' : Fin M')
    (h0 : ∀ k, y0 (ix2 p' k) = x0 (ix2 p k)) (h1 : ∀ k, y1 (ix2 p' k) = x1 (ix2 p k))
    (h2 : ∀ k, y2 (ix2 p' k) = x2 (ix2 p k)) (h3 : ∀ k, y3 (ix2 p' k) = x3 (ix2 p k)) (q : Fin N) :
    layer4 hK y0 y1 y2 y3 W b (ix2 p' q) = layer4 hK x0 x1 x2 x3 W b (ix2 p q) := by
  unfold layer4
  rw [addRow_apply, addRow_apply,
    mm_rows (mix hK x0 x1 x2 x3) (mix hK y0 y1 y2 y3) W p p' (mix_at hK x0 x1 x2 x3 y0 y1 y2 y3 p p' h0 h1 h2 h3) q]

/-- The whole network over an aggregation map `agg` of 32-column tables: the first table from the features, each
    further table a dense layer of the aggregate of the one before, and the last layer over the four tables. -/
def net {M : ℕ} (agg : Mat M 32 → Mat M 32) (x : Mat M 128) (w1 : Mat 128 32) (b1 : Mat 1 32)
    (w2 : Mat 32 32) (b2 : Mat 1 32) (w3 : Mat 32 32) (b3 : Mat 1 32) (w4 : Mat 32 32) (b4 : Mat 1 32)
    (w5 : Mat 128 64) (b5 : Mat 1 64) : Mat M 64 :=
  layer4 (rfl : 128 = 4 * 32) (layer0 x w1 b1) (layer1 (agg (layer0 x w1 b1)) w2 b2)
    (layer1 (agg (layer1 (agg (layer0 x w1 b1)) w2 b2)) w3 b3)
    (layer1 (agg (layer1 (agg (layer1 (agg (layer0 x w1 b1)) w2 b2)) w3 b3)) w4 b4) w5 b5

end Cert.Net

end
-- ==== Proof.LibRowBlocks.lean ====
/-
  Rows of blocks: layout operations of a block of tokens read at an index, and a transposed contraction.

  A kernel that treats a block of `a` groups of `b` tokens as `n = a · b` rows views an `[a, b, c]` array as
  `[n, c]` and back: row `q = r · b + l` of the merged view is token `l` of group `r`.  A per-row statistic
  lives in a column `[n, 1]`: a vector `[n]` cast to a column, a column broadcast along the row.  A `[1, b, c]`
  table is broadcast over the `a` groups.  A one-axis sum of an `[n, c]` array reads, at row `q`, the sum of
  that row.  A contraction `l · rᵀ` — the second axes of both operands contracted, no batch axis — reads at
  `(q, d)` the sum over `p` of `l (q, p) · r (d, p)`; the same with a rank-4 left operand whose last axis is
  contracted.  All of it at any extents.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.RowBlocks

open Idealize.ShloMosaic Idealize.ShloMosaic.ValueIdx

variable {α : Type}

/-- `[a, b, c]` viewed `[n, c]`: row `q = r · b + l` is entry `(r, l)`. -/
theorem shapeCast_merge_apply {a b c n : ℕ} (x : (⟨3, ![a, b, c]⟩ : Shape).Idx → α)
    (h : (⟨3, ![a, b, c]⟩ : Shape).ShapeCasts ⟨2, ![n, c]⟩) (r : Fin a) (l : Fin b) (d : Fin c) (q : Fin n)
    (hq : q.val = r.val * b + l.val) : shapeCast ⟨2, ![n, c]⟩ x h (ix2 q d) = x (ix3 r l d) :=
  shapeCast_apply x h _ _ (by
    rw [Shape.rowMajor_val_three, Shape.rowMajor_val_two]
    show (r.val * b + l.val) * c + d.val = q.val * c + d.val
    rw [hq])

/-- `[n, c]` viewed `[a, b, c]`: entry `(r, l)` is row `q = r · b + l`. -/
theorem shapeCast_split_apply {a b c n : ℕ} (x : (⟨2, ![n, c]⟩ : Shape).Idx → α)
    (h : (⟨2, ![n, c]⟩ : Shape).ShapeCasts ⟨3, ![a, b, c]⟩) (r : Fin a) (l : Fin b) (d : Fin c) (q : Fin n)
    (hq : q.val = r.val * b + l.val) : shapeCast ⟨3, ![a, b, c]⟩ x h (ix3 r l d) = x (ix2 q d) :=
  shapeCast_apply x h _ _ (by
    rw [Shape.rowMajor_val_three, Shape.rowMajor_val_two]
    show q.val * c + d.val = (r.val * b + l.val) * c + d.val
    rw [hq])

/-- A vector `[n]` cast to a column `[n, 1]` reads, at `(q, u)`, the vector at `q`. -/
theorem shapeCast_col_apply {n : ℕ} (x : (⟨1, ![n]⟩ : Shape).Idx → α)
    (h : (⟨1, ![n]⟩ : Shape).ShapeCasts ⟨2, ![n, 1]⟩) (q : Fin n) (u : Fin 1) :
    shapeCast ⟨2, ![n, 1]⟩ x h (ix2 q u) = x (ix1 q) :=
  shapeCast_apply x h _ _ (by
    have hu : u.val = 0 := by omega
    rw [Shape.rowMajor_val_two, Shape.rowMajor_val_one]
    show q.val = q.val * 1 + u.val
    rw [hu, Nat.mul_one, Nat.add_zero])

/-- A column `[n, 1]` broadcast to `[n, c]` reads, at `(q, d)`, the column at row `q`. -/
theorem broadcastTo_col_apply {n c : ℕ} (x : (⟨2, ![n, 1]⟩ : Shape).Idx → α)
    (h : (⟨2, ![n, 1]⟩ : Shape).Broadcasts ⟨2, ![n, c]⟩) (q : Fin n) (d : Fin c) :
    broadcastTo ⟨2, ![n, c]⟩ x h (ix2 q d) = x (ix2 q (0 : Fin 1)) := by
  refine broadcastTo_apply x h (ix2 q d) (ix2 q (0 : Fin 1)) fun ax => ?_
  match ax with
  | ⟨0, _⟩ =>
    show q.val = if n = 1 then 0 else q.val
    split
    · have := q.isLt; omega
    · rfl
  | ⟨1, _⟩ => rfl

/-- A `[1, b, c]` table broadcast over `a` groups reads, at `(r, l, d)`, the table at `(l, d)`. -/
theorem broadcastTo_groups_apply {a b c : ℕ} (x : (⟨3, ![1, b, c]⟩ : Shape).Idx → α)
    (h : (⟨3, ![1, b, c]⟩ : Shape).Broadcasts ⟨3, ![a, b, c]⟩) (r : Fin a) (l : Fin b) (d : Fin c) :
    broadcastTo ⟨3, ![a, b, c]⟩ x h (ix3 r l d) = x (ix3 (0 : Fin 1) l d) := by
  refine broadcastTo_apply x h (ix3 r l d) (ix3 (0 : Fin 1) l d) fun ax => ?_
  match ax with
  | ⟨0, _⟩ => rfl
  | ⟨1, _⟩ =>
    show l.val = if b = 1 then 0 else l.val
    split
    · have := l.isLt; omega
    · rfl
  | ⟨2, _⟩ =>
    show d.val = if c = 1 then 0 else d.val
    split
    · have := d.isLt; omega
    · rfl

/-- The sum of an `[n, c]` array along its second axis reads, at row `q`, the sum of the row's entries. -/
theorem rowSum_apply {n c : ℕ} (src : FVec Ideal ⟨2, ![n, c]⟩ .f32)
    (h : (⟨2, ![n, c]⟩ : Shape).Reduces [1] ⟨1, ![n]⟩) (hφ : FKind.Formats .f32)
    (hacc : (0x00000000#32 : BitVec 32) = 0x00000000#32) (q : Fin n) :
    multiReduction .add [1] ⟨1, ![n]⟩ src 0x00000000#32 h hφ hacc (ix1 q) = ∑ k : Fin c, src (ix2 q k) := by
  refine (Ideal.multiReduction_add_single src 0x00000000#32 h hφ hacc (ix1 q)).trans ?_
  refine Finset.sum_congr rfl fun k _ => congrArg src (funext fun ax => Fin.ext ?_)
  match ax with
  | ⟨0, _⟩ => rfl
  | ⟨1, _⟩ => rfl

/-- A contraction sum re-indexed by the one contracted coordinate: whatever the operand indices are at the
    contraction position with coordinate `k` (`hl`, `hr`), the sum over positions is the sum over `k`. -/
theorem contr_sum {sl sr so : Shape} (D : DotDims sl sr so) (K : ℕ) (hrank : D.contr.rank = 1)
    (hs : D.contr.size ⟨0, by omega⟩ = K) (l : sl.Idx → EReal) (r : sr.Idx → EReal) (j : so.Idx)
    (li : Fin K → sl.Idx) (ri : Fin K → sr.Idx)
    (hl : ∀ k, D.lhsIdx j ((contrEquiv1 D K hrank hs).symm k) = li k)
    (hr : ∀ k, D.rhsIdx j ((contrEquiv1 D K hrank hs).symm k) = ri k) :
    ∑ k : D.contr.Idx, l (D.lhsIdx j k) * r (D.rhsIdx j k) = ∑ k : Fin K, l (li k) * r (ri k) := by
  rw [← Equiv.sum_comp (contrEquiv1 D K hrank hs).symm]
  exact Finset.sum_congr rfl fun k _ => by rw [hl k, hr k]

/-- `l · rᵀ` at rank 2: the second axes contracted, at `(q, d)` the sum over `p` of `l (q, p) · r (d, p)`. -/
theorem abT_sum {M K N : ℕ} (D : DotDims ⟨2, ![M, K]⟩ ⟨2, ![N, K]⟩ ⟨2, ![M, N]⟩)
    (h1 : D.lhsContracting = [1]) (h2 : D.rhsContracting = [1]) (h3 : D.lhsNonContracting = [0])
    (h4 : D.rhsNonContracting = [0]) (h5 : D.lhsBatch = []) (h6 : D.rhsBatch = [])
    (l : (⟨2, ![M, K]⟩ : Shape).Idx → EReal) (r : (⟨2, ![N, K]⟩ : Shape).Idx → EReal) (q : Fin M) (d : Fin N) :
    ∑ k : D.contr.Idx, l (D.lhsIdx (ix2 q d) k) * r (D.rhsIdx (ix2 q d) k) = ∑ p : Fin K, l (ix2 q p) * r (ix2 d p) := by
  obtain ⟨lc, rc, ln, rn, lb, rb, wf⟩ := D
  dsimp only at h1 h2 h3 h4 h5 h6
  subst h1 h2 h3 h4 h5 h6
  generalize hD : (⟨[1], [1], [0], [0], [], [], wf⟩ : DotDims ⟨2, ![M, K]⟩ ⟨2, ![N, K]⟩ ⟨2, ![M, N]⟩) = D
  have hrank : D.contr.rank = 1 := by subst hD; rfl
  have hs : D.contr.size ⟨0, by omega⟩ = K := by subst hD; rfl
  have hlc : D.lhsContracting = [1] := by subst hD; rfl
  have hrc : D.rhsContracting = [1] := by subst hD; rfl
  refine contr_sum D K hrank hs l r (ix2 q d) (fun p => ix2 q p) (fun p => ix2 d p) (fun k => ?_) (fun k => ?_)
  · have hk := contrEquiv1_symm_val D K hrank hs k
    exact funext fun a => Fin.ext (by
      match a with
      | ⟨0, _⟩ =>
        subst hD
        rfl
      | ⟨1, _⟩ => exact (D.lhsIdx_val_of_single hlc _ _).trans hk)
  · have hk := contrEquiv1_symm_val D K hrank hs k
    exact funext fun a => Fin.ext (by
      match a with
      | ⟨0, _⟩ =>
        subst hD
        rfl
      | ⟨1, _⟩ => exact (D.rhsIdx_val_of_single hrc _ _).trans hk)

/-- The vector unit's `l · rᵀ` into a zero accumulator, read at `(q, d)`. -/
theorem matmul_abT_apply {M K N : ℕ} (D : DotDims ⟨2, ![M, K]⟩ ⟨2, ![N, K]⟩ ⟨2, ![M, N]⟩)
    (h1 : D.lhsContracting = [1]) (h2 : D.rhsContracting = [1]) (h3 : D.lhsNonContracting = [0])
    (h4 : D.rhsNonContracting = [0]) (h5 : D.lhsBatch = []) (h6 : D.rhsBatch = [])
    (prec : Option ContractPrecision) (l : FVec Ideal ⟨2, ![M, K]⟩ .f32) (r : FVec Ideal ⟨2, ![N, K]⟩ .f32)
    (q : Fin M) (d : Fin N) :
    matmul (F := Ideal) D prec l r (constant ⟨2, ![M, N]⟩ .f32 0x00000000#32) (ix2 q d)
      = ∑ p : Fin K, l (ix2 q p) * r (ix2 d p) :=
  (Ideal.matmul_constant_zero_apply D prec l r (ix2 q d)).trans (abT_sum D h1 h2 h3 h4 h5 h6 l r q d)

end Cert.RowBlocks

end
-- ==== Proof.KNorm.lean ====
/-
  The vector unit's row rescaling is `Cert.Net.mynorm`, on the extended reals, at any extents.

  A reduction by minimum (maximum) along the second axis of an `[M, N]` array, started from +inf (-inf), reads at row
  `p` the least (greatest) of that starting value and the row's entries: the fold runs over the entries whose kept
  coordinate is `p`, and those are the entries `(p, k)`, one per column.  The vector unit then casts both vectors to
  columns, broadcasts the columns along the rows and computes `2 (x - mn) / ((mx - mn) + eps) - 1` entry by entry;
  a column broadcast along the rows reads the column at the entry's row, so the entry at `(p, q)` is the rescaling of
  `x (p, q)` by row `p`'s own least and greatest entries.
-/
import proofs.«164241_j3496103379545_2_alg».proof.Proof.Spec
import proofs.«164241_j3496103379545_2_alg».proof.Proof.LibRowBlocks
import Idealize.ShloMosaic.PureOps.Reduce

noncomputable section

namespace Cert.Net

open Idealize.ShloMosaic Idealize.ShloMosaic.ValueIdx Cert.Dense Cert.RowBlocks

/-- The index `(p, k)` is the row index `p` with the column `k` put back. -/
theorem lift_row {M N : ℕ} (h : (⟨2, ![M, N]⟩ : Shape).Reduces [1] ⟨1, ![M]⟩) (p : Fin M) (k : Fin N) :
    h.lift (ix1 p) k = ix2 p k := by
  funext ax
  apply Fin.ext
  match ax with
  | ⟨0, _⟩ => rfl
  | ⟨1, _⟩ => rfl

/-- The vector unit's row minimum from +inf. -/
theorem vecRowMin {M N : ℕ} (X : FVec Ideal ⟨2, ![M, N]⟩ .f32) (h : (⟨2, ![M, N]⟩ : Shape).Reduces [1] ⟨1, ![M]⟩)
    (hφ : FKind.Formats .f32) (hacc : (0x7F800000#32 : BitVec 32) = FKind.minimumf.neutral .f32 hφ) (p : Fin M) :
    multiReduction .minimumf [1] ⟨1, ![M]⟩ X 0x7F800000#32 h hφ hacc (ix1 p) = rowMin X p := by
  rw [multiReduction_minimumf_eq_fold]
  refine (h.fold_filter_drop_single _ _ X (ix1 p)).trans ?_
  unfold rowMin
  refine congrArg (fun g => (Finset.univ : Finset (Fin N)).fold min (Ideal.ofBits .f32 0x7F800000#32) g) (funext fun k => ?_)
  exact congrArg X (lift_row h p k)

/-- The vector unit's row maximum from -inf. -/
theorem vecRowMax {M N : ℕ} (X : FVec Ideal ⟨2, ![M, N]⟩ .f32) (h : (⟨2, ![M, N]⟩ : Shape).Reduces [1] ⟨1, ![M]⟩)
    (hφ : FKind.Formats .f32) (hacc : (0xFF800000#32 : BitVec 32) = FKind.maximumf.neutral .f32 hφ) (p : Fin M) :
    multiReduction .maximumf [1] ⟨1, ![M]⟩ X 0xFF800000#32 h hφ hacc (ix1 p) = rowMax X p := by
  rw [multiReduction_maximumf_eq_fold]
  refine (h.fold_filter_drop_single _ _ X (ix1 p)).trans ?_
  unfold rowMax
  refine congrArg (fun g => (Finset.univ : Finset (Fin N)).fold max (Ideal.ofBits .f32 0xFF800000#32) g) (funext fun k => ?_)
  exact congrArg X (lift_row h p k)

/-- The rescaling as the vector unit spells it, the least entries given as a column `mn` that holds each row's
    least entry: what the last kernel does with a column it computed earlier. -/
theorem vecMynorm_col {M N : ℕ} (X : FVec Ideal ⟨2, ![M, N]⟩ .f32) (mn : FVec Ideal ⟨2, ![M, 1]⟩ .f32)
    (hmn : ∀ p : Fin M, mn (ix2 p (0 : Fin 1)) = rowMin X p)
    (hr : (⟨2, ![M, N]⟩ : Shape).Reduces [1] ⟨1, ![M]⟩) (hφ : FKind.Formats .f32)
    (hmax : (0xFF800000#32 : BitVec 32) = FKind.maximumf.neutral .f32 hφ)
    (hc : (⟨1, ![M]⟩ : Shape).ShapeCasts ⟨2, ![M, 1]⟩) (hb : (⟨2, ![M, 1]⟩ : Shape).Broadcasts ⟨2, ![M, N]⟩) :
    subf (divf (mulf (broadcast ⟨2, ![M, N]⟩ (Scalar.ofBits (F := Ideal) .f32 0x40000000#32))
          (subf X (broadcastTo ⟨2, ![M, N]⟩ mn hb)))
        (broadcastTo ⟨2, ![M, N]⟩
          (addf (subf (shapeCast ⟨2, ![M, 1]⟩ (multiReduction .maximumf [1] ⟨1, ![M]⟩ X 0xFF800000#32 hr hφ hmax) hc) mn)
            (broadcast ⟨2, ![M, 1]⟩ (Scalar.ofBits (F := Ideal) .f32 0x322BCC77#32))) hb))
      (broadcast ⟨2, ![M, N]⟩ (Scalar.ofBits (F := Ideal) .f32 0x3F800000#32)) = mynorm X := by
  funext i
  obtain ⟨p, q, rfl⟩ : ∃ (p : Fin M) (q : Fin N), i = ix2 p q := ⟨i 0, i 1, eq_ix2 i⟩
  show Ideal.div (Ideal.ofBits .f32 0x40000000#32 * (X (ix2 p q) - broadcastTo ⟨2, ![M, N]⟩ mn hb (ix2 p q)))
      (broadcastTo ⟨2, ![M, N]⟩
        (addf (subf (shapeCast ⟨2, ![M, 1]⟩ (multiReduction .maximumf [1] ⟨1, ![M]⟩ X 0xFF800000#32 hr hφ hmax) hc) mn)
          (broadcast ⟨2, ![M, 1]⟩ (Scalar.ofBits (F := Ideal) .f32 0x322BCC77#32))) hb (ix2 p q))
      - Ideal.ofBits .f32 0x3F800000#32 = _
  rw [broadcastTo_col_apply, broadcastTo_col_apply]
  show Ideal.div (Ideal.ofBits .f32 0x40000000#32 * (X (ix2 p q) - mn (ix2 p (0 : Fin 1))))
      ((shapeCast ⟨2, ![M, 1]⟩ (multiReduction .maximumf [1] ⟨1, ![M]⟩ X 0xFF800000#32 hr hφ hmax) hc (ix2 p (0 : Fin 1))
          - mn (ix2 p (0 : Fin 1))) + Ideal.ofBits .f32 0x322BCC77#32)
      - Ideal.ofBits .f32 0x3F800000#32 = _
  rw [shapeCast_col_apply, vecRowMax, hmn p]
  rfl

/-- The rescaling as the vector unit spells it: row minimum and maximum, each cast to a column and broadcast along
    the rows, then `2 (x - mn) / ((mx - mn) + eps) - 1`. -/
theorem vecMynorm {M N : ℕ} (X : FVec Ideal ⟨2, ![M, N]⟩ .f32)
    (hr : (⟨2, ![M, N]⟩ : Shape).Reduces [1] ⟨1, ![M]⟩) (hφ : FKind.Formats .f32)
    (hmin : (0x7F800000#32 : BitVec 32) = FKind.minimumf.neutral .f32 hφ)
    (hmax : (0xFF800000#32 : BitVec 32) = FKind.maximumf.neutral .f32 hφ)
    (hc : (⟨1, ![M]⟩ : Shape).ShapeCasts ⟨2, ![M, 1]⟩) (hb : (⟨2, ![M, 1]⟩ : Shape).Broadcasts ⟨2, ![M, N]⟩) :
    subf (divf (mulf (broadcast ⟨2, ![M, N]⟩ (Scalar.ofBits (F := Ideal) .f32 0x40000000#32))
          (subf X (broadcastTo ⟨2, ![M, N]⟩
            (shapeCast ⟨2, ![M, 1]⟩ (multiReduction .minimumf [1] ⟨1, ![M]⟩ X 0x7F800000#32 hr hφ hmin) hc) hb)))
        (broadcastTo ⟨2, ![M, N]⟩
          (addf (subf (shapeCast ⟨2, ![M, 1]⟩ (multiReduction .maximumf [1] ⟨1, ![M]⟩ X 0xFF800000#32 hr hφ hmax) hc)
              (shapeCast ⟨2, ![M, 1]⟩ (multiReduction .minimumf [1] ⟨1, ![M]⟩ X 0x7F800000#32 hr hφ hmin) hc))
            (broadcast ⟨2, ![M, 1]⟩ (Scalar.ofBits (F := Ideal) .f32 0x322BCC77#32))) hb))
      (broadcast ⟨2, ![M, N]⟩ (Scalar.ofBits (F := Ideal) .f32 0x3F800000#32)) = mynorm X :=
  vecMynorm_col X _ (fun p => (shapeCast_col_apply _ hc p 0).trans (vecRowMin X hr hφ hmin p)) hr hφ hmax hc hb

/-! ## The same steps as named functions

A kernel body's value is a composition of such steps; naming them lets the body be split into its steps by
unfolding alone. -/

/-- The column of row minima, as the vector unit computes it: reduce along the second axis from +inf, cast to a column. -/
def minCol {M N : ℕ} (hr : (⟨2, ![M, N]⟩ : Shape).Reduces [1] ⟨1, ![M]⟩) (hc : (⟨1, ![M]⟩ : Shape).ShapeCasts ⟨2, ![M, 1]⟩)
    (X : FVec Ideal ⟨2, ![M, N]⟩ .f32) : FVec Ideal ⟨2, ![M, 1]⟩ .f32 :=
  shapeCast ⟨2, ![M, 1]⟩ (multiReduction .minimumf [1] ⟨1, ![M]⟩ X 0x7F800000#32 hr (.inl rfl) rfl) hc

/-- The rescaling from a given column of row minima. -/
def vnormCol {M N : ℕ} (hr : (⟨2, ![M, N]⟩ : Shape).Reduces [1] ⟨1, ![M]⟩) (hc : (⟨1, ![M]⟩ : Shape).ShapeCasts ⟨2, ![M, 1]⟩)
    (hb : (⟨2, ![M, 1]⟩ : Shape).Broadcasts ⟨2, ![M, N]⟩) (X : FVec Ideal ⟨2, ![M, N]⟩ .f32)
    (mn : FVec Ideal ⟨2, ![M, 1]⟩ .f32) : FVec Ideal ⟨2, ![M, N]⟩ .f32 :=
  subf (divf (mulf (broadcast ⟨2, ![M, N]⟩ (Scalar.ofBits (F := Ideal) .f32 0x40000000#32))
        (subf X (broadcastTo ⟨2, ![M, N]⟩ mn hb)))
      (broadcastTo ⟨2, ![M, N]⟩
        (addf (subf (shapeCast ⟨2, ![M, 1]⟩ (multiReduction .maximumf [1] ⟨1, ![M]⟩ X 0xFF800000#32 hr (.inl rfl) rfl) hc) mn)
          (broadcast ⟨2, ![M, 1]⟩ (Scalar.ofBits (F := Ideal) .f32 0x322BCC77#32))) hb))
    (broadcast ⟨2, ![M, N]⟩ (Scalar.ofBits (F := Ideal) .f32 0x3F800000#32))

/-- The rescaling, the column of row minima computed on the spot. -/
def vnorm {M N : ℕ} (hr : (⟨2, ![M, N]⟩ : Shape).Reduces [1] ⟨1, ![M]⟩) (hc : (⟨1, ![M]⟩ : Shape).ShapeCasts ⟨2, ![M, 1]⟩)
    (hb : (⟨2, ![M, 1]⟩ : Shape).Broadcasts ⟨2, ![M, N]⟩) (X : FVec Ideal ⟨2, ![M, N]⟩ .f32) : FVec Ideal ⟨2, ![M, N]⟩ .f32 :=
  vnormCol hr hc hb X (minCol hr hc X)

theorem minCol_apply {M N : ℕ} (hr : (⟨2, ![M, N]⟩ : Shape).Reduces [1] ⟨1, ![M]⟩)
    (hc : (⟨1, ![M]⟩ : Shape).ShapeCasts ⟨2, ![M, 1]⟩) (X : FVec Ideal ⟨2, ![M, N]⟩ .f32) (p : Fin M) :
    minCol hr hc X (ix2 p (0 : Fin 1)) = rowMin X p :=
  (shapeCast_col_apply _ hc p 0).trans (vecRowMin X hr _ _ p)

theorem vnormCol_eq {M N : ℕ} (hr : (⟨2, ![M, N]⟩ : Shape).Reduces [1] ⟨1, ![M]⟩)
    (hc : (⟨1, ![M]⟩ : Shape).ShapeCasts ⟨2, ![M, 1]⟩) (hb : (⟨2, ![M, 1]⟩ : Shape).Broadcasts ⟨2, ![M, N]⟩)
    (X : FVec Ideal ⟨2, ![M, N]⟩ .f32) (mn : FVec Ideal ⟨2, ![M, 1]⟩ .f32)
    (hmn : ∀ p : Fin M, mn (ix2 p (0 : Fin 1)) = rowMin X p) : vnormCol hr hc hb X mn = mynorm X :=
  vecMynorm_col X mn hmn hr _ _ hc hb

theorem vnorm_eq {M N : ℕ} (hr : (⟨2, ![M, N]⟩ : Shape).Reduces [1] ⟨1, ![M]⟩)
    (hc : (⟨1, ![M]⟩ : Shape).ShapeCasts ⟨2, ![M, 1]⟩) (hb : (⟨2, ![M, 1]⟩ : Shape).Broadcasts ⟨2, ![M, N]⟩)
    (X : FVec Ideal ⟨2, ![M, N]⟩ .f32) : vnorm hr hc hb X = mynorm X :=
  vnormCol_eq hr hc hb X _ (minCol_apply hr hc X)

end Cert.Net

end
-- ==== Proof.KPay.lean ====
/-
  What each kernel's body computes from the blocks it loads, on the extended reals.

  The body of the first kernel takes a block of 5000 rows of features, the whole transposed weight and the bias, and
  stores `mynorm (max (X W + b, 0))` of that block: the matrix unit's product into a zero accumulator is the matrix
  product, a change of float format is the identity, the bias cast to one row and broadcast along the rows is added to
  every row, and the row rescaling is `Cert.Net.mynorm`.  The bodies of the three middle kernels store `A W + b`.  The
  body of the last kernel takes four blocks of 2000 rows, rescales each, lays the first two and the two differences
  side by side and stores their dense layer; the least entries of the third block's rows, which it computes once and
  uses twice, are that block's row minima.  In every case the stored block is the layer of `Cert.Net` at the block's
  own extents.  Each body is first split into its steps, which is a matter of unfolding, and each step is then read.
-/
import proofs.«164241_j3496103379545_2_alg».proof.Proof.Gen.KernelIdeal.Skeleton
import proofs.«164241_j3496103379545_2_alg».proof.Proof.KNorm

noncomputable section

namespace Cert.KernelIdeal.Pay

open Cert.KernelIdeal Cert.KernelIdeal.Gen
open Idealize.ShloMosaic Idealize.ShloMosaic.ValueIdx Cert.Dense Cert.BiasRow Cert.Net Cert.StackDot

/-! ## The first kernel -/

/-- The dense step of the first kernel's body: the product into a zero accumulator plus the bias row. -/
def dense0 (v0 : Vec Ideal S5000x128 .f32) (v2 : Vec Ideal S128x32 .bf16) (v5 : Vec Ideal S32 .f32) : FVec Ideal S5000x32 .f32 :=
  addf (matmul dot_S5000x128_S128x32_S5000x32_1_0_0_1_n_n none (truncf .bf16 v0 bitsLt_bf16_f32)
      (shapeCast S128x32 v2 shapeCasts_S128x32_S128x32 : FVec Ideal S128x32 .bf16) (constant S5000x32 .f32 0x00000000#32))
    (broadcastTo S5000x32 (shapeCast S1x32 v5 shapeCasts_S32_S1x32 : FVec Ideal S1x32 .f32) broadcasts_S1x32_S5000x32)

/-- Its rectification. -/
def relu0 (v0 : Vec Ideal S5000x128 .f32) (v2 : Vec Ideal S128x32 .bf16) (v5 : Vec Ideal S32 .f32) : FVec Ideal S5000x32 .f32 :=
  maximumf (dense0 v0 v2 v5) (broadcast S5000x32 (Scalar.ofBits (F := Ideal) .f32 0x00000000#32))

theorem relu0_eq (v0 : Vec Ideal S5000x128 .f32) (v2 : Vec Ideal S128x32 .bf16) (v5 : Vec Ideal S32 .f32) :
    relu0 v0 v2 v5 = reluBias (mm v0 v2) (row v5) := by
  unfold relu0 dense0
  rw [shapeCast_self, shapeCast_row,
    matmul_zero_eq_mm dot_S5000x128_S128x32_S5000x32_1_0_0_1_n_n rfl rfl rfl rfl rfl rfl none _ _, vecReluBias]
  rfl

/-- The first kernel's stored block. -/
theorem pay0 (v0 : Vec Ideal S5000x128 .f32) (v2 : Vec Ideal S128x32 .bf16) (v5 : Vec Ideal S32 .f32) :
    k0_pay1 (F := Ideal) v0 v2 v5 = layer0 v0 v2 (row v5) :=
  (show k0_pay1 (F := Ideal) v0 v2 v5
      = vnorm reduces_S5000x32_S5000 shapeCasts_S5000_S5000x1 broadcasts_S5000x1_S5000x32 (relu0 v0 v2 v5) from rfl).trans
    ((vnorm_eq _ _ _ _).trans (congrArg mynorm (relu0_eq v0 v2 v5)))

/-! ## The three middle kernels -/

/-- The body of a middle kernel: the product into a zero accumulator plus the bias row. -/
def dense1 (v0 : Vec Ideal S5000x32 .f32) (v3 : Vec Ideal S32x32 .bf16) (v6 : Vec Ideal S32 .f32) : FVec Ideal S5000x32 .f32 :=
  addf (matmul dot_S5000x32_S32x32_S5000x32_1_0_0_1_n_n none
      (truncf .bf16 (shapeCast S5000x32 v0 shapeCasts_S5000x32_S5000x32 : FVec Ideal S5000x32 .f32) bitsLt_bf16_f32)
      (shapeCast S32x32 v3 shapeCasts_S32x32_S32x32 : FVec Ideal S32x32 .bf16) (constant S5000x32 .f32 0x00000000#32))
    (broadcastTo S5000x32 (shapeCast S1x32 v6 shapeCasts_S32_S1x32 : FVec Ideal S1x32 .f32) broadcasts_S1x32_S5000x32)

theorem dense1_eq (v0 : Vec Ideal S5000x32 .f32) (v3 : Vec Ideal S32x32 .bf16) (v6 : Vec Ideal S32 .f32) :
    dense1 v0 v3 v6 = layer1 v0 v3 (row v6) := by
  unfold dense1 layer1
  rw [shapeCast_self, shapeCast_self, shapeCast_row,
    matmul_zero_eq_mm dot_S5000x32_S32x32_S5000x32_1_0_0_1_n_n rfl rfl rfl rfl rfl rfl none _ _, vecAddRow]
  rfl

theorem pay1 (v0 : Vec Ideal S5000x32 .f32) (v3 : Vec Ideal S32x32 .bf16) (v6 : Vec Ideal S32 .f32) :
    k1_pay1 (F := Ideal) v0 v3 v6 = layer1 v0 v3 (row v6) :=
  (show k1_pay1 (F := Ideal) v0 v3 v6 = dense1 v0 v3 v6 from rfl).trans (dense1_eq v0 v3 v6)

theorem pay2 (v0 : Vec Ideal S5000x32 .f32) (v3 : Vec Ideal S32x32 .bf16) (v6 : Vec Ideal S32 .f32) :
    k2_pay1 (F := Ideal) v0 v3 v6 = layer1 v0 v3 (row v6) :=
  (show k2_pay1 (F := Ideal) v0 v3 v6 = dense1 v0 v3 v6 from rfl).trans (dense1_eq v0 v3 v6)

theorem pay3 (v0 : Vec Ideal S5000x32 .f32) (v3 : Vec Ideal S32x32 .bf16) (v6 : Vec Ideal S32 .f32) :
    k3_pay1 (F := Ideal) v0 v3 v6 = layer1 v0 v3 (row v6) :=
  (show k3_pay1 (F := Ideal) v0 v3 v6 = dense1 v0 v3 v6 from rfl).trans (dense1_eq v0 v3 v6)

/-! ## The last kernel -/

/-- The last steps of the last kernel's body: four blocks side by side, the product, the bias row. -/
def tail4 (a b c d : FVec Ideal S2000x32 .f32) (x4 : Vec Ideal S128x64 .bf16) (x5 : Vec Ideal S64 .f32) : FVec Ideal S2000x64 .f32 :=
  addf (matmul dot_S2000x128_S128x64_S2000x64_1_0_0_1_n_n none
      (truncf .bf16 (concatenate S2000x128 1 [⟨S2000x32, a⟩, ⟨S2000x32, b⟩, ⟨S2000x32, c⟩, ⟨S2000x32, d⟩]
        concatenates_S2000x32_S2000x32_S2000x32_S2000x32_S2000x128_d1) bitsLt_bf16_f32)
      (shapeCast S128x64 x4 shapeCasts_S128x64_S128x64 : FVec Ideal S128x64 .bf16) (constant S2000x64 .f32 0x00000000#32))
    (broadcastTo S2000x64 (shapeCast S1x64 x5 shapeCasts_S64_S1x64 : FVec Ideal S1x64 .f32) broadcasts_S1x64_S2000x64)

theorem tail4_eq (a b c d : FVec Ideal S2000x32 .f32) (x4 : Vec Ideal S128x64 .bf16) (x5 : Vec Ideal S64 .f32) :
    tail4 a b c d x4 x5 = addRow (mm (stack (rfl : 128 = 4 * 32) ![a, b, c, d]) x4) (row x5) := by
  unfold tail4
  rw [shapeCast_self, shapeCast_row,
    matmul_zero_eq_mm dot_S2000x128_S128x64_S2000x64_1_0_0_1_n_n rfl rfl rfl rfl rfl rfl none _ _, vecAddRow]
  refine congrArg (fun A => addRow (mm A x4) (row x5)) ?_
  exact cat4_eq_stack (rfl : 128 = 4 * 32) a b c d concatenates_S2000x32_S2000x32_S2000x32_S2000x32_S2000x128_d1

/-- A block passed through a cast to its own shape is unchanged. -/
theorem pass2 (v : Vec Ideal S2000x32 .f32) : k4_pay2 (F := Ideal) v = v := by unfold k4_pay2; exact shapeCast_self _ _
theorem pass3 (v : Vec Ideal S2000x32 .f32) : k4_pay3 (F := Ideal) v = v := by unfold k4_pay3; exact shapeCast_self _ _
theorem pass4 (v : Vec Ideal S2000x32 .f32) : k4_pay4 (F := Ideal) v = v := by unfold k4_pay4; exact shapeCast_self _ _
theorem pass5 (v : Vec Ideal S2000x32 .f32) : k4_pay5 (F := Ideal) v = v := by unfold k4_pay5; exact shapeCast_self _ _

/-- The last kernel's rescaling of its first block. -/
theorem norm6 (v : Vec Ideal S2000x32 .f32) : k4_pay6 (F := Ideal) v = mynorm v :=
  (show k4_pay6 (F := Ideal) v
      = vnorm reduces_S2000x32_S2000 shapeCasts_S2000_S2000x1 broadcasts_S2000x1_S2000x32 (k4_pay2 (F := Ideal) v) from rfl).trans
    ((vnorm_eq _ _ _ _).trans (congrArg mynorm (pass2 v)))

/-- The last kernel's rescaling of its second block. -/
theorem norm7 (v : Vec Ideal S2000x32 .f32) : k4_pay7 (F := Ideal) v = mynorm v :=
  (show k4_pay7 (F := Ideal) v
      = vnorm reduces_S2000x32_S2000 shapeCasts_S2000_S2000x1 broadcasts_S2000x1_S2000x32 (k4_pay3 (F := Ideal) v) from rfl).trans
    ((vnorm_eq _ _ _ _).trans (congrArg mynorm (pass3 v)))

/-- The column of the third block's row minima, as the last kernel computes it. -/
theorem min8 (v : Vec Ideal S2000x32 .f32) (p : Fin 2000) : k4_pay8 (F := Ideal) v (ix2 p (0 : Fin 1)) = rowMin v p := by
  have e : k4_pay8 (F := Ideal) v = minCol reduces_S2000x32_S2000 shapeCasts_S2000_S2000x1 (k4_pay4 (F := Ideal) v) := rfl
  rw [e, pass4]
  exact minCol_apply _ _ v p

/-- The last kernel's stored block. -/
theorem pay4 (x0 x1 x2 x3 : Vec Ideal S2000x32 .f32) (x4 : Vec Ideal S128x64 .bf16) (x5 : Vec Ideal S64 .f32) :
    k4_pay1 (F := Ideal) (k4_pay2 x0) (k4_pay3 x1) (k4_pay4 x2) (k4_pay5 x3) (k4_pay6 x0) (k4_pay7 x1) (k4_pay8 x2) x4 x5
      = layer4 (rfl : 128 = 4 * 32) x0 x1 x2 x3 x4 (row x5) := by
  rw [pass2, pass3, pass4, pass5, norm6, norm7]
  refine (show k4_pay1 (F := Ideal) x0 x1 x2 x3 (mynorm x0) (mynorm x1) (k4_pay8 x2) x4 x5
      = tail4 x0 x1
          (subf (vnormCol reduces_S2000x32_S2000 shapeCasts_S2000_S2000x1 broadcasts_S2000x1_S2000x32 x2 (k4_pay8 x2)) (mynorm x0))
          (subf (vnorm reduces_S2000x32_S2000 shapeCasts_S2000_S2000x1 broadcasts_S2000x1_S2000x32 x3) (mynorm x1)) x4 x5
      from rfl).trans ?_
  rw [vnormCol_eq _ _ _ x2 (k4_pay8 x2) (min8 x2), vnorm_eq, tail4_eq]
  rfl

end Cert.KernelIdeal.Pay

end
-- ==== Proof.KReg0.lean ====
/-
  What the first kernel region leaves in its output array.

  The region runs over 20 grid points.  At point `t` the body is handed rows `5000 t … 5000 t + 4999` of the feature
  array, the whole transposed weight and the whole bias, and writes back rows `5000 t … 5000 t + 4999` of the
  output.  What it writes is the first layer of that block of rows; an entry of the first layer depends on its own row
  of the features only, so the written block is the same block of the first layer of the WHOLE feature array.  The 20
  blocks tile the 100000 rows, so after the region the output array is the first layer of the feature array as the
  region found it.
-/
import proofs.«164241_j3496103379545_2_alg».proof.Proof.Gen.KernelIdeal.Frame
import proofs.«164241_j3496103379545_2_alg».proof.Proof.KPay

set_option maxRecDepth 16384

noncomputable section

namespace Cert.KernelIdeal.Reg0

open Cert.KernelIdeal Cert.KernelIdeal.Gen Cert.KernelIdeal.Pay
open Idealize.ShloMosaic Idealize.ShloMosaic.TcCoe Idealize.SL.Sem Idealize.ShloMosaic.ValueIdx Cert.Dense Cert.Net
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The printed index maps over the grid: the feature window moves with the output window along the rows, the weight
    and the bias stay at the origin, and the output's row-block number is below 20. -/
theorem idx_facts : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 1) = 0
    ∧ win0_3.index t (0 : Fin 2) ≤ 19 ∧ win0_3.index t (1 : Fin 2) = 0 :=
  (by decide +kernel : ∀ t : Fin grid0.N, _)

/-- Every row block is some point's. -/
theorem idx_onto : ∀ q0 : Fin 20, ∃ t : Fin cfg0.N, win0_3.index t (0 : Fin 2) = q0.val :=
  (by decide +kernel : ∀ q0 : Fin 20, ∃ t : Fin grid0.N, win0_3.index t (0 : Fin 2) = q0.val)

/-- The first layer of the arrays the region finds. -/
abbrev G (c : Dev nD) : S100000x32.Idx → EReal :=
  layer0 (V c main_arg0) (V c main_v34) (row (V c main_arg3))

/-- What point `t` writes back is block `t` of the first layer of the whole arrays. -/
theorem flushed_eq (c : Dev nD) (t : Fin cfg0.N) :
    (dat0 V c).flushed 3 t = ((cfg0.win 3).blk t).view.read (Elt Ideal) (G V c) := by
  show (cfg0.win 3).cut (grid0.coords t) ((dat0 V c).after 3 t) = _
  rw [after0_3]
  unfold out0_3
  rw [View.canon_unit_zero hz2]
  simp only [View.ld_unit_zero (S := S5000x128) hz2, View.ld_unit_zero (S := S128x32) hz2, View.ld_unit_zero (S := S32) hz1]
  rw [pay0]
  obtain ⟨e00, e01, e10, e11, e2, e30, e31⟩ := idx_facts t
  have hw : iblk0 V c 1 t = V c main_v34 := by
    funext y
    show V c main_v34 (((cfg0.win 1).blk t).view.emb y) = V c main_v34 y
    refine congrArg _ (funext fun a => Fin.ext ?_)
    match a with
    | ⟨0, _⟩ => show win0_1.index t (0 : Fin 2) * 128 + 1 * (y 0).val = (y 0).val; omega
    | ⟨1, _⟩ => show win0_1.index t (1 : Fin 2) * 32 + 1 * (y 1).val = (y 1).val; omega
  have hb : iblk0 V c 2 t = V c main_arg3 := by
    funext y
    show V c main_arg3 (((cfg0.win 2).blk t).view.emb y) = V c main_arg3 y
    refine congrArg _ (funext fun a => Fin.ext ?_)
    match a with
    | ⟨0, _⟩ => show win0_2.index t (0 : Fin 1) * 32 + 1 * (y 0).val = (y 0).val; omega
  rw [hw, hb]
  funext j
  obtain ⟨p, q, rfl⟩ : ∃ (p : Fin 5000) (q : Fin 32), j = ix2 p q := ⟨j 0, j 1, eq_ix2 j⟩
  have hP : win0_3.index t (0 : Fin 2) * 5000 + p.val < 100000 := by have := p.isLt; omega
  have hI : ((cfg0.win 3).blk t).view.emb (ix2 p q)
      = ix2 (⟨win0_3.index t (0 : Fin 2) * 5000 + p.val, hP⟩ : Fin 100000) q := by
    funext a; apply Fin.ext
    match a with
    | ⟨0, _⟩ => show win0_3.index t (0 : Fin 2) * 5000 + 1 * p.val = win0_3.index t (0 : Fin 2) * 5000 + p.val; omega
    | ⟨1, _⟩ => show win0_3.index t (1 : Fin 2) * 32 + 1 * q.val = q.val; omega
  show layer0 (iblk0 V c 0 t) (V c main_v34) (row (V c main_arg3)) (ix2 p q)
      = G V c (((cfg0.win 3).blk t).view.emb (ix2 p q))
  rw [hI]
  refine layer0_at (V c main_arg0) (iblk0 V c 0 t) (V c main_v34) (row (V c main_arg3)) ⟨_, hP⟩ p (fun k => ?_) q
  show V c main_arg0 (((cfg0.win 0).blk t).view.emb (ix2 p k)) = V c main_arg0 (ix2 ⟨_, hP⟩ k)
  refine congrArg _ (funext fun a => Fin.ext ?_)
  match a with
  | ⟨0, _⟩ => show win0_0.index t (0 : Fin 2) * 5000 + 1 * p.val = win0_3.index t (0 : Fin 2) * 5000 + p.val; omega
  | ⟨1, _⟩ => show win0_0.index t (1 : Fin 2) * 128 + 1 * k.val = k.val; omega

/-- An index of the output array is in point `t`'s block iff each coordinate is in the block's range. -/
theorem mem_blk (t : Fin cfg0.N) (i : S100000x32.Idx) :
    i ∈ ((cfg0.win 3).blk t).view.set ↔ ∀ a : Fin 2, win0_3.index t a * S5000x32.size a ≤ (i a).val
      ∧ (i a).val < win0_3.index t a * S5000x32.size a + S5000x32.size a := by
  show i ∈ ((View.whole main_v43).slice (win0_3.rect t)).set ↔ _
  rw [View.set_slice_whole, Rect.mem_set_unit]
  exact Iff.rfl

/-- Every index of the output array is in some point's block: row `r` is in block `r / 5000`. -/
theorem cover (i : S100000x32.Idx) :
    ∃ t : Fin cfg0.N, (cfg0.win 3).flush t = true ∧ i ∈ ((cfg0.win 3).blk t).view.set := by
  have hi0 : (i 0).val < 100000 := (i 0).isLt
  have hi1 : (i 1).val < 32 := (i 1).isLt
  obtain ⟨t, ht⟩ := idx_onto ⟨(i 0).val / 5000, by omega⟩
  have ht' : win0_3.index t (0 : Fin 2) = (i 0).val / 5000 := ht
  obtain ⟨-, -, -, -, -, -, e31⟩ := idx_facts t
  refine ⟨t, flush0_3 t, ?_⟩
  rw [mem_blk]
  intro a
  match a with
  | ⟨0, _⟩ =>
    show win0_3.index t (0 : Fin 2) * 5000 ≤ (i 0).val ∧ (i 0).val < win0_3.index t (0 : Fin 2) * 5000 + 5000
    omega
  | ⟨1, _⟩ =>
    show win0_3.index t (1 : Fin 2) * 32 ≤ (i 1).val ∧ (i 1).val < win0_3.index t (1 : Fin 2) * 32 + 32
    omega

/-- After the region its output array is the first layer of the arrays it found. -/
theorem final (c : Dev nD) : (dat0 V c).arrAt 3 cfg0.N = G V c :=
  (dat0 V c).arrAt_eq_of_cover 3 (G V c) (fun t _ => flushed_eq V c t) cover

end Cert.KernelIdeal.Reg0

end
-- ==== Proof.KReg1.lean ====
/-
  What the second kernel region leaves in its output array.

  The region runs over 20 grid points.  At point `t` the body is handed rows `5000 t … 5000 t + 4999` of the
  aggregate, the whole transposed weight and the whole bias, and writes back the same rows of the output.  What it
  writes is the dense layer of that block of rows; an entry of a dense layer depends on its own row of the left operand
  only, so the written block is the same block of the dense layer of the WHOLE aggregate.  The 20 blocks tile the 100000
  rows, so after the region the output array is the dense layer of the aggregate as the region found it.
-/
import proofs.«164241_j3496103379545_2_alg».proof.Proof.Gen.KernelIdeal.Frame
import proofs.«164241_j3496103379545_2_alg».proof.Proof.KPay

set_option maxRecDepth 16384

noncomputable section

namespace Cert.KernelIdeal.Reg1

open Cert.KernelIdeal Cert.KernelIdeal.Gen Cert.KernelIdeal.Pay
open Idealize.ShloMosaic Idealize.ShloMosaic.TcCoe Idealize.SL.Sem Idealize.ShloMosaic.ValueIdx Cert.Dense Cert.Net
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The printed index maps over the grid: the aggregate's window moves with the output window along the rows, the
    weight and the bias stay at the origin, and the output's row-block number is below 20. -/
theorem idx_facts : ∀ t : Fin cfg1.N,
    win1_0.index t (0 : Fin 2) = win1_3.index t (0 : Fin 2) ∧ win1_0.index t (1 : Fin 2) = 0
    ∧ win1_1.index t (0 : Fin 2) = 0 ∧ win1_1.index t (1 : Fin 2) = 0
    ∧ win1_2.index t (0 : Fin 1) = 0
    ∧ win1_3.index t (0 : Fin 2) ≤ 19 ∧ win1_3.index t (1 : Fin 2) = 0 :=
  (by decide +kernel : ∀ t : Fin grid1.N, _)

/-- Every row block is some point's. -/
theorem idx_onto : ∀ q0 : Fin 20, ∃ t : Fin cfg1.N, win1_3.index t (0 : Fin 2) = q0.val :=
  (by decide +kernel : ∀ q0 : Fin 20, ∃ t : Fin grid1.N, win1_3.index t (0 : Fin 2) = q0.val)

/-- The dense layer of the arrays the region finds. -/
abbrev G (c : Dev nD) : S100000x32.Idx → EReal :=
  layer1 (V c main_v56) (V c main_v36) (row (V c main_arg5))

/-- What point `t` writes back is block `t` of the dense layer of the whole arrays. -/
theorem flushed_eq (c : Dev nD) (t : Fin cfg1.N) :
    (dat1 V c).flushed 3 t = ((cfg1.win 3).blk t).view.read (Elt Ideal) (G V c) := by
  show (cfg1.win 3).cut (grid1.coords t) ((dat1 V c).after 3 t) = _
  rw [after1_3]
  unfold out1_3
  rw [View.canon_unit_zero hz2]
  simp only [View.ld_unit_zero (S := S5000x32) hz2, View.ld_unit_zero (S := S32x32) hz2, View.ld_unit_zero (S := S32) hz1]
  rw [pay1]
  obtain ⟨e00, e01, e10, e11, e2, e30, e31⟩ := idx_facts t
  have hw : iblk1 V c 1 t = V c main_v36 := by
    funext y
    show V c main_v36 (((cfg1.win 1).blk t).view.emb y) = V c main_v36 y
    refine congrArg _ (funext fun a => Fin.ext ?_)
    match a with
    | ⟨0, _⟩ => show win1_1.index t (0 : Fin 2) * 32 + 1 * (y 0).val = (y 0).val; omega
    | ⟨1, _⟩ => show win1_1.index t (1 : Fin 2) * 32 + 1 * (y 1).val = (y 1).val; omega
  have hb : iblk1 V c 2 t = V c main_arg5 := by
    funext y
    show V c main_arg5 (((cfg1.win 2).blk t).view.emb y) = V c main_arg5 y
    refine congrArg _ (funext fun a => Fin.ext ?_)
    match a with
    | ⟨0, _⟩ => show win1_2.index t (0 : Fin 1) * 32 + 1 * (y 0).val = (y 0).val; omega
  rw [hw, hb]
  funext j
  obtain ⟨p, q, rfl⟩ : ∃ (p : Fin 5000) (q : Fin 32), j = ix2 p q := ⟨j 0, j 1, eq_ix2 j⟩
  have hP : win1_3.index t (0 : Fin 2) * 5000 + p.val < 100000 := by have := p.isLt; omega
  have hI : ((cfg1.win 3).blk t).view.emb (ix2 p q)
      = ix2 (⟨win1_3.index t (0 : Fin 2) * 5000 + p.val, hP⟩ : Fin 100000) q := by
    funext a; apply Fin.ext
    match a with
    | ⟨0, _⟩ => show win1_3.index t (0 : Fin 2) * 5000 + 1 * p.val = win1_3.index t (0 : Fin 2) * 5000 + p.val; omega
    | ⟨1, _⟩ => show win1_3.index t (1 : Fin 2) * 32 + 1 * q.val = q.val; omega
  show layer1 (iblk1 V c 0 t) (V c main_v36) (row (V c main_arg5)) (ix2 p q)
      = G V c (((cfg1.win 3).blk t).view.emb (ix2 p q))
  rw [hI]
  refine layer1_at (V c main_v56) (iblk1 V c 0 t) (V c main_v36) (row (V c main_arg5)) ⟨_, hP⟩ p (fun k => ?_) q
  show V c main_v56 (((cfg1.win 0).blk t).view.emb (ix2 p k)) = V c main_v56 (ix2 ⟨_, hP⟩ k)
  refine congrArg _ (funext fun a => Fin.ext ?_)
  match a with
  | ⟨0, _⟩ => show win1_0.index t (0 : Fin 2) * 5000 + 1 * p.val = win1_3.index t (0 : Fin 2) * 5000 + p.val; omega
  | ⟨1, _⟩ => show win1_0.index t (1 : Fin 2) * 32 + 1 * k.val = k.val; omega

/-- An index of the output array is in point `t`'s block iff each coordinate is in the block's range. -/
theorem mem_blk (t : Fin cfg1.N) (i : S100000x32.Idx) :
    i ∈ ((cfg1.win 3).blk t).view.set ↔ ∀ a : Fin 2, win1_3.index t a * S5000x32.size a ≤ (i a).val
      ∧ (i a).val < win1_3.index t a * S5000x32.size a + S5000x32.size a := by
  show i ∈ ((View.whole main_v57).slice (win1_3.rect t)).set ↔ _
  rw [View.set_slice_whole, Rect.mem_set_unit]
  exact Iff.rfl

/-- Every index of the output array is in some point's block: row `r` is in block `r / 5000`. -/
theorem cover (i : S100000x32.Idx) :
    ∃ t : Fin cfg1.N, (cfg1.win 3).flush t = true ∧ i ∈ ((cfg1.win 3).blk t).view.set := by
  have hi0 : (i 0).val < 100000 := (i 0).isLt
  have hi1 : (i 1).val < 32 := (i 1).isLt
  obtain ⟨t, ht⟩ := idx_onto ⟨(i 0).val / 5000, by omega⟩
  have ht' : win1_3.index t (0 : Fin 2) = (i 0).val / 5000 := ht
  obtain ⟨-, -, -, -, -, -, e31⟩ := idx_facts t
  refine ⟨t, flush1_3 t, ?_⟩
  rw [mem_blk]
  intro a
  match a with
  | ⟨0, _⟩ =>
    show win1_3.index t (0 : Fin 2) * 5000 ≤ (i 0).val ∧ (i 0).val < win1_3.index t (0 : Fin 2) * 5000 + 5000
    omega
  | ⟨1, _⟩ =>
    show win1_3.index t (1 : Fin 2) * 32 ≤ (i 1).val ∧ (i 1).val < win1_3.index t (1 : Fin 2) * 32 + 32
    omega

/-- After the region its output array is the dense layer of the arrays it found. -/
theorem final (c : Dev nD) : (dat1 V c).arrAt 3 cfg1.N = G V c :=
  (dat1 V c).arrAt_eq_of_cover 3 (G V c) (fun t _ => flushed_eq V c t) cover

end Cert.KernelIdeal.Reg1

end
-- ==== Proof.KReg2.lean ====
/-
  What the third kernel region leaves in its output array.

  The region runs over 20 grid points.  At point `t` the body is handed rows `5000 t … 5000 t + 4999` of the
  aggregate, the whole transposed weight and the whole bias, and writes back the same rows of the output.  What it
  writes is the dense layer of that block of rows; an entry of a dense layer depends on its own row of the left operand
  only, so the written block is the same block of the dense layer of the WHOLE aggregate.  The 20 blocks tile the 100000
  rows, so after the region the output array is the dense layer of the aggregate as the region found it.
-/
import proofs.«164241_j3496103379545_2_alg».proof.Proof.Gen.KernelIdeal.Frame
import proofs.«164241_j3496103379545_2_alg».proof.Proof.KPay

set_option maxRecDepth 16384

noncomputable section

namespace Cert.KernelIdeal.Reg2

open Cert.KernelIdeal Cert.KernelIdeal.Gen Cert.KernelIdeal.Pay
open Idealize.ShloMosaic Idealize.ShloMosaic.TcCoe Idealize.SL.Sem Idealize.ShloMosaic.ValueIdx Cert.Dense Cert.Net
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The printed index maps over the grid: the aggregate's window moves with the output window along the rows, the
    weight and the bias stay at the origin, and the output's row-block number is below 20. -/
theorem idx_facts : ∀ t : Fin cfg2.N,
    win2_0.index t (0 : Fin 2) = win2_3.index t (0 : Fin 2) ∧ win2_0.index t (1 : Fin 2) = 0
    ∧ win2_1.index t (0 : Fin 2) = 0 ∧ win2_1.index t (1 : Fin 2) = 0
    ∧ win2_2.index t (0 : Fin 1) = 0
    ∧ win2_3.index t (0 : Fin 2) ≤ 19 ∧ win2_3.index t (1 : Fin 2) = 0 :=
  (by decide +kernel : ∀ t : Fin grid2.N, _)

/-- Every row block is some point's. -/
theorem idx_onto : ∀ q0 : Fin 20, ∃ t : Fin cfg2.N, win2_3.index t (0 : Fin 2) = q0.val :=
  (by decide +kernel : ∀ q0 : Fin 20, ∃ t : Fin grid2.N, win2_3.index t (0 : Fin 2) = q0.val)

/-- The dense layer of the arrays the region finds. -/
abbrev G (c : Dev nD) : S100000x32.Idx → EReal :=
  layer1 (V c main_v70) (V c main_v38) (row (V c main_arg7))

/-- What point `t` writes back is block `t` of the dense layer of the whole arrays. -/
theorem flushed_eq (c : Dev nD) (t : Fin cfg2.N) :
    (dat2 V c).flushed 3 t = ((cfg2.win 3).blk t).view.read (Elt Ideal) (G V c) := by
  show (cfg2.win 3).cut (grid2.coords t) ((dat2 V c).after 3 t) = _
  rw [after2_3]
  unfold out2_3
  rw [View.canon_unit_zero hz2]
  simp only [View.ld_unit_zero (S := S5000x32) hz2, View.ld_unit_zero (S := S32x32) hz2, View.ld_unit_zero (S := S32) hz1]
  rw [pay2]
  obtain ⟨e00, e01, e10, e11, e2, e30, e31⟩ := idx_facts t
  have hw : iblk2 V c 1 t = V c main_v38 := by
    funext y
    show V c main_v38 (((cfg2.win 1).blk t).view.emb y) = V c main_v38 y
    refine congrArg _ (funext fun a => Fin.ext ?_)
    match a with
    | ⟨0, _⟩ => show win2_1.index t (0 : Fin 2) * 32 + 1 * (y 0).val = (y 0).val; omega
    | ⟨1, _⟩ => show win2_1.index t (1 : Fin 2) * 32 + 1 * (y 1).val = (y 1).val; omega
  have hb : iblk2 V c 2 t = V c main_arg7 := by
    funext y
    show V c main_arg7 (((cfg2.win 2).blk t).view.emb y) = V c main_arg7 y
    refine congrArg _ (funext fun a => Fin.ext ?_)
    match a with
    | ⟨0, _⟩ => show win2_2.index t (0 : Fin 1) * 32 + 1 * (y 0).val = (y 0).val; omega
  rw [hw, hb]
  funext j
  obtain ⟨p, q, rfl⟩ : ∃ (p : Fin 5000) (q : Fin 32), j = ix2 p q := ⟨j 0, j 1, eq_ix2 j⟩
  have hP : win2_3.index t (0 : Fin 2) * 5000 + p.val < 100000 := by have := p.isLt; omega
  have hI : ((cfg2.win 3).blk t).view.emb (ix2 p q)
      = ix2 (⟨win2_3.index t (0 : Fin 2) * 5000 + p.val, hP⟩ : Fin 100000) q := by
    funext a; apply Fin.ext
    match a with
    | ⟨0, _⟩ => show win2_3.index t (0 : Fin 2) * 5000 + 1 * p.val = win2_3.index t (0 : Fin 2) * 5000 + p.val; omega
    | ⟨1, _⟩ => show win2_3.index t (1 : Fin 2) * 32 + 1 * q.val = q.val; omega
  show layer1 (iblk2 V c 0 t) (V c main_v38) (row (V c main_arg7)) (ix2 p q)
      = G V c (((cfg2.win 3).blk t).view.emb (ix2 p q))
  rw [hI]
  refine layer1_at (V c main_v70) (iblk2 V c 0 t) (V c main_v38) (row (V c main_arg7)) ⟨_, hP⟩ p (fun k => ?_) q
  show V c main_v70 (((cfg2.win 0).blk t).view.emb (ix2 p k)) = V c main_v70 (ix2 ⟨_, hP⟩ k)
  refine congrArg _ (funext fun a => Fin.ext ?_)
  match a with
  | ⟨0, _⟩ => show win2_0.index t (0 : Fin 2) * 5000 + 1 * p.val = win2_3.index t (0 : Fin 2) * 5000 + p.val; omega
  | ⟨1, _⟩ => show win2_0.index t (1 : Fin 2) * 32 + 1 * k.val = k.val; omega

/-- An index of the output array is in point `t`'s block iff each coordinate is in the block's range. -/
theorem mem_blk (t : Fin cfg2.N) (i : S100000x32.Idx) :
    i ∈ ((cfg2.win 3).blk t).view.set ↔ ∀ a : Fin 2, win2_3.index t a * S5000x32.size a ≤ (i a).val
      ∧ (i a).val < win2_3.index t a * S5000x32.size a + S5000x32.size a := by
  show i ∈ ((View.whole main_v71).slice (win2_3.rect t)).set ↔ _
  rw [View.set_slice_whole, Rect.mem_set_unit]
  exact Iff.rfl

/-- Every index of the output array is in some point's block: row `r` is in block `r / 5000`. -/
theorem cover (i : S100000x32.Idx) :
    ∃ t : Fin cfg2.N, (cfg2.win 3).flush t = true ∧ i ∈ ((cfg2.win 3).blk t).view.set := by
  have hi0 : (i 0).val < 100000 := (i 0).isLt
  have hi1 : (i 1).val < 32 := (i 1).isLt
  obtain ⟨t, ht⟩ := idx_onto ⟨(i 0).val / 5000, by omega⟩
  have ht' : win2_3.index t (0 : Fin 2) = (i 0).val / 5000 := ht
  obtain ⟨-, -, -, -, -, -, e31⟩ := idx_facts t
  refine ⟨t, flush2_3 t, ?_⟩
  rw [mem_blk]
  intro a
  match a with
  | ⟨0, _⟩ =>
    show win2_3.index t (0 : Fin 2) * 5000 ≤ (i 0).val ∧ (i 0).val < win2_3.index t (0 : Fin 2) * 5000 + 5000
    omega
  | ⟨1, _⟩ =>
    show win2_3.index t (1 : Fin 2) * 32 ≤ (i 1).val ∧ (i 1).val < win2_3.index t (1 : Fin 2) * 32 + 32
    omega

/-- After the region its output array is the dense layer of the arrays it found. -/
theorem final (c : Dev nD) : (dat2 V c).arrAt 3 cfg2.N = G V c :=
  (dat2 V c).arrAt_eq_of_cover 3 (G V c) (fun t _ => flushed_eq V c t) cover

end Cert.KernelIdeal.Reg2

end
-- ==== Proof.KReg3.lean ====
/-
  What the fourth kernel region leaves in its output array.

  The region runs over 20 grid points.  At point `t` the body is handed rows `5000 t … 5000 t + 4999` of the
  aggregate, the whole transposed weight and the whole bias, and writes back the same rows of the output.  What it
  writes is the dense layer of that block of rows; an entry of a dense layer depends on its own row of the left operand
  only, so the written block is the same block of the dense layer of the WHOLE aggregate.  The 20 blocks tile the 100000
  rows, so after the region the output array is the dense layer of the aggregate as the region found it.
-/
import proofs.«164241_j3496103379545_2_alg».proof.Proof.Gen.KernelIdeal.Frame
import proofs.«164241_j3496103379545_2_alg».proof.Proof.KPay

set_option maxRecDepth 16384

noncomputable section

namespace Cert.KernelIdeal.Reg3

open Cert.KernelIdeal Cert.KernelIdeal.Gen Cert.KernelIdeal.Pay
open Idealize.ShloMosaic Idealize.ShloMosaic.TcCoe Idealize.SL.Sem Idealize.ShloMosaic.ValueIdx Cert.Dense Cert.Net
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The printed index maps over the grid: the aggregate's window moves with the output window along the rows, the
    weight and the bias stay at the origin, and the output's row-block number is below 20. -/
theorem idx_facts : ∀ t : Fin cfg3.N,
    win3_0.index t (0 : Fin 2) = win3_3.index t (0 : Fin 2) ∧ win3_0.index t (1 : Fin 2) = 0
    ∧ win3_1.index t (0 : Fin 2) = 0 ∧ win3_1.index t (1 : Fin 2) = 0
    ∧ win3_2.index t (0 : Fin 1) = 0
    ∧ win3_3.index t (0 : Fin 2) ≤ 19 ∧ win3_3.index t (1 : Fin 2) = 0 :=
  (by decide +kernel : ∀ t : Fin grid3.N, _)

/-- Every row block is some point's. -/
theorem idx_onto : ∀ q0 : Fin 20, ∃ t : Fin cfg3.N, win3_3.index t (0 : Fin 2) = q0.val :=
  (by decide +kernel : ∀ q0 : Fin 20, ∃ t : Fin grid3.N, win3_3.index t (0 : Fin 2) = q0.val)

/-- The dense layer of the arrays the region finds. -/
abbrev G (c : Dev nD) : S100000x32.Idx → EReal :=
  layer1 (V c main_v84) (V c main_v40) (row (V c main_arg9))

/-- What point `t` writes back is block `t` of the dense layer of the whole arrays. -/
theorem flushed_eq (c : Dev nD) (t : Fin cfg3.N) :
    (dat3 V c).flushed 3 t = ((cfg3.win 3).blk t).view.read (Elt Ideal) (G V c) := by
  show (cfg3.win 3).cut (grid3.coords t) ((dat3 V c).after 3 t) = _
  rw [after3_3]
  unfold out3_3
  rw [View.canon_unit_zero hz2]
  simp only [View.ld_unit_zero (S := S5000x32) hz2, View.ld_unit_zero (S := S32x32) hz2, View.ld_unit_zero (S := S32) hz1]
  rw [pay3]
  obtain ⟨e00, e01, e10, e11, e2, e30, e31⟩ := idx_facts t
  have hw : iblk3 V c 1 t = V c main_v40 := by
    funext y
    show V c main_v40 (((cfg3.win 1).blk t).view.emb y) = V c main_v40 y
    refine congrArg _ (funext fun a => Fin.ext ?_)
    match a with
    | ⟨0, _⟩ => show win3_1.index t (0 : Fin 2) * 32 + 1 * (y 0).val = (y 0).val; omega
    | ⟨1, _⟩ => show win3_1.index t (1 : Fin 2) * 32 + 1 * (y 1).val = (y 1).val; omega
  have hb : iblk3 V c 2 t = V c main_arg9 := by
    funext y
    show V c main_arg9 (((cfg3.win 2).blk t).view.emb y) = V c main_arg9 y
    refine congrArg _ (funext fun a => Fin.ext ?_)
    match a with
    | ⟨0, _⟩ => show win3_2.index t (0 : Fin 1) * 32 + 1 * (y 0).val = (y 0).val; omega
  rw [hw, hb]
  funext j
  obtain ⟨p, q, rfl⟩ : ∃ (p : Fin 5000) (q : Fin 32), j = ix2 p q := ⟨j 0, j 1, eq_ix2 j⟩
  have hP : win3_3.index t (0 : Fin 2) * 5000 + p.val < 100000 := by have := p.isLt; omega
  have hI : ((cfg3.win 3).blk t).view.emb (ix2 p q)
      = ix2 (⟨win3_3.index t (0 : Fin 2) * 5000 + p.val, hP⟩ : Fin 100000) q := by
    funext a; apply Fin.ext
    match a with
    | ⟨0, _⟩ => show win3_3.index t (0 : Fin 2) * 5000 + 1 * p.val = win3_3.index t (0 : Fin 2) * 5000 + p.val; omega
    | ⟨1, _⟩ => show win3_3.index t (1 : Fin 2) * 32 + 1 * q.val = q.val; omega
  show layer1 (iblk3 V c 0 t) (V c main_v40) (row (V c main_arg9)) (ix2 p q)
      = G V c (((cfg3.win 3).blk t).view.emb (ix2 p q))
  rw [hI]
  refine layer1_at (V c main_v84) (iblk3 V c 0 t) (V c main_v40) (row (V c main_arg9)) ⟨_, hP⟩ p (fun k => ?_) q
  show V c main_v84 (((cfg3.win 0).blk t).view.emb (ix2 p k)) = V c main_v84 (ix2 ⟨_, hP⟩ k)
  refine congrArg _ (funext fun a => Fin.ext ?_)
  match a with
  | ⟨0, _⟩ => show win3_0.index t (0 : Fin 2) * 5000 + 1 * p.val = win3_3.index t (0 : Fin 2) * 5000 + p.val; omega
  | ⟨1, _⟩ => show win3_0.index t (1 : Fin 2) * 32 + 1 * k.val = k.val; omega

/-- An index of the output array is in point `t`'s block iff each coordinate is in the block's range. -/
theorem mem_blk (t : Fin cfg3.N) (i : S100000x32.Idx) :
    i ∈ ((cfg3.win 3).blk t).view.set ↔ ∀ a : Fin 2, win3_3.index t a * S5000x32.size a ≤ (i a).val
      ∧ (i a).val < win3_3.index t a * S5000x32.size a + S5000x32.size a := by
  show i ∈ ((View.whole main_v85).slice (win3_3.rect t)).set ↔ _
  rw [View.set_slice_whole, Rect.mem_set_unit]
  exact Iff.rfl

/-- Every index of the output array is in some point's block: row `r` is in block `r / 5000`. -/
theorem cover (i : S100000x32.Idx) :
    ∃ t : Fin cfg3.N, (cfg3.win 3).flush t = true ∧ i ∈ ((cfg3.win 3).blk t).view.set := by
  have hi0 : (i 0).val < 100000 := (i 0).isLt
  have hi1 : (i 1).val < 32 := (i 1).isLt
  obtain ⟨t, ht⟩ := idx_onto ⟨(i 0).val / 5000, by omega⟩
  have ht' : win3_3.index t (0 : Fin 2) = (i 0).val / 5000 := ht
  obtain ⟨-, -, -, -, -, -, e31⟩ := idx_facts t
  refine ⟨t, flush3_3 t, ?_⟩
  rw [mem_blk]
  intro a
  match a with
  | ⟨0, _⟩ =>
    show win3_3.index t (0 : Fin 2) * 5000 ≤ (i 0).val ∧ (i 0).val < win3_3.index t (0 : Fin 2) * 5000 + 5000
    omega
  | ⟨1, _⟩ =>
    show win3_3.index t (1 : Fin 2) * 32 ≤ (i 1).val ∧ (i 1).val < win3_3.index t (1 : Fin 2) * 32 + 32
    omega

/-- After the region its output array is the dense layer of the arrays it found. -/
theorem final (c : Dev nD) : (dat3 V c).arrAt 3 cfg3.N = G V c :=
  (dat3 V c).arrAt_eq_of_cover 3 (G V c) (fun t _ => flushed_eq V c t) cover

end Cert.KernelIdeal.Reg3

end
-- ==== Proof.KReg4.lean ====
/-
  What the last kernel region leaves in its output array.

  The region runs over 50 grid points.  At point `t` the body is handed rows `2000 t … 2000 t + 1999` of each of the
  four 32-column tables, the whole transposed weight and the whole bias, and writes back the same rows of the output.
  What it writes is the last layer of those four blocks of rows; an entry of the last layer depends on its own row of
  each table only, so the written block is the same block of the last layer of the WHOLE tables.  The 50 blocks tile the
  100000 rows, so after the region the output array is the last layer of the tables as the region found them.
-/
import proofs.«164241_j3496103379545_2_alg».proof.Proof.Gen.KernelIdeal.Frame
import proofs.«164241_j3496103379545_2_alg».proof.Proof.KPay

set_option maxRecDepth 16384

noncomputable section

namespace Cert.KernelIdeal.Reg4

open Cert.KernelIdeal Cert.KernelIdeal.Gen Cert.KernelIdeal.Pay
open Idealize.ShloMosaic Idealize.ShloMosaic.TcCoe Idealize.SL.Sem Idealize.ShloMosaic.ValueIdx Cert.Dense Cert.Net
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The printed index maps over the grid: the four table windows move with the output window along the rows, the
    weight and the bias stay at the origin, and the output's row-block number is below 50. -/
theorem idx_facts : ∀ t : Fin cfg4.N,
    win4_0.index t (0 : Fin 2) = win4_6.index t (0 : Fin 2) ∧ win4_0.index t (1 : Fin 2) = 0
    ∧ win4_1.index t (0 : Fin 2) = win4_6.index t (0 : Fin 2) ∧ win4_1.index t (1 : Fin 2) = 0
    ∧ win4_2.index t (0 : Fin 2) = win4_6.index t (0 : Fin 2) ∧ win4_2.index t (1 : Fin 2) = 0
    ∧ win4_3.index t (0 : Fin 2) = win4_6.index t (0 : Fin 2) ∧ win4_3.index t (1 : Fin 2) = 0
    ∧ win4_4.index t (0 : Fin 2) = 0 ∧ win4_4.index t (1 : Fin 2) = 0
    ∧ win4_5.index t (0 : Fin 1) = 0
    ∧ win4_6.index t (0 : Fin 2) ≤ 49 ∧ win4_6.index t (1 : Fin 2) = 0 :=
  (by decide +kernel : ∀ t : Fin grid4.N, _)

/-- Every row block is some point's. -/
theorem idx_onto : ∀ q0 : Fin 50, ∃ t : Fin cfg4.N, win4_6.index t (0 : Fin 2) = q0.val :=
  (by decide +kernel : ∀ q0 : Fin 50, ∃ t : Fin grid4.N, win4_6.index t (0 : Fin 2) = q0.val)

/-- The last layer of the arrays the region finds. -/
abbrev G (c : Dev nD) : S100000x64.Idx → EReal :=
  layer4 (rfl : 128 = 4 * 32) (V c main_v43) (V c main_v57) (V c main_v71) (V c main_v85) (V c main_v42) (row (V c main_arg11))

/-- A table window's block at point `t`, read at row `p`, is the table at row `2000 t + p`. -/
theorem blk_row (c : Dev nD) (t : Fin cfg4.N) (p : Fin 2000) (k : Fin 32)
    (hP : win4_6.index t (0 : Fin 2) * 2000 + p.val < 100000) :
    iblk4 V c 0 t (ix2 p k) = V c main_v43 (ix2 (⟨_, hP⟩ : Fin 100000) k)
    ∧ iblk4 V c 1 t (ix2 p k) = V c main_v57 (ix2 (⟨_, hP⟩ : Fin 100000) k)
    ∧ iblk4 V c 2 t (ix2 p k) = V c main_v71 (ix2 (⟨_, hP⟩ : Fin 100000) k)
    ∧ iblk4 V c 3 t (ix2 p k) = V c main_v85 (ix2 (⟨_, hP⟩ : Fin 100000) k) := by
  obtain ⟨a0, a1, b0, b1, c0', c1', d0, d1, -, -, -, -, -⟩ := idx_facts t
  refine ⟨?_, ?_, ?_, ?_⟩
  · show V c main_v43 (((cfg4.win 0).blk t).view.emb (ix2 p k)) = _
    refine congrArg _ (funext fun a => Fin.ext ?_)
    match a with
    | ⟨0, _⟩ => show win4_0.index t (0 : Fin 2) * 2000 + 1 * p.val = win4_6.index t (0 : Fin 2) * 2000 + p.val; omega
    | ⟨1, _⟩ => show win4_0.index t (1 : Fin 2) * 32 + 1 * k.val = k.val; omega
  · show V c main_v57 (((cfg4.win 1).blk t).view.emb (ix2 p k)) = _
    refine congrArg _ (funext fun a => Fin.ext ?_)
    match a with
    | ⟨0, _⟩ => show win4_1.index t (0 : Fin 2) * 2000 + 1 * p.val = win4_6.index t (0 : Fin 2) * 2000 + p.val; omega
    | ⟨1, _⟩ => show win4_1.index t (1 : Fin 2) * 32 + 1 * k.val = k.val; omega
  · show V c main_v71 (((cfg4.win 2).blk t).view.emb (ix2 p k)) = _
    refine congrArg _ (funext fun a => Fin.ext ?_)
    match a with
    | ⟨0, _⟩ => show win4_2.index t (0 : Fin 2) * 2000 + 1 * p.val = win4_6.index t (0 : Fin 2) * 2000 + p.val; omega
    | ⟨1, _⟩ => show win4_2.index t (1 : Fin 2) * 32 + 1 * k.val = k.val; omega
  · show V c main_v85 (((cfg4.win 3).blk t).view.emb (ix2 p k)) = _
    refine congrArg _ (funext fun a => Fin.ext ?_)
    match a with
    | ⟨0, _⟩ => show win4_3.index t (0 : Fin 2) * 2000 + 1 * p.val = win4_6.index t (0 : Fin 2) * 2000 + p.val; omega
    | ⟨1, _⟩ => show win4_3.index t (1 : Fin 2) * 32 + 1 * k.val = k.val; omega

/-- What point `t` writes back is block `t` of the last layer of the whole arrays. -/
theorem flushed_eq (c : Dev nD) (t : Fin cfg4.N) :
    (dat4 V c).flushed 6 t = ((cfg4.win 6).blk t).view.read (Elt Ideal) (G V c) := by
  show (cfg4.win 6).cut (grid4.coords t) ((dat4 V c).after 6 t) = _
  rw [after4_6]
  unfold out4_6
  rw [View.canon_unit_zero hz2]
  simp only [View.ld_unit_zero (S := S2000x32) hz2, View.ld_unit_zero (S := S128x64) hz2, View.ld_unit_zero (S := S64) hz1]
  rw [pay4]
  obtain ⟨-, -, -, -, -, -, -, -, e40, e41, e5, e60, e61⟩ := idx_facts t
  have hw : iblk4 V c 4 t = V c main_v42 := by
    funext y
    show V c main_v42 (((cfg4.win 4).blk t).view.emb y) = V c main_v42 y
    refine congrArg _ (funext fun a => Fin.ext ?_)
    match a with
    | ⟨0, _⟩ => show win4_4.index t (0 : Fin 2) * 128 + 1 * (y 0).val = (y 0).val; omega
    | ⟨1, _⟩ => show win4_4.index t (1 : Fin 2) * 64 + 1 * (y 1).val = (y 1).val; omega
  have hb : iblk4 V c 5 t = V c main_arg11 := by
    funext y
    show V c main_arg11 (((cfg4.win 5).blk t).view.emb y) = V c main_arg11 y
    refine congrArg _ (funext fun a => Fin.ext ?_)
    match a with
    | ⟨0, _⟩ => show win4_5.index t (0 : Fin 1) * 64 + 1 * (y 0).val = (y 0).val; omega
  rw [hw, hb]
  funext j
  obtain ⟨p, q, rfl⟩ : ∃ (p : Fin 2000) (q : Fin 64), j = ix2 p q := ⟨j 0, j 1, eq_ix2 j⟩
  have hP : win4_6.index t (0 : Fin 2) * 2000 + p.val < 100000 := by have := p.isLt; omega
  have hI : ((cfg4.win 6).blk t).view.emb (ix2 p q)
      = ix2 (⟨win4_6.index t (0 : Fin 2) * 2000 + p.val, hP⟩ : Fin 100000) q := by
    funext a; apply Fin.ext
    match a with
    | ⟨0, _⟩ => show win4_6.index t (0 : Fin 2) * 2000 + 1 * p.val = win4_6.index t (0 : Fin 2) * 2000 + p.val; omega
    | ⟨1, _⟩ => show win4_6.index t (1 : Fin 2) * 64 + 1 * q.val = q.val; omega
  show layer4 (rfl : 128 = 4 * 32) (iblk4 V c 0 t) (iblk4 V c 1 t) (iblk4 V c 2 t) (iblk4 V c 3 t) (V c main_v42)
      (row (V c main_arg11)) (ix2 p q) = G V c (((cfg4.win 6).blk t).view.emb (ix2 p q))
  rw [hI]
  exact layer4_at (rfl : 128 = 4 * 32) (V c main_v43) (V c main_v57) (V c main_v71) (V c main_v85)
    (iblk4 V c 0 t) (iblk4 V c 1 t) (iblk4 V c 2 t) (iblk4 V c 3 t) (V c main_v42) (row (V c main_arg11)) ⟨_, hP⟩ p
    (fun k => (blk_row V c t p k hP).1) (fun k => (blk_row V c t p k hP).2.1)
    (fun k => (blk_row V c t p k hP).2.2.1) (fun k => (blk_row V c t p k hP).2.2.2) q

/-- An index of the output array is in point `t`'s block iff each coordinate is in the block's range. -/
theorem mem_blk (t : Fin cfg4.N) (i : S100000x64.Idx) :
    i ∈ ((cfg4.win 6).blk t).view.set ↔ ∀ a : Fin 2, win4_6.index t a * S2000x64.size a ≤ (i a).val
      ∧ (i a).val < win4_6.index t a * S2000x64.size a + S2000x64.size a := by
  show i ∈ ((View.whole main_v86).slice (win4_6.rect t)).set ↔ _
  rw [View.set_slice_whole, Rect.mem_set_unit]
  exact Iff.rfl

/-- Every index of the output array is in some point's block: row `r` is in block `r / 2000`. -/
theorem cover (i : S100000x64.Idx) :
    ∃ t : Fin cfg4.N, (cfg4.win 6).flush t = true ∧ i ∈ ((cfg4.win 6).blk t).view.set := by
  have hi0 : (i 0).val < 100000 := (i 0).isLt
  have hi1 : (i 1).val < 64 := (i 1).isLt
  obtain ⟨t, ht⟩ := idx_onto ⟨(i 0).val / 2000, by omega⟩
  have ht' : win4_6.index t (0 : Fin 2) = (i 0).val / 2000 := ht
  obtain ⟨-, -, -, -, -, -, -, -, -, -, -, -, e61⟩ := idx_facts t
  refine ⟨t, flush4_6 t, ?_⟩
  rw [mem_blk]
  intro a
  match a with
  | ⟨0, _⟩ =>
    show win4_6.index t (0 : Fin 2) * 2000 ≤ (i 0).val ∧ (i 0).val < win4_6.index t (0 : Fin 2) * 2000 + 2000
    omega
  | ⟨1, _⟩ =>
    show win4_6.index t (1 : Fin 2) * 64 ≤ (i 1).val ∧ (i 1).val < win4_6.index t (1 : Fin 2) * 64 + 64
    omega

/-- After the region its output array is the last layer of the arrays it found. -/
theorem final (c : Dev nD) : (dat4 V c).arrAt 6 cfg4.N = G V c :=
  (dat4 V c).arrAt_eq_of_cover 6 (G V c) (fun t _ => flushed_eq V c t) cover

end Cert.KernelIdeal.Reg4

end
-- ==== Proof.KWalk.lean ====
/-
  The contents of the tables the kernel regions read, traced through @main.

  Between the launch and the return the buffers that outlive a region change only when a host operation writes its
  result or a region writes its output array.  A buffer that no operation of a stretch writes, and that is not the
  output of a region, holds after the stretch or the region what it held before.  So each table a region reads is what
  the stretch or region that made it left there: the transposed weights and the edge tables from the first stretches,
  the aggregate before each middle region from the stretch just before it, the node tables from the regions that wrote
  them; and each argument array a region reads still holds its launch contents.  The aggregation is the stretch's own
  composition of a gather, a product and a scatter-add, named `aggK` and never opened.
-/
import proofs.«164241_j3496103379545_2_alg».proof.Proof.Gen.KernelIdeal.Frame
import Idealize.ShloMosaic.PureOps.Ideal

set_option maxRecDepth 16384

noncomputable section

namespace Cert.KernelIdeal.Walk

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- A buffer that no operation of the stretch writes holds after it what it held before. -/
macro "keeps " ops:ident : tactic => `(tactic| (
  refine StableHlo.after_of_forall_not_mem _ _ (List.forall_iff_forall_mem.mp ?_)
  simp only [$ops:ident, List.flatten_cons, List.flatten_nil, List.append_nil, List.cons_append, List.nil_append, List.Forall,
    StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

/-! ## Buffers that keep their contents -/

theorem W10_v43 (c : Dev nD) : W10 m ρ c (Proc.devRef .tc main_v43) = W4 m ρ c (Proc.devRef .tc main_v43) :=
  calc W10 m ρ c (Proc.devRef .tc main_v43)
    _ = W9 m ρ c (Proc.devRef .tc main_v43) := W10_of_ne m ρ c main_v43 (by decide)
    _ = W8 m ρ c (Proc.devRef .tc main_v43) := by keeps hostOps3
    _ = W7 m ρ c (Proc.devRef .tc main_v43) := W8_of_ne m ρ c main_v43 (by decide)
    _ = W6 m ρ c (Proc.devRef .tc main_v43) := by keeps hostOps2
    _ = W5 m ρ c (Proc.devRef .tc main_v43) := W6_of_ne m ρ c main_v43 (by decide)
    _ = W4 m ρ c (Proc.devRef .tc main_v43) := by keeps hostOps1

theorem W10_v57 (c : Dev nD) : W10 m ρ c (Proc.devRef .tc main_v57) = W6 m ρ c (Proc.devRef .tc main_v57) :=
  calc W10 m ρ c (Proc.devRef .tc main_v57)
    _ = W9 m ρ c (Proc.devRef .tc main_v57) := W10_of_ne m ρ c main_v57 (by decide)
    _ = W8 m ρ c (Proc.devRef .tc main_v57) := by keeps hostOps3
    _ = W7 m ρ c (Proc.devRef .tc main_v57) := W8_of_ne m ρ c main_v57 (by decide)
    _ = W6 m ρ c (Proc.devRef .tc main_v57) := by keeps hostOps2

theorem W10_v71 (c : Dev nD) : W10 m ρ c (Proc.devRef .tc main_v71) = W8 m ρ c (Proc.devRef .tc main_v71) :=
  calc W10 m ρ c (Proc.devRef .tc main_v71)
    _ = W9 m ρ c (Proc.devRef .tc main_v71) := W10_of_ne m ρ c main_v71 (by decide)
    _ = W8 m ρ c (Proc.devRef .tc main_v71) := by keeps hostOps3

theorem W10_v42 (c : Dev nD) : W10 m ρ c (Proc.devRef .tc main_v42) = W3 m ρ c (Proc.devRef .tc main_v42) :=
  calc W10 m ρ c (Proc.devRef .tc main_v42)
    _ = W9 m ρ c (Proc.devRef .tc main_v42) := W10_of_ne m ρ c main_v42 (by decide)
    _ = W8 m ρ c (Proc.devRef .tc main_v42) := by keeps hostOps3
    _ = W7 m ρ c (Proc.devRef .tc main_v42) := W8_of_ne m ρ c main_v42 (by decide)
    _ = W6 m ρ c (Proc.devRef .tc main_v42) := by keeps hostOps2
    _ = W5 m ρ c (Proc.devRef .tc main_v42) := W6_of_ne m ρ c main_v42 (by decide)
    _ = W4 m ρ c (Proc.devRef .tc main_v42) := by keeps hostOps1
    _ = W3 m ρ c (Proc.devRef .tc main_v42) := W4_of_ne m ρ c main_v42 (by decide)

theorem W10_arg11 (c : Dev nD) : W10 m ρ c (Proc.devRef .tc main_arg11) = m ((c : Thread nD τ).loc main_arg11) :=
  calc W10 m ρ c (Proc.devRef .tc main_arg11)
    _ = W9 m ρ c (Proc.devRef .tc main_arg11) := W10_of_ne m ρ c main_arg11 (by decide)
    _ = W8 m ρ c (Proc.devRef .tc main_arg11) := by keeps hostOps3
    _ = W7 m ρ c (Proc.devRef .tc main_arg11) := W8_of_ne m ρ c main_arg11 (by decide)
    _ = W6 m ρ c (Proc.devRef .tc main_arg11) := by keeps hostOps2
    _ = W5 m ρ c (Proc.devRef .tc main_arg11) := W6_of_ne m ρ c main_arg11 (by decide)
    _ = W4 m ρ c (Proc.devRef .tc main_arg11) := by keeps hostOps1
    _ = W3 m ρ c (Proc.devRef .tc main_arg11) := W4_of_ne m ρ c main_arg11 (by decide)
    _ = W2 m ρ c (Proc.devRef .tc main_arg11) := by keeps hostOps0_2
    _ = W1 m ρ c (Proc.devRef .tc main_arg11) := by keeps hostOps0_1
    _ = W0 m ρ c (Proc.devRef .tc main_arg11) := by keeps hostOps0
    _ = m ((c : Thread nD τ).loc main_arg11) := rfl

theorem W9_v40 (c : Dev nD) : W9 m ρ c (Proc.devRef .tc main_v40) = W3 m ρ c (Proc.devRef .tc main_v40) :=
  calc W9 m ρ c (Proc.devRef .tc main_v40)
    _ = W8 m ρ c (Proc.devRef .tc main_v40) := by keeps hostOps3
    _ = W7 m ρ c (Proc.devRef .tc main_v40) := W8_of_ne m ρ c main_v40 (by decide)
    _ = W6 m ρ c (Proc.devRef .tc main_v40) := by keeps hostOps2
    _ = W5 m ρ c (Proc.devRef .tc main_v40) := W6_of_ne m ρ c main_v40 (by decide)
    _ = W4 m ρ c (Proc.devRef .tc main_v40) := by keeps hostOps1
    _ = W3 m ρ c (Proc.devRef .tc main_v40) := W4_of_ne m ρ c main_v40 (by decide)

theorem W9_arg9 (c : Dev nD) : W9 m ρ c (Proc.devRef .tc main_arg9) = m ((c : Thread nD τ).loc main_arg9) :=
  calc W9 m ρ c (Proc.devRef .tc main_arg9)
    _ = W8 m ρ c (Proc.devRef .tc main_arg9) := by keeps hostOps3
    _ = W7 m ρ c (Proc.devRef .tc main_arg9) := W8_of_ne m ρ c main_arg9 (by decide)
    _ = W6 m ρ c (Proc.devRef .tc main_arg9) := by keeps hostOps2
    _ = W5 m ρ c (Proc.devRef .tc main_arg9) := W6_of_ne m ρ c main_arg9 (by decide)
    _ = W4 m ρ c (Proc.devRef .tc main_arg9) := by keeps hostOps1
    _ = W3 m ρ c (Proc.devRef .tc main_arg9) := W4_of_ne m ρ c main_arg9 (by decide)
    _ = W2 m ρ c (Proc.devRef .tc main_arg9) := by keeps hostOps0_2
    _ = W1 m ρ c (Proc.devRef .tc main_arg9) := by keeps hostOps0_1
    _ = W0 m ρ c (Proc.devRef .tc main_arg9) := by keeps hostOps0
    _ = m ((c : Thread nD τ).loc main_arg9) := rfl

theorem W8_v3 (c : Dev nD) : W8 m ρ c (Proc.devRef .tc main_v3) = W3 m ρ c (Proc.devRef .tc main_v3) :=
  calc W8 m ρ c (Proc.devRef .tc main_v3)
    _ = W7 m ρ c (Proc.devRef .tc main_v3) := W8_of_ne m ρ c main_v3 (by decide)
    _ = W6 m ρ c (Proc.devRef .tc main_v3) := by keeps hostOps2
    _ = W5 m ρ c (Proc.devRef .tc main_v3) := W6_of_ne m ρ c main_v3 (by decide)
    _ = W4 m ρ c (Proc.devRef .tc main_v3) := by keeps hostOps1
    _ = W3 m ρ c (Proc.devRef .tc main_v3) := W4_of_ne m ρ c main_v3 (by decide)

theorem W8_v7 (c : Dev nD) : W8 m ρ c (Proc.devRef .tc main_v7) = W3 m ρ c (Proc.devRef .tc main_v7) :=
  calc W8 m ρ c (Proc.devRef .tc main_v7)
    _ = W7 m ρ c (Proc.devRef .tc main_v7) := W8_of_ne m ρ c main_v7 (by decide)
    _ = W6 m ρ c (Proc.devRef .tc main_v7) := by keeps hostOps2
    _ = W5 m ρ c (Proc.devRef .tc main_v7) := W6_of_ne m ρ c main_v7 (by decide)
    _ = W4 m ρ c (Proc.devRef .tc main_v7) := by keeps hostOps1
    _ = W3 m ρ c (Proc.devRef .tc main_v7) := W4_of_ne m ρ c main_v7 (by decide)

theorem W8_v32 (c : Dev nD) : W8 m ρ c (Proc.devRef .tc main_v32) = W3 m ρ c (Proc.devRef .tc main_v32) :=
  calc W8 m ρ c (Proc.devRef .tc main_v32)
    _ = W7 m ρ c (Proc.devRef .tc main_v32) := W8_of_ne m ρ c main_v32 (by decide)
    _ = W6 m ρ c (Proc.devRef .tc main_v32) := by keeps hostOps2
    _ = W5 m ρ c (Proc.devRef .tc main_v32) := W6_of_ne m ρ c main_v32 (by decide)
    _ = W4 m ρ c (Proc.devRef .tc main_v32) := by keeps hostOps1
    _ = W3 m ρ c (Proc.devRef .tc main_v32) := W4_of_ne m ρ c main_v32 (by decide)

theorem W7_v38 (c : Dev nD) : W7 m ρ c (Proc.devRef .tc main_v38) = W3 m ρ c (Proc.devRef .tc main_v38) :=
  calc W7 m ρ c (Proc.devRef .tc main_v38)
    _ = W6 m ρ c (Proc.devRef .tc main_v38) := by keeps hostOps2
    _ = W5 m ρ c (Proc.devRef .tc main_v38) := W6_of_ne m ρ c main_v38 (by decide)
    _ = W4 m ρ c (Proc.devRef .tc main_v38) := by keeps hostOps1
    _ = W3 m ρ c (Proc.devRef .tc main_v38) := W4_of_ne m ρ c main_v38 (by decide)

theorem W7_arg7 (c : Dev nD) : W7 m ρ c (Proc.devRef .tc main_arg7) = m ((c : Thread nD τ).loc main_arg7) :=
  calc W7 m ρ c (Proc.devRef .tc main_arg7)
    _ = W6 m ρ c (Proc.devRef .tc main_arg7) := by keeps hostOps2
    _ = W5 m ρ c (Proc.devRef .tc main_arg7) := W6_of_ne m ρ c main_arg7 (by decide)
    _ = W4 m ρ c (Proc.devRef .tc main_arg7) := by keeps hostOps1
    _ = W3 m ρ c (Proc.devRef .tc main_arg7) := W4_of_ne m ρ c main_arg7 (by decide)
    _ = W2 m ρ c (Proc.devRef .tc main_arg7) := by keeps hostOps0_2
    _ = W1 m ρ c (Proc.devRef .tc main_arg7) := by keeps hostOps0_1
    _ = W0 m ρ c (Proc.devRef .tc main_arg7) := by keeps hostOps0
    _ = m ((c : Thread nD τ).loc main_arg7) := rfl

theorem W6_v3 (c : Dev nD) : W6 m ρ c (Proc.devRef .tc main_v3) = W3 m ρ c (Proc.devRef .tc main_v3) :=
  calc W6 m ρ c (Proc.devRef .tc main_v3)
    _ = W5 m ρ c (Proc.devRef .tc main_v3) := W6_of_ne m ρ c main_v3 (by decide)
    _ = W4 m ρ c (Proc.devRef .tc main_v3) := by keeps hostOps1
    _ = W3 m ρ c (Proc.devRef .tc main_v3) := W4_of_ne m ρ c main_v3 (by decide)

theorem W6_v7 (c : Dev nD) : W6 m ρ c (Proc.devRef .tc main_v7) = W3 m ρ c (Proc.devRef .tc main_v7) :=
  calc W6 m ρ c (Proc.devRef .tc main_v7)
    _ = W5 m ρ c (Proc.devRef .tc main_v7) := W6_of_ne m ρ c main_v7 (by decide)
    _ = W4 m ρ c (Proc.devRef .tc main_v7) := by keeps hostOps1
    _ = W3 m ρ c (Proc.devRef .tc main_v7) := W4_of_ne m ρ c main_v7 (by decide)

theorem W6_v32 (c : Dev nD) : W6 m ρ c (Proc.devRef .tc main_v32) = W3 m ρ c (Proc.devRef .tc main_v32) :=
  calc W6 m ρ c (Proc.devRef .tc main_v32)
    _ = W5 m ρ c (Proc.devRef .tc main_v32) := W6_of_ne m ρ c main_v32 (by decide)
    _ = W4 m ρ c (Proc.devRef .tc main_v32) := by keeps hostOps1
    _ = W3 m ρ c (Proc.devRef .tc main_v32) := W4_of_ne m ρ c main_v32 (by decide)

theorem W5_v36 (c : Dev nD) : W5 m ρ c (Proc.devRef .tc main_v36) = W3 m ρ c (Proc.devRef .tc main_v36) :=
  calc W5 m ρ c (Proc.devRef .tc main_v36)
    _ = W4 m ρ c (Proc.devRef .tc main_v36) := by keeps hostOps1
    _ = W3 m ρ c (Proc.devRef .tc main_v36) := W4_of_ne m ρ c main_v36 (by decide)

theorem W5_arg5 (c : Dev nD) : W5 m ρ c (Proc.devRef .tc main_arg5) = m ((c : Thread nD τ).loc main_arg5) :=
  calc W5 m ρ c (Proc.devRef .tc main_arg5)
    _ = W4 m ρ c (Proc.devRef .tc main_arg5) := by keeps hostOps1
    _ = W3 m ρ c (Proc.devRef .tc main_arg5) := W4_of_ne m ρ c main_arg5 (by decide)
    _ = W2 m ρ c (Proc.devRef .tc main_arg5) := by keeps hostOps0_2
    _ = W1 m ρ c (Proc.devRef .tc main_arg5) := by keeps hostOps0_1
    _ = W0 m ρ c (Proc.devRef .tc main_arg5) := by keeps hostOps0
    _ = m ((c : Thread nD τ).loc main_arg5) := rfl

theorem W4_v3 (c : Dev nD) : W4 m ρ c (Proc.devRef .tc main_v3) = W3 m ρ c (Proc.devRef .tc main_v3) :=
  calc W4 m ρ c (Proc.devRef .tc main_v3)
    _ = W3 m ρ c (Proc.devRef .tc main_v3) := W4_of_ne m ρ c main_v3 (by decide)

theorem W4_v7 (c : Dev nD) : W4 m ρ c (Proc.devRef .tc main_v7) = W3 m ρ c (Proc.devRef .tc main_v7) :=
  calc W4 m ρ c (Proc.devRef .tc main_v7)
    _ = W3 m ρ c (Proc.devRef .tc main_v7) := W4_of_ne m ρ c main_v7 (by decide)

theorem W4_v32 (c : Dev nD) : W4 m ρ c (Proc.devRef .tc main_v32) = W3 m ρ c (Proc.devRef .tc main_v32) :=
  calc W4 m ρ c (Proc.devRef .tc main_v32)
    _ = W3 m ρ c (Proc.devRef .tc main_v32) := W4_of_ne m ρ c main_v32 (by decide)

theorem W3_arg0 (c : Dev nD) : W3 m ρ c (Proc.devRef .tc main_arg0) = m ((c : Thread nD τ).loc main_arg0) :=
  calc W3 m ρ c (Proc.devRef .tc main_arg0)
    _ = W2 m ρ c (Proc.devRef .tc main_arg0) := by keeps hostOps0_2
    _ = W1 m ρ c (Proc.devRef .tc main_arg0) := by keeps hostOps0_1
    _ = W0 m ρ c (Proc.devRef .tc main_arg0) := by keeps hostOps0
    _ = m ((c : Thread nD τ).loc main_arg0) := rfl

theorem W3_arg3 (c : Dev nD) : W3 m ρ c (Proc.devRef .tc main_arg3) = m ((c : Thread nD τ).loc main_arg3) :=
  calc W3 m ρ c (Proc.devRef .tc main_arg3)
    _ = W2 m ρ c (Proc.devRef .tc main_arg3) := by keeps hostOps0_2
    _ = W1 m ρ c (Proc.devRef .tc main_arg3) := by keeps hostOps0_1
    _ = W0 m ρ c (Proc.devRef .tc main_arg3) := by keeps hostOps0
    _ = m ((c : Thread nD τ).loc main_arg3) := rfl

theorem W2_arg2 (c : Dev nD) : W2 m ρ c (Proc.devRef .tc main_arg2) = m ((c : Thread nD τ).loc main_arg2) :=
  calc W2 m ρ c (Proc.devRef .tc main_arg2)
    _ = W1 m ρ c (Proc.devRef .tc main_arg2) := by keeps hostOps0_1
    _ = W0 m ρ c (Proc.devRef .tc main_arg2) := by keeps hostOps0
    _ = m ((c : Thread nD τ).loc main_arg2) := rfl

theorem W2_arg4 (c : Dev nD) : W2 m ρ c (Proc.devRef .tc main_arg4) = m ((c : Thread nD τ).loc main_arg4) :=
  calc W2 m ρ c (Proc.devRef .tc main_arg4)
    _ = W1 m ρ c (Proc.devRef .tc main_arg4) := by keeps hostOps0_1
    _ = W0 m ρ c (Proc.devRef .tc main_arg4) := by keeps hostOps0
    _ = m ((c : Thread nD τ).loc main_arg4) := rfl

theorem W2_arg6 (c : Dev nD) : W2 m ρ c (Proc.devRef .tc main_arg6) = m ((c : Thread nD τ).loc main_arg6) :=
  calc W2 m ρ c (Proc.devRef .tc main_arg6)
    _ = W1 m ρ c (Proc.devRef .tc main_arg6) := by keeps hostOps0_1
    _ = W0 m ρ c (Proc.devRef .tc main_arg6) := by keeps hostOps0
    _ = m ((c : Thread nD τ).loc main_arg6) := rfl

theorem W2_arg8 (c : Dev nD) : W2 m ρ c (Proc.devRef .tc main_arg8) = m ((c : Thread nD τ).loc main_arg8) :=
  calc W2 m ρ c (Proc.devRef .tc main_arg8)
    _ = W1 m ρ c (Proc.devRef .tc main_arg8) := by keeps hostOps0_1
    _ = W0 m ρ c (Proc.devRef .tc main_arg8) := by keeps hostOps0
    _ = m ((c : Thread nD τ).loc main_arg8) := rfl

theorem W2_arg10 (c : Dev nD) : W2 m ρ c (Proc.devRef .tc main_arg10) = m ((c : Thread nD τ).loc main_arg10) :=
  calc W2 m ρ c (Proc.devRef .tc main_arg10)
    _ = W1 m ρ c (Proc.devRef .tc main_arg10) := by keeps hostOps0_1
    _ = W0 m ρ c (Proc.devRef .tc main_arg10) := by keeps hostOps0
    _ = m ((c : Thread nD τ).loc main_arg10) := rfl

/-! ## What the stretches compute -/

/-- The aggregation as the stretches before the middle regions spell it: the node table's rows gathered at the
    wrapped row entries, each times the edge's norm, scatter-added into a zero table at the column entries. -/
def aggK (row col : (⟨S3300000, .i32⟩ : BufTy).Contents (Elt Ideal)) (nrm : (⟨S3300000, .f32⟩ : BufTy).Contents (Elt Ideal))
    (X : (⟨S100000x32, .f32⟩ : BufTy).Contents (Elt Ideal)) : (⟨S100000x32, .f32⟩ : BufTy).Contents (Elt Ideal) :=
  Host.scatterAdd (F := Ideal) scatter_S100000x32_S3300000x1_S3300000x32_1_0_0_1
    (broadcastInDim S100000x32 ![] bcast_S_S100000x32 (constant (F := Ideal) S_ .f32 0x00000000#32))
    (broadcastInDim S3300000x1 ![0] bcast_S3300000_S3300000x1_0 col)
    (mulf (Host.gather gather_S100000x32_S3300000x1_S3300000x32_1_0_n_n_0_1_132 X
        (broadcastInDim S3300000x1 ![0] bcast_S3300000_S3300000x1_0
          (select (cmpi .slt row (broadcastInDim S3300000 ![] bcast_S_S3300000 (constantI S_ 32 0#32)))
            (addi row (broadcastInDim S3300000 ![] bcast_S_S3300000 (constantI S_ 32 100000#32))) row)))
      (broadcastInDim S3300000x32 ![0, 1] bcast_S3300000x1_S3300000x32_0_1
        (broadcastInDim S3300000x1 ![0] bcast_S3300000_S3300000x1_0 nrm)))

set_option maxHeartbeats 2000000 in
/-- What a stretch before a middle region leaves in its last buffer, from any contents `V`: the aggregate of the node
    table it reads over the three edge tables. -/
theorem after1_v56 (V : Valuation τ sig (Elt Ideal)) : StableHlo.after hostOps1 V (Proc.devRef .tc main_v56)
    = aggK (V (Proc.devRef .tc main_v3)) (V (Proc.devRef .tc main_v7)) (V (Proc.devRef .tc main_v32)) (V (Proc.devRef .tc main_v43)) := by
  after_results_simp
  rfl
set_option maxHeartbeats 2000000 in
theorem after2_v70 (V : Valuation τ sig (Elt Ideal)) : StableHlo.after hostOps2 V (Proc.devRef .tc main_v70)
    = aggK (V (Proc.devRef .tc main_v3)) (V (Proc.devRef .tc main_v7)) (V (Proc.devRef .tc main_v32)) (V (Proc.devRef .tc main_v57)) := by
  after_results_simp
  rfl
set_option maxHeartbeats 2000000 in
theorem after3_v84 (V : Valuation τ sig (Elt Ideal)) : StableHlo.after hostOps3 V (Proc.devRef .tc main_v84)
    = aggK (V (Proc.devRef .tc main_v3)) (V (Proc.devRef .tc main_v7)) (V (Proc.devRef .tc main_v32)) (V (Proc.devRef .tc main_v71)) := by
  after_results_simp
  rfl

/-- The aggregate the second region reads. -/
theorem W5_v56 (c : Dev nD) : W5 m ρ c (Proc.devRef .tc main_v56)
    = aggK (W4 m ρ c (Proc.devRef .tc main_v3)) (W4 m ρ c (Proc.devRef .tc main_v7))
        (W4 m ρ c (Proc.devRef .tc main_v32)) (W4 m ρ c (Proc.devRef .tc main_v43)) := after1_v56 (W4 m ρ c)

/-- The aggregate the third region reads. -/
theorem W7_v70 (c : Dev nD) : W7 m ρ c (Proc.devRef .tc main_v70)
    = aggK (W6 m ρ c (Proc.devRef .tc main_v3)) (W6 m ρ c (Proc.devRef .tc main_v7))
        (W6 m ρ c (Proc.devRef .tc main_v32)) (W6 m ρ c (Proc.devRef .tc main_v57)) := after2_v70 (W6 m ρ c)

/-- The aggregate the fourth region reads. -/
theorem W9_v84 (c : Dev nD) : W9 m ρ c (Proc.devRef .tc main_v84)
    = aggK (W8 m ρ c (Proc.devRef .tc main_v3)) (W8 m ρ c (Proc.devRef .tc main_v7))
        (W8 m ρ c (Proc.devRef .tc main_v32)) (W8 m ρ c (Proc.devRef .tc main_v71)) := after3_v84 (W8 m ρ c)

/-- The transposed weights the third stretch leaves, from any contents `V`: each a transpose of its argument. -/
theorem after02_v34 (V : Valuation τ sig (Elt Ideal)) : StableHlo.after hostOps0_2 V (Proc.devRef .tc main_v34)
    = truncf (F := Ideal) .bf16 (transpose S128x32 [1, 0] (V (Proc.devRef .tc main_arg2)) transposes_S32x128_S128x32_1_0) bitsLt_bf16_f32 := by
  after_results
theorem after02_v36 (V : Valuation τ sig (Elt Ideal)) : StableHlo.after hostOps0_2 V (Proc.devRef .tc main_v36)
    = truncf (F := Ideal) .bf16 (transpose S32x32 [1, 0] (V (Proc.devRef .tc main_arg4)) transposes_S32x32_S32x32_1_0) bitsLt_bf16_f32 := by
  after_results
theorem after02_v38 (V : Valuation τ sig (Elt Ideal)) : StableHlo.after hostOps0_2 V (Proc.devRef .tc main_v38)
    = truncf (F := Ideal) .bf16 (transpose S32x32 [1, 0] (V (Proc.devRef .tc main_arg6)) transposes_S32x32_S32x32_1_0) bitsLt_bf16_f32 := by
  after_results
theorem after02_v40 (V : Valuation τ sig (Elt Ideal)) : StableHlo.after hostOps0_2 V (Proc.devRef .tc main_v40)
    = truncf (F := Ideal) .bf16 (transpose S32x32 [1, 0] (V (Proc.devRef .tc main_arg8)) transposes_S32x32_S32x32_1_0) bitsLt_bf16_f32 := by
  after_results
theorem after02_v42 (V : Valuation τ sig (Elt Ideal)) : StableHlo.after hostOps0_2 V (Proc.devRef .tc main_v42)
    = truncf (F := Ideal) .bf16 (transpose S128x64 [1, 0] (V (Proc.devRef .tc main_arg10)) transposes_S64x128_S128x64_1_0) bitsLt_bf16_f32 := by
  after_results

theorem W3_v34 (c : Dev nD) : W3 m ρ c (Proc.devRef .tc main_v34)
    = truncf (F := Ideal) .bf16 (transpose S128x32 [1, 0] (W2 m ρ c (Proc.devRef .tc main_arg2)) transposes_S32x128_S128x32_1_0) bitsLt_bf16_f32 :=
  after02_v34 (W2 m ρ c)
theorem W3_v36 (c : Dev nD) : W3 m ρ c (Proc.devRef .tc main_v36)
    = truncf (F := Ideal) .bf16 (transpose S32x32 [1, 0] (W2 m ρ c (Proc.devRef .tc main_arg4)) transposes_S32x32_S32x32_1_0) bitsLt_bf16_f32 :=
  after02_v36 (W2 m ρ c)
theorem W3_v38 (c : Dev nD) : W3 m ρ c (Proc.devRef .tc main_v38)
    = truncf (F := Ideal) .bf16 (transpose S32x32 [1, 0] (W2 m ρ c (Proc.devRef .tc main_arg6)) transposes_S32x32_S32x32_1_0) bitsLt_bf16_f32 :=
  after02_v38 (W2 m ρ c)
theorem W3_v40 (c : Dev nD) : W3 m ρ c (Proc.devRef .tc main_v40)
    = truncf (F := Ideal) .bf16 (transpose S32x32 [1, 0] (W2 m ρ c (Proc.devRef .tc main_arg8)) transposes_S32x32_S32x32_1_0) bitsLt_bf16_f32 :=
  after02_v40 (W2 m ρ c)
theorem W3_v42 (c : Dev nD) : W3 m ρ c (Proc.devRef .tc main_v42)
    = truncf (F := Ideal) .bf16 (transpose S128x64 [1, 0] (W2 m ρ c (Proc.devRef .tc main_arg10)) transposes_S64x128_S128x64_1_0) bitsLt_bf16_f32 :=
  after02_v42 (W2 m ρ c)

end Cert.KernelIdeal.Walk

end
-- ==== Proof.KValue.lean ====
/-
  The idealized kernel's result as one function of its arguments.

  Region by region: the first region leaves the first node table, the first layer of the features with the transposed
  first weight; the stretch after it leaves the aggregate of that table; the second region leaves the dense layer of the
  aggregate; and so on to the fourth table.  The last region reads the four tables, each still as the region that wrote
  it left it, and leaves the last layer of them.  Each weight a region reads is the transpose of an argument array, which
  no stretch and no region has changed since the launch; the edge tables every aggregation reads are the ones the third
  stretch left.  Put together, the result buffer after the run is `Cert.Net.net` of the argument arrays over the
  kernel's own aggregation.
-/
import proofs.«164241_j3496103379545_2_alg».proof.Proof.KReg0
import proofs.«164241_j3496103379545_2_alg».proof.Proof.KReg1
import proofs.«164241_j3496103379545_2_alg».proof.Proof.KReg2
import proofs.«164241_j3496103379545_2_alg».proof.Proof.KReg3
import proofs.«164241_j3496103379545_2_alg».proof.Proof.KReg4
import proofs.«164241_j3496103379545_2_alg».proof.Proof.KWalk

set_option maxRecDepth 16384

noncomputable section

namespace Cert.KernelIdeal.Out

open Cert.KernelIdeal Cert.KernelIdeal.Gen Cert.KernelIdeal.Walk
open Idealize.ShloMosaic Idealize.ShloMosaic.TcCoe Idealize.SL.Sem Idealize.ShloMosaic.ValueIdx Cert.Dense Cert.Net

variable (m : (ℓ : Loc nD τ sig) → Buf (Elt Ideal) ℓ) (ρ : Dev nD → PrngReg)

/-- The transposed weights, of the launch contents of the weight arguments. -/
def T1 (c : Dev nD) : S128x32.Idx → EReal :=
  truncf (F := Ideal) .bf16 (transpose S128x32 [1, 0] (m ((c : Thread nD τ).loc main_arg2)) transposes_S32x128_S128x32_1_0) bitsLt_bf16_f32
def T2 (c : Dev nD) : S32x32.Idx → EReal :=
  truncf (F := Ideal) .bf16 (transpose S32x32 [1, 0] (m ((c : Thread nD τ).loc main_arg4)) transposes_S32x32_S32x32_1_0) bitsLt_bf16_f32
def T3 (c : Dev nD) : S32x32.Idx → EReal :=
  truncf (F := Ideal) .bf16 (transpose S32x32 [1, 0] (m ((c : Thread nD τ).loc main_arg6)) transposes_S32x32_S32x32_1_0) bitsLt_bf16_f32
def T4 (c : Dev nD) : S32x32.Idx → EReal :=
  truncf (F := Ideal) .bf16 (transpose S32x32 [1, 0] (m ((c : Thread nD τ).loc main_arg8)) transposes_S32x32_S32x32_1_0) bitsLt_bf16_f32
def T5 (c : Dev nD) : S128x64.Idx → EReal :=
  truncf (F := Ideal) .bf16 (transpose S128x64 [1, 0] (m ((c : Thread nD τ).loc main_arg10)) transposes_S64x128_S128x64_1_0) bitsLt_bf16_f32

/-- The kernel's aggregation over the edge tables the third stretch leaves. -/
def agg (c : Dev nD) (X : S100000x32.Idx → EReal) : S100000x32.Idx → EReal :=
  aggK (W3 m ρ c (Proc.devRef .tc main_v3)) (W3 m ρ c (Proc.devRef .tc main_v7)) (W3 m ρ c (Proc.devRef .tc main_v32)) X

/-- The four node tables. -/
def X0 (c : Dev nD) : S100000x32.Idx → EReal :=
  layer0 (m ((c : Thread nD τ).loc main_arg0)) (T1 m c) (row (m ((c : Thread nD τ).loc main_arg3)))
def X1 (c : Dev nD) : S100000x32.Idx → EReal :=
  layer1 (agg m ρ c (X0 m c)) (T2 m c) (row (m ((c : Thread nD τ).loc main_arg5)))
def X2 (c : Dev nD) : S100000x32.Idx → EReal :=
  layer1 (agg m ρ c (X1 m ρ c)) (T3 m c) (row (m ((c : Thread nD τ).loc main_arg7)))
def X3 (c : Dev nD) : S100000x32.Idx → EReal :=
  layer1 (agg m ρ c (X2 m ρ c)) (T4 m c) (row (m ((c : Thread nD τ).loc main_arg9)))

/-- The first region leaves the first table. -/
theorem t_X0 (c : Dev nD) : V4 m ρ c main_v43 = X0 m c := by
  refine (W4_arr m ρ c 3).trans ((Reg0.final (V3 m ρ) c).trans ?_)
  show layer0 (V3 m ρ c main_arg0) (V3 m ρ c main_v34) (row (V3 m ρ c main_arg3)) = _
  rw [show V3 m ρ c main_arg0 = m ((c : Thread nD τ).loc main_arg0) from W3_arg0 m ρ c,
    show V3 m ρ c main_arg3 = m ((c : Thread nD τ).loc main_arg3) from W3_arg3 m ρ c,
    show V3 m ρ c main_v34 = T1 m c from (W3_v34 m ρ c).trans (by rw [W2_arg2]; rfl)]
  rfl

/-- The stretch after it leaves that table's aggregate. -/
theorem t_A1 (c : Dev nD) : V5 m ρ c main_v56 = agg m ρ c (X0 m c) := by
  refine (W5_v56 m ρ c).trans ?_
  rw [W4_v3 m ρ c, W4_v7 m ρ c, W4_v32 m ρ c]
  exact congrArg (aggK _ _ _) (t_X0 m ρ c)

/-- The second region leaves the second table. -/
theorem t_X1 (c : Dev nD) : V6 m ρ c main_v57 = X1 m ρ c := by
  refine (W6_arr m ρ c 3).trans ((Reg1.final (V5 m ρ) c).trans ?_)
  show layer1 (V5 m ρ c main_v56) (V5 m ρ c main_v36) (row (V5 m ρ c main_arg5)) = _
  rw [t_A1 m ρ c,
    show V5 m ρ c main_v36 = T2 m c from (W5_v36 m ρ c).trans ((W3_v36 m ρ c).trans (by rw [W2_arg4]; rfl)),
    show V5 m ρ c main_arg5 = m ((c : Thread nD τ).loc main_arg5) from W5_arg5 m ρ c]
  rfl

theorem t_A2 (c : Dev nD) : V7 m ρ c main_v70 = agg m ρ c (X1 m ρ c) := by
  refine (W7_v70 m ρ c).trans ?_
  rw [W6_v3 m ρ c, W6_v7 m ρ c, W6_v32 m ρ c]
  exact congrArg (aggK _ _ _) (t_X1 m ρ c)

/-- The third region leaves the third table. -/
theorem t_X2 (c : Dev nD) : V8 m ρ c main_v71 = X2 m ρ c := by
  refine (W8_arr m ρ c 3).trans ((Reg2.final (V7 m ρ) c).trans ?_)
  show layer1 (V7 m ρ c main_v70) (V7 m ρ c main_v38) (row (V7 m ρ c main_arg7)) = _
  rw [t_A2 m ρ c,
    show V7 m ρ c main_v38 = T3 m c from (W7_v38 m ρ c).trans ((W3_v38 m ρ c).trans (by rw [W2_arg6]; rfl)),
    show V7 m ρ c main_arg7 = m ((c : Thread nD τ).loc main_arg7) from W7_arg7 m ρ c]
  rfl

theorem t_A3 (c : Dev nD) : V9 m ρ c main_v84 = agg m ρ c (X2 m ρ c) := by
  refine (W9_v84 m ρ c).trans ?_
  rw [W8_v3 m ρ c, W8_v7 m ρ c, W8_v32 m ρ c]
  exact congrArg (aggK _ _ _) (t_X2 m ρ c)

/-- The fourth region leaves the fourth table. -/
theorem t_X3 (c : Dev nD) : V10 m ρ c main_v85 = X3 m ρ c := by
  refine (W10_arr m ρ c 3).trans ((Reg3.final (V9 m ρ) c).trans ?_)
  show layer1 (V9 m ρ c main_v84) (V9 m ρ c main_v40) (row (V9 m ρ c main_arg9)) = _
  rw [t_A3 m ρ c,
    show V9 m ρ c main_v40 = T4 m c from (W9_v40 m ρ c).trans ((W3_v40 m ρ c).trans (by rw [W2_arg8]; rfl)),
    show V9 m ρ c main_arg9 = m ((c : Thread nD τ).loc main_arg9) from W9_arg9 m ρ c]
  rfl

/-- The result buffer after the run is the network of the argument arrays over the kernel's aggregation. -/
theorem value (c : Dev nD) : W11 m ρ c (Proc.devRef .tc main_v86)
    = net (agg m ρ c) (m ((c : Thread nD τ).loc main_arg0)) (T1 m c) (row (m ((c : Thread nD τ).loc main_arg3)))
        (T2 m c) (row (m ((c : Thread nD τ).loc main_arg5))) (T3 m c) (row (m ((c : Thread nD τ).loc main_arg7)))
        (T4 m c) (row (m ((c : Thread nD τ).loc main_arg9))) (T5 m c) (row (m ((c : Thread nD τ).loc main_arg11))) := by
  refine (W11_arr m ρ c 6).trans ((Reg4.final (V10 m ρ) c).trans ?_)
  show layer4 (rfl : 128 = 4 * 32) (V10 m ρ c main_v43) (V10 m ρ c main_v57) (V10 m ρ c main_v71) (V10 m ρ c main_v85)
      (V10 m ρ c main_v42) (row (V10 m ρ c main_arg11)) = _
  rw [show V10 m ρ c main_v43 = X0 m c from (W10_v43 m ρ c).trans (t_X0 m ρ c),
    show V10 m ρ c main_v57 = X1 m ρ c from (W10_v57 m ρ c).trans (t_X1 m ρ c),
    show V10 m ρ c main_v71 = X2 m ρ c from (W10_v71 m ρ c).trans (t_X2 m ρ c),
    t_X3 m ρ c,
    show V10 m ρ c main_v42 = T5 m c from (W10_v42 m ρ c).trans ((W3_v42 m ρ c).trans (by rw [W2_arg10]; rfl)),
    show V10 m ρ c main_arg11 = m ((c : Thread nD τ).loc main_arg11) from W10_arg11 m ρ c]
  rfl

end Cert.KernelIdeal.Out

end
-- ==== Proof.KEdge.lean ====
/-
  The edge tables the kernel's aggregation reads are the reference's.

  Both programs build the same three edge tables before anything else: the row and column tables (each an edge row of
  the integer argument followed by the node numbers, for the self loops) and the norm of every edge (the product of the
  two end points' inverse square-root degrees, the degree a scatter-add of ones).  The kernel's first three stretches
  of host operations are, operation by operation, the reference's first operations, so the tables they leave are the
  reference's stages of the same integer argument.  Nothing is computed here: both sides are the same composition of the
  same host operations, read one stretch at a time.
-/
import proofs.«164241_j3496103379545_2_alg».proof.Proof.Gen.KernelIdeal.Frame
import proofs.«164241_j3496103379545_2_alg».proof.Proof.RefDefs
import proofs.«164241_j3496103379545_2_alg».proof.Proof.KWalk
import proofs.«164241_j3496103379545_2_alg».proof.Proof.LibTypedRef
import proofs.«164241_j3496103379545_2_alg».proof.Proof.TypedCast

set_option maxRecDepth 16384

noncomputable section

namespace Cert.KernelIdeal.Edge

open Cert.KernelIdeal Cert.KernelIdeal.Gen Cert.KernelIdeal.Walk
open Idealize.ShloMosaic Idealize.ShloMosaic.TcCoe Idealize.SL.Sem
open Cert.ReferenceIdeal.Stage (val_main_v3 val_main_v7 val_main_v13 val_main_v16 val_main_cst_3 val_main_v17 val_main_v32)

variable (m : (ℓ : Loc nD τ sig) → Buf (Elt Ideal) ℓ) (ρ : Dev nD → PrngReg)

/-! ## A value moved to the called function's buffer, or back, is the value -/

theorem toBuf_cst_3 (v : (⟨S_, .f32⟩ : BufTy).Contents (Elt Ideal)) : (StableHlo.TRef.of (T := ⟨S_, .f32⟩) main_cst_3).toBuf v = v :=
  eq_of_heq (Cert.TypedCast.toBuf_heq _ _)
theorem ofBuf_cst_3 (v : (⟨S_, .f32⟩ : BufTy).Contents (Elt Ideal)) : (StableHlo.TRef.of (T := ⟨S_, .f32⟩) main_cst_3).ofBuf v = v :=
  eq_of_heq (Cert.TypedCast.ofBuf_heq _ _)
theorem toBuf_call0_v0 (v : (⟨S_, .f32⟩ : BufTy).Contents (Elt Ideal)) : (StableHlo.TRef.of (T := ⟨S_, .f32⟩) main_call0_v0).toBuf v = v :=
  eq_of_heq (Cert.TypedCast.toBuf_heq _ _)
theorem ofBuf_call0_v0 (v : (⟨S_, .f32⟩ : BufTy).Contents (Elt Ideal)) : (StableHlo.TRef.of (T := ⟨S_, .f32⟩) main_call0_v0).ofBuf v = v :=
  eq_of_heq (Cert.TypedCast.ofBuf_heq _ _)
theorem toBuf_call0_v1 (v : (⟨S100000, .f32⟩ : BufTy).Contents (Elt Ideal)) : (StableHlo.TRef.of (T := ⟨S100000, .f32⟩) main_call0_v1).toBuf v = v :=
  eq_of_heq (Cert.TypedCast.toBuf_heq _ _)
theorem ofBuf_call0_v1 (v : (⟨S100000, .f32⟩ : BufTy).Contents (Elt Ideal)) : (StableHlo.TRef.of (T := ⟨S100000, .f32⟩) main_call0_v1).ofBuf v = v :=
  eq_of_heq (Cert.TypedCast.ofBuf_heq _ _)
theorem toBuf_v13 (v : (⟨S100000, .i1⟩ : BufTy).Contents (Elt Ideal)) : (StableHlo.TRef.of (T := ⟨S100000, .i1⟩) main_v13).toBuf v = v :=
  eq_of_heq (Cert.TypedCast.toBuf_heq _ _)
theorem ofBuf_v13 (v : (⟨S100000, .i1⟩ : BufTy).Contents (Elt Ideal)) : (StableHlo.TRef.of (T := ⟨S100000, .i1⟩) main_v13).ofBuf v = v :=
  eq_of_heq (Cert.TypedCast.ofBuf_heq _ _)
theorem toBuf_v16 (v : (⟨S100000, .f32⟩ : BufTy).Contents (Elt Ideal)) : (StableHlo.TRef.of (T := ⟨S100000, .f32⟩) main_v16).toBuf v = v :=
  eq_of_heq (Cert.TypedCast.toBuf_heq _ _)
theorem ofBuf_v16 (v : (⟨S100000, .f32⟩ : BufTy).Contents (Elt Ideal)) : (StableHlo.TRef.of (T := ⟨S100000, .f32⟩) main_v16).ofBuf v = v :=
  eq_of_heq (Cert.TypedCast.ofBuf_heq _ _)
theorem toBuf_v17 (v : (⟨S100000, .f32⟩ : BufTy).Contents (Elt Ideal)) : (StableHlo.TRef.of (T := ⟨S100000, .f32⟩) main_v17).toBuf v = v :=
  eq_of_heq (Cert.TypedCast.toBuf_heq _ _)
theorem ofBuf_v17 (v : (⟨S100000, .f32⟩ : BufTy).Contents (Elt Ideal)) : (StableHlo.TRef.of (T := ⟨S100000, .f32⟩) main_v17).ofBuf v = v :=
  eq_of_heq (Cert.TypedCast.ofBuf_heq _ _)

/-! ## One stretch at a time, from any contents -/

set_option maxHeartbeats 2000000 in
/-- The first stretch leaves the row table of the integer argument it finds. -/
theorem first_v3 (V : Valuation τ sig (Elt Ideal)) :
    StableHlo.after hostOps0 V (Proc.devRef .tc main_v3) = val_main_v3 (F := Ideal) (V (Proc.devRef .tc main_arg1)) := by
  after_results_simp
  rfl

set_option maxHeartbeats 2000000 in
/-- … the column table, -/
theorem first_v7 (V : Valuation τ sig (Elt Ideal)) :
    StableHlo.after hostOps0 V (Proc.devRef .tc main_v7) = val_main_v7 (F := Ideal) (V (Proc.devRef .tc main_arg1)) := by
  after_results_simp
  rfl

set_option maxHeartbeats 2000000 in
/-- … which nodes have a positive degree, -/
theorem first_v13 (V : Valuation τ sig (Elt Ideal)) :
    StableHlo.after hostOps0 V (Proc.devRef .tc main_v13) = val_main_v13 (F := Ideal) (V (Proc.devRef .tc main_arg1)) := by
  after_results_simp
  rfl

set_option maxHeartbeats 2000000 in
/-- … the inverse square-root degrees, -/
theorem first_v16 (V : Valuation τ sig (Elt Ideal)) :
    StableHlo.after hostOps0 V (Proc.devRef .tc main_v16) = val_main_v16 (F := Ideal) (V (Proc.devRef .tc main_arg1)) := by
  after_results_simp
  rfl

set_option maxHeartbeats 2000000 in
/-- … and a zero. -/
theorem first_cst3 (V : Valuation τ sig (Elt Ideal)) :
    StableHlo.after hostOps0 V (Proc.devRef .tc main_cst_3) = val_main_cst_3 (F := Ideal) := by
  after_results_simp
  rfl

set_option maxHeartbeats 2000000 in
/-- The second stretch selects, per node, the inverse square-root degree where the degree is positive and zero elsewhere. -/
theorem second_v17 (V : Valuation τ sig (Elt Ideal)) (x1 : (⟨S2x3200000, .i32⟩ : BufTy).Contents (Elt Ideal))
    (h13 : V (Proc.devRef .tc main_v13) = val_main_v13 (F := Ideal) x1)
    (h16 : V (Proc.devRef .tc main_v16) = val_main_v16 (F := Ideal) x1)
    (hc : V (Proc.devRef .tc main_cst_3) = val_main_cst_3 (F := Ideal)) :
    StableHlo.after hostOps0_1 V (Proc.devRef .tc main_v17) = val_main_v17 (F := Ideal) x1 := by
  after_results_simp
  simp only [Cert.TypedRef.ofBuf_toBuf, Cert.TypedRef.toBuf_ofBuf, toBuf_cst_3, ofBuf_cst_3, toBuf_call0_v0, ofBuf_call0_v0, toBuf_call0_v1, ofBuf_call0_v1, toBuf_v13, ofBuf_v13, toBuf_v16, ofBuf_v16, toBuf_v17, ofBuf_v17, h13, h16, hc]
  rfl

set_option maxHeartbeats 2000000 in
/-- The third stretch multiplies, per edge, the selected values of its two end points. -/
theorem third_v32 (V : Valuation τ sig (Elt Ideal)) (x1 : (⟨S2x3200000, .i32⟩ : BufTy).Contents (Elt Ideal))
    (h3 : V (Proc.devRef .tc main_v3) = val_main_v3 (F := Ideal) x1)
    (h7 : V (Proc.devRef .tc main_v7) = val_main_v7 (F := Ideal) x1)
    (h17 : V (Proc.devRef .tc main_v17) = val_main_v17 (F := Ideal) x1) :
    StableHlo.after hostOps0_2 V (Proc.devRef .tc main_v32) = val_main_v32 (F := Ideal) x1 := by
  after_results_simp
  rw [h3, h7, h17]
  rfl

/-! ## Along @main -/

theorem W2_v3 (c : Dev nD) : W2 m ρ c (Proc.devRef .tc main_v3) = W1 m ρ c (Proc.devRef .tc main_v3) := by keeps hostOps0_1
theorem W2_v7 (c : Dev nD) : W2 m ρ c (Proc.devRef .tc main_v7) = W1 m ρ c (Proc.devRef .tc main_v7) := by keeps hostOps0_1
theorem W3_v3 (c : Dev nD) : W3 m ρ c (Proc.devRef .tc main_v3) = W2 m ρ c (Proc.devRef .tc main_v3) := by keeps hostOps0_2
theorem W3_v7 (c : Dev nD) : W3 m ρ c (Proc.devRef .tc main_v7) = W2 m ρ c (Proc.devRef .tc main_v7) := by keeps hostOps0_2

/-- The row table. -/
theorem row2 (c : Dev nD) : W2 m ρ c (Proc.devRef .tc main_v3)
    = val_main_v3 (F := Ideal) (m ((c : Thread nD τ).loc main_arg1)) :=
  (W2_v3 m ρ c).trans (first_v3 (W0 m ρ c))
theorem row_eq (c : Dev nD) : W3 m ρ c (Proc.devRef .tc main_v3)
    = val_main_v3 (F := Ideal) (m ((c : Thread nD τ).loc main_arg1)) :=
  (W3_v3 m ρ c).trans (row2 m ρ c)

/-- The column table. -/
theorem col2 (c : Dev nD) : W2 m ρ c (Proc.devRef .tc main_v7)
    = val_main_v7 (F := Ideal) (m ((c : Thread nD τ).loc main_arg1)) :=
  (W2_v7 m ρ c).trans (first_v7 (W0 m ρ c))
theorem col_eq (c : Dev nD) : W3 m ρ c (Proc.devRef .tc main_v7)
    = val_main_v7 (F := Ideal) (m ((c : Thread nD τ).loc main_arg1)) :=
  (W3_v7 m ρ c).trans (col2 m ρ c)

/-- The norm of every edge. -/
theorem nrm_eq (c : Dev nD) : W3 m ρ c (Proc.devRef .tc main_v32)
    = val_main_v32 (F := Ideal) (m ((c : Thread nD τ).loc main_arg1)) :=
  third_v32 (W2 m ρ c) _ (row2 m ρ c) (col2 m ρ c)
    (second_v17 (W1 m ρ c) _ (first_v13 (W0 m ρ c)) (first_v16 (W0 m ρ c)) (first_cst3 (W0 m ρ c)))

end Cert.KernelIdeal.Edge

end
-- ==== Proof.LibHostLayout.lean ====
/-
  The host's layout operations, row sums and transposed contractions, read at an index.

  A reference written with `keepdims` reductions moves between a vector `[n]`, a column `[n, 1]` and an array `[n, c]`
  by `broadcast_in_dim`: a vector broadcast to a column reads the vector at the row; a column broadcast along the rows
  reads the column at the row; a vector broadcast to one row and that row to every row reads the vector at the column;
  a scalar broadcast everywhere reads the scalar.  On the extended reals the host's sum of an `[n, c]` array along its
  second axis reads, at row `q`, the initial value plus the sum of the row; and the host's contraction of the second
  axes of both rank-2 operands (no batch axis) reads, at `(q, d)`, the sum over `p` of `l (q, p) · r (d, p)`.  All of it
  at any extents.
-/
import Idealize.ShloMosaic.PureOps.Ideal.Laws
import Idealize.ShloMosaic.Lib.ValueIdx
import Idealize.ShloMosaic.Lib.ValueLayout
import Idealize.ShloMosaic.Lib.Pipeline.Value
import proofs.«164241_j3496103379545_2_alg».proof.Proof.LibRowBlocks

noncomputable section

open scoped BigOperators

namespace Cert.HostLayout

open Idealize.ShloMosaic Idealize.ShloMosaic.ValueIdx

section Layout

variable {α : Type}

/-- A vector `[n]` broadcast to a column `[n, 1]` reads, at `(q, u)`, the vector at `q`. -/
theorem bcast_vec_col {n : ℕ} (x : (⟨1, ![n]⟩ : Shape).Idx → α)
    (h : (⟨1, ![n]⟩ : Shape).BroadcastsInDim ⟨2, ![n, 1]⟩ ![0]) (q : Fin n) (u : Fin 1) :
    broadcastInDim ⟨2, ![n, 1]⟩ ![0] h x (ix2 q u) = x (ix1 q) :=
  broadcastInDim_apply ![0] h x (ix2 q u) (ix1 q) fun a => by
    match a with
    | ⟨0, _⟩ =>
      show q.val = if n = 1 then 0 else q.val
      split
      · have := q.isLt; omega
      · rfl

/-- A scalar broadcast to `[a, b]` reads the scalar everywhere. -/
theorem bcast_scalar_mat {a b : ℕ} (x : (⟨0, ![]⟩ : Shape).Idx → α)
    (h : (⟨0, ![]⟩ : Shape).BroadcastsInDim ⟨2, ![a, b]⟩ ![]) (p : Fin a) (q : Fin b) :
    broadcastInDim ⟨2, ![a, b]⟩ ![] h x (ix2 p q) = x ix0 :=
  broadcastInDim_apply ![] h x (ix2 p q) ix0 fun a => a.elim0

/-- A column `[n, 1]` broadcast to `[n, c]` reads, at `(q, d)`, the column at row `q`. -/
theorem bcast_col_mat {n c : ℕ} (x : (⟨2, ![n, 1]⟩ : Shape).Idx → α)
    (h : (⟨2, ![n, 1]⟩ : Shape).BroadcastsInDim ⟨2, ![n, c]⟩ ![0, 1]) (q : Fin n) (d : Fin c) :
    broadcastInDim ⟨2, ![n, c]⟩ ![0, 1] h x (ix2 q d) = x (ix2 q (0 : Fin 1)) :=
  broadcastInDim_apply ![0, 1] h x (ix2 q d) (ix2 q (0 : Fin 1)) fun a => by
    match a with
    | ⟨0, _⟩ =>
      show q.val = if n = 1 then 0 else q.val
      split
      · have := q.isLt; omega
      · rfl
    | ⟨1, _⟩ => rfl

/-- A vector `[N]` broadcast to one row and that row to every row of `[M, N]` reads, at `(p, q)`, the vector at `q`. -/
theorem bcast_vec_mat {M N : ℕ} (b : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1]) (p : Fin M) (q : Fin N) :
    broadcastInDim ⟨2, ![M, N]⟩ ![0, 1] h2 (broadcastInDim ⟨2, ![1, N]⟩ ![1] h1 b) (ix2 p q) = b (ix1 q) := by
  rw [broadcastInDim_apply ![0, 1] h2 _ (ix2 p q) (ix2 (0 : Fin 1) q) (fun a => by
        match a with
        | ⟨0, _⟩ => rfl
        | ⟨1, _⟩ =>
          show q.val = if N = 1 then 0 else q.val
          split
          · have := q.isLt; omega
          · rfl),
    broadcastInDim_apply ![1] h1 b (ix2 (0 : Fin 1) q) (ix1 q) (fun a => by
        match a with
        | ⟨0, _⟩ =>
          show q.val = if N = 1 then 0 else q.val
          split
          · have := q.isLt; omega
          · rfl)]

end Layout

/-- The host's sum of an `[n, c]` array along its second axis reads, at row `q`, the initial value plus the sum of the
    row's entries. -/
theorem hostRowSum {n c : ℕ} (x : FVec Ideal ⟨2, ![n, c]⟩ .f32) (init : FVec Ideal ⟨0, ![]⟩ .f32)
    (h' : (⟨2, ![n, c]⟩ : Shape).ReducesTo [1] ⟨1, ![n]⟩) (h : (⟨2, ![n, c]⟩ : Shape).Reduces [1] ⟨1, ![n]⟩)
    (hu : 0 < (⟨0, ![]⟩ : Shape).numel) (q : Fin n) :
    Host.reduceAdd x init h' hu (ix1 q) = init (Shape.Idx.first hu) + ∑ k : Fin c, x (ix2 q k) := by
  refine (Ideal.hostReduceAdd_single h' h x (init (Shape.Idx.first hu)) (ix1 q)).trans ?_
  refine congrArg (init (Shape.Idx.first hu) + ·) (Finset.sum_congr rfl fun k _ => congrArg x (funext fun ax => Fin.ext ?_))
  match ax with
  | ⟨0, _⟩ => rfl
  | ⟨1, _⟩ => rfl

/-- The host's `l · rᵀ` (the second axes contracted, no batch axis) reads, at `(q, d)`, the sum over `p` of
    `l (q, p) · r (d, p)`. -/
theorem hostDot_abT {M K N : ℕ} (D : DotDims ⟨2, ![M, K]⟩ ⟨2, ![N, K]⟩ ⟨2, ![M, N]⟩)
    (h1 : D.lhsContracting = [1]) (h2 : D.rhsContracting = [1]) (h3 : D.lhsNonContracting = [0])
    (h4 : D.rhsNonContracting = [0]) (h5 : D.lhsBatch = []) (h6 : D.rhsBatch = [])
    (prec : Option ContractPrecision) (l : FVec Ideal ⟨2, ![M, K]⟩ .f32) (r : FVec Ideal ⟨2, ![N, K]⟩ .f32)
    (q : Fin M) (d : Fin N) :
    Host.dotGeneral (F := Ideal) D prec l r (ix2 q d) = ∑ p : Fin K, l (ix2 q p) * r (ix2 d p) :=
  (Ideal.dotGeneral_apply D prec .single l r (ix2 q d)).trans (Cert.RowBlocks.abT_sum D h1 h2 h3 h4 h5 h6 l r q d)

end Cert.HostLayout

end
-- ==== Proof.RefNorm.lean ====
/-
  The row rescaling as the host spells it, read as one whole array on the extended reals, at any extents.

  A host program computes, for an array `X` of `M` rows, the least and the greatest entry of every row by two
  reductions along the second axis (a fold of `min` from +inf and a fold of `max` from -inf), lays each result
  out as a column, and forms `2 (X - mn) / ((mx - mn) + eps) - 1` with the columns and the scalars broadcast to the
  array's shape.  A reduction along one axis with a commutative and associative body is, at row `p`, the fold of the
  body over the row's entries, so the two reductions are `Cert.Net.rowMin` and `Cert.Net.rowMax`; a vector broadcast
  to a column and that column broadcast along the rows reads the vector at the row; a broadcast scalar reads the
  scalar.  Entry by entry the host's array is therefore `Cert.Net.scale` of the entry with its row's least and
  greatest entries, which is `Cert.Net.mynorm X`.  No entry needs to be finite: nothing is cancelled or distributed.
-/
import Idealize.ShloMosaic.PureOps.Reduce
import Idealize.ShloMosaic.PureOps.Ideal.Laws
import Idealize.ShloMosaic.Lib.ValueIdx
import Idealize.ShloMosaic.Lib.IdealHost
import proofs.«164241_j3496103379545_2_alg».proof.Proof.Spec
import proofs.«164241_j3496103379545_2_alg».proof.Proof.LibHostLayout

noncomputable section

namespace Cert.ReferenceIdeal.RefValue

open Idealize.ShloMosaic Idealize.ShloMosaic.ValueIdx Cert.Dense Cert.HostLayout

/-- The host's reduction by `min` along the second axis reads, at row `p`, the fold of `min` from the initial
    value's entry over the row. -/
theorem hostRowMin {M N : ℕ} (X : FVec Ideal ⟨2, ![M, N]⟩ .f32) (init : FVec Ideal ⟨0, ![]⟩ .f32)
    (h' : (⟨2, ![M, N]⟩ : Shape).ReducesTo [1] ⟨1, ![M]⟩) (h : (⟨2, ![M, N]⟩ : Shape).Reduces [1] ⟨1, ![M]⟩)
    (hu : 0 < (⟨0, ![]⟩ : Shape).numel) (p : Fin M) :
    Host.reduce (FloatOps.minimumf (F := Ideal) (φ := .f32)) X init h' hu (ix1 p)
      = (Finset.univ : Finset (Fin N)).fold min (init (Shape.Idx.first hu)) (fun k => X (ix2 p k)) := by
  refine (Host.reduce_eq_fold_single (FloatOps.minimumf (F := Ideal) (φ := .f32)) X init h' h hu (ix1 p)).trans ?_
  refine congrArg (fun g => (Finset.univ : Finset (Fin N)).fold min (init (Shape.Idx.first hu)) g) (funext fun k => ?_)
  refine congrArg X (funext fun ax => Fin.ext ?_)
  match ax with
  | ⟨0, _⟩ => rfl
  | ⟨1, _⟩ => rfl

/-- The host's reduction by `max` along the second axis reads, at row `p`, the fold of `max` from the initial
    value's entry over the row. -/
theorem hostRowMax {M N : ℕ} (X : FVec Ideal ⟨2, ![M, N]⟩ .f32) (init : FVec Ideal ⟨0, ![]⟩ .f32)
    (h' : (⟨2, ![M, N]⟩ : Shape).ReducesTo [1] ⟨1, ![M]⟩) (h : (⟨2, ![M, N]⟩ : Shape).Reduces [1] ⟨1, ![M]⟩)
    (hu : 0 < (⟨0, ![]⟩ : Shape).numel) (p : Fin M) :
    Host.reduce (FloatOps.maximumf (F := Ideal) (φ := .f32)) X init h' hu (ix1 p)
      = (Finset.univ : Finset (Fin N)).fold max (init (Shape.Idx.first hu)) (fun k => X (ix2 p k)) := by
  refine (Host.reduce_eq_fold_single (FloatOps.maximumf (F := Ideal) (φ := .f32)) X init h' h hu (ix1 p)).trans ?_
  refine congrArg (fun g => (Finset.univ : Finset (Fin N)).fold max (init (Shape.Idx.first hu)) g) (funext fun k => ?_)
  refine congrArg X (funext fun ax => Fin.ext ?_)
  match ax with
  | ⟨0, _⟩ => rfl
  | ⟨1, _⟩ => rfl

/-- The host's rescaling of every row by its least and greatest entries is `Cert.Net.mynorm`. -/
theorem hostMynorm {M N : ℕ} (X : FVec Ideal ⟨2, ![M, N]⟩ .f32)
    (hr' : (⟨2, ![M, N]⟩ : Shape).ReducesTo [1] ⟨1, ![M]⟩) (hr : (⟨2, ![M, N]⟩ : Shape).Reduces [1] ⟨1, ![M]⟩)
    (hu : 0 < (⟨0, ![]⟩ : Shape).numel)
    (hvc : (⟨1, ![M]⟩ : Shape).BroadcastsInDim ⟨2, ![M, 1]⟩ ![0])
    (hcm : (⟨2, ![M, 1]⟩ : Shape).BroadcastsInDim ⟨2, ![M, N]⟩ ![0, 1])
    (hsm : (⟨0, ![]⟩ : Shape).BroadcastsInDim ⟨2, ![M, N]⟩ ![])
    (hsc : (⟨0, ![]⟩ : Shape).BroadcastsInDim ⟨2, ![M, 1]⟩ ![]) :
    subf
        (Host.divf
          (mulf (broadcastInDim ⟨2, ![M, N]⟩ ![] hsm (constant (F := Ideal) ⟨0, ![]⟩ .f32 0x40000000#32))
            (subf X
              (broadcastInDim ⟨2, ![M, N]⟩ ![0, 1] hcm
                (broadcastInDim ⟨2, ![M, 1]⟩ ![0] hvc
                  (Host.reduce (FloatOps.minimumf (F := Ideal) (φ := .f32)) X
                    (constant (F := Ideal) ⟨0, ![]⟩ .f32 0x7F800000#32) hr' hu)))))
          (broadcastInDim ⟨2, ![M, N]⟩ ![0, 1] hcm
            (addf
              (subf
                (broadcastInDim ⟨2, ![M, 1]⟩ ![0] hvc
                  (Host.reduce (FloatOps.maximumf (F := Ideal) (φ := .f32)) X
                    (constant (F := Ideal) ⟨0, ![]⟩ .f32 0xFF800000#32) hr' hu))
                (broadcastInDim ⟨2, ![M, 1]⟩ ![0] hvc
                  (Host.reduce (FloatOps.minimumf (F := Ideal) (φ := .f32)) X
                    (constant (F := Ideal) ⟨0, ![]⟩ .f32 0x7F800000#32) hr' hu)))
              (broadcastInDim ⟨2, ![M, 1]⟩ ![] hsc (constant (F := Ideal) ⟨0, ![]⟩ .f32 0x322BCC77#32)))))
        (broadcastInDim ⟨2, ![M, N]⟩ ![] hsm (constant (F := Ideal) ⟨0, ![]⟩ .f32 0x3F800000#32))
      = Cert.Net.mynorm X := by
  funext i
  obtain ⟨p, q, rfl⟩ : ∃ (p : Fin M) (q : Fin N), i = ix2 p q := ⟨i 0, i 1, eq_ix2 i⟩
  rw [Cert.Net.mynorm_apply, subf_apply, hostDivf_apply, mulf_apply, subf_apply,
    bcast_scalar_mat _ hsm p q, bcast_scalar_mat _ hsm p q, bcast_col_mat _ hcm p q, bcast_col_mat _ hcm p q,
    addf_apply, subf_apply, bcast_vec_col _ hvc p 0, bcast_vec_col _ hvc p 0,
    broadcastInDim_apply ![] hsc _ (ix2 p (0 : Fin 1)) ix0 (fun a => a.elim0),
    hostRowMin X _ hr' hr hu p, hostRowMax X _ hr' hr hu p]
  rfl

end Cert.ReferenceIdeal.RefValue

end
-- ==== Proof.RefDense.lean ====
/-
  The host's dense layers, read as whole arrays on the extended reals, at any extents.

  The host spells a dense layer `A W + b` as its plain dot product (the left operand's columns contracted with the
  right operand's rows, no batch axis) plus the bias vector broadcast to one row and that row to every row: the dot
  product is the matrix product `Cert.Dense.mm` and the broadcast sum is `Cert.BiasRow.addRow` over the vector laid
  out as a row, so the whole is `Cert.Net.layer1`.  The first layer rectifies it (the maximum with a broadcast zero):
  that is `Cert.Dense.reluBias` of the matrix product, the array `Cert.Net.layer0` rescales row by row.
-/
import proofs.«164241_j3496103379545_2_alg».proof.Proof.RefNorm

noncomputable section

namespace Cert.ReferenceIdeal.RefValue

open Idealize.ShloMosaic Idealize.ShloMosaic.ValueIdx Cert.Dense Cert.BiasRow Cert.Net

/-- The host's `A W + b` is `layer1 A W (row b)`. -/
theorem hostLayer1 {M K N : ℕ} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (prec : Option ContractPrecision) (A : FVec Ideal ⟨2, ![M, K]⟩ .f32) (W : FVec Ideal ⟨2, ![K, N]⟩ .f32)
    (b : FVec Ideal ⟨1, ![N]⟩ .f32)
    (hb1 : (⟨1, ![N]⟩ : Shape).BroadcastsInDim ⟨2, ![1, N]⟩ ![1])
    (hb2 : (⟨2, ![1, N]⟩ : Shape).BroadcastsInDim ⟨2, ![M, N]⟩ ![0, 1]) :
    addf (Host.dotGeneral (F := Ideal) D prec A W)
        (broadcastInDim ⟨2, ![M, N]⟩ ![0, 1] hb2 (broadcastInDim ⟨2, ![1, N]⟩ ![1] hb1 b))
      = layer1 A W (row b) := by
  rw [hostDot_eq_mm D h1 h2 h3 h4 h5 h6 prec A W]
  exact hostAddRow (mm A W) b hb1 hb2

/-- The host's rectified `A W + b` is `reluBias (mm A W) (row b)`. -/
theorem hostRelu {M K N : ℕ} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (prec : Option ContractPrecision) (A : FVec Ideal ⟨2, ![M, K]⟩ .f32) (W : FVec Ideal ⟨2, ![K, N]⟩ .f32)
    (b : FVec Ideal ⟨1, ![N]⟩ .f32)
    (hb1 : (⟨1, ![N]⟩ : Shape).BroadcastsInDim ⟨2, ![1, N]⟩ ![1])
    (hb2 : (⟨2, ![1, N]⟩ : Shape).BroadcastsInDim ⟨2, ![M, N]⟩ ![0, 1])
    (hsm : (⟨0, ![]⟩ : Shape).BroadcastsInDim ⟨2, ![M, N]⟩ ![]) :
    maximumf
        (addf (Host.dotGeneral (F := Ideal) D prec A W)
          (broadcastInDim ⟨2, ![M, N]⟩ ![0, 1] hb2 (broadcastInDim ⟨2, ![1, N]⟩ ![1] hb1 b)))
        (broadcastInDim ⟨2, ![M, N]⟩ ![] hsm (constant (F := Ideal) ⟨0, ![]⟩ .f32 0x00000000#32))
      = reluBias (mm A W) (row b) := by
  rw [hostDot_eq_mm D h1 h2 h3 h4 h5 h6 prec A W]
  exact hostReluBias (mm A W) b hb1 hb2 hsm

end Cert.ReferenceIdeal.RefValue

end
-- ==== Proof.RefAgg.lean ====
/-
  The aggregation step of the reference program, kept closed.

  Between two dense layers the reference gathers, for every edge, the row of the node table its (wrapped) source
  index names, multiplies it by the edge's weight, and adds it into the row of a zero table its target index names.
  `aggR row col nrm X` is that composition exactly as the program spells it, as a function of the source-index
  table, the target-index table, the edge weights and the node table.  The program runs it three times, on three
  node tables and with the same three edge tables; each time the program's stage is `aggR` of those tables by
  unfolding the stages' definitions.  Nothing is ever read at an index: both programs apply the same map, so only
  its being the same function of its operands matters.
-/
import proofs.«164241_j3496103379545_2_alg».proof.Proof.RefDefs

noncomputable section

namespace Cert.ReferenceIdeal.RefValue

open Cert.ReferenceIdeal Cert.ReferenceIdeal.Gen Cert.ReferenceIdeal.Stage Idealize.ShloMosaic Idealize.ShloMosaic.TcCoe Idealize.SL.Sem Idealize.ShloMosaic.StableHlo

/-- The aggregation as the reference spells it: rows gathered by the wrapped source indices, scaled by the edge
    weights, and scatter-added by the target indices into a zero table. -/
def aggR (row col : (⟨S3300000, .i32⟩ : BufTy).Contents (Elt Ideal)) (nrm : (⟨S3300000, .f32⟩ : BufTy).Contents (Elt Ideal))
    (X : (⟨S100000x32, .f32⟩ : BufTy).Contents (Elt Ideal)) : (⟨S100000x32, .f32⟩ : BufTy).Contents (Elt Ideal) :=
  Host.scatterAdd (F := Ideal) scatter_S100000x32_S3300000x1_S3300000x32_1_0_0_1
    (broadcastInDim S100000x32 ![] bcast_S_S100000x32 (constant (F := Ideal) S_ .f32 0x00000000#32))
    (broadcastInDim S3300000x1 ![0] bcast_S3300000_S3300000x1_0 col)
    (mulf
      (Host.gather gather_S100000x32_S3300000x1_S3300000x32_1_0_n_n_0_1_132 X
        (broadcastInDim S3300000x1 ![0] bcast_S3300000_S3300000x1_0
          (select (cmpi .slt row (broadcastInDim S3300000 ![] bcast_S_S3300000 (constantI S_ 32 0#32)))
            (addi row (broadcastInDim S3300000 ![] bcast_S_S3300000 (constantI S_ 32 100000#32))) row)))
      (broadcastInDim S3300000x32 ![0, 1] bcast_S3300000x1_S3300000x32_0_1
        (broadcastInDim S3300000x1 ![0] bcast_S3300000_S3300000x1_0 nrm)))

variable (x0 : (⟨S100000x128, .f32⟩ : BufTy).Contents (Elt Ideal)) (x1 : (⟨S2x3200000, .i32⟩ : BufTy).Contents (Elt Ideal))
  (x2 : (⟨S32x128, .f32⟩ : BufTy).Contents (Elt Ideal)) (x3 : (⟨S32, .f32⟩ : BufTy).Contents (Elt Ideal))
  (x4 : (⟨S32x32, .f32⟩ : BufTy).Contents (Elt Ideal)) (x5 : (⟨S32, .f32⟩ : BufTy).Contents (Elt Ideal))
  (x6 : (⟨S32x32, .f32⟩ : BufTy).Contents (Elt Ideal)) (x7 : (⟨S32, .f32⟩ : BufTy).Contents (Elt Ideal))
  (x8 : (⟨S32x32, .f32⟩ : BufTy).Contents (Elt Ideal)) (x9 : (⟨S32, .f32⟩ : BufTy).Contents (Elt Ideal))
  (x10 : (⟨S64x128, .f32⟩ : BufTy).Contents (Elt Ideal)) (x11 : (⟨S64, .f32⟩ : BufTy).Contents (Elt Ideal))

/-- The first aggregate is `aggR` of the first table. -/
theorem v66_eq : val_main_v66 (F := Ideal) x0 x1 x2 x3
    = aggR (val_main_v3 (F := Ideal) x1) (val_main_v7 (F := Ideal) x1) (val_main_v32 (F := Ideal) x1)
        (val_main_v53 (F := Ideal) x0 x2 x3) := by
  unfold val_main_v66 val_main_v65 val_main_v64 val_main_v63 val_main_v62 val_main_v61 val_main_v60 val_main_v59
    val_main_v58 val_main_v57 val_main_v56 val_main_v55 val_main_v54 val_main_cst_14 val_main_c_13 val_main_c_12 aggR
  rfl

/-- The second aggregate is `aggR` of the second table. -/
theorem v84_eq : val_main_v84 (F := Ideal) x0 x1 x2 x3 x4 x5
    = aggR (val_main_v3 (F := Ideal) x1) (val_main_v7 (F := Ideal) x1) (val_main_v32 (F := Ideal) x1)
        (val_main_v71 (F := Ideal) x0 x1 x2 x3 x4 x5) := by
  unfold val_main_v84 val_main_v83 val_main_v82 val_main_v81 val_main_v80 val_main_v79 val_main_v78 val_main_v77
    val_main_v76 val_main_v75 val_main_v74 val_main_v73 val_main_v72 val_main_cst_17 val_main_c_16 val_main_c_15 aggR
  rfl

/-- The third aggregate is `aggR` of the third table. -/
theorem v133_eq : val_main_v133 (F := Ideal) x0 x1 x2 x3 x4 x5 x6 x7
    = aggR (val_main_v3 (F := Ideal) x1) (val_main_v7 (F := Ideal) x1) (val_main_v32 (F := Ideal) x1)
        (val_main_v89 (F := Ideal) x0 x1 x2 x3 x4 x5 x6 x7) := by
  unfold val_main_v133 val_main_v132 val_main_v131 val_main_v130 val_main_v129 val_main_v128 val_main_v127 val_main_v126
    val_main_v125 val_main_v124 val_main_v123 val_main_v122 val_main_v121 val_main_cst_30 val_main_c_29 val_main_c_28 aggR
  rfl

end Cert.ReferenceIdeal.RefValue

end
-- ==== Proof.RefLayers.lean ====
/-
  The reference program's stages as the layers of the network, whole arrays on the extended reals.

  Stage by stage the reference computes: the rectified first dense layer and its row rescaling (the first table);
  three times an aggregate of the previous table followed by a dense layer (the second, third and fourth tables);
  the row rescalings of all four tables, and the two differences of rescaled tables.  Each dense layer is the host's
  plain dot product with the transposed weight plus the broadcast bias, which is `Cert.Net.layer1`; each row
  rescaling is the host's spelling of `Cert.Net.mynorm`.  The transposed weights are never read at an index: they
  enter only as the right operand of a matrix product.
-/
import proofs.«164241_j3496103379545_2_alg».proof.Proof.RefDefs
import proofs.«164241_j3496103379545_2_alg».proof.Proof.RefDense
import proofs.«164241_j3496103379545_2_alg».proof.Proof.RefAgg

noncomputable section

namespace Cert.ReferenceIdeal.RefValue

open Cert.ReferenceIdeal Cert.ReferenceIdeal.Gen Cert.ReferenceIdeal.Stage Idealize.ShloMosaic Idealize.ShloMosaic.TcCoe Idealize.SL.Sem Idealize.ShloMosaic.StableHlo
open Cert.Dense Cert.BiasRow Cert.Net

/-- Dropping the column axis of a table of 100000 rows and 32 columns leaves its rows. -/
theorem reduces_rows : S100000x32.Reduces [1] S100000 := by decide

variable (x0 : (⟨S100000x128, .f32⟩ : BufTy).Contents (Elt Ideal)) (x1 : (⟨S2x3200000, .i32⟩ : BufTy).Contents (Elt Ideal))
  (x2 : (⟨S32x128, .f32⟩ : BufTy).Contents (Elt Ideal)) (x3 : (⟨S32, .f32⟩ : BufTy).Contents (Elt Ideal))
  (x4 : (⟨S32x32, .f32⟩ : BufTy).Contents (Elt Ideal)) (x5 : (⟨S32, .f32⟩ : BufTy).Contents (Elt Ideal))
  (x6 : (⟨S32x32, .f32⟩ : BufTy).Contents (Elt Ideal)) (x7 : (⟨S32, .f32⟩ : BufTy).Contents (Elt Ideal))
  (x8 : (⟨S32x32, .f32⟩ : BufTy).Contents (Elt Ideal)) (x9 : (⟨S32, .f32⟩ : BufTy).Contents (Elt Ideal))
  (x10 : (⟨S64x128, .f32⟩ : BufTy).Contents (Elt Ideal)) (x11 : (⟨S64, .f32⟩ : BufTy).Contents (Elt Ideal))

/-- The rectified first dense layer. -/
theorem v38_eq : val_main_v38 (F := Ideal) x0 x2 x3 = reluBias (mm (M := 100000) (K := 128) (N := 32) x0 (transpose S128x32 [1, 0] x2 transposes_S32x128_S128x32_1_0)) (row x3) := by
  unfold val_main_v38 val_main_v37 val_main_v36 val_main_v35 val_main_v34 val_main_v33 val_main_call1_v0 val_main_call1_cst
  exact hostRelu (M := 100000) (K := 128) (N := 32) dot_S100000x128_S128x32_S100000x32_1_0_0_1_n_n rfl rfl rfl rfl rfl rfl
    none x0 (transpose S128x32 [1, 0] x2 transposes_S32x128_S128x32_1_0) x3 bcast_S32_S1x32_1 bcast_S1x32_S100000x32_0_1 bcast_S_S100000x32

/-- The first table: the rectified layer with every row rescaled. -/
theorem v53_eq : val_main_v53 (F := Ideal) x0 x2 x3 = layer0 (M := 100000) (K := 128) (N := 32) x0 (transpose S128x32 [1, 0] x2 transposes_S32x128_S128x32_1_0) (row x3) := by
  unfold Cert.Net.layer0
  rw [← v38_eq x0 x2 x3]
  unfold val_main_v53 val_main_v52 val_main_v51 val_main_v50 val_main_v49 val_main_v48 val_main_v47 val_main_v46 val_main_v45 val_main_v44 val_main_v43 val_main_v42 val_main_v41 val_main_v40 val_main_v39 val_main_cst_7 val_main_cst_8 val_main_cst_9 val_main_cst_10 val_main_cst_11
  exact hostMynorm (M := 100000) (N := 32) (val_main_v38 (F := Ideal) x0 x2 x3) reducesTo_S100000x32_S100000_d1 reduces_rows h_S_ bcast_S100000_S100000x1_0 bcast_S100000x1_S100000x32_0_1 bcast_S_S100000x32 bcast_S_S100000x1

/-- The second table: a dense layer of the first aggregate. -/
theorem v71_eq : val_main_v71 (F := Ideal) x0 x1 x2 x3 x4 x5 = layer1 (M := 100000) (K := 32) (N := 32) (val_main_v66 (F := Ideal) x0 x1 x2 x3) (transpose S32x32 [1, 0] x4 transposes_S32x32_S32x32_1_0) (row x5) := by
  unfold val_main_v71 val_main_v70 val_main_v69 val_main_v68 val_main_v67
  exact hostLayer1 (M := 100000) (K := 32) (N := 32) dot_S100000x32_S32x32_S100000x32_1_0_0_1_n_n rfl rfl rfl rfl rfl rfl
    none (val_main_v66 (F := Ideal) x0 x1 x2 x3) (transpose S32x32 [1, 0] x4 transposes_S32x32_S32x32_1_0) x5 bcast_S32_S1x32_1 bcast_S1x32_S100000x32_0_1

/-- The third table: a dense layer of the second aggregate. -/
theorem v89_eq : val_main_v89 (F := Ideal) x0 x1 x2 x3 x4 x5 x6 x7 = layer1 (M := 100000) (K := 32) (N := 32) (val_main_v84 (F := Ideal) x0 x1 x2 x3 x4 x5) (transpose S32x32 [1, 0] x6 transposes_S32x32_S32x32_1_0) (row x7) := by
  unfold val_main_v89 val_main_v88 val_main_v87 val_main_v86 val_main_v85
  exact hostLayer1 (M := 100000) (K := 32) (N := 32) dot_S100000x32_S32x32_S100000x32_1_0_0_1_n_n rfl rfl rfl rfl rfl rfl
    none (val_main_v84 (F := Ideal) x0 x1 x2 x3 x4 x5) (transpose S32x32 [1, 0] x6 transposes_S32x32_S32x32_1_0) x7 bcast_S32_S1x32_1 bcast_S1x32_S100000x32_0_1

/-- The fourth table: a dense layer of the third aggregate. -/
theorem v138_eq : val_main_v138 (F := Ideal) x0 x1 x2 x3 x4 x5 x6 x7 x8 x9 = layer1 (M := 100000) (K := 32) (N := 32) (val_main_v133 (F := Ideal) x0 x1 x2 x3 x4 x5 x6 x7) (transpose S32x32 [1, 0] x8 transposes_S32x32_S32x32_1_0) (row x9) := by
  unfold val_main_v138 val_main_v137 val_main_v136 val_main_v135 val_main_v134
  exact hostLayer1 (M := 100000) (K := 32) (N := 32) dot_S100000x32_S32x32_S100000x32_1_0_0_1_n_n rfl rfl rfl rfl rfl rfl
    none (val_main_v133 (F := Ideal) x0 x1 x2 x3 x4 x5 x6 x7) (transpose S32x32 [1, 0] x8 transposes_S32x32_S32x32_1_0) x9 bcast_S32_S1x32_1 bcast_S1x32_S100000x32_0_1

/-- The third table with every row rescaled. -/
theorem v104_eq : val_main_v104 (F := Ideal) x0 x1 x2 x3 x4 x5 x6 x7 = mynorm (M := 100000) (N := 32) (val_main_v89 (F := Ideal) x0 x1 x2 x3 x4 x5 x6 x7) := by
  unfold val_main_v104 val_main_v103 val_main_v102 val_main_v101 val_main_v100 val_main_v99 val_main_v98 val_main_v97 val_main_v96 val_main_v95 val_main_v94 val_main_v93 val_main_v92 val_main_v91 val_main_v90 val_main_cst_18 val_main_cst_19 val_main_cst_20 val_main_cst_21 val_main_cst_22
  exact hostMynorm (M := 100000) (N := 32) (val_main_v89 (F := Ideal) x0 x1 x2 x3 x4 x5 x6 x7) reducesTo_S100000x32_S100000_d1 reduces_rows h_S_ bcast_S100000_S100000x1_0 bcast_S100000x1_S100000x32_0_1 bcast_S_S100000x32 bcast_S_S100000x1

/-- The first table with every row rescaled. -/
theorem v119_eq : val_main_v119 (F := Ideal) x0 x2 x3 = mynorm (M := 100000) (N := 32) (val_main_v53 (F := Ideal) x0 x2 x3) := by
  unfold val_main_v119 val_main_v118 val_main_v117 val_main_v116 val_main_v115 val_main_v114 val_main_v113 val_main_v112 val_main_v111 val_main_v110 val_main_v109 val_main_v108 val_main_v107 val_main_v106 val_main_v105 val_main_cst_23 val_main_cst_24 val_main_cst_25 val_main_cst_26 val_main_cst_27
  exact hostMynorm (M := 100000) (N := 32) (val_main_v53 (F := Ideal) x0 x2 x3) reducesTo_S100000x32_S100000_d1 reduces_rows h_S_ bcast_S100000_S100000x1_0 bcast_S100000x1_S100000x32_0_1 bcast_S_S100000x32 bcast_S_S100000x1

/-- The fourth table with every row rescaled. -/
theorem v153_eq : val_main_v153 (F := Ideal) x0 x1 x2 x3 x4 x5 x6 x7 x8 x9 = mynorm (M := 100000) (N := 32) (val_main_v138 (F := Ideal) x0 x1 x2 x3 x4 x5 x6 x7 x8 x9) := by
  unfold val_main_v153 val_main_v152 val_main_v151 val_main_v150 val_main_v149 val_main_v148 val_main_v147 val_main_v146 val_main_v145 val_main_v144 val_main_v143 val_main_v142 val_main_v141 val_main_v140 val_main_v139 val_main_cst_31 val_main_cst_32 val_main_cst_33 val_main_cst_34 val_main_cst_35
  exact hostMynorm (M := 100000) (N := 32) (val_main_v138 (F := Ideal) x0 x1 x2 x3 x4 x5 x6 x7 x8 x9) reducesTo_S100000x32_S100000_d1 reduces_rows h_S_ bcast_S100000_S100000x1_0 bcast_S100000x1_S100000x32_0_1 bcast_S_S100000x32 bcast_S_S100000x1

/-- The second table with every row rescaled. -/
theorem v168_eq : val_main_v168 (F := Ideal) x0 x1 x2 x3 x4 x5 = mynorm (M := 100000) (N := 32) (val_main_v71 (F := Ideal) x0 x1 x2 x3 x4 x5) := by
  unfold val_main_v168 val_main_v167 val_main_v166 val_main_v165 val_main_v164 val_main_v163 val_main_v162 val_main_v161 val_main_v160 val_main_v159 val_main_v158 val_main_v157 val_main_v156 val_main_v155 val_main_v154 val_main_cst_36 val_main_cst_37 val_main_cst_38 val_main_cst_39 val_main_cst_40
  exact hostMynorm (M := 100000) (N := 32) (val_main_v71 (F := Ideal) x0 x1 x2 x3 x4 x5) reducesTo_S100000x32_S100000_d1 reduces_rows h_S_ bcast_S100000_S100000x1_0 bcast_S100000x1_S100000x32_0_1 bcast_S_S100000x32 bcast_S_S100000x1

/-- The rescaled third table less the rescaled first. -/
theorem v120_eq : val_main_v120 (F := Ideal) x0 x1 x2 x3 x4 x5 x6 x7
    = fun i => mynorm (M := 100000) (N := 32) (val_main_v89 (F := Ideal) x0 x1 x2 x3 x4 x5 x6 x7) i - mynorm (M := 100000) (N := 32) (val_main_v53 (F := Ideal) x0 x2 x3) i := by
  unfold val_main_v120
  rw [v104_eq, v119_eq]
  rfl

/-- The rescaled fourth table less the rescaled second. -/
theorem v169_eq : val_main_v169 (F := Ideal) x0 x1 x2 x3 x4 x5 x6 x7 x8 x9
    = fun i => mynorm (M := 100000) (N := 32) (val_main_v138 (F := Ideal) x0 x1 x2 x3 x4 x5 x6 x7 x8 x9) i - mynorm (M := 100000) (N := 32) (val_main_v71 (F := Ideal) x0 x1 x2 x3 x4 x5) i := by
  unfold val_main_v169
  rw [v153_eq, v168_eq]
  rfl

end Cert.ReferenceIdeal.RefValue

end
-- ==== Proof.RefNet.lean ====
/-
  The reference program's result is the network `Cert.Net.net` over its own aggregation.

  The four tables side by side, the last two replaced by differences of rescaled tables, are a four-piece
  concatenation along the columns, which is `Cert.StackDot.stack` of the pieces and so `Cert.Net.mix`; the last dense
  layer over it is `Cert.Net.layer4`.  Chaining the stage equations from the first table up, every table is the
  corresponding layer of `Cert.Net.net` with the aggregation `aggR` of the program's three edge tables.
-/
import proofs.«164241_j3496103379545_2_alg».proof.Proof.RefLayers

noncomputable section

namespace Cert.ReferenceIdeal.RefValue

open Cert.ReferenceIdeal Cert.ReferenceIdeal.Gen Cert.ReferenceIdeal.Stage Idealize.ShloMosaic Idealize.ShloMosaic.TcCoe Idealize.SL.Sem Idealize.ShloMosaic.StableHlo
open Cert.Dense Cert.BiasRow Cert.Net Cert.StackDot

variable (x0 : (⟨S100000x128, .f32⟩ : BufTy).Contents (Elt Ideal)) (x1 : (⟨S2x3200000, .i32⟩ : BufTy).Contents (Elt Ideal))
  (x2 : (⟨S32x128, .f32⟩ : BufTy).Contents (Elt Ideal)) (x3 : (⟨S32, .f32⟩ : BufTy).Contents (Elt Ideal))
  (x4 : (⟨S32x32, .f32⟩ : BufTy).Contents (Elt Ideal)) (x5 : (⟨S32, .f32⟩ : BufTy).Contents (Elt Ideal))
  (x6 : (⟨S32x32, .f32⟩ : BufTy).Contents (Elt Ideal)) (x7 : (⟨S32, .f32⟩ : BufTy).Contents (Elt Ideal))
  (x8 : (⟨S32x32, .f32⟩ : BufTy).Contents (Elt Ideal)) (x9 : (⟨S32, .f32⟩ : BufTy).Contents (Elt Ideal))
  (x10 : (⟨S64x128, .f32⟩ : BufTy).Contents (Elt Ideal)) (x11 : (⟨S64, .f32⟩ : BufTy).Contents (Elt Ideal))

/-- The four pieces side by side. -/
theorem v170_eq : val_main_v170 (F := Ideal) x0 x1 x2 x3 x4 x5 x6 x7 x8 x9
    = mix (M := 100000) (B := 32) (K := 128) rfl (val_main_v53 (F := Ideal) x0 x2 x3) (val_main_v71 (F := Ideal) x0 x1 x2 x3 x4 x5) (val_main_v89 (F := Ideal) x0 x1 x2 x3 x4 x5 x6 x7) (val_main_v138 (F := Ideal) x0 x1 x2 x3 x4 x5 x6 x7 x8 x9) := by
  unfold val_main_v170 Cert.Net.mix
  rw [v120_eq, v169_eq]
  exact cat4_eq_stack (N := 100000) (B := 32) (K := 128) rfl (val_main_v53 (F := Ideal) x0 x2 x3) (val_main_v71 (F := Ideal) x0 x1 x2 x3 x4 x5) _ _
    concatenates_S100000x32_S100000x32_S100000x32_S100000x32_S100000x128_d1

/-- The result: the last dense layer over the four pieces. -/
theorem v175_eq : val_main_v175 (F := Ideal) x0 x1 x2 x3 x4 x5 x6 x7 x8 x9 x10 x11
    = layer4 (M := 100000) (B := 32) (K := 128) (N := 64) rfl (val_main_v53 (F := Ideal) x0 x2 x3) (val_main_v71 (F := Ideal) x0 x1 x2 x3 x4 x5) (val_main_v89 (F := Ideal) x0 x1 x2 x3 x4 x5 x6 x7) (val_main_v138 (F := Ideal) x0 x1 x2 x3 x4 x5 x6 x7 x8 x9) (transpose S128x64 [1, 0] x10 transposes_S64x128_S128x64_1_0) (row x11) := by
  unfold val_main_v175 val_main_v174 val_main_v173 val_main_v172 val_main_v171
  rw [v170_eq]
  exact hostLayer1 (M := 100000) (K := 128) (N := 64) dot_S100000x128_S128x64_S100000x64_1_0_0_1_n_n rfl rfl rfl rfl rfl rfl
    none _ (transpose S128x64 [1, 0] x10 transposes_S64x128_S128x64_1_0) x11 bcast_S64_S1x64_1 bcast_S1x64_S100000x64_0_1

/-- The reference program's result, as a function of its twelve arguments, is the network over the aggregation
    `aggR` of its edge tables, with the transposed weights and the biases laid out as rows. -/
theorem ref_net : val_main_v175 (F := Ideal) x0 x1 x2 x3 x4 x5 x6 x7 x8 x9 x10 x11
    = Cert.Net.net (M := 100000)
        (aggR (val_main_v3 (F := Ideal) x1) (val_main_v7 (F := Ideal) x1) (val_main_v32 (F := Ideal) x1)) x0
        (transpose S128x32 [1, 0] x2 transposes_S32x128_S128x32_1_0) (Cert.Dense.row x3)
        (transpose S32x32 [1, 0] x4 transposes_S32x32_S32x32_1_0) (Cert.Dense.row x5)
        (transpose S32x32 [1, 0] x6 transposes_S32x32_S32x32_1_0) (Cert.Dense.row x7)
        (transpose S32x32 [1, 0] x8 transposes_S32x32_S32x32_1_0) (Cert.Dense.row x9)
        (transpose S128x64 [1, 0] x10 transposes_S64x128_S128x64_1_0) (Cert.Dense.row x11) := by
  have e0 := v53_eq x0 x2 x3
  have e1 := v71_eq x0 x1 x2 x3 x4 x5
  rw [v66_eq, e0] at e1
  have e2 := v89_eq x0 x1 x2 x3 x4 x5 x6 x7
  rw [v84_eq, e1] at e2
  have e3 := v138_eq x0 x1 x2 x3 x4 x5 x6 x7 x8 x9
  rw [v133_eq, e2] at e3
  rw [v175_eq, e3, e2, e1, e0]
  rfl

end Cert.ReferenceIdeal.RefValue

end
-- ==== Proof.Bridge.lean ====
/-
  The two programs' results are one function of the arguments.

  The idealized kernel's result is `Cert.Net.net` of its argument arrays over its own aggregation and the transposed
  weights; the reference's result is `Cert.Net.net` of its argument arrays over its own aggregation and the transposed
  weights.  The two aggregations are the same composition of the same host operations over the same three edge tables,
  and a change of float format is the identity, so from memories that agree on the arguments the two results are equal.
-/
import proofs.«164241_j3496103379545_2_alg».proof.Proof.KValue
import proofs.«164241_j3496103379545_2_alg».proof.Proof.KEdge
import proofs.«164241_j3496103379545_2_alg».proof.Proof.RefNet

set_option maxRecDepth 16384

noncomputable section

namespace Cert.Proof.Bridge

open Idealize.ShloMosaic Idealize.ShloMosaic.TcCoe Idealize.SL.Sem

/-- The kernel's aggregation and the reference's are one function. -/
theorem agg_eq (row col : (⟨Cert.KernelIdeal.S3300000, .i32⟩ : BufTy).Contents (Elt Ideal))
    (nrm : (⟨Cert.KernelIdeal.S3300000, .f32⟩ : BufTy).Contents (Elt Ideal)) :
    Cert.KernelIdeal.Walk.aggK row col nrm = Cert.ReferenceIdeal.RefValue.aggR row col nrm := rfl

/-- From memories agreeing on the arguments, the reference's last stage is what the kernel's result buffer holds
    after its run. -/
theorem result_eq (m : (ℓ : Loc Cert.KernelIdeal.nD Cert.KernelIdeal.τ Cert.KernelIdeal.sig) → Buf (Elt Ideal) ℓ)
    (ρ : Dev Cert.KernelIdeal.nD → PrngReg)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (h11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) :
    Cert.ReferenceIdeal.Stage.val_main_v175 (F := Ideal)
        (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2))
        (m' ((c.tc : Thread Cert.ReferenceIdeal.nD Cert.ReferenceIdeal.τ).loc Cert.ReferenceIdeal.main_arg3))
        (m' ((c.tc : Thread Cert.ReferenceIdeal.nD Cert.ReferenceIdeal.τ).loc Cert.ReferenceIdeal.main_arg4))
        (m' ((c.tc : Thread Cert.ReferenceIdeal.nD Cert.ReferenceIdeal.τ).loc Cert.ReferenceIdeal.main_arg5))
        (m' ((c.tc : Thread Cert.ReferenceIdeal.nD Cert.ReferenceIdeal.τ).loc Cert.ReferenceIdeal.main_arg6))
        (m' ((c.tc : Thread Cert.ReferenceIdeal.nD Cert.ReferenceIdeal.τ).loc Cert.ReferenceIdeal.main_arg7))
        (m' ((c.tc : Thread Cert.ReferenceIdeal.nD Cert.ReferenceIdeal.τ).loc Cert.ReferenceIdeal.main_arg8))
        (m' ((c.tc : Thread Cert.ReferenceIdeal.nD Cert.ReferenceIdeal.τ).loc Cert.ReferenceIdeal.main_arg9))
        (m' ((c.tc : Thread Cert.ReferenceIdeal.nD Cert.ReferenceIdeal.τ).loc Cert.ReferenceIdeal.main_arg10))
        (m' ((c.tc : Thread Cert.ReferenceIdeal.nD Cert.ReferenceIdeal.τ).loc Cert.ReferenceIdeal.main_arg11))
      = Cert.KernelIdeal.Gen.W11 m ρ c (Proc.devRef .tc Cert.KernelIdeal.main_v86) := by
  rw [Cert.ReferenceIdeal.RefValue.ref_net, Cert.KernelIdeal.Out.value,
    h0, h1, h2, h3, h4, h5, h6, h7, h8, h9, h10, h11]
  unfold Cert.KernelIdeal.Out.agg
  rw [Cert.KernelIdeal.Edge.row_eq, Cert.KernelIdeal.Edge.col_eq, Cert.KernelIdeal.Edge.nrm_eq, agg_eq]
  rfl

end Cert.Proof.Bridge

end
-- ==== Proof.lean ====
/-
  The certificate of a four-layer graph network: a program of five kernel regions among host operations, against a
  program of host operations only, equal at the ideal values.

  Both programs compute, from node features `x`, an integer edge table and five weight-bias pairs,
    x0 = mynorm (max (x W1^T + b1, 0)),   x1 = agg x0 · Wc1^T + bc1,   x2 = agg x1 · Wc2^T + bc2,   x3 = agg x2 · Wc3^T + bc3,
    out = [x0 | x1 | mynorm x2 - mynorm x0 | mynorm x3 - mynorm x1] · W4^T + b4,
  where `mynorm` rescales each row by its own least and greatest entries, `2 (t - mn) / ((mx - mn) + eps) - 1`, and
  `agg` gathers rows along the edges, scales each by the edge's norm and adds them up per destination node.  The kernel
  program does each dense layer in a kernel region, block of rows by block of rows (the matrix unit's product into a zero
  accumulator, the vector unit's row reductions and broadcasts), and leaves the aggregation to host operations between the
  regions; the reference does everything in host operations.  On the extended reals a change of float format is the
  identity, the matrix unit's product and the host's contraction are the same sum, a row minimum or maximum is the same
  fold whichever unit takes it, and a block of rows of a layer is the same block of the layer of the whole array; the
  aggregation is the same composition of the same host operations in both programs and is never opened.  So the two
  results are one function of the arguments (`Cert.Net.net`), with no assumption on the inputs: no law used here fails at
  an infinity.

  The frames: each kernel program's run ends with its arguments unchanged (its regions and host operations write other
  buffers only), and so does the reference's.  The idealization rewrote nothing, so there is nothing to preserve.
-/
import proofs.«164241_j3496103379545_2_alg».proof.Defs
import proofs.«164241_j3496103379545_2_alg».proof.Proof.Gen.Kernel
import proofs.«164241_j3496103379545_2_alg».proof.Proof.Gen.Kernel.Skeleton
import proofs.«164241_j3496103379545_2_alg».proof.Proof.Gen.Kernel.Launch
import proofs.«164241_j3496103379545_2_alg».proof.Proof.Gen.Kernel.Points
import proofs.«164241_j3496103379545_2_alg».proof.Proof.Gen.Kernel.Frame
import proofs.«164241_j3496103379545_2_alg».proof.Proof.Gen.KernelIdeal
import proofs.«164241_j3496103379545_2_alg».proof.Proof.Gen.KernelIdeal.Skeleton
import proofs.«164241_j3496103379545_2_alg».proof.Proof.Gen.KernelIdeal.Launch
import proofs.«164241_j3496103379545_2_alg».proof.Proof.Gen.KernelIdeal.Points
import proofs.«164241_j3496103379545_2_alg».proof.Proof.Gen.KernelIdeal.Frame
import proofs.«164241_j3496103379545_2_alg».proof.Proof.Gen.ReferenceIdeal
import proofs.«164241_j3496103379545_2_alg».proof.Proof.Gen.Pre_finite_inputs
import proofs.«164241_j3496103379545_2_alg».proof.Proof.KRun
import proofs.«164241_j3496103379545_2_alg».proof.Proof.RefRun
import proofs.«164241_j3496103379545_2_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

/-- The kernel program runs and leaves its arguments unchanged. -/
theorem frame_k : Cert.frame_Kernel := fun m ρ _ => Cert.Kernel.Gen.frame m ρ

/-- So does the kernel program read at the ideal values. -/
theorem frame_ki : Cert.frame_KernelIdeal := fun m ρ _ => Cert.KernelIdeal.Gen.frame m ρ

/-- So does the reference: its run, with what it says of the result dropped. -/
theorem frame_ri : Cert.frame_ReferenceIdeal := fun m ρ _ =>
  (θ_run Cert.ReferenceIdeal.defs _ _).mono (fun _ h c => (h c).2) (Cert.ReferenceIdeal.RunS.run m ρ)

/-- From memories agreeing on the arguments both programs run and end with the same result: the kernel's result buffer
    holds `Cert.Net.net` of its arguments after the run, and the reference's result term is the same function of the
    same arguments. -/
theorem algebraic : Cert.algebraic_KernelIdeal_ReferenceIdeal := by
  intro m ρ m' ρ' _ hagree
  refine ⟨fun c => Cert.KernelIdeal.Gen.W11 m ρ c (Proc.devRef .tc Cert.KernelIdeal.main_v86), ?_, ?_⟩
  · exact (θ_run Cert.KernelIdeal.defs _ _).mono (fun r h c =>
      ⟨h c Cert.KernelIdeal.main_v86 (by decide),
        (h c Cert.KernelIdeal.main_arg0 (by decide)).trans (Cert.KernelIdeal.Gen.W11_main_arg0 m ρ c),
        (h c Cert.KernelIdeal.main_arg1 (by decide)).trans (Cert.KernelIdeal.Gen.W11_main_arg1 m ρ c),
        (h c Cert.KernelIdeal.main_arg2 (by decide)).trans (Cert.KernelIdeal.Gen.W11_main_arg2 m ρ c),
        (h c Cert.KernelIdeal.main_arg3 (by decide)).trans (Cert.KernelIdeal.Gen.W11_main_arg3 m ρ c),
        (h c Cert.KernelIdeal.main_arg4 (by decide)).trans (Cert.KernelIdeal.Gen.W11_main_arg4 m ρ c),
        (h c Cert.KernelIdeal.main_arg5 (by decide)).trans (Cert.KernelIdeal.Gen.W11_main_arg5 m ρ c),
        (h c Cert.KernelIdeal.main_arg6 (by decide)).trans (Cert.KernelIdeal.Gen.W11_main_arg6 m ρ c),
        (h c Cert.KernelIdeal.main_arg7 (by decide)).trans (Cert.KernelIdeal.Gen.W11_main_arg7 m ρ c),
        (h c Cert.KernelIdeal.main_arg8 (by decide)).trans (Cert.KernelIdeal.Gen.W11_main_arg8 m ρ c),
        (h c Cert.KernelIdeal.main_arg9 (by decide)).trans (Cert.KernelIdeal.Gen.W11_main_arg9 m ρ c),
        (h c Cert.KernelIdeal.main_arg10 (by decide)).trans (Cert.KernelIdeal.Gen.W11_main_arg10 m ρ c),
        (h c Cert.KernelIdeal.main_arg11 (by decide)).trans (Cert.KernelIdeal.Gen.W11_main_arg11 m ρ c)⟩)
      (Cert.KernelIdeal.Whole.run_all m ρ)
  · refine (θ_run Cert.ReferenceIdeal.defs _ _).mono (fun r h c => ⟨(h c).1.trans ?_, (h c).2⟩)
      (Cert.ReferenceIdeal.RunS.run m' ρ')
    obtain ⟨h0, h1, h2, h3, h4, h5, h6, h7, h8, h9, h10, h11⟩ := hagree c
    exact Cert.Proof.Bridge.result_eq m ρ m' c h0 h1 h2 h3 h4 h5 h6 h7 h8 h9 h10 h11

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
